-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S2x1600000 : Shape := ⟨2, ![2, 1600000]⟩
abbrev S24x128 : Shape := ⟨2, ![24, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x2 .f32) (main_arg15 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x24 .f32) (main_arg1 : IVec S2x1600000 32) (main_arg2 : FVec F S24x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x2 .f32) (main_arg15 : FVec F S2 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S24x128 .f32 := Host.absf main_arg2
  let main_cst_0 : FVec F S_ .f32 := constant S_ .f32 0x7F800000#32
  let main_v5 : FVec F S24x128 .f32 := broadcastInDim S24x128 ![] bcast_S_S24x128 main_cst_0
  let main_v6 : IVec S24x128 1 := cmpf .olt main_v4 main_v5
  let main_c_1 : IVec S_ 1 := constantI S_ 1 1#1
  let main_v7 : IVec S_ 1 := (fun x v => Host.reduce IntOp.andi x v reducesTo_S24x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x24 : Shape := ⟨2, ![100000, 24]⟩
abbrev S2x1600000 : Shape := ⟨2, ![2, 1600000]⟩
abbrev S24x128 : Shape := ⟨2, ![24, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x24 : Shape := ⟨2, ![5000, 24]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S100000x2 : Shape := ⟨2, ![100000, 2]⟩
abbrev S5000x2 : Shape := ⟨2, ![5000, 2]⟩
abbrev S1700000x2 : Shape := ⟨2, ![1700000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 183
  | .vmem => 70
  | .smem => 0
  | _ => 0

abbrev hbmTy0_0 (i : Nat) : BufTy := match i % 128 with
  | 0 => ⟨S100000x24, .f32⟩
  | 1 => ⟨S2x1600000, .i32⟩
  | 2 => ⟨S24x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x2, .f32⟩
  | 15 => ⟨S2, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S1x128, .f32⟩
  | 76 => ⟨S1x128, .f32⟩
  | 77 => ⟨S128, .f32⟩
  | 78 => ⟨S_, .f32⟩
  | 79 => ⟨S128, .f32⟩
  | 80 => ⟨S128, .f32⟩
  | 81 => ⟨S128, .f32⟩
  | 82 => ⟨S_, .f32⟩
  | 83 => ⟨S128, .f32⟩
  | 84 => ⟨S128, .f32⟩
  | 85 => ⟨S128, .f32⟩
  | 86 => ⟨S128, .f32⟩
  | 87 => ⟨S1x128, .f32⟩
  | 88 => ⟨S1x128, .f32⟩
  | 89 => ⟨S1x128, .f32⟩
  | 90 => ⟨S1x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x1, .f32⟩
  | 103 => ⟨S1700000x128, .f32⟩
  | 104 => ⟨S1700000x128, .f32⟩
  | 105 => ⟨S_, .f32⟩
  | 106 => ⟨S100000x128, .f32⟩
  | 107 => ⟨S1700000x1, .i32⟩
  | 108 => ⟨S100000x128, .f32⟩
  | 109 => ⟨S1x128, .f32⟩
  | 110 => ⟨S100000x128, .f32⟩
  | 111 => ⟨S1x128, .f32⟩
  | 112 => ⟨S1x128, .f32⟩
  | 113 => ⟨S128, .f32⟩
  | 114 => ⟨S_, .f32⟩
  | 115 => ⟨S128, .f32⟩
  | 116 => ⟨S128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S100000x128, .f32⟩
  | _ => ⟨S100000x24, .f32⟩

abbrev hbmTy0_1 (i : Nat) : BufTy := match i % 128 with
  | 0 => ⟨S100000x64, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x64, .f32⟩
  | 10 => ⟨S1700000x1, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S1x64, .f32⟩
  | 18 => ⟨S100000x64, .f32⟩
  | 19 => ⟨S1x64, .f32⟩
  | 20 => ⟨S1x64, .f32⟩
  | 21 => ⟨S64, .f32⟩
  | 22 => ⟨S_, .f32⟩
  | 23 => ⟨S64, .f32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S64, .f32⟩
  | 31 => ⟨S1x64, .f32⟩
  | 32 => ⟨S1x64, .f32⟩
  | 33 => ⟨S1x64, .f32⟩
  | 34 => ⟨S1x64, .f32⟩
  | 35 => ⟨S100000x64, .f32⟩
  | 36 => ⟨S100000x2, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x2, .f32⟩
  | 46 => ⟨S1700000x1, .f32⟩
  | 47 => ⟨S1700000x2, .f32⟩
  | 48 => ⟨S1700000x2, .f32⟩
  | 49 => ⟨S_, .f32⟩
  | 50 => ⟨S100000x2, .f32⟩
  | 51 => ⟨S1700000x1, .i32⟩
  | 52 => ⟨S100000x2, .f32⟩
  | 53 => ⟨S1x2, .f32⟩
  | 54 => ⟨S100000x2, .f32⟩
  | _ => ⟨S100000x24, .f32⟩

abbrev hbmTy (i : Nat) : BufTy := match i / 128 with
  | 0 => hbmTy0_0 i
  | 1 => hbmTy0_1 i
  | _ => ⟨S100000x24, .f32⟩

abbrev bufTy : (tb : Table) → Fin (tcTables nBuf tb) → BufTy
  | .hbm, ⟨i, _⟩ => hbmTy i
  | .local _ .vmem, ⟨0, _⟩ => ⟨S5000x24, .f32⟩
  | .local _ .vmem, ⟨1, _⟩ => ⟨S5000x24, .f32⟩
  | .local _ .vmem, ⟨2, _⟩ => ⟨S24x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S64x2, .f32⟩
  | .local _ .vmem, ⟨63, _⟩ => ⟨S5000x2, .f32⟩
  | .local _ .vmem, ⟨64, _⟩ => ⟨S5000x2, .f32⟩
  | .local _ .vmem, ⟨65, _⟩ => ⟨S5000x2, .f32⟩
  | .local _ .vmem, ⟨66, _⟩ => ⟨S5000x2, .f32⟩
  | .local _ .vmem, ⟨67, _⟩ => ⟨S1x2, .f32⟩
  | .local _ .vmem, ⟨68, _⟩ => ⟨S5000x2, .f32⟩
  | .local _ .vmem, ⟨69, _⟩ => ⟨S5000x2, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45_0 : Ref sig .tc := ⟨.hbm, 74, rfl⟩
abbrev main_v45_1 : Ref sig .tc := ⟨.hbm, 75, rfl⟩
abbrev main_v45_2 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74_0 : Ref sig .tc := ⟨.hbm, 110, rfl⟩
abbrev main_v74_1 : Ref sig .tc := ⟨.hbm, 111, rfl⟩
abbrev main_v74_2 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_16 : Ref sig .tc := ⟨.hbm, 129, rfl⟩
abbrev main_v89 : Ref sig .tc := ⟨.hbm, 130, rfl⟩
abbrev main_v90 : Ref sig .tc := ⟨.hbm, 131, rfl⟩
abbrev main_c_17 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103_0 : Ref sig .tc := ⟨.hbm, 146, rfl⟩
abbrev main_v103_1 : Ref sig .tc := ⟨.hbm, 147, rfl⟩
abbrev main_v103_2 : Ref sig .tc := ⟨.hbm, 148, rfl⟩
abbrev main_v104 : Ref sig .tc := ⟨.hbm, 149, rfl⟩
abbrev main_cst_19 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_20 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_21 : Ref sig .tc := ⟨.hbm, 165, rfl⟩
abbrev main_v118 : Ref sig .tc := ⟨.hbm, 166, rfl⟩
abbrev main_v119 : Ref sig .tc := ⟨.hbm, 167, rfl⟩
abbrev main_c_22 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_23 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg2_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem2_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x2 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x2 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x24_S5000x24_0_0 : ∀ a, (![0, 0] : Fin 2 → Nat) a + S5000x24.size a ≤ S5000x24.size a
  h_S5000x24 : 0 < S5000x24.numel
  bitsLt_bf16_f32 : FTy.bits .bf16 < FTy.bits .f32
  inb_S24x128_S24x128_0_0 : ∀ a, (![0, 0] : Fin 2 → Nat) a + S24x128.size a ≤ S24x128.size a
  h_S24x128 : 0 < S24x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  broadcasts_S1x64_S5000x64 : S1x64.Broadcasts S5000x64
  reduces_S5000x64_S64 : S5000x64.Reduces [0] S64
  shapeCasts_S1x64_S64 : S1x64.ShapeCasts S64
  bcast_S_S64 : S_.BroadcastsInDim S64 (![] : Fin 0 → Fin S64.rank)
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x24_S24x128_S5000x128_1_0_0_1_n_n_wf : DotDims.WF S5000x24 S24x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x2_S5000x2_1_0_0_1_n_n_wf : DotDims.WF S5000x64 S64x2 S5000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x24.size a ≤ S100000x24.size a
  hwx0_0 : ∀ i : grid0.Coords, EltTy.bits .f32 = 32 ∨ (Rect.block (s := S100000x24) S5000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x2.size a ≤ S64x2.size a
  hwx9_1 : ∀ i : grid9.Coords, EltTy.bits .f32 = 32 ∨ (Rect.block (s := S64x2) S64x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x2.size a ≤ S100000x2.size a
  hwx9_2 : ∀ i : grid9.Coords, EltTy.bits .f32 = 32 ∨ (Rect.block (s := S100000x2) S5000x2.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x2.size a ≤ S100000x2.size a
  hwx10_0 : ∀ i : grid10.Coords, EltTy.bits .f32 = 32 ∨ (Rect.block (s := S100000x2) S5000x2.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x2.size a ≤ S1x2.size a
  hwx10_1 : ∀ i : grid10.Coords, EltTy.bits .f32 = 32 ∨ (Rect.block (s := S1x2) S1x2.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x2.size a ≤ S100000x2.size a
  hwx10_2 : ∀ i : grid10.Coords, EltTy.bits .f32 = 32 ∨ (Rect.block (s := S100000x2) S5000x2.size (cc10_transform_2 i) (hinb10_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x24_S24x128_S5000x128_1_0_0_1_n_n : DotDims S5000x24 S24x128 S5000x128 where
  lhsContracting := [1]
  rhsContracting := [0]
  lhsNonContracting := [0]
  rhsNonContracting := [1]
  lhsBatch := []
  rhsBatch := []
  wf := dot_S5000x24_S24x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S5000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v74_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v101) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v102) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v103_0) S5000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v103_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v103_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v103_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v115) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v116) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v116) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S64x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v117) S5000x2.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v130) S5000x2.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v131) S1x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v132) S5000x2.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S100000x24 : Shape := ⟨2, ![100000, 24]⟩
abbrev S2x1600000 : Shape := ⟨2, ![2, 1600000]⟩
abbrev S24x128 : Shape := ⟨2, ![24, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 292
  | .vmem => 0
  | .smem => 0
  | _ => 0

abbrev hbmTy0_0 (i : Nat) : BufTy := match i % 128 with
  | 0 => ⟨S100000x24, .f32⟩
  | 1 => ⟨S2x1600000, .i32⟩
  | 2 => ⟨S24x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x2, .f32⟩
  | 15 => ⟨S2, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S_, .i32⟩
  | 125 => ⟨S1700000, .i32⟩
  | 126 => ⟨S1700000, .i1⟩
  | 127 => ⟨S_, .i32⟩
  | _ => ⟨S100000x24, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x128, .f32⟩
  | 5 => ⟨S1700000x1, .f32⟩
  | 6 => ⟨S1700000x128, .f32⟩
  | 7 => ⟨S1700000x128, .f32⟩
  | 8 => ⟨S_, .f32⟩
  | 9 => ⟨S100000x128, .f32⟩
  | 10 => ⟨S1700000x1, .i32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S100000x128, .f32⟩
  | 31 => ⟨S100000x128, .f32⟩
  | 32 => ⟨S100000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S100000x64, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x64, .f32⟩
  | 72 => ⟨S1700000x1, .f32⟩
  | 73 => ⟨S1700000x64, .f32⟩
  | 74 => ⟨S1700000x64, .f32⟩
  | 75 => ⟨S_, .f32⟩
  | 76 => ⟨S100000x64, .f32⟩
  | 77 => ⟨S1700000x1, .i32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S_, .f32⟩
  | 117 => ⟨S64, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x24, .f32⟩

abbrev hbmTy0_2 (i : Nat) : BufTy := match i % 128 with
  | 0 => ⟨S100000x64, .f32⟩
  | 1 => ⟨S100000x2, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x2, .f32⟩
  | 11 => ⟨S1700000x1, .f32⟩
  | 12 => ⟨S1700000x2, .f32⟩
  | 13 => ⟨S1700000x2, .f32⟩
  | 14 => ⟨S_, .f32⟩
  | 15 => ⟨S100000x2, .f32⟩
  | 16 => ⟨S1700000x1, .i32⟩
  | 17 => ⟨S100000x2, .f32⟩
  | 18 => ⟨S1x2, .f32⟩
  | 19 => ⟨S100000x2, .f32⟩
  | 20 => ⟨S100000x2, .f32⟩
  | 21 => ⟨S_, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x2, .f32⟩
  | 28 => ⟨S100000x2, .f32⟩
  | 29 => ⟨S100000x2, .f32⟩
  | 30 => ⟨S_, .f32⟩
  | 31 => ⟨S100000, .f32⟩
  | 32 => ⟨S100000x1, .f32⟩
  | 33 => ⟨S100000x1, .f32⟩
  | 34 => ⟨S100000x2, .f32⟩
  | 35 => ⟨S100000x2, .f32⟩
  | _ => ⟨S100000x24, .f32⟩

abbrev hbmTy (i : Nat) : BufTy := match i / 128 with
  | 0 => hbmTy0_0 i
  | 1 => hbmTy0_1 i
  | 2 => hbmTy0_2 i
  | _ => ⟨S100000x24, .f32⟩

abbrev bufTy : (tb : Table) → Fin (tcTables nBuf tb) → BufTy
  | .hbm, ⟨i, _⟩ => hbmTy i
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_12 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_c_13 : Ref sig .tc := ⟨.hbm, 124, rfl⟩
abbrev main_v68 : Ref sig .tc := ⟨.hbm, 125, rfl⟩
abbrev main_v69 : Ref sig .tc := ⟨.hbm, 126, rfl⟩
abbrev main_c_14 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_15 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_call3_cst : Ref sig .tc := ⟨.hbm, 143, rfl⟩
abbrev main_call3_v0 : Ref sig .tc := ⟨.hbm, 144, rfl⟩
abbrev main_v84 : Ref sig .tc := ⟨.hbm, 145, rfl⟩
abbrev main_cst_16 : Ref sig .tc := ⟨.hbm, 146, rfl⟩
abbrev main_v85 : Ref sig .tc := ⟨.hbm, 147, rfl⟩
abbrev main_cst_17 : Ref sig .tc := ⟨.hbm, 148, rfl⟩
abbrev main_v86 : Ref sig .tc := ⟨.hbm, 149, rfl⟩
abbrev main_v87 : Ref sig .tc := ⟨.hbm, 150, rfl⟩
abbrev main_c_18 : Ref sig .tc := ⟨.hbm, 151, rfl⟩
abbrev main_call4_cst : Ref sig .tc := ⟨.hbm, 152, rfl⟩
abbrev main_call4_v0 : Ref sig .tc := ⟨.hbm, 153, rfl⟩
abbrev main_call4_v1 : Ref sig .tc := ⟨.hbm, 154, rfl⟩
abbrev main_call4_cst_0 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_v6 : Ref sig .tc := ⟨.hbm, 160, rfl⟩
abbrev main_call4_v7 : Ref sig .tc := ⟨.hbm, 161, rfl⟩
abbrev main_call4_cst_1 : Ref sig .tc := ⟨.hbm, 162, rfl⟩
abbrev main_call4_v8 : Ref sig .tc := ⟨.hbm, 163, rfl⟩
abbrev main_call4_cst_2 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_call4_cst_3 : Ref sig .tc := ⟨.hbm, 168, rfl⟩
abbrev main_call4_v12 : Ref sig .tc := ⟨.hbm, 169, rfl⟩
abbrev main_call4_cst_4 : Ref sig .tc := ⟨.hbm, 170, rfl⟩
abbrev main_call4_call0_v0 : Ref sig .tc := ⟨.hbm, 171, rfl⟩
abbrev main_call4_call0_v1 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_19 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_c_20 : Ref sig .tc := ⟨.hbm, 191, rfl⟩
abbrev main_v105 : Ref sig .tc := ⟨.hbm, 192, rfl⟩
abbrev main_v106 : Ref sig .tc := ⟨.hbm, 193, rfl⟩
abbrev main_c_21 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_cst_22 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_call5_cst : Ref sig .tc := ⟨.hbm, 210, rfl⟩
abbrev main_call5_v0 : Ref sig .tc := ⟨.hbm, 211, rfl⟩
abbrev main_v121 : Ref sig .tc := ⟨.hbm, 212, rfl⟩
abbrev main_cst_23 : Ref sig .tc := ⟨.hbm, 213, rfl⟩
abbrev main_v122 : Ref sig .tc := ⟨.hbm, 214, rfl⟩
abbrev main_cst_24 : Ref sig .tc := ⟨.hbm, 215, rfl⟩
abbrev main_v123 : Ref sig .tc := ⟨.hbm, 216, rfl⟩
abbrev main_v124 : Ref sig .tc := ⟨.hbm, 217, rfl⟩
abbrev main_c_25 : Ref sig .tc := ⟨.hbm, 218, rfl⟩
abbrev main_call6_cst : Ref sig .tc := ⟨.hbm, 219, rfl⟩
abbrev main_call6_v0 : Ref sig .tc := ⟨.hbm, 220, rfl⟩
abbrev main_call6_v1 : Ref sig .tc := ⟨.hbm, 221, rfl⟩
abbrev main_call6_cst_0 : Ref sig .tc := ⟨.hbm, 222, rfl⟩
abbrev main_call6_v2 : Ref sig .tc := ⟨.hbm, 223, rfl⟩
abbrev main_call6_v3 : Ref sig .tc := ⟨.hbm, 224, rfl⟩
abbrev main_call6_v4 : Ref sig .tc := ⟨.hbm, 225, rfl⟩
abbrev main_call6_v5 : Ref sig .tc := ⟨.hbm, 226, rfl⟩
abbrev main_call6_v6 : Ref sig .tc := ⟨.hbm, 227, rfl⟩
abbrev main_call6_v7 : Ref sig .tc := ⟨.hbm, 228, rfl⟩
abbrev main_call6_cst_1 : Ref sig .tc := ⟨.hbm, 229, rfl⟩
abbrev main_call6_v8 : Ref sig .tc := ⟨.hbm, 230, rfl⟩
abbrev main_call6_cst_2 : Ref sig .tc := ⟨.hbm, 231, rfl⟩
abbrev main_call6_v9 : Ref sig .tc := ⟨.hbm, 232, rfl⟩
abbrev main_call6_v10 : Ref sig .tc := ⟨.hbm, 233, rfl⟩
abbrev main_call6_v11 : Ref sig .tc := ⟨.hbm, 234, rfl⟩
abbrev main_call6_cst_3 : Ref sig .tc := ⟨.hbm, 235, rfl⟩
abbrev main_call6_v12 : Ref sig .tc := ⟨.hbm, 236, rfl⟩
abbrev main_call6_cst_4 : Ref sig .tc := ⟨.hbm, 237, rfl⟩
abbrev main_call6_call0_v0 : Ref sig .tc := ⟨.hbm, 238, rfl⟩
abbrev main_call6_call0_v1 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_cst_26 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_c_27 : Ref sig .tc := ⟨.hbm, 258, rfl⟩
abbrev main_v142 : Ref sig .tc := ⟨.hbm, 259, rfl⟩
abbrev main_v143 : Ref sig .tc := ⟨.hbm, 260, rfl⟩
abbrev main_c_28 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_cst_29 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_call7_cst : Ref sig .tc := ⟨.hbm, 277, rfl⟩
abbrev main_call7_v0 : Ref sig .tc := ⟨.hbm, 278, rfl⟩
abbrev main_call7_cst_0 : Ref sig .tc := ⟨.hbm, 279, rfl⟩
abbrev main_call7_v1 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_v5 : Ref sig .tc := ⟨.hbm, 284, rfl⟩
abbrev main_call7_v6 : Ref sig .tc := ⟨.hbm, 285, rfl⟩
abbrev main_call7_cst_1 : Ref sig .tc := ⟨.hbm, 286, rfl⟩
abbrev main_call7_v7 : Ref sig .tc := ⟨.hbm, 287, rfl⟩
abbrev main_call7_v8 : Ref sig .tc := ⟨.hbm, 288, rfl⟩
abbrev main_call7_v9 : Ref sig .tc := ⟨.hbm, 289, rfl⟩
abbrev main_call7_v10 : Ref sig .tc := ⟨.hbm, 290, rfl⟩
abbrev main_v158 : Ref sig .tc := ⟨.hbm, 291, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x24_S24x128_S100000x128_1_0_0_1_n_n_wf : DotDims.WF S100000x24 S24x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x24_S24x128_S100000x128_1_0_0_1_n_n : DotDims S100000x24 S24x128 S100000x128 where
  lhsContracting := [1]
  rhsContracting := [0]
  lhsNonContracting := [0]
  rhsNonContracting := [1]
  lhsBatch := []
  rhsBatch := []
  wf := dot_S100000x24_S24x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KRun.lean ====
/-
  The idealized kernel program's run with its result named: every weakly fair execution of the eleven regions and
  the host operations between them terminates, the result array holds what the last region's write-backs leave in
  it, and the sixteen argument arrays end as launched.
-/
import proofs.«108922_j32160715112488_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with the result buffer read at the last boundary: the final state has the result
    array at the contents the last region leaves, and every argument array as launched. -/
theorem run_main : θ_run defs (onTc (τ := τ) (main (F := F))) ⟨m, fun _ => 0, ρ⟩ (fun r => ∀ c : Dev nD,
      r.2.mem ((c.tc : Thread nD τ).loc main_v132) = W21 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v132 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c)⟩)

end Cert.KernelIdeal.KVal

end
-- ==== Proof.KDefs.lean ====
/-
  The host operations the two programs share, as functions of whole arrays.

  The edges of the graph are the columns of a `2 × E` array of node numbers followed by one self-loop per node.
  Every node's degree is the number of edges that end in it, its scale the reciprocal square root of the degree
  (zero for a degree that is not positive), and an edge's weight the product of the scales of its two ends.  A
  layer's aggregation gathers the feature row of every edge's source, scales it by the edge's weight and adds it
  into the row of the edge's target.  Between the tiled stages the column sums become means and variances.
-/
import proofs.«108922_j32160715112488_1_alg».proof.Proof.Gen.KernelIdeal
import Idealize.ShloMosaic.PureOps.Ideal

noncomputable section

namespace Cert.KernelIdeal.KVal

open Idealize.ShloMosaic Cert.KernelIdeal Cert.KernelIdeal.Facts₀

/-- The source node numbers of all edges: row 0 of the edge array, then the nodes themselves. -/
def edgeSrc (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The target node numbers of all edges: row 1 of the edge array, then the nodes themselves. -/
def edgeDst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- The node numbers normalised (a negative word counts from the end) and laid out as a column. -/
def wrapCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The degree of every node: one unit added per edge that ends in it, from zero. -/
def degree (dst : IVec S1700000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

/-- The scale of every node: the reciprocal square root of its degree where the degree is positive, else zero. -/
def scale (dst : IVec S1700000 32) : FVec Ideal S100000 .f32 :=
  select (cmpf (F := Ideal) .ogt (degree dst) (broadcastInDim S100000 ![] bcast_S_S100000 (constant (F := Ideal) S_ .f32 0x00000000#32)))
    (Host.rsqrt (degree dst))
    (broadcastInDim S100000 ![] bcast_S_S100000 (id (constant (F := Ideal) S_ .f32 0x00000000#32)))

/-- The weight of every edge: the product of the scales of its source and of its target. -/
def edgeNrm (src dst : IVec S1700000 32) : FVec Ideal S1700000 .f32 :=
  mulf (Host.gather gather_S100000_S1700000x1_S1700000_n_0_n_n_0_1_1 (scale dst) (wrapCol src))
    (Host.gather gather_S100000_S1700000x1_S1700000_n_0_n_n_0_1_1 (scale dst) (wrapCol dst))

/-- The neighbourhood aggregation of an `N × 128` feature matrix: every edge gathers the row of its source node
    (the source word normalised: a negative word counts from the end), scales it by the edge's weight, and the
    scaled rows are added into the row of the edge's target node, starting from zero. -/
def conv128 (h : FVec Ideal S100000x128 .f32) (src dst : IVec S1700000 32) (nrm : FVec Ideal S1700000 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (Host.gather gather_S100000x128_S1700000x1_S1700000x128_1_0_n_n_0_1_1128 h (wrapCol src))
      (broadcastInDim S1700000x128 ![0, 1] bcast_S1700000x1_S1700000x128_0_1
        (broadcastInDim S1700000x1 ![0] bcast_S1700000_S1700000x1_0 nrm)))

/-- The neighbourhood aggregation of an `N × 64` feature matrix: every edge gathers the row of its source node
    (the source word normalised: a negative word counts from the end), scales it by the edge's weight, and the
    scaled rows are added into the row of the edge's target node, starting from zero. -/
def conv64 (h : FVec Ideal S100000x64 .f32) (src dst : IVec S1700000 32) (nrm : FVec Ideal S1700000 .f32) :
    FVec Ideal S100000x64 .f32 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (Host.gather gather_S100000x64_S1700000x1_S1700000x64_1_0_n_n_0_1_164 h (wrapCol src))
      (broadcastInDim S1700000x64 ![0, 1] bcast_S1700000x1_S1700000x64_0_1
        (broadcastInDim S1700000x1 ![0] bcast_S1700000_S1700000x1_0 nrm)))

/-- The neighbourhood aggregation of an `N × 2` feature matrix: every edge gathers the row of its source node
    (the source word normalised: a negative word counts from the end), scales it by the edge's weight, and the
    scaled rows are added into the row of the edge's target node, starting from zero. -/
def conv2 (h : FVec Ideal S100000x2 .f32) (src dst : IVec S1700000 32) (nrm : FVec Ideal S1700000 .f32) :
    FVec Ideal S100000x2 .f32 :=
  Host.scatterAdd scatter_S100000x2_S1700000x1_S1700000x2_1_0_0_1
    (broadcastInDim S100000x2 ![] bcast_S_S100000x2 (constant (F := Ideal) S_ .f32 0x00000000#32))
    (broadcastInDim S1700000x1 ![0] bcast_S1700000_S1700000x1_0 dst)
    (mulf (Host.gather gather_S100000x2_S1700000x1_S1700000x2_1_0_n_n_0_1_12 h (wrapCol src))
      (broadcastInDim S1700000x2 ![0, 1] bcast_S1700000x1_S1700000x2_0_1
        (broadcastInDim S1700000x1 ![0] bcast_S1700000_S1700000x1_0 nrm)))

/-- A vector of 128 entries as a `1 × 128` row. -/
def row128 (b : FVec Ideal S128 .f32) : FVec Ideal S1x128 .f32 := shapeCast S1x128 b shapeCasts_S128_S1x128

/-- The row of column means from the row of column sums: each sum divided by the number of rows. -/
def meanRow128 (s : FVec Ideal S1x128 .f32) : FVec Ideal S1x128 .f32 :=
  shapeCast S1x128 (Host.divf (shapeCast S128 s shapeCasts_S1x128_S128)
    (broadcastInDim S128 ![] bcast_S_S128 (constant (F := Ideal) S_ .f32 0x47C35000#32))) shapeCasts_S128_S1x128

/-- The row of column variances from the rows of column sums and sums of squares: the mean of the squares minus
    the square of the mean. -/
def varRow128 (s q : FVec Ideal S1x128 .f32) : FVec Ideal S1x128 .f32 :=
  shapeCast S1x128 (subf
    (Host.divf (shapeCast S128 q shapeCasts_S1x128_S128)
      (broadcastInDim S128 ![] bcast_S_S128 (constant (F := Ideal) S_ .f32 0x47C35000#32)))
    (mulf
      (Host.divf (shapeCast S128 s shapeCasts_S1x128_S128)
        (broadcastInDim S128 ![] bcast_S_S128 (constant (F := Ideal) S_ .f32 0x47C35000#32)))
      (Host.divf (shapeCast S128 s shapeCasts_S1x128_S128)
        (broadcastInDim S128 ![] bcast_S_S128 (constant (F := Ideal) S_ .f32 0x47C35000#32))))) shapeCasts_S128_S1x128

/-- A vector of 64 entries as a `1 × 64` row. -/
def row64 (b : FVec Ideal S64 .f32) : FVec Ideal S1x64 .f32 := shapeCast S1x64 b shapeCasts_S64_S1x64

/-- The row of column means from the row of column sums: each sum divided by the number of rows. -/
def meanRow64 (s : FVec Ideal S1x64 .f32) : FVec Ideal S1x64 .f32 :=
  shapeCast S1x64 (Host.divf (shapeCast S64 s shapeCasts_S1x64_S64)
    (broadcastInDim S64 ![] bcast_S_S64 (constant (F := Ideal) S_ .f32 0x47C35000#32))) shapeCasts_S64_S1x64

/-- The row of column variances from the rows of column sums and sums of squares: the mean of the squares minus
    the square of the mean. -/
def varRow64 (s q : FVec Ideal S1x64 .f32) : FVec Ideal S1x64 .f32 :=
  shapeCast S1x64 (subf
    (Host.divf (shapeCast S64 q shapeCasts_S1x64_S64)
      (broadcastInDim S64 ![] bcast_S_S64 (constant (F := Ideal) S_ .f32 0x47C35000#32)))
    (mulf
      (Host.divf (shapeCast S64 s shapeCasts_S1x64_S64)
        (broadcastInDim S64 ![] bcast_S_S64 (constant (F := Ideal) S_ .f32 0x47C35000#32)))
      (Host.divf (shapeCast S64 s shapeCasts_S1x64_S64)
        (broadcastInDim S64 ![] bcast_S_S64 (constant (F := Ideal) S_ .f32 0x47C35000#32))))) shapeCasts_S64_S1x64

/-- A vector of 2 entries as a `1 × 2` row. -/
def row2 (b : FVec Ideal S2 .f32) : FVec Ideal S1x2 .f32 := shapeCast S1x2 b shapeCasts_S2_S1x2

end Cert.KernelIdeal.KVal

end
-- ==== Proof.KHost.lean ====
/-
  The buffer contents of the idealized kernel program between its regions: what each stretch of host operations
  leaves in the buffers the next region reads, as the shared host functions of the contents before the stretch; and
  the buffers a later stretch reads unchanged since an earlier one wrote them.
-/
import proofs.«108922_j32160715112488_1_alg».proof.Proof.Gen.KernelIdeal.Frame
import proofs.«108922_j32160715112488_1_alg».proof.Proof.KDefs
import Idealize.ShloMosaic.Lib.StableHlo.Run

set_option maxRecDepth 16384

noncomputable section

namespace Cert.KernelIdeal.KVal

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-! ## Arguments and edge data, unchanged up to the stretch or region that reads them -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W13_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W14_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := W13_of_ne m ρ c main_arg11 (by decide)
    _ = W11 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W16_arg12 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W16_arg13 (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := W14_of_ne m ρ c main_arg13 (by decide)
    _ = W12 m ρ c (Proc.devRef .tc main_arg13) := W13_of_ne m ρ c main_arg13 (by decide)
    _ = W11 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W18_arg14 (c : Dev nD) : W18 m ρ c (Proc.devRef .tc main_arg14) = m ((c : Thread nD τ).loc main_arg14) :=
  calc W18 m ρ c (Proc.devRef .tc main_arg14)
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := W13_of_ne m ρ c main_arg14 (by decide)
    _ = W11 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W19_arg15 (c : Dev nD) : W19 m ρ c (Proc.devRef .tc main_arg15) = m ((c : Thread nD τ).loc main_arg15) :=
  calc W19 m ρ c (Proc.devRef .tc main_arg15)
    _ = W18 m ρ c (Proc.devRef .tc main_arg15) := W19_of_ne m ρ c main_arg15 (by decide)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := W13_of_ne m ρ c main_arg15 (by decide)
    _ = W11 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem W4_v29 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem W9_v3 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem W9_v6 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem W9_v29 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem W14_v3 (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem W14_v6 (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem W14_v29 (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := StableHlo.after_of_forall_not_mem (b := Proc.devRef .tc main_v29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v29) := W11_of_ne m ρ c main_v29 (by decide)
    _ = W9 m ρ c (Proc.devRef .tc main_v29) := StableHlo.after_of_forall_not_mem (b := Proc.devRef .tc main_v29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem W19_v3 (c : Dev nD) : W19 m ρ c (Proc.devRef .tc main_v3) = W3 m ρ c (Proc.devRef .tc main_v3) :=
  calc W19 m ρ c (Proc.devRef .tc main_v3)
    _ = W18 m ρ c (Proc.devRef .tc main_v3) := W19_of_ne m ρ c main_v3 (by decide)
    _ = W17 m ρ c (Proc.devRef .tc main_v3) := W18_of_ne m ρ c main_v3 (by decide)
    _ = W16 m ρ c (Proc.devRef .tc main_v3) := StableHlo.after_of_forall_not_mem (b := Proc.devRef .tc main_v3) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v3) := W16_of_ne m ρ c main_v3 (by decide)
    _ = W14 m ρ c (Proc.devRef .tc main_v3) := StableHlo.after_of_forall_not_mem (b := Proc.devRef .tc main_v3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem W19_v6 (c : Dev nD) : W19 m ρ c (Proc.devRef .tc main_v6) = W3 m ρ c (Proc.devRef .tc main_v6) :=
  calc W19 m ρ c (Proc.devRef .tc main_v6)
    _ = W18 m ρ c (Proc.devRef .tc main_v6) := W19_of_ne m ρ c main_v6 (by decide)
    _ = W17 m ρ c (Proc.devRef .tc main_v6) := W18_of_ne m ρ c main_v6 (by decide)
    _ = W16 m ρ c (Proc.devRef .tc main_v6) := StableHlo.after_of_forall_not_mem (b := Proc.devRef .tc main_v6) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v6) := W16_of_ne m ρ c main_v6 (by decide)
    _ = W14 m ρ c (Proc.devRef .tc main_v6) := StableHlo.after_of_forall_not_mem (b := Proc.devRef .tc main_v6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem W19_v29 (c : Dev nD) : W19 m ρ c (Proc.devRef .tc main_v29) = W3 m ρ c (Proc.devRef .tc main_v29) :=
  calc W19 m ρ c (Proc.devRef .tc main_v29)
    _ = W18 m ρ c (Proc.devRef .tc main_v29) := W19_of_ne m ρ c main_v29 (by decide)
    _ = W17 m ρ c (Proc.devRef .tc main_v29) := W18_of_ne m ρ c main_v29 (by decide)
    _ = W16 m ρ c (Proc.devRef .tc main_v29) := StableHlo.after_of_forall_not_mem (b := Proc.devRef .tc main_v29) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v29) := W16_of_ne m ρ c main_v29 (by decide)
    _ = W14 m ρ c (Proc.devRef .tc main_v29) := StableHlo.after_of_forall_not_mem (b := Proc.devRef .tc main_v29) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := StableHlo.after_of_forall_not_mem (b := Proc.devRef .tc main_v29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v29) := W11_of_ne m ρ c main_v29 (by decide)
    _ = W9 m ρ c (Proc.devRef .tc main_v29) := StableHlo.after_of_forall_not_mem (b := Proc.devRef .tc main_v29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem W7_v45_0 (c : Dev nD) : W7 m ρ c (Proc.devRef .tc main_v45_0) = W6 m ρ c (Proc.devRef .tc main_v45_0) :=
  calc W7 m ρ c (Proc.devRef .tc main_v45_0)
    _ = W6 m ρ c (Proc.devRef .tc main_v45_0) := StableHlo.after_of_forall_not_mem (b := Proc.devRef .tc main_v45_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W12_v74_0 (c : Dev nD) : W12 m ρ c (Proc.devRef .tc main_v74_0) = W11 m ρ c (Proc.devRef .tc main_v74_0) :=
  calc W12 m ρ c (Proc.devRef .tc main_v74_0)
    _ = W11 m ρ c (Proc.devRef .tc main_v74_0) := StableHlo.after_of_forall_not_mem (b := Proc.devRef .tc main_v74_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W17_v103_0 (c : Dev nD) : W17 m ρ c (Proc.devRef .tc main_v103_0) = W16 m ρ c (Proc.devRef .tc main_v103_0) :=
  calc W17 m ρ c (Proc.devRef .tc main_v103_0)
    _ = W16 m ρ c (Proc.devRef .tc main_v103_0) := StableHlo.after_of_forall_not_mem (b := Proc.devRef .tc main_v103_0) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The edge data -/

theorem W3_v3 (c : Dev nD) : (W3 m ρ c (Proc.devRef .tc main_v3) : IVec S1700000 32) = edgeSrc (m ((c : Thread nD τ).loc main_arg1)) := by
  show StableHlo.after hostOps0_2 (StableHlo.after hostOps0_1 (StableHlo.after hostOps0 _)) _ = _
  dsimp only [hostOps0, hostOps0_1, hostOps0_2]
  after_results
  rfl

theorem W3_v6 (c : Dev nD) : (W3 m ρ c (Proc.devRef .tc main_v6) : IVec S1700000 32) = edgeDst (m ((c : Thread nD τ).loc main_arg1)) := by
  show StableHlo.after hostOps0_2 (StableHlo.after hostOps0_1 (StableHlo.after hostOps0 _)) _ = _
  dsimp only [hostOps0, hostOps0_1, hostOps0_2]
  after_results
  rfl

theorem W1_v3 (c : Dev nD) : (W1 m ρ c (Proc.devRef .tc main_v3) : IVec S1700000 32) = edgeSrc (m ((c : Thread nD τ).loc main_arg1)) := by
  show StableHlo.after hostOps0 _ _ = _
  dsimp only [hostOps0]
  after_results
  rfl

theorem W1_v6 (c : Dev nD) : (W1 m ρ c (Proc.devRef .tc main_v6) : IVec S1700000 32) = edgeDst (m ((c : Thread nD τ).loc main_arg1)) := by
  show StableHlo.after hostOps0 _ _ = _
  dsimp only [hostOps0]
  after_results
  rfl

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_v6 (c : Dev nD) : W2 m ρ c (Proc.devRef .tc main_v6) = W1 m ρ c (Proc.devRef .tc main_v6) :=
  calc W2 m ρ c (Proc.devRef .tc main_v6)
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
/-- The test "the degree is positive" after the first stretch. -/
theorem W1_v12 (c : Dev nD) : (W1 m ρ c (Proc.devRef .tc main_v12) : IVec S100000 1)
    = cmpf (F := Ideal) .ogt (degree (edgeDst (m ((c : Thread nD τ).loc main_arg1))))
        (broadcastInDim S100000 ![] bcast_S_S100000 (constant (F := Ideal) S_ .f32 0x00000000#32)) := by
  show StableHlo.after hostOps0 _ _ = _
  dsimp only [hostOps0]
  after_results
  rfl

set_option maxHeartbeats 4000000 in
/-- The reciprocal square root of the degree after the first stretch. -/
theorem W1_v13 (c : Dev nD) : (W1 m ρ c (Proc.devRef .tc main_v13) : FVec Ideal S100000 .f32) = Host.rsqrt (degree (edgeDst (m ((c : Thread nD τ).loc main_arg1)))) := by
  show StableHlo.after hostOps0 _ _ = _
  dsimp only [hostOps0]
  after_results
  rfl

/-- The zero the scale falls back to. -/
theorem W1_cst_2 (c : Dev nD) : (W1 m ρ c (Proc.devRef .tc main_cst_2) : FVec Ideal S_ .f32) = constant (F := Ideal) S_ .f32 0x00000000#32 := by
  show StableHlo.after hostOps0 _ _ = _
  dsimp only [hostOps0]
  after_results

/-- Writing a typed reference's contents and reading them back is the identity. -/
theorem ofBuf_toBuf {T : BufTy} {Val : EltTy → Type} (x : StableHlo.TRef sig T) (v : T.Contents Val) :
    x.ofBuf (x.toBuf v) = v := by
  unfold StableHlo.TRef.ofBuf StableHlo.TRef.toBuf
  simp

theorem toBuf_main_v14 (p1 : main_v14.ty = ⟨S100000, .f32⟩) (p2 p3)
    (v : (⟨S100000, .f32⟩ : BufTy).Contents (Elt Ideal)) :
    (StableHlo.TRef.of main_v14 p1 p2 p3 : StableHlo.TRef sig ⟨S100000, .f32⟩).toBuf (Val := Elt Ideal) v = v := rfl

theorem ofBuf_main_v12 (p1 : main_v12.ty = ⟨S100000, .i1⟩) (p2 p3)
    (v : (⟨S100000, .i1⟩ : BufTy).Contents (Elt Ideal)) :
    (StableHlo.TRef.of main_v12 p1 p2 p3 : StableHlo.TRef sig ⟨S100000, .i1⟩).ofBuf (Val := Elt Ideal) v = v := rfl

theorem ofBuf_main_v13 (p1 : main_v13.ty = ⟨S100000, .f32⟩) (p2 p3)
    (v : (⟨S100000, .f32⟩ : BufTy).Contents (Elt Ideal)) :
    (StableHlo.TRef.of main_v13 p1 p2 p3 : StableHlo.TRef sig ⟨S100000, .f32⟩).ofBuf (Val := Elt Ideal) v = v := rfl

theorem ofBuf_main_cst_2 (p1 : main_cst_2.ty = ⟨S_, .f32⟩) (p2 p3)
    (v : (⟨S_, .f32⟩ : BufTy).Contents (Elt Ideal)) :
    (StableHlo.TRef.of main_cst_2 p1 p2 p3 : StableHlo.TRef sig ⟨S_, .f32⟩).ofBuf (Val := Elt Ideal) v = v := rfl

set_option maxHeartbeats 4000000 in
/-- The scale of every node after the first two stretches. -/
theorem W2_v14 (c : Dev nD) : (W2 m ρ c (Proc.devRef .tc main_v14) : FVec Ideal S100000 .f32) = scale (edgeDst (m ((c : Thread nD τ).loc main_arg1))) := by
  have h : (W2 m ρ c (Proc.devRef .tc main_v14) : FVec Ideal S100000 .f32)
      = select (W1 m ρ c (Proc.devRef .tc main_v12) : IVec S100000 1) (W1 m ρ c (Proc.devRef .tc main_v13) : FVec Ideal S100000 .f32)
          (broadcastInDim S100000 ![] bcast_S_S100000 (id (W1 m ρ c (Proc.devRef .tc main_cst_2) : FVec Ideal S_ .f32))) := by
    show StableHlo.after hostOps0_1 _ _ = _
    dsimp only [hostOps0_1]
    after_results_simp
    simp only [ofBuf_toBuf, toBuf_main_v14, ofBuf_main_v12, ofBuf_main_v13, ofBuf_main_cst_2]
  rw [h, W1_v12 m ρ c, W1_v13 m ρ c, W1_cst_2 m ρ c]
  rfl

set_option maxHeartbeats 4000000 in
/-- The edge weights after the third stretch, from the scales and the node numbers before it. -/
theorem W3_v29' (c : Dev nD) : (W3 m ρ c (Proc.devRef .tc main_v29) : FVec Ideal S1700000 .f32)
    = mulf (F := Ideal) (φ := .f32) (Host.gather gather_S100000_S1700000x1_S1700000_n_0_n_n_0_1_1 (W2 m ρ c (Proc.devRef .tc main_v14) : FVec Ideal S100000 .f32) (wrapCol (W2 m ρ c (Proc.devRef .tc main_v3) : IVec S1700000 32)))
        (Host.gather gather_S100000_S1700000x1_S1700000_n_0_n_n_0_1_1 (W2 m ρ c (Proc.devRef .tc main_v14) : FVec Ideal S100000 .f32) (wrapCol (W2 m ρ c (Proc.devRef .tc main_v6) : IVec S1700000 32))) := by
  show StableHlo.after hostOps0_2 _ _ = _
  dsimp only [hostOps0_2]
  after_results_simp
  rfl

theorem W3_v29 (c : Dev nD) : (W3 m ρ c (Proc.devRef .tc main_v29) : FVec Ideal S1700000 .f32)
    = edgeNrm (edgeSrc (m ((c : Thread nD τ).loc main_arg1))) (edgeDst (m ((c : Thread nD τ).loc main_arg1))) := by
  rw [W3_v29' m ρ c, W2_v14 m ρ c, W2_v3 m ρ c, W2_v6 m ρ c, W1_v3 m ρ c, W1_v6 m ρ c]
  rfl

/-! ## The stretches between the regions -/

set_option maxHeartbeats 4000000 in
theorem W5_v43 (c : Dev nD) : (W5 m ρ c (Proc.devRef .tc main_v43) : FVec Ideal S100000x128 .f32) = conv128 (W4 m ρ c (Proc.devRef .tc main_v30)) (W4 m ρ c (Proc.devRef .tc main_v3)) (W4 m ρ c (Proc.devRef .tc main_v6)) (W4 m ρ c (Proc.devRef .tc main_v29)) := by
  show StableHlo.after hostOps1 _ _ = _
  dsimp only [hostOps1]
  after_results_simp
  rfl

theorem W5_v44 (c : Dev nD) : (W5 m ρ c (Proc.devRef .tc main_v44) : FVec Ideal S1x128 .f32) = row128 (W4 m ρ c (Proc.devRef .tc main_arg3)) := by
  show StableHlo.after hostOps1 _ _ = _
  dsimp only [hostOps1]
  after_results
  rfl

theorem W7_v54 (c : Dev nD) : (W7 m ρ c (Proc.devRef .tc main_v54) : FVec Ideal S1x128 .f32) = meanRow128 (W6 m ρ c (Proc.devRef .tc main_v45_1)) := by
  show StableHlo.after hostOps2 _ _ = _
  dsimp only [hostOps2]
  after_results
  rfl

theorem W7_v55 (c : Dev nD) : (W7 m ρ c (Proc.devRef .tc main_v55) : FVec Ideal S1x128 .f32) = varRow128 (W6 m ρ c (Proc.devRef .tc main_v45_1)) (W6 m ρ c (Proc.devRef .tc main_v45_2)) := by
  show StableHlo.after hostOps2 _ _ = _
  dsimp only [hostOps2]
  after_results
  rfl

theorem W7_v56 (c : Dev nD) : (W7 m ρ c (Proc.devRef .tc main_v56) : FVec Ideal S1x128 .f32) = row128 (W6 m ρ c (Proc.devRef .tc main_arg4)) := by
  show StableHlo.after hostOps2 _ _ = _
  dsimp only [hostOps2]
  after_results
  rfl

theorem W7_v57 (c : Dev nD) : (W7 m ρ c (Proc.devRef .tc main_v57) : FVec Ideal S1x128 .f32) = row128 (W6 m ρ c (Proc.devRef .tc main_arg5)) := by
  show StableHlo.after hostOps2 _ _ = _
  dsimp only [hostOps2]
  after_results
  rfl

set_option maxHeartbeats 4000000 in
theorem W10_v72 (c : Dev nD) : (W10 m ρ c (Proc.devRef .tc main_v72) : FVec Ideal S100000x128 .f32) = conv128 (W9 m ρ c (Proc.devRef .tc main_v59)) (W9 m ρ c (Proc.devRef .tc main_v3)) (W9 m ρ c (Proc.devRef .tc main_v6)) (W9 m ρ c (Proc.devRef .tc main_v29)) := by
  show StableHlo.after hostOps4 _ _ = _
  dsimp only [hostOps4]
  after_results_simp
  rfl

theorem W10_v73 (c : Dev nD) : (W10 m ρ c (Proc.devRef .tc main_v73) : FVec Ideal S1x128 .f32) = row128 (W9 m ρ c (Proc.devRef .tc main_arg7)) := by
  show StableHlo.after hostOps4 _ _ = _
  dsimp only [hostOps4]
  after_results
  rfl

theorem W12_v83 (c : Dev nD) : (W12 m ρ c (Proc.devRef .tc main_v83) : FVec Ideal S1x128 .f32) = meanRow128 (W11 m ρ c (Proc.devRef .tc main_v74_1)) := by
  show StableHlo.after hostOps5 _ _ = _
  dsimp only [hostOps5]
  after_results
  rfl

theorem W12_v84 (c : Dev nD) : (W12 m ρ c (Proc.devRef .tc main_v84) : FVec Ideal S1x128 .f32) = varRow128 (W11 m ρ c (Proc.devRef .tc main_v74_1)) (W11 m ρ c (Proc.devRef .tc main_v74_2)) := by
  show StableHlo.after hostOps5 _ _ = _
  dsimp only [hostOps5]
  after_results
  rfl

theorem W12_v85 (c : Dev nD) : (W12 m ρ c (Proc.devRef .tc main_v85) : FVec Ideal S1x128 .f32) = row128 (W11 m ρ c (Proc.devRef .tc main_arg8)) := by
  show StableHlo.after hostOps5 _ _ = _
  dsimp only [hostOps5]
  after_results
  rfl

theorem W12_v86 (c : Dev nD) : (W12 m ρ c (Proc.devRef .tc main_v86) : FVec Ideal S1x128 .f32) = row128 (W11 m ρ c (Proc.devRef .tc main_arg9)) := by
  show StableHlo.after hostOps5 _ _ = _
  dsimp only [hostOps5]
  after_results
  rfl

set_option maxHeartbeats 4000000 in
theorem W15_v101 (c : Dev nD) : (W15 m ρ c (Proc.devRef .tc main_v101) : FVec Ideal S100000x64 .f32) = conv64 (W14 m ρ c (Proc.devRef .tc main_v88)) (W14 m ρ c (Proc.devRef .tc main_v3)) (W14 m ρ c (Proc.devRef .tc main_v6)) (W14 m ρ c (Proc.devRef .tc main_v29)) := by
  show StableHlo.after hostOps7 _ _ = _
  dsimp only [hostOps7]
  after_results_simp
  rfl

theorem W15_v102 (c : Dev nD) : (W15 m ρ c (Proc.devRef .tc main_v102) : FVec Ideal S1x64 .f32) = row64 (W14 m ρ c (Proc.devRef .tc main_arg11)) := by
  show StableHlo.after hostOps7 _ _ = _
  dsimp only [hostOps7]
  after_results
  rfl

theorem W17_v112 (c : Dev nD) : (W17 m ρ c (Proc.devRef .tc main_v112) : FVec Ideal S1x64 .f32) = meanRow64 (W16 m ρ c (Proc.devRef .tc main_v103_1)) := by
  show StableHlo.after hostOps8 _ _ = _
  dsimp only [hostOps8]
  after_results
  rfl

theorem W17_v113 (c : Dev nD) : (W17 m ρ c (Proc.devRef .tc main_v113) : FVec Ideal S1x64 .f32) = varRow64 (W16 m ρ c (Proc.devRef .tc main_v103_1)) (W16 m ρ c (Proc.devRef .tc main_v103_2)) := by
  show StableHlo.after hostOps8 _ _ = _
  dsimp only [hostOps8]
  after_results
  rfl

theorem W17_v114 (c : Dev nD) : (W17 m ρ c (Proc.devRef .tc main_v114) : FVec Ideal S1x64 .f32) = row64 (W16 m ρ c (Proc.devRef .tc main_arg12)) := by
  show StableHlo.after hostOps8 _ _ = _
  dsimp only [hostOps8]
  after_results
  rfl

theorem W17_v115 (c : Dev nD) : (W17 m ρ c (Proc.devRef .tc main_v115) : FVec Ideal S1x64 .f32) = row64 (W16 m ρ c (Proc.devRef .tc main_arg13)) := by
  show StableHlo.after hostOps8 _ _ = _
  dsimp only [hostOps8]
  after_results
  rfl

set_option maxHeartbeats 4000000 in
theorem W20_v130 (c : Dev nD) : (W20 m ρ c (Proc.devRef .tc main_v130) : FVec Ideal S100000x2 .f32) = conv2 (W19 m ρ c (Proc.devRef .tc main_v117)) (W19 m ρ c (Proc.devRef .tc main_v3)) (W19 m ρ c (Proc.devRef .tc main_v6)) (W19 m ρ c (Proc.devRef .tc main_v29)) := by
  show StableHlo.after hostOps10 _ _ = _
  dsimp only [hostOps10]
  after_results_simp
  rfl

theorem W20_v131 (c : Dev nD) : (W20 m ρ c (Proc.devRef .tc main_v131) : FVec Ideal S1x2 .f32) = row2 (W19 m ρ c (Proc.devRef .tc main_arg15)) := by
  show StableHlo.after hostOps10 _ _ = _
  dsimp only [hostOps10]
  after_results
  rfl

end Cert.KernelIdeal.KVal

end
-- ==== Proof.Spec.lean ====
/-
  The mathematics of one graph-convolution network, as functions of whole arrays read index by index over the
  extended reals.

  A dense layer is a matrix product.  After the neighbourhood aggregation (kept abstract: it is the same chain of
  host operations in both programs) a hidden layer adds a bias row, cuts off below at zero, and normalises every
  column by its mean and variance over all rows; the last layer adds a bias row and takes the logarithm of the
  softmax along each row.  The functions below are the forms in which a tiled kernel produces these values:
  the column sums of the entries and of their squares, the variance as the mean of the squares minus the square of
  the mean cut off below at zero, the row maximum and the row sum taken over the lanes.
-/
import Idealize.ShloMosaic.PureOps.Ideal
import Idealize.ShloMosaic.Lib.ValueIdx

noncomputable section

namespace Cert.Gcn

open Idealize.ShloMosaic Idealize.ShloMosaic.ValueIdx
open scoped BigOperators

/-- The shape of an `n × c` matrix. -/
abbrev Sh2 (n c : ℕ) : Shape := ⟨2, ![n, c]⟩
/-- The shape of a vector of `n` entries. -/
abbrev Sh1 (n : ℕ) : Shape := ⟨1, ![n]⟩

/-- The row coordinate of a matrix index, as a plain `Fin n`. -/
abbrev rowOfIx {n c : ℕ} (i : (Sh2 n c).Idx) : Fin n := ⟨(i 0).val, (i 0).isLt⟩
/-- The column coordinate of a matrix index, as a plain `Fin c`. -/
abbrev colOfIx {n c : ℕ} (i : (Sh2 n c).Idx) : Fin c := ⟨(i 1).val, (i 1).isLt⟩

/-- A matrix index is its row and column coordinates. -/
theorem eq_ix2_row_col {n c : ℕ} (i : (Sh2 n c).Idx) : i = ix2 (rowOfIx i) (colOfIx i) := by
  funext a; match a with | ⟨0, _⟩ => rfl | ⟨1, _⟩ => rfl

/-- The stabiliser of the normalisation: the single-precision number nearest to `1e-5`. -/
abbrev epsE : EReal := Ideal.ofBits .f32 0x3727C5AC#32
/-- The number of rows as a single-precision number: `100000`. -/
abbrev cntE : EReal := Ideal.ofBits .f32 0x47C35000#32

/-- THE MATRIX PRODUCT: entry `(r, j)` is the sum over `k` of `x (r, k) * w (k, j)`. -/
def mm {n a c : ℕ} (x : (Sh2 n a).Idx → EReal) (w : (Sh2 a c).Idx → EReal) : (Sh2 n c).Idx → EReal :=
  fun i => ∑ k : Fin a, x (ix2 (rowOfIx i) k) * w (ix2 k (colOfIx i))

/-- BIAS AND CUT-OFF: entry `(r, j)` is the larger of `agg (r, j) + b (0, j)` and zero; the bias is a `1 × c` row. -/
def brelu {n c : ℕ} (agg : (Sh2 n c).Idx → EReal) (b : (Sh2 1 c).Idx → EReal) : (Sh2 n c).Idx → EReal :=
  fun i => max (agg i + b (ix2 (0 : Fin 1) (colOfIx i))) 0

/-- THE COLUMN SUMS, as a `1 × c` row: entry `(0, j)` is the sum over all rows `r` of `v (r, j)`. -/
def colsum {n c : ℕ} (v : (Sh2 n c).Idx → EReal) : (Sh2 1 c).Idx → EReal :=
  fun i => ∑ r : Fin n, v (ix2 r (colOfIx i))

/-- The entrywise square. -/
def sqr {n c : ℕ} (v : (Sh2 n c).Idx → EReal) : (Sh2 n c).Idx → EReal := fun i => v i * v i

/-- THE NORMALISATION AS THE KERNEL SPELLS IT, from a `1 × c` row of means, of variances, of scales and of shifts:
    entry `(r, j)` is `(x (r, j) - mean j) * rsqrt (max (var j) 0 + eps) * g j + be j`. -/
def bnK {n c : ℕ} (x : (Sh2 n c).Idx → EReal) (mean var g be : (Sh2 1 c).Idx → EReal) : (Sh2 n c).Idx → EReal :=
  fun i => (x i - mean (ix2 (0 : Fin 1) (colOfIx i)))
      * Ideal.rsqrt (max (var (ix2 (0 : Fin 1) (colOfIx i))) 0 + epsE)
      * g (ix2 (0 : Fin 1) (colOfIx i)) + be (ix2 (0 : Fin 1) (colOfIx i))

/-- The biased logits of the last layer: `agg (r, j) + b (0, j)`. -/
def biased {n c : ℕ} (agg : (Sh2 n c).Idx → EReal) (b : (Sh2 1 c).Idx → EReal) : (Sh2 n c).Idx → EReal :=
  fun i => agg i + b (ix2 (0 : Fin 1) (colOfIx i))

/-- The largest entry of a row, folded from `⊥` over the columns. -/
def rowmax {n c : ℕ} (v : (Sh2 n c).Idx → EReal) (r : Fin n) : EReal :=
  Finset.univ.fold max ⊥ fun j : Fin c => v (ix2 r j)

/-- THE LOGARITHM OF THE SOFTMAX ALONG EACH ROW: with `z (r, j) = v (r, j) - rowmax v r`, entry `(r, j)` is
    `z (r, j) - log (∑ j', exp (z (r, j')))`. -/
def logsoftmax {n c : ℕ} (v : (Sh2 n c).Idx → EReal) : (Sh2 n c).Idx → EReal :=
  fun i => (v i - rowmax v (rowOfIx i))
    - Ideal.log (∑ j : Fin c, Ideal.exp (v (ix2 (rowOfIx i) j) - rowmax v (rowOfIx i)))

end Cert.Gcn

end
-- ==== Proof.Net.lean ====
/-
  A hidden layer of the network in the two spellings that are compared, over an abstract neighbourhood aggregation.

  Both programs aggregate with the same chain of host operations, so the aggregation enters here as a function
  `conv` of the feature matrix.  A hidden layer multiplies by the weights, aggregates, adds the bias row and cuts off
  below at zero; then it normalises every column.  One spelling takes the column sums of the entries and of their
  squares, forms the mean and the variance (the mean of the squares minus the square of the mean) from them and cuts
  the variance off below at zero; the other sums from an initial zero, and takes the variance as the mean of the
  squared deviations from the mean.
-/
import proofs.«108922_j32160715112488_1_alg».proof.Proof.Spec

noncomputable section

namespace Cert.Gcn

open Idealize.ShloMosaic Idealize.ShloMosaic.ValueIdx
open scoped BigOperators

/-- A vector of `c` entries read as a `1 × c` row. -/
def rowv {c : ℕ} (b : (Sh1 c).Idx → EReal) : (Sh2 1 c).Idx → EReal := fun i => b (ix1 (colOfIx i))

/-- The row of column means from the row of column sums: every sum divided by the number of rows. -/
def meanRowE {c : ℕ} (s : (Sh2 1 c).Idx → EReal) : (Sh2 1 c).Idx → EReal := fun i => Ideal.div (s i) cntE

/-- The row of column variances from the rows of column sums and of sums of squares: the mean of the squares minus
    the square of the mean. -/
def varRowE {c : ℕ} (s q : (Sh2 1 c).Idx → EReal) : (Sh2 1 c).Idx → EReal :=
  fun i => Ideal.div (q i) cntE - Ideal.div (s i) cntE * Ideal.div (s i) cntE

/-- The activation before the normalisation: product with the weights, aggregation, bias, cut-off at zero. -/
def act {n a c : ℕ} (conv : ((Sh2 n c).Idx → EReal) → (Sh2 n c).Idx → EReal)
    (X : (Sh2 n a).Idx → EReal) (W : (Sh2 a c).Idx → EReal) (b : (Sh2 1 c).Idx → EReal) : (Sh2 n c).Idx → EReal :=
  brelu (conv (mm X W)) b

/-- A HIDDEN LAYER AS THE TILED KERNEL SPELLS IT: the normalisation from the column sums and sums of squares. -/
def hiddenK {n a c : ℕ} (conv : ((Sh2 n c).Idx → EReal) → (Sh2 n c).Idx → EReal)
    (X : (Sh2 n a).Idx → EReal) (W : (Sh2 a c).Idx → EReal) (b g be : (Sh2 1 c).Idx → EReal) : (Sh2 n c).Idx → EReal :=
  bnK (act conv X W b) (meanRowE (colsum (act conv X W b)))
    (varRowE (colsum (act conv X W b)) (colsum (sqr (act conv X W b)))) g be

/-- A HIDDEN LAYER AS THE REFERENCE SPELLS IT: entry `(r, j)` is
    `(R (r, j) - mean j) * rsqrt (var j + eps) * g j + be j` with `mean j = (0 + ∑ r, R (r, j)) / count` and
    `var j = (0 + ∑ r, (R (r, j) - mean j)²) / count`. -/
def hiddenR {n a c : ℕ} (conv : ((Sh2 n c).Idx → EReal) → (Sh2 n c).Idx → EReal)
    (X : (Sh2 n a).Idx → EReal) (W : (Sh2 a c).Idx → EReal) (b g be : (Sh2 1 c).Idx → EReal) : (Sh2 n c).Idx → EReal :=
  fun i =>
    (act conv X W b i - Ideal.div (0 + ∑ r : Fin n, act conv X W b (ix2 r (colOfIx i))) cntE)
      * Ideal.rsqrt (Ideal.div (0 + ∑ r : Fin n,
            (act conv X W b (ix2 r (colOfIx i)) - Ideal.div (0 + ∑ r : Fin n, act conv X W b (ix2 r (colOfIx i))) cntE)
          * (act conv X W b (ix2 r (colOfIx i)) - Ideal.div (0 + ∑ r : Fin n, act conv X W b (ix2 r (colOfIx i))) cntE)) cntE
          + epsE)
      * g (ix2 (0 : Fin 1) (colOfIx i)) + be (ix2 (0 : Fin 1) (colOfIx i))

/-- THE LAST LAYER: product with the weights, aggregation, bias, and the logarithm of the softmax along each row. -/
def lastLayer {n a c : ℕ} (conv : ((Sh2 n c).Idx → EReal) → (Sh2 n c).Idx → EReal)
    (X : (Sh2 n a).Idx → EReal) (W : (Sh2 a c).Idx → EReal) (b : (Sh2 1 c).Idx → EReal) : (Sh2 n c).Idx → EReal :=
  logsoftmax (biased (conv (mm X W)) b)

end Cert.Gcn

end
-- ==== Proof.KRows.lean ====
/-
  The small host stages between the tiled stages, read at an index: a vector reshaped to a one-row matrix, and the
  rows of column means and variances formed from the rows of column sums and sums of squares.
-/
import proofs.«108922_j32160715112488_1_alg».proof.Proof.KDefs
import proofs.«108922_j32160715112488_1_alg».proof.Proof.Net
import Idealize.ShloMosaic.Lib.ValueLayout

noncomputable section

namespace Cert.KernelIdeal.KVal

open Idealize.ShloMosaic Idealize.ShloMosaic.ValueIdx Cert.KernelIdeal

/-- A vector of 128 entries reshaped to a `1 × 128` row reads, at `(0, j)`, the vector's entry `j`. -/
theorem row128_eq (b : FVec Ideal S128 .f32) : row128 b = Cert.Gcn.rowv b := by
  funext i
  obtain ⟨u, j, rfl⟩ : ∃ (u : Fin 1) (j : Fin 128), i = ix2 u j := ⟨i 0, i 1, eq_ix2 i⟩
  exact shapeCast_a_1a_apply b _ u j

/-- A vector of 64 entries reshaped to a `1 × 64` row reads, at `(0, j)`, the vector's entry `j`. -/
theorem row64_eq (b : FVec Ideal S64 .f32) : row64 b = Cert.Gcn.rowv b := by
  funext i
  obtain ⟨u, j, rfl⟩ : ∃ (u : Fin 1) (j : Fin 64), i = ix2 u j := ⟨i 0, i 1, eq_ix2 i⟩
  exact shapeCast_a_1a_apply b _ u j

/-- A vector of 2 entries reshaped to a `1 × 2` row reads, at `(0, j)`, the vector's entry `j`. -/
theorem row2_eq (b : FVec Ideal S2 .f32) : row2 b = Cert.Gcn.rowv b := by
  funext i
  obtain ⟨u, j, rfl⟩ : ∃ (u : Fin 1) (j : Fin 2), i = ix2 u j := ⟨i 0, i 1, eq_ix2 i⟩
  exact shapeCast_a_1a_apply b _ u j

/-- The row of means read at `(0, j)`: the column sum divided by the number of rows. -/
theorem meanRow128_eq (s : FVec Ideal S1x128 .f32) : meanRow128 s = Cert.Gcn.meanRowE s := by
  funext i
  obtain ⟨u, j, rfl⟩ : ∃ (u : Fin 1) (j : Fin 128), i = ix2 u j := ⟨i 0, i 1, eq_ix2 i⟩
  have hu : u = 0 := Subsingleton.elim _ _
  subst hu
  unfold meanRow128 Cert.Gcn.meanRowE
  rw [shapeCast_a_1a_apply]
  show Ideal.div (shapeCast S128 s _ (ix1 j)) _ = _
  rw [shapeCast_1a_a_apply]
  rfl

/-- The row of variances read at `(0, j)`: the mean of the squares minus the square of the mean. -/
theorem varRow128_eq (s q : FVec Ideal S1x128 .f32) : varRow128 s q = Cert.Gcn.varRowE s q := by
  funext i
  obtain ⟨u, j, rfl⟩ : ∃ (u : Fin 1) (j : Fin 128), i = ix2 u j := ⟨i 0, i 1, eq_ix2 i⟩
  have hu : u = 0 := Subsingleton.elim _ _
  subst hu
  unfold varRow128 Cert.Gcn.varRowE
  rw [shapeCast_a_1a_apply]
  show Ideal.div (shapeCast S128 q _ (ix1 j)) _
      - Ideal.div (shapeCast S128 s _ (ix1 j)) _ * Ideal.div (shapeCast S128 s _ (ix1 j)) _ = _
  rw [shapeCast_1a_a_apply, shapeCast_1a_a_apply]
  rfl

/-- The row of means read at `(0, j)`: the column sum divided by the number of rows. -/
theorem meanRow64_eq (s : FVec Ideal S1x64 .f32) : meanRow64 s = Cert.Gcn.meanRowE s := by
  funext i
  obtain ⟨u, j, rfl⟩ : ∃ (u : Fin 1) (j : Fin 64), i = ix2 u j := ⟨i 0, i 1, eq_ix2 i⟩
  have hu : u = 0 := Subsingleton.elim _ _
  subst hu
  unfold meanRow64 Cert.Gcn.meanRowE
  rw [shapeCast_a_1a_apply]
  show Ideal.div (shapeCast S64 s _ (ix1 j)) _ = _
  rw [shapeCast_1a_a_apply]
  rfl

/-- The row of variances read at `(0, j)`: the mean of the squares minus the square of the mean. -/
theorem varRow64_eq (s q : FVec Ideal S1x64 .f32) : varRow64 s q = Cert.Gcn.varRowE s q := by
  funext i
  obtain ⟨u, j, rfl⟩ : ∃ (u : Fin 1) (j : Fin 64), i = ix2 u j := ⟨i 0, i 1, eq_ix2 i⟩
  have hu : u = 0 := Subsingleton.elim _ _
  subst hu
  unfold varRow64 Cert.Gcn.varRowE
  rw [shapeCast_a_1a_apply]
  show Ideal.div (shapeCast S64 q _ (ix1 j)) _
      - Ideal.div (shapeCast S64 s _ (ix1 j)) _ * Ideal.div (shapeCast S64 s _ (ix1 j)) _ = _
  rw [shapeCast_1a_a_apply, shapeCast_1a_a_apply]
  rfl

end Cert.KernelIdeal.KVal

end
-- ==== Proof.NetDefs.lean ====
/-
  The whole network as one function of the sixteen argument arrays, in the two spellings that are compared: three
  hidden layers of widths 128, 128 and 64 and a last layer of width 2, every layer aggregating over the same graph —
  the edges of the `2 × E` array followed by one self-loop per node, each edge weighted by the product of the
  degree scales of its two ends.
-/
import proofs.«108922_j32160715112488_1_alg».proof.Proof.Net
import proofs.«108922_j32160715112488_1_alg».proof.Proof.KDefs

noncomputable section

namespace Cert.Gcn

open Idealize.ShloMosaic Cert.KernelIdeal Cert.KernelIdeal.KVal

/-- The aggregation of a `100000 × 128` feature matrix over the graph given by the edge array. -/
def convOf128 (ei : IVec S2x1600000 32) (h : (Sh2 100000 128).Idx → EReal) : (Sh2 100000 128).Idx → EReal :=
  conv128 h (edgeSrc ei) (edgeDst ei) (edgeNrm (edgeSrc ei) (edgeDst ei))
/-- The aggregation of a `100000 × 64` feature matrix over the graph given by the edge array. -/
def convOf64 (ei : IVec S2x1600000 32) (h : (Sh2 100000 64).Idx → EReal) : (Sh2 100000 64).Idx → EReal :=
  conv64 h (edgeSrc ei) (edgeDst ei) (edgeNrm (edgeSrc ei) (edgeDst ei))
/-- The aggregation of a `100000 × 2` feature matrix over the graph given by the edge array. -/
def convOf2 (ei : IVec S2x1600000 32) (h : (Sh2 100000 2).Idx → EReal) : (Sh2 100000 2).Idx → EReal :=
  conv2 h (edgeSrc ei) (edgeDst ei) (edgeNrm (edgeSrc ei) (edgeDst ei))

/-- THE NETWORK AS THE TILED KERNEL SPELLS IT. -/
def netK (x : (Sh2 100000 24).Idx → EReal) (ei : IVec S2x1600000 32)
    (W1 : (Sh2 24 128).Idx → EReal) (b1 g1 be1 : (Sh1 128).Idx → EReal)
    (W2 : (Sh2 128 128).Idx → EReal) (b2 g2 be2 : (Sh1 128).Idx → EReal)
    (W3 : (Sh2 128 64).Idx → EReal) (b3 g3 be3 : (Sh1 64).Idx → EReal)
    (W4 : (Sh2 64 2).Idx → EReal) (b4 : (Sh1 2).Idx → EReal) : (Sh2 100000 2).Idx → EReal :=
  lastLayer (convOf2 ei)
    (hiddenK (convOf64 ei)
      (hiddenK (convOf128 ei)
        (hiddenK (convOf128 ei) x W1 (rowv b1) (rowv g1) (rowv be1))
        W2 (rowv b2) (rowv g2) (rowv be2))
      W3 (rowv b3) (rowv g3) (rowv be3))
    W4 (rowv b4)

/-- THE NETWORK AS THE REFERENCE SPELLS IT. -/
def netR (x : (Sh2 100000 24).Idx → EReal) (ei : IVec S2x1600000 32)
    (W1 : (Sh2 24 128).Idx → EReal) (b1 g1 be1 : (Sh1 128).Idx → EReal)
    (W2 : (Sh2 128 128).Idx → EReal) (b2 g2 be2 : (Sh1 128).Idx → EReal)
    (W3 : (Sh2 128 64).Idx → EReal) (b3 g3 be3 : (Sh1 64).Idx → EReal)
    (W4 : (Sh2 64 2).Idx → EReal) (b4 : (Sh1 2).Idx → EReal) : (Sh2 100000 2).Idx → EReal :=
  lastLayer (convOf2 ei)
    (hiddenR (convOf64 ei)
      (hiddenR (convOf128 ei)
        (hiddenR (convOf128 ei) x W1 (rowv b1) (rowv g1) (rowv be1))
        W2 (rowv b2) (rowv g2) (rowv be2))
      W3 (rowv b3) (rowv g3) (rowv be3))
    W4 (rowv b4)

end Cert.Gcn

end
-- ==== Proof.LibMatmulZero.lean ====
/-
  A kernel matrix product into a zero accumulator, read at an index.

  The matrix unit's product of an m×k block by a k×n block, contracting the first operand's second axis with the
  second operand's first axis and with no batch axis, accumulated into the all-zero block, read at row `a` and column
  `b` at the exact instance, is the sum over the contracted coordinate `c` of the products of the entries `(a, c)`
  and `(c, b)`: the zero it starts from is the additive unit of the extended reals, and no rounding or chunk order is
  left.  Stated for the record spelt out with its well-formedness evidence as a variable, which is the shape a printed
  program's product records take once unfolded.
-/
import Idealize.ShloMosaic.Lib.ValueIdx
import Idealize.ShloMosaic.Lib.Pipeline.Value
import Idealize.ShloMosaic.PureOps.Ideal.Laws

noncomputable section

namespace Cert.LibMatmulZero

open Idealize.ShloMosaic Idealize.ShloMosaic.ValueIdx

/-- The product of an m×k by a k×n block into the zero block, at `(a, b)`, is `∑ c, A (a, c) * B (c, b)`. -/
theorem matmulZero_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero

end
-- ==== Proof.KMatmul0.lean ====
/-
  The first dense layer's matrix product, as the tiled kernel leaves it in its result array.

  The kernel walks the 100000 rows of the left operand in 20 blocks of 5000 rows.  At block `t` it multiplies rows
  `5000 t … 5000 t + 4999` of the left operand by the whole 24 × 128 right operand into a zero accumulator and writes
  the 5000 × 128 product to the same rows of the result.  Over the extended reals the narrowing of the operands is the
  identity, so entry `(r, j)` of the result is the sum over `k` of `x (r, k) * w (k, j)`: row `r` is written by the
  point `r / 5000`, and by no other.
-/
import proofs.«108922_j32160715112488_1_alg».proof.Proof.Gen.KernelIdeal.Frame
import proofs.«108922_j32160715112488_1_alg».proof.Proof.Spec
import proofs.«108922_j32160715112488_1_alg».proof.Proof.LibMatmulZero
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access, however spelt. -/
theorem hz0 : (![0, 0] : Fin 2 → Nat) = fun _ => 0 := funext fun a => by fin_cases a <;> rfl

/-- THE BODY AT AN ENTRY: the product of a 5000 × 24 block by the 24 × 128 operand into the zero block, the narrowing of
    both operands being the identity over the extended reals, at row `a` and column `b` is the sum over the
    contracted coordinate of the products of the entries `(a, k)` and `(k, b)`. -/
theorem pay0_apply (x0 : Vec Ideal S5000x24 .f32) (x1 : Vec Ideal S24x128 .f32) (a : Fin 5000) (b : Fin 128) :
    k0_pay1 x0 x1 (ix2 a b) = ∑ k : Fin 24, x0 (ix2 a k) * x1 (ix2 k b) := by
  unfold k0_pay1
  exact Cert.LibMatmulZero.matmulZero_nn_apply (m := 5000) (k := 24) (n := 128) _ none _ _ a b

/-- The same at any index of the block, against the matrix product of two whole arrays: it is enough that row
    `y 0` of the left block is row `i 0` of the left array and that the right block is the right array. -/
theorem pay0_eq_mm (A : S100000x24.Idx → EReal) (B : S24x128.Idx → EReal) (x0 : Vec Ideal S5000x24 .f32) (x1 : Vec Ideal S24x128 .f32)
    (y : S5000x128.Idx) (i : S100000x128.Idx)
    (h0 : ∀ k : Fin 24, x0 (ix2 (y 0) k) = A (ix2 (Cert.Gcn.rowOfIx i) k))
    (h1 : ∀ k : Fin 24, x1 (ix2 k (y 1)) = B (ix2 k (Cert.Gcn.colOfIx i))) :
    k0_pay1 x0 x1 y = Cert.Gcn.mm A B i := by
  refine (congrArg (k0_pay1 x0 x1) (eq_ix2 y)).trans ((pay0_apply x0 x1 (y 0) (y 1)).trans ?_)
  unfold Cert.Gcn.mm
  exact Finset.sum_congr rfl fun k _ => by rw [h0 k, h1 k]

/-- The block index of each window at each of the 20 points, decided: the left operand and the result move down one
    block of rows per point, the right operand stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is rows `5000 t … 5000 t + 4999` of the matrix product of the two arrays as the region
    finds them. -/
theorem flushed0_eq (c : Dev nD) (t : Fin cfg0.N) :
    (dat0 (F := Ideal) V c).flushed 2 t
      = ((cfg0.win 2).blk t).view.read (Elt Ideal)
          (Cert.Gcn.mm (V c main_arg0 : S100000x24.Idx → EReal) (V c main_arg2 : S24x128.Idx → EReal)) := by
  show (cfg0.win 2).cut (grid0.coords t) ((dat0 (F := Ideal) V c).after 2 t) = _
  rw [after0_2]
  unfold out0_2
  rw [View.canon_unit_zero hz0]
  simp only [View.ld_unit_zero (S := S5000x24) hz0, View.ld_unit_zero (S := S24x128) hz0]
  obtain ⟨e00, e01, e10, e11, e20, e21⟩ := idx_facts0 t
  funext j
  show k0_pay1 (iblk0 V c 0 t) (iblk0 V c 1 t) j
    = Cert.Gcn.mm (V c main_arg0 : S100000x24.Idx → EReal) (V c main_arg2 : S24x128.Idx → EReal) (((cfg0.win 2).blk t).view.emb j)
  refine pay0_eq_mm (V c main_arg0) (V c main_arg2) (iblk0 V c 0 t) (iblk0 V c 1 t) j (((cfg0.win 2).blk t).view.emb j)
    (fun k => ?_) (fun k => ?_)
  · show V c main_arg0 (((cfg0.win 0).blk t).view.emb (ix2 (j 0) k)) = V c main_arg0 _
    refine congrArg (V c main_arg0) (funext fun ax => Fin.ext ?_)
    match ax with
    | ⟨0, _⟩ => show win0_0.index t (0 : Fin 2) * 5000 + 1 * (j 0).val = win0_2.index t (0 : Fin 2) * 5000 + 1 * (j 0).val; omega
    | ⟨1, _⟩ => show win0_0.index t (1 : Fin 2) * 24 + 1 * k.val = k.val; omega
  · show V c main_arg2 (((cfg0.win 1).blk t).view.emb (ix2 k (j 1))) = V c main_arg2 _
    refine congrArg (V c main_arg2) (funext fun ax => Fin.ext ?_)
    match ax with
    | ⟨0, _⟩ => show win0_1.index t (0 : Fin 2) * 24 + 1 * k.val = k.val; omega
    | ⟨1, _⟩ => show win0_1.index t (1 : Fin 2) * 128 + 1 * (j 1).val = win0_2.index t (1 : Fin 2) * 128 + 1 * (j 1).val; omega

/-- An entry of the result array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- THE BLOCKS TILE THE RESULT: row `r` lies in the block of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, e20, e21⟩ := idx_facts0 ⟨(i 0).val / 5000, hq⟩
  refine ⟨⟨(i 0).val / 5000, hq⟩, flush0_2 _, ?_⟩
  rw [mem_blk0]
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val ∧ (i 1).val < win0_2.index ⟨(i 0).val / 5000, hq⟩ (1 : Fin 2) * 128 + 128
    rw [e21]; omega

/-- THE RESULT ARRAY after the region: the matrix product of the left array by the right array as the region finds
    them. -/
theorem mm0 (c : Dev nD) :
    ((dat0 (F := Ideal) V c).arrAt 2 cfg0.N : S100000x128.Idx → EReal)
      = Cert.Gcn.mm (V c main_arg0 : S100000x24.Idx → EReal) (V c main_arg2 : S24x128.Idx → EReal) :=
  (dat0 (F := Ideal) V c).arrAt_eq_of_cover 2
    (Cert.Gcn.mm (V c main_arg0 : S100000x24.Idx → EReal) (V c main_arg2 : S24x128.Idx → EReal))
    (fun t _ => flushed0_eq V c t) (cover0)

/-- The two operand arrays and the result array are the region's windows 0, 1 and 2. -/
theorem refs0 : Pipeline.arrRef spec0 0 = main_arg0 ∧ Pipeline.arrRef spec0 1 = main_arg2 ∧ Pipeline.arrRef spec0 2 = main_v30 :=
  ⟨rfl, rfl, rfl⟩

end Cert.KernelIdeal.KVal

end
-- ==== Proof.KMatmul3.lean ====
/-
  The second dense layer's matrix product, as the tiled kernel leaves it in its result array.

  The kernel walks the 100000 rows of the left operand in 20 blocks of 5000 rows.  At block `t` it multiplies rows
  `5000 t … 5000 t + 4999` of the left operand by the whole 128 × 128 right operand into a zero accumulator and writes
  the 5000 × 128 product to the same rows of the result.  Over the extended reals the narrowing of the operands is the
  identity, so entry `(r, j)` of the result is the sum over `k` of `x (r, k) * w (k, j)`: row `r` is written by the
  point `r / 5000`, and by no other.
-/
import proofs.«108922_j32160715112488_1_alg».proof.Proof.Gen.KernelIdeal.Frame
import proofs.«108922_j32160715112488_1_alg».proof.Proof.Spec
import proofs.«108922_j32160715112488_1_alg».proof.Proof.LibMatmulZero
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access, however spelt. -/
theorem hz3 : (![0, 0] : Fin 2 → Nat) = fun _ => 0 := funext fun a => by fin_cases a <;> rfl

/-- THE BODY AT AN ENTRY: the product of a 5000 × 128 block by the 128 × 128 operand into the zero block, the narrowing of
    both operands being the identity over the extended reals, at row `a` and column `b` is the sum over the
    contracted coordinate of the products of the entries `(a, k)` and `(k, b)`. -/
theorem pay3_apply (x0 : Vec Ideal S5000x128 .f32) (x1 : Vec Ideal S128x128 .f32) (a : Fin 5000) (b : Fin 128) :
    k3_pay1 x0 x1 (ix2 a b) = ∑ k : Fin 128, x0 (ix2 a k) * x1 (ix2 k b) := by
  unfold k3_pay1
  simp only [shapeCast_self]
  exact Cert.LibMatmulZero.matmulZero_nn_apply (m := 5000) (k := 128) (n := 128) _ none _ _ a b

/-- The same at any index of the block, against the matrix product of two whole arrays: it is enough that row
    `y 0` of the left block is row `i 0` of the left array and that the right block is the right array. -/
theorem pay3_eq_mm (A : S100000x128.Idx → EReal) (B : S128x128.Idx → EReal) (x0 : Vec Ideal S5000x128 .f32) (x1 : Vec Ideal S128x128 .f32)
    (y : S5000x128.Idx) (i : S100000x128.Idx)
    (h0 : ∀ k : Fin 128, x0 (ix2 (y 0) k) = A (ix2 (Cert.Gcn.rowOfIx i) k))
    (h1 : ∀ k : Fin 128, x1 (ix2 k (y 1)) = B (ix2 k (Cert.Gcn.colOfIx i))) :
    k3_pay1 x0 x1 y = Cert.Gcn.mm A B i := by
  refine (congrArg (k3_pay1 x0 x1) (eq_ix2 y)).trans ((pay3_apply x0 x1 (y 0) (y 1)).trans ?_)
  unfold Cert.Gcn.mm
  exact Finset.sum_congr rfl fun k _ => by rw [h0 k, h1 k]

/-- The block index of each window at each of the 20 points, decided: the left operand and the result move down one
    block of rows per point, the right operand stays. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is rows `5000 t … 5000 t + 4999` of the matrix product of the two arrays as the region
    finds them. -/
theorem flushed3_eq (c : Dev nD) (t : Fin cfg3.N) :
    (dat3 (F := Ideal) V c).flushed 2 t
      = ((cfg3.win 2).blk t).view.read (Elt Ideal)
          (Cert.Gcn.mm (V c main_v58 : S100000x128.Idx → EReal) (V c main_arg6 : S128x128.Idx → EReal)) := by
  show (cfg3.win 2).cut (grid3.coords t) ((dat3 (F := Ideal) V c).after 2 t) = _
  rw [after3_2]
  unfold out3_2
  rw [View.canon_unit_zero hz3]
  simp only [View.ld_unit_zero (S := S5000x128) hz3, View.ld_unit_zero (S := S128x128) hz3]
  obtain ⟨e00, e01, e10, e11, e20, e21⟩ := idx_facts3 t
  funext j
  show k3_pay1 (iblk3 V c 0 t) (iblk3 V c 1 t) j
    = Cert.Gcn.mm (V c main_v58 : S100000x128.Idx → EReal) (V c main_arg6 : S128x128.Idx → EReal) (((cfg3.win 2).blk t).view.emb j)
  refine pay3_eq_mm (V c main_v58) (V c main_arg6) (iblk3 V c 0 t) (iblk3 V c 1 t) j (((cfg3.win 2).blk t).view.emb j)
    (fun k => ?_) (fun k => ?_)
  · show V c main_v58 (((cfg3.win 0).blk t).view.emb (ix2 (j 0) k)) = V c main_v58 _
    refine congrArg (V c main_v58) (funext fun ax => Fin.ext ?_)
    match ax with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show V c main_arg6 (((cfg3.win 1).blk t).view.emb (ix2 k (j 1))) = V c main_arg6 _
    refine congrArg (V c main_arg6) (funext fun ax => Fin.ext ?_)
    match ax with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An entry of the result array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- THE BLOCKS TILE THE RESULT: row `r` lies in the block of point `r / 5000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have hq : (i 0).val / 5000 < cfg3.N := by rw [hN]; omega
  obtain ⟨-, -, -, -, e20, e21⟩ := idx_facts3 ⟨(i 0).val / 5000, hq⟩
  refine ⟨⟨(i 0).val / 5000, hq⟩, flush3_2 _, ?_⟩
  rw [mem_blk3]
  intro a
  match a with
  | ⟨0, _⟩ =>
    show win3_2.index ⟨(i 0).val / 5000, hq⟩ (0 : Fin 2) * 5000 ≤ (i 0).val ∧ (i 0).val < win3_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, hq⟩ (1 : Fin 2) * 128 ≤ (i 1).val ∧ (i 1).val < win3_2.index ⟨(i 0).val / 5000, hq⟩ (1 : Fin 2) * 128 + 128
    rw [e21]; omega

/-- THE RESULT ARRAY after the region: the matrix product of the left array by the right array as the region finds
    them. -/
theorem mm3 (c : Dev nD) :
    ((dat3 (F := Ideal) V c).arrAt 2 cfg3.N : S100000x128.Idx → EReal)
      = Cert.Gcn.mm (V c main_v58 : S100000x128.Idx → EReal) (V c main_arg6 : S128x128.Idx → EReal) :=
  (dat3 (F := Ideal) V c).arrAt_eq_of_cover 2
    (Cert.Gcn.mm (V c main_v58 : S100000x128.Idx → EReal) (V c main_arg6 : S128x128.Idx → EReal))
    (fun t _ => flushed3_eq V c t) (cover3)

/-- The two operand arrays and the result array are the region's windows 0, 1 and 2. -/
theorem refs3 : Pipeline.arrRef spec3 0 = main_v58 ∧ Pipeline.arrRef spec3 1 = main_arg6 ∧ Pipeline.arrRef spec3 2 = main_v59 :=
  ⟨rfl, rfl, rfl⟩

end Cert.KernelIdeal.KVal

end
-- ==== Proof.KMatmul6.lean ====
/-
  The third dense layer's matrix product, as the tiled kernel leaves it in its result array.

  The kernel walks the 100000 rows of the left operand in 20 blocks of 5000 rows.  At block `t` it multiplies rows
  `5000 t … 5000 t + 4999` of the left operand by the whole 128 × 64 right operand into a zero accumulator and writes
  the 5000 × 64 product to the same rows of the result.  Over the extended reals the narrowing of the operands is the
  identity, so entry `(r, j)` of the result is the sum over `k` of `x (r, k) * w (k, j)`: row `r` is written by the
  point `r / 5000`, and by no other.
-/
import proofs.«108922_j32160715112488_1_alg».proof.Proof.Gen.KernelIdeal.Frame
import proofs.«108922_j32160715112488_1_alg».proof.Proof.Spec
import proofs.«108922_j32160715112488_1_alg».proof.Proof.LibMatmulZero
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access, however spelt. -/
theorem hz6 : (![0, 0] : Fin 2 → Nat) = fun _ => 0 := funext fun a => by fin_cases a <;> rfl

/-- THE BODY AT AN ENTRY: the product of a 5000 × 128 block by the 128 × 64 operand into the zero block, the narrowing of
    both operands being the identity over the extended reals, at row `a` and column `b` is the sum over the
    contracted coordinate of the products of the entries `(a, k)` and `(k, b)`. -/
theorem pay6_apply (x0 : Vec Ideal S5000x128 .f32) (x1 : Vec Ideal S128x64 .f32) (a : Fin 5000) (b : Fin 64) :
    k6_pay1 x0 x1 (ix2 a b) = ∑ k : Fin 128, x0 (ix2 a k) * x1 (ix2 k b) := by
  unfold k6_pay1
  simp only [shapeCast_self]
  exact Cert.LibMatmulZero.matmulZero_nn_apply (m := 5000) (k := 128) (n := 64) _ none _ _ a b

/-- The same at any index of the block, against the matrix product of two whole arrays: it is enough that row
    `y 0` of the left block is row `i 0` of the left array and that the right block is the right array. -/
theorem pay6_eq_mm (A : S100000x128.Idx → EReal) (B : S128x64.Idx → EReal) (x0 : Vec Ideal S5000x128 .f32) (x1 : Vec Ideal S128x64 .f32)
    (y : S5000x64.Idx) (i : S100000x64.Idx)
    (h0 : ∀ k : Fin 128, x0 (ix2 (y 0) k) = A (ix2 (Cert.Gcn.rowOfIx i) k))
    (h1 : ∀ k : Fin 128, x1 (ix2 k (y 1)) = B (ix2 k (Cert.Gcn.colOfIx i))) :
    k6_pay1 x0 x1 y = Cert.Gcn.mm A B i := by
  refine (congrArg (k6_pay1 x0 x1) (eq_ix2 y)).trans ((pay6_apply x0 x1 (y 0) (y 1)).trans ?_)
  unfold Cert.Gcn.mm
  exact Finset.sum_congr rfl fun k _ => by rw [h0 k, h1 k]

/-- The block index of each window at each of the 20 points, decided: the left operand and the result move down one
    block of rows per point, the right operand stays. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- WHAT POINT `t` WRITES BACK is rows `5000 t … 5000 t + 4999` of the matrix product of the two arrays as the region
    finds them. -/
theorem flushed6_eq (c : Dev nD) (t : Fin cfg6.N) :
    (dat6 (F := Ideal) V c).flushed 2 t
      = ((cfg6.win 2).blk t).view.read (Elt Ideal)
          (Cert.Gcn.mm (V c main_v87 : S100000x128.Idx → EReal) (V c main_arg10 : S128x64.Idx → EReal)) := by
  show (cfg6.win 2).cut (grid6.coords t) ((dat6 (F := Ideal) V c).after 2 t) = _
  rw [after6_2]
  unfold out6_2
  rw [View.canon_unit_zero hz6]
  simp only [View.ld_unit_zero (S := S5000x128) hz6, View.ld_unit_zero (S := S128x64) hz6]
  obtain ⟨e00, e01, e10, e11, e20, e21⟩ := idx_facts6 t
  funext j
  show k6_pay1 (iblk6 V c 0 t) (iblk6 V c 1 t) j
    = Cert.Gcn.mm (V c main_v87 : S100000x128.Idx → EReal) (V c main_arg10 : S128x64.Idx → EReal) (((cfg6.win 2).blk t).view.emb j)
  refine pay6_eq_mm (V c main_v87) (V c main_arg10) (iblk6 V c 0 t) (iblk6 V c 1 t) j (((cfg6.win 2).blk t).view.emb j)
    (fun k => ?_) (fun k => ?_)
  · show V c main_v87 (((cfg6.win 0).blk t).view.emb (ix2 (j 0) k)) = V c main_v87 _
    refine congrArg (V c main_v87) (funext fun ax => Fin.ext ?_)
    match ax with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · show V c main_arg10 (((cfg6.win 1).blk t).view.emb (ix2 k (j 1))) = V c main_arg10 _
    refine congrArg (V c main_arg10) (funext fun ax => Fin.ext ?_)
    match ax with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega

/-- An entry of the result array is in point `t`'s block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v88).slice (win6_2.rect t)).set ↔ _
  rw [View.set_slice_whole, Rect.mem_set_unit]
  exact Iff.rfl

/-- THE BLOCKS TILE THE RESULT: row `r` lies in the block of point `r / 5000`. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  have hq : (i 0).val / 5000 < cfg6.N := by rw [hN]; omega
  obtain ⟨-, -, -, -, e20, e21⟩ := idx_facts6 ⟨(i 0).val / 5000, hq⟩
  refine ⟨⟨(i 0).val / 5000, hq⟩, flush6_2 _, ?_⟩
  rw [mem_blk6]
  intro a
  match a with
  | ⟨0, _⟩ =>
    show win6_2.index ⟨(i 0).val / 5000, hq⟩ (0 : Fin 2) * 5000 ≤ (i 0).val ∧ (i 0).val < win6_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win6_2.index ⟨(i 0).val / 5000, hq⟩ (1 : Fin 2) * 64 ≤ (i 1).val ∧ (i 1).val < win6_2.index ⟨(i 0).val / 5000, hq⟩ (1 : Fin 2) * 64 + 64
    rw [e21]; omega

/-- THE RESULT ARRAY after the region: the matrix product of the left array by the right array as the region finds
    them. -/
theorem mm6 (c : Dev nD) :
    ((dat6 (F := Ideal) V c).arrAt 2 cfg6.N : S100000x64.Idx → EReal)
      = Cert.Gcn.mm (V c main_v87 : S100000x128.Idx → EReal) (V c main_arg10 : S128x64.Idx → EReal) :=
  (dat6 (F := Ideal) V c).arrAt_eq_of_cover 2
    (Cert.Gcn.mm (V c main_v87 : S100000x128.Idx → EReal) (V c main_arg10 : S128x64.Idx → EReal))
    (fun t _ => flushed6_eq V c t) (cover6)

/-- The two operand arrays and the result array are the region's windows 0, 1 and 2. -/
theorem refs6 : Pipeline.arrRef spec6 0 = main_v87 ∧ Pipeline.arrRef spec6 1 = main_arg10 ∧ Pipeline.arrRef spec6 2 = main_v88 :=
  ⟨rfl, rfl, rfl⟩

end Cert.KernelIdeal.KVal

end
-- ==== Proof.KMatmul9.lean ====
/-
  The last dense layer's matrix product, as the tiled kernel leaves it in its result array.

  The kernel walks the 100000 rows of the left operand in 20 blocks of 5000 rows.  At block `t` it multiplies rows
  `5000 t … 5000 t + 4999` of the left operand by the whole 64 × 2 right operand into a zero accumulator and writes
  the 5000 × 2 product to the same rows of the result.  Over the extended reals the narrowing of the operands is the
  identity, so entry `(r, j)` of the result is the sum over `k` of `x (r, k) * w (k, j)`: row `r` is written by the
  point `r / 5000`, and by no other.
-/
import proofs.«108922_j32160715112488_1_alg».proof.Proof.Gen.KernelIdeal.Frame
import proofs.«108922_j32160715112488_1_alg».proof.Proof.Spec
import proofs.«108922_j32160715112488_1_alg».proof.Proof.LibMatmulZero
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a whole-block access, however spelt. -/
theorem hz9 : (![0, 0] : Fin 2 → Nat) = fun _ => 0 := funext fun a => by fin_cases a <;> rfl

/-- THE BODY AT AN ENTRY: the product of a 5000 × 64 block by the 64 × 2 operand into the zero block, the narrowing of
    both operands being the identity over the extended reals, at row `a` and column `b` is the sum over the
    contracted coordinate of the products of the entries `(a, k)` and `(k, b)`. -/
theorem pay9_apply (x0 : Vec Ideal S5000x64 .f32) (x1 : Vec Ideal S64x2 .f32) (a : Fin 5000) (b : Fin 2) :
    k9_pay1 x0 x1 (ix2 a b) = ∑ k : Fin 64, x0 (ix2 a k) * x1 (ix2 k b) := by
  unfold k9_pay1
  simp only [shapeCast_self]
  exact Cert.LibMatmulZero.matmulZero_nn_apply (m := 5000) (k := 64) (n := 2) _ none _ _ a b

/-- The same at any index of the block, against the matrix product of two whole arrays: it is enough that row
    `y 0` of the left block is row `i 0` of the left array and that the right block is the right array. -/
theorem pay9_eq_mm (A : S100000x64.Idx → EReal) (B : S64x2.Idx → EReal) (x0 : Vec Ideal S5000x64 .f32) (x1 : Vec Ideal S64x2 .f32)
    (y : S5000x2.Idx) (i : S100000x2.Idx)
    (h0 : ∀ k : Fin 64, x0 (ix2 (y 0) k) = A (ix2 (Cert.Gcn.rowOfIx i) k))
    (h1 : ∀ k : Fin 64, x1 (ix2 k (y 1)) = B (ix2 k (Cert.Gcn.colOfIx i))) :
    k9_pay1 x0 x1 y = Cert.Gcn.mm A B i := by
  refine (congrArg (k9_pay1 x0 x1) (eq_ix2 y)).trans ((pay9_apply x0 x1 (y 0) (y 1)).trans ?_)
  unfold Cert.Gcn.mm
  exact Finset.sum_congr rfl fun k _ => by rw [h0 k, h1 k]

/-- The block index of each window at each of the 20 points, decided: the left operand and the result move down one
    block of rows per point, the right operand stays. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- WHAT POINT `t` WRITES BACK is rows `5000 t … 5000 t + 4999` of the matrix product of the two arrays as the region
    finds them. -/
theorem flushed9_eq (c : Dev nD) (t : Fin cfg9.N) :
    (dat9 (F := Ideal) V c).flushed 2 t
      = ((cfg9.win 2).blk t).view.read (Elt Ideal)
          (Cert.Gcn.mm (V c main_v116 : S100000x64.Idx → EReal) (V c main_arg14 : S64x2.Idx → EReal)) := by
  show (cfg9.win 2).cut (grid9.coords t) ((dat9 (F := Ideal) V c).after 2 t) = _
  rw [after9_2]
  unfold out9_2
  rw [View.canon_unit_zero hz9]
  simp only [View.ld_unit_zero (S := S5000x64) hz9, View.ld_unit_zero (S := S64x2) hz9]
  obtain ⟨e00, e01, e10, e11, e20, e21⟩ := idx_facts9 t
  funext j
  show k9_pay1 (iblk9 V c 0 t) (iblk9 V c 1 t) j
    = Cert.Gcn.mm (V c main_v116 : S100000x64.Idx → EReal) (V c main_arg14 : S64x2.Idx → EReal) (((cfg9.win 2).blk t).view.emb j)
  refine pay9_eq_mm (V c main_v116) (V c main_arg14) (iblk9 V c 0 t) (iblk9 V c 1 t) j (((cfg9.win 2).blk t).view.emb j)
    (fun k => ?_) (fun k => ?_)
  · show V c main_v116 (((cfg9.win 0).blk t).view.emb (ix2 (j 0) k)) = V c main_v116 _
    refine congrArg (V c main_v116) (funext fun ax => Fin.ext ?_)
    match ax with
    | ⟨0, _⟩ => show win9_0.index t (0 : Fin 2) * 5000 + 1 * (j 0).val = win9_2.index t (0 : Fin 2) * 5000 + 1 * (j 0).val; omega
    | ⟨1, _⟩ => show win9_0.index t (1 : Fin 2) * 64 + 1 * k.val = k.val; omega
  · show V c main_arg14 (((cfg9.win 1).blk t).view.emb (ix2 k (j 1))) = V c main_arg14 _
    refine congrArg (V c main_arg14) (funext fun ax => Fin.ext ?_)
    match ax with
    | ⟨0, _⟩ => show win9_1.index t (0 : Fin 2) * 64 + 1 * k.val = k.val; omega
    | ⟨1, _⟩ => show win9_1.index t (1 : Fin 2) * 2 + 1 * (j 1).val = win9_2.index t (1 : Fin 2) * 2 + 1 * (j 1).val; omega

/-- An entry of the result array is in point `t`'s block iff each coordinate is in the block's range on its axis. -/
theorem mem_blk9 (t : Fin cfg9.N) (i : S100000x2.Idx) :
    i ∈ ((cfg9.win 2).blk t).view.set ↔ ∀ a : Fin 2, win9_2.index t a * S5000x2.size a ≤ (i a).val ∧ (i a).val < win9_2.index t a * S5000x2.size a + S5000x2.size a := by
  show i ∈ ((View.whole main_v117).slice (win9_2.rect t)).set ↔ _
  rw [View.set_slice_whole, Rect.mem_set_unit]
  exact Iff.rfl

/-- THE BLOCKS TILE THE RESULT: row `r` lies in the block of point `r / 5000`. -/
theorem cover9 (i : S100000x2.Idx) :
    ∃ t : Fin cfg9.N, (cfg9.win 2).flush t = true ∧ i ∈ ((cfg9.win 2).blk t).view.set := by
  have hi0 : (i 0).val < 100000 := (i 0).isLt
  have hi1 : (i 1).val < 2 := (i 1).isLt
  have hN : cfg9.N = 20 := N_9
  have hq : (i 0).val / 5000 < cfg9.N := by rw [hN]; omega
  obtain ⟨-, -, -, -, e20, e21⟩ := idx_facts9 ⟨(i 0).val / 5000, hq⟩
  refine ⟨⟨(i 0).val / 5000, hq⟩, flush9_2 _, ?_⟩
  rw [mem_blk9]
  intro a
  match a with
  | ⟨0, _⟩ =>
    show win9_2.index ⟨(i 0).val / 5000, hq⟩ (0 : Fin 2) * 5000 ≤ (i 0).val ∧ (i 0).val < win9_2.index ⟨(i 0).val / 5000, hq⟩ (0 : Fin 2) * 5000 + 5000
    rw [e20]; show (i 0).val / 5000 * 5000 ≤ (i 0).val ∧ (i 0).val < (i 0).val / 5000 * 5000 + 5000; omega
  | ⟨1, _⟩ =>
    show win9_2.index ⟨(i 0).val / 5000, hq⟩ (1 : Fin 2) * 2 ≤ (i 1).val ∧ (i 1).val < win9_2.index ⟨(i 0).val / 5000, hq⟩ (1 : Fin 2) * 2 + 2
    rw [e21]; omega

/-- THE RESULT ARRAY after the region: the matrix product of the left array by the right array as the region finds
    them. -/
theorem mm9 (c : Dev nD) :
    ((dat9 (F := Ideal) V c).arrAt 2 cfg9.N : S100000x2.Idx → EReal)
      = Cert.Gcn.mm (V c main_v116 : S100000x64.Idx → EReal) (V c main_arg14 : S64x2.Idx → EReal) :=
  (dat9 (F := Ideal) V c).arrAt_eq_of_cover 2
    (Cert.Gcn.mm (V c main_v116 : S100000x64.Idx → EReal) (V c main_arg14 : S64x2.Idx → EReal))
    (fun t _ => flushed9_eq V c t) (cover9)

/-- The two operand arrays and the result array are the region's windows 0, 1 and 2. -/
theorem refs9 : Pipeline.arrRef spec9 0 = main_v116 ∧ Pipeline.arrRef spec9 1 = main_arg14 ∧ Pipeline.arrRef spec9 2 = main_v117 :=
  ⟨rfl, rfl, rfl⟩

end Cert.KernelIdeal.KVal

end
-- ==== Proof.LibMlpStats.lean ====
/-
  A two-layer perceptron applied to a block of rows, and column sums added to a running row, read entry by entry on
  the extended reals.

  For a block of n rows: x and a are n×di, w1 is di×dk with bias row b1, w2 is dk×dk with bias row b2.  The block's
  perceptron is the n×dk array whose entry (p, q) is

      Σ_k max (Σ_c (x (p, c) + a (p, c)) · w1 (c, k) + b1 k, 0) · w2 (k, q) + b2 q

  (a change of float format is the identity on the extended reals, and a matrix product into the zero block is the
  plain sum of products).  A running row acc of width dk to which the column sums of an n×dk array v are added has
  entry q equal to  acc q + Σ_p v (p, q).  Last, a sum over T·B rows taken block by block is the one sum.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlpStats

open Idealize.ShloMosaic Idealize.ShloMosaic.ValueIdx

variable {n di dk : Nat}

/-- A matrix product of an m×k by a k×n block into the zero block, at (a, b), is Σ_c A (a, c) · B (c, b). -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The block's perceptron as the chain of vector operations a kernel body spells it with: the sum x + a, the product
    by w1 into the zero block, the bias row broadcast down the rows and added, the clip at zero, the product by w2 into
    the zero block, the second bias row added; every change of float format written where the body has it. -/
def mlp (wf1 : DotDims.WF ⟨2, ![n, di]⟩ ⟨2, ![di, dk]⟩ ⟨2, ![n, dk]⟩ [1] [0] [0] [1] [] [])
    (wf2 : DotDims.WF ⟨2, ![n, dk]⟩ ⟨2, ![dk, dk]⟩ ⟨2, ![n, dk]⟩ [1] [0] [0] [1] [] [])
    (hb : FTy.bits .bf16 < FTy.bits .f32)
    (hx : (⟨2, ![n, di]⟩ : Shape).ShapeCasts ⟨2, ![n, di]⟩)
    (hr : (⟨2, ![1, dk]⟩ : Shape).ShapeCasts ⟨2, ![1, dk]⟩)
    (hbc : (⟨2, ![1, dk]⟩ : Shape).Broadcasts ⟨2, ![n, dk]⟩)
    (x a : Vec Ideal ⟨2, ![n, di]⟩ .f32) (w1 : Vec Ideal ⟨2, ![di, dk]⟩ .f32) (b1 : Vec Ideal ⟨2, ![1, dk]⟩ .f32)
    (w2 : Vec Ideal ⟨2, ![dk, dk]⟩ .f32) (b2 : Vec Ideal ⟨2, ![1, dk]⟩ .f32) : FVec Ideal ⟨2, ![n, dk]⟩ .f32 :=
  addf (matmul (⟨[1], [0], [0], [1], [], [], wf2⟩ : DotDims ⟨2, ![n, dk]⟩ ⟨2, ![dk, dk]⟩ ⟨2, ![n, dk]⟩) none
      (truncf .bf16 (maximumf (addf (matmul (⟨[1], [0], [0], [1], [], [], wf1⟩ : DotDims ⟨2, ![n, di]⟩ ⟨2, ![di, dk]⟩ ⟨2, ![n, dk]⟩) none
            (truncf .bf16 (addf x (shapeCast ⟨2, ![n, di]⟩ a hx)) hb) (truncf .bf16 w1 hb)
            (constant ⟨2, ![n, dk]⟩ .f32 0x00000000#32))
          (broadcastTo ⟨2, ![n, dk]⟩ (shapeCast ⟨2, ![1, dk]⟩ b1 hr) hbc))
        (broadcast ⟨2, ![n, dk]⟩ (Scalar.ofBits .f32 0x00000000#32))) hb)
      (truncf .bf16 w2 hb) (constant ⟨2, ![n, dk]⟩ .f32 0x00000000#32))
    (broadcastTo ⟨2, ![n, dk]⟩ (shapeCast ⟨2, ![1, dk]⟩ b2 hr) hbc)

/-- Entry (p, q) of the block's perceptron. -/
theorem mlp_apply (wf1 : DotDims.WF ⟨2, ![n, di]⟩ ⟨2, ![di, dk]⟩ ⟨2, ![n, dk]⟩ [1] [0] [0] [1] [] [])
    (wf2 : DotDims.WF ⟨2, ![n, dk]⟩ ⟨2, ![dk, dk]⟩ ⟨2, ![n, dk]⟩ [1] [0] [0] [1] [] [])
    (hb : FTy.bits .bf16 < FTy.bits .f32)
    (hx : (⟨2, ![n, di]⟩ : Shape).ShapeCasts ⟨2, ![n, di]⟩)
    (hr : (⟨2, ![1, dk]⟩ : Shape).ShapeCasts ⟨2, ![1, dk]⟩)
    (hbc : (⟨2, ![1, dk]⟩ : Shape).Broadcasts ⟨2, ![n, dk]⟩)
    (x a : Vec Ideal ⟨2, ![n, di]⟩ .f32) (w1 : Vec Ideal ⟨2, ![di, dk]⟩ .f32) (b1 : Vec Ideal ⟨2, ![1, dk]⟩ .f32)
    (w2 : Vec Ideal ⟨2, ![dk, dk]⟩ .f32) (b2 : Vec Ideal ⟨2, ![1, dk]⟩ .f32) (p : Fin n) (q : Fin dk) :
    mlp wf1 wf2 hb hx hr hbc x a w1 b1 w2 b2 (ix2 p q)
      = (∑ k : Fin dk, max ((∑ c : Fin di, (x (ix2 p c) + a (ix2 p c)) * w1 (ix2 c k)) + b1 (ix2 (0 : Fin 1) k)) 0
            * w2 (ix2 k q)) + b2 (ix2 (0 : Fin 1) q) := by
  unfold mlp
  simp only [shapeCast_self]
  rw [addf_apply, matmulZero_apply, broadcastTo_1b_ab_apply]
  refine congrArg (· + b2 (ix2 (0 : Fin 1) q)) (Finset.sum_congr rfl fun k _ => ?_)
  rw [truncf_apply, truncf_apply, maximumf_apply, addf_apply, matmulZero_apply, broadcastTo_1b_ab_apply,
    broadcast_apply]
  have hz : (Scalar.ofBits (F := Ideal) .f32 0x00000000#32 : Ideal .f32) = 0 := Ideal.ofBits_zero_f32
  rw [hz]
  refine congrArg (fun s => max (s + b1 (ix2 (0 : Fin 1) k)) 0 * w2 (ix2 k q)) (Finset.sum_congr rfl fun c _ => ?_)
  rw [truncf_apply, truncf_apply, addf_apply]

/-- A running row to which the column sums of a block are added, as a kernel body spells it: the lane-direction
    reduction over the rows, recast to one row, added to the recast running row. -/
def accCols (hred : (⟨2, ![n, dk]⟩ : Shape).Reduces [0] ⟨1, ![dk]⟩) (hφ : FKind.Formats .f32)
    (hacc : (0x00000000#32 : BitVec (FTy.bits .f32)) = FKind.add.neutral .f32 hφ)
    (hr : (⟨2, ![1, dk]⟩ : Shape).ShapeCasts ⟨2, ![1, dk]⟩)
    (hc : (⟨1, ![dk]⟩ : Shape).ShapeCasts ⟨2, ![1, dk]⟩)
    (v : FVec Ideal ⟨2, ![n, dk]⟩ .f32) (acc : Vec Ideal ⟨2, ![1, dk]⟩ .f32) : FVec Ideal ⟨2, ![1, dk]⟩ .f32 :=
  addf (shapeCast ⟨2, ![1, dk]⟩ acc hr)
    (shapeCast ⟨2, ![1, dk]⟩ (multiReduction .add [0] ⟨1, ![dk]⟩ v 0x00000000#32 hred hφ hacc) hc)

/-- Entry q of the running row after the addition: what it held plus the block's column sum. -/
theorem accCols_apply (hred : (⟨2, ![n, dk]⟩ : Shape).Reduces [0] ⟨1, ![dk]⟩) (hφ : FKind.Formats .f32)
    (hacc : (0x00000000#32 : BitVec (FTy.bits .f32)) = FKind.add.neutral .f32 hφ)
    (hr : (⟨2, ![1, dk]⟩ : Shape).ShapeCasts ⟨2, ![1, dk]⟩)
    (hc : (⟨1, ![dk]⟩ : Shape).ShapeCasts ⟨2, ![1, dk]⟩)
    (v : FVec Ideal ⟨2, ![n, dk]⟩ .f32) (acc : Vec Ideal ⟨2, ![1, dk]⟩ .f32) (u : Fin 1) (q : Fin dk) :
    accCols hred hφ hacc hr hc v acc (ix2 u q) = acc (ix2 u q) + ∑ p : Fin n, v (ix2 p q) := by
  unfold accCols
  rw [addf_apply, shapeCast_self, shapeCast_a_1a_apply]
  refine congrArg (acc (ix2 u q) + ·) ?_
  refine (Ideal.multiReduction_add_single v 0x00000000#32 hred hφ hacc (ix1 q)).trans ?_
  show ∑ p : Fin n, v (hred.lift (ix1 q) p) = _
  refine Finset.sum_congr rfl fun p _ => congrArg v ?_
  funext ax; apply Fin.ext
  match ax with
  | ⟨0, _⟩ => rfl
  | ⟨1, _⟩ => rfl

end Cert.LibMlpStats

end
-- ==== Proof.LibGcnEReal.lean ====
/-
  Extended-real algebra for a graph convolution network with batch normalisation: the float literals as
  extended reals, the two arrangements of a normalised neighbourhood sum, a matrix product row, the two
  formulas for a variance, the finiteness of a normalised activation, the positivity of a degree scale,
  and the regrouping of an accumulation carried across blocks of rows.

  In the extended reals addition and multiplication are commutative and associative, but distributivity,
  cancellation and the laws of subtraction need finite operands: every lemma here takes its operands as
  coerced reals.
-/
import Mathlib.Data.EReal.Operations
import Mathlib.Data.EReal.Inv
import Mathlib.Algebra.BigOperators.Group.Finset.Basic
import Mathlib.Algebra.BigOperators.Fin
import Mathlib.Analysis.SpecialFunctions.Pow.Real
import Idealize.ShloMosaic.PureOps.Ideal

noncomputable section

namespace Cert.LibGcnEReal

open Idealize.ShloMosaic
open scoped BigOperators

/-! ### The literals -/

/-- The single-precision pattern `0x47435000` denotes the real `50000`. -/
theorem ofBits_50000 : Ideal.ofBits .f32 0x47435000#32 = ((50000 : ℝ) : EReal) := by
  simp [Ideal.ofBits, Ideal.ieee, -EReal.coe_mul]; norm_num

/-- The single-precision pattern `0x3F800000` denotes the real `1`. -/
theorem ofBits_one : Ideal.ofBits .f32 0x3F800000#32 = ((1 : ℝ) : EReal) := by
  simp [Ideal.ofBits, Ideal.ieee, -EReal.coe_mul]; norm_num

/-- The single-precision pattern of `+0.0` denotes `0`. -/
theorem ofBits_zero : Ideal.ofBits .f32 0x00000000#32 = 0 := by
  simp [Ideal.ofBits, Ideal.ieee]

/-- The single-precision pattern `0x3727C5AC` (the float nearest to `1e-5`) denotes a positive real. -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-- The single-precision pattern `0xFF800000` (minus infinity) denotes `⊥`. -/
theorem ofBits_neg_inf : Ideal.ofBits .f32 0xFF800000#32 = ⊥ := by
  simp [Ideal.ofBits, Ideal.ieee]

/-! ### Finite sums of coerced reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a finite sum of products of reals is the sum of the products of the coercions. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-! ### The graph convolution, two arrangements -/

/-- The real value of a normalised neighbourhood sum at node `n`: the node's scale times the sum of the scaled
    features of its in-neighbours and of itself, plus the bias. -/
def convReal {ι κ : Type*} (P : Finset ι) (S : ι → κ) (h dis : κ → ℝ) (b : ℝ) (n : κ) : ℝ :=
  dis n * (∑ e ∈ P, h (S e) * dis (S e) + h n * dis n) + b

/-- First arrangement: every feature row is scaled once at its source, the rows arriving at `n` and `n`'s own
    row are added up, and the total is scaled at `n`. -/
theorem conv_scaled_rows {ι κ : Type*} (P : Finset ι) (S : ι → κ) (h dis : κ → ℝ) (b : ℝ) (n : κ) :
    ((dis n : ℝ) : EReal) * ((0 + ∑ e ∈ P, ((h (S e) * dis (S e) : ℝ) : EReal)) + ((h n * dis n : ℝ) : EReal))
        + (b : EReal) = ((convReal P S h dis b n : ℝ) : EReal) := by
  rw [zero_add, ← coe_sum, ← EReal.coe_add, ← EReal.coe_mul, ← EReal.coe_add]
  rfl

/-- Second arrangement: every edge into `n` carries the weight `dis (source) * dis (target)`, and `n`'s own row
    the weight `dis n * dis n`. -/
theorem conv_edge_weights {ι κ : Type*} (P : Finset ι) (S D : ι → κ) (h dis : κ → ℝ) (b : ℝ) (n : κ)
    (hD : ∀ e ∈ P, D e = n) :
    ((0 + ∑ e ∈ P, (h (S e) : EReal) * ((dis (S e) : EReal) * (dis (D e) : EReal)))
        + (h n : EReal) * ((dis n : EReal) * (dis n : EReal))) + (b : EReal)
      = ((convReal P S h dis b n : ℝ) : EReal) := by
  have h1 : ∑ e ∈ P, (h (S e) : EReal) * ((dis (S e) : EReal) * (dis (D e) : EReal))
      = ((∑ e ∈ P, h (S e) * (dis (S e) * dis n) : ℝ) : EReal) := by
    rw [coe_sum]
    refine Finset.sum_congr rfl fun e he => ?_
    rw [hD e he, ← EReal.coe_mul, ← EReal.coe_mul]
  rw [h1, zero_add, ← EReal.coe_mul, ← EReal.coe_mul, ← EReal.coe_add, ← EReal.coe_add]
  refine congrArg _ ?_
  unfold convReal
  rw [mul_add, Finset.mul_sum]
  have h2 : ∀ e, h (S e) * (dis (S e) * dis n) = dis n * (h (S e) * dis (S e)) := fun e => by ring
  simp only [h2]
  ring

/-- The two arrangements of the graph convolution agree. -/
theorem conv_two_ways {ι κ : Type*} (P : Finset ι) (S D : ι → κ) (h dis : κ → ℝ) (b : ℝ) (n : κ)
    (hD : ∀ e ∈ P, D e = n) :
    ((dis n : ℝ) : EReal) * ((0 + ∑ e ∈ P, ((h (S e) * dis (S e) : ℝ) : EReal)) + ((h n * dis n : ℝ) : EReal))
        + (b : EReal)
      = ((0 + ∑ e ∈ P, (h (S e) : EReal) * ((dis (S e) : EReal) * (dis (D e) : EReal)))
        + (h n : EReal) * ((dis n : EReal) * (dis n : EReal))) + (b : EReal) :=
  (conv_scaled_rows P S h dis b n).trans (conv_edge_weights P S D h dis b n hD).symm

/-- The common value of the two arrangements is a real number. -/
theorem conv_real {ι κ : Type*} (P : Finset ι) (S : ι → κ) (h dis : κ → ℝ) (b : ℝ) (n : κ) :
    ∃ r : ℝ, ((dis n : ℝ) : EReal) * ((0 + ∑ e ∈ P, ((h (S e) * dis (S e) : ℝ) : EReal))
        + ((h n * dis n : ℝ) : EReal)) + (b : EReal) = (r : EReal) :=
  ⟨_, conv_scaled_rows P S h dis b n⟩

/-! ### A matrix product row -/

/-- A row of a matrix product of real matrices is the real sum of products. -/
theorem dot_real {κ : Type*} [Fintype κ] (a w : κ → ℝ) :
    ∑ k : κ, (a k : EReal) * (w k : EReal) = ((∑ k, a k * w k : ℝ) : EReal) :=
  (coe_sum_mul Finset.univ a w).symm

/-! ### The variance, two ways -/

/-- The mean of finitely many reals over the count `c`. -/
def mean {ι : Type*} [Fintype ι] (a : ι → ℝ) (c : ℝ) : ℝ := (∑ i, a i) / c

/-- The mean over the count `c` of the squared deviations from the mean. -/
def var {ι : Type*} [Fintype ι] (a : ι → ℝ) (c : ℝ) : ℝ :=
  (∑ i, (a i - mean a c) * (a i - mean a c)) / c

/-- The variance is not negative. -/
theorem var_nonneg {ι : Type*} [Fintype ι] (a : ι → ℝ) (c : ℝ) (hc : (Fintype.card ι : ℝ) = c) : 0 ≤ var a c :=
  div_nonneg (Finset.sum_nonneg fun _ _ => mul_self_nonneg _) (hc ▸ Nat.cast_nonneg _)

/-- The sum of finitely many reals divided by a nonzero real count is their real mean. -/
theorem mean_eq {ι : Type*} [Fintype ι] (a : ι → ℝ) (c : ℝ) (hc0 : c ≠ 0) :
    Ideal.div (0 + ∑ i, (a i : EReal)) (c : EReal) = ((mean a c : ℝ) : EReal) := by
  rw [Ideal.div_coe hc0, zero_add, ← coe_sum, ← EReal.coe_mul]
  exact congrArg _ (div_eq_mul_one_div _ _).symm

/-- The variance as the mean of the squared deviations from the mean. -/
theorem var_centered {ι : Type*} [Fintype ι] (a : ι → ℝ) (c : ℝ) (hc0 : c ≠ 0) :
    Ideal.div (0 + ∑ i, ((a i : EReal) - Ideal.div (0 + ∑ i, (a i : EReal)) (c : EReal))
        * ((a i : EReal) - Ideal.div (0 + ∑ i, (a i : EReal)) (c : EReal))) (c : EReal)
      = ((var a c : ℝ) : EReal) := by
  rw [mean_eq a c hc0]
  simp only [← EReal.coe_sub, ← EReal.coe_mul]
  rw [Ideal.div_coe hc0, zero_add, ← coe_sum, ← EReal.coe_mul]
  exact congrArg _ (div_eq_mul_one_div _ _).symm

/-- The variance as the mean of the squares minus the square of the mean, when the count is the number of terms. -/
theorem var_moments {ι : Type*} [Fintype ι] (a : ι → ℝ) (c : ℝ) (hc : (Fintype.card ι : ℝ) = c) (hc0 : c ≠ 0) :
    Ideal.div (0 + ∑ i, (a i : EReal) * (a i : EReal)) (c : EReal)
        - Ideal.div (0 + ∑ i, (a i : EReal)) (c : EReal) * Ideal.div (0 + ∑ i, (a i : EReal)) (c : EReal)
      = ((var a c : ℝ) : EReal) := by
  rw [mean_eq a c hc0, Ideal.div_coe hc0, zero_add, ← coe_sum_mul, ← EReal.coe_mul, ← EReal.coe_mul,
    ← EReal.coe_sub]
  refine congrArg _ ?_
  have hs : ∑ i, (a i - mean a c) * (a i - mean a c)
      = ∑ i, a i * a i - 2 * mean a c * ∑ i, a i + c * (mean a c * mean a c) := by
    have h3 : ∀ i, (a i - mean a c) * (a i - mean a c)
        = a i * a i - 2 * mean a c * a i + mean a c * mean a c := fun i => by ring
    simp only [h3]
    rw [Finset.sum_add_distrib, Finset.sum_sub_distrib, ← Finset.mul_sum, Finset.sum_const, Finset.card_univ,
      nsmul_eq_mul, hc]
  have hm : ∑ i, a i = c * mean a c := by
    unfold mean; field_simp
  unfold var
  rw [hs, hm]
  field_simp
  ring

/-- The two formulas for the variance of finitely many reals agree, their common value is a real that is not
    negative, and the mean they are taken about is the real mean. -/
theorem variance_two_ways {ι : Type*} [Fintype ι] (a : ι → ℝ) (c : ℝ) (hc : (Fintype.card ι : ℝ) = c)
    (hc0 : c ≠ 0) :
    ∃ v : ℝ, 0 ≤ v
      ∧ Ideal.div (0 + ∑ i, (a i : EReal)) (c : EReal) = (((∑ i, a i) / c : ℝ) : EReal)
      ∧ Ideal.div (0 + ∑ i, (a i : EReal) * (a i : EReal)) (c : EReal)
          - Ideal.div (0 + ∑ i, (a i : EReal)) (c : EReal) * Ideal.div (0 + ∑ i, (a i : EReal)) (c : EReal)
        = (v : EReal)
      ∧ Ideal.div (0 + ∑ i, ((a i : EReal) - Ideal.div (0 + ∑ i, (a i : EReal)) (c : EReal))
          * ((a i : EReal) - Ideal.div (0 + ∑ i, (a i : EReal)) (c : EReal))) (c : EReal) = (v : EReal) :=
  ⟨var a c, var_nonneg a c hc, mean_eq a c hc0, var_moments a c hc hc0, var_centered a c hc0⟩

/-! ### The normalised activation and the degree scale -/

/-- The coercion of the larger of two reals is the larger of the coercions. -/
theorem coe_max (x y : ℝ) : ((max x y : ℝ) : EReal) = max (x : EReal) (y : EReal) :=
  EReal.coe_strictMono.monotone.map_max

/-- The reciprocal square root of a positive real is the real reciprocal of its square root. -/
theorem rsqrt_pos {t : ℝ} (ht : 0 < t) : Ideal.rsqrt (t : EReal) = (((Real.sqrt t)⁻¹ : ℝ) : EReal) := by
  rw [Ideal.rsqrt_coe, if_neg (not_lt.mpr ht.le), if_neg ht.ne']

/-- A normalised, scaled and shifted real, cut off below at zero and added to a real, is a real: the variance is
    not negative and the stabiliser is positive, so the reciprocal square root is taken of a positive real. -/
theorem bn_relu_real (a μ v g β x ε : ℝ) (hv : 0 ≤ v) (hε : 0 < ε) :
    ∃ r : ℝ, max (((a : EReal) - (μ : EReal)) * Ideal.rsqrt ((v : EReal) + (ε : EReal)) * (g : EReal)
        + (β : EReal)) 0 + (x : EReal) = (r : EReal) := by
  have hpos : 0 < v + ε := by linarith
  refine ⟨max ((a - μ) * (Real.sqrt (v + ε))⁻¹ * g + β) 0 + x, ?_⟩
  rw [← EReal.coe_add v ε, rsqrt_pos hpos, ← EReal.coe_sub, ← EReal.coe_mul, ← EReal.coe_mul, ← EReal.coe_add,
    ← EReal.coe_zero, ← coe_max, ← EReal.coe_add]

/-- The degree scale of a node — the reciprocal square root of one more than the number of its in-edges — is a
    positive real. -/
theorem degree_scale_pos {ι : Type*} (P : Finset ι) :
    ∃ r : ℝ, 0 < r ∧ Ideal.rsqrt ((0 + ∑ _e ∈ P, ((1 : ℝ) : EReal)) + ((1 : ℝ) : EReal)) = (r : EReal) := by
  have hpos : (0 : ℝ) < ∑ _e ∈ P, (1 : ℝ) + 1 :=
    add_pos_of_nonneg_of_pos (Finset.sum_nonneg fun _ _ => zero_le_one) one_pos
  refine ⟨(Real.sqrt (∑ _e ∈ P, (1 : ℝ) + 1))⁻¹, inv_pos.mpr (Real.sqrt_pos.mpr hpos), ?_⟩
  rw [zero_add, ← coe_sum, ← EReal.coe_add, rsqrt_pos hpos]

/-! ### An accumulation carried across blocks of rows -/

/-- The running total after step `n` when the terms `f 0, f 1, …` are added one at a time to `z`. -/
def sumAcc {M : Type*} [AddCommMonoid M] {T : ℕ} (z : M) (f : Fin T → M) : (n : ℕ) → n < T → M
  | 0, h => z + f ⟨0, h⟩
  | n + 1, h => sumAcc z f n (Nat.lt_of_succ_lt h) + f ⟨n + 1, h⟩

/-- The running total after step `n` is the start plus the sum of the first `n + 1` terms. -/
theorem sumAcc_eq {M : Type*} [AddCommMonoid M] {T : ℕ} (z : M) (f : Fin T → M) (n : ℕ) (h : n < T) :
    sumAcc z f n h = z + ∑ t : Fin (n + 1), f ⟨t.val, Nat.lt_of_lt_of_le t.isLt (Nat.succ_le_of_lt h)⟩ := by
  induction n with
  | zero => rw [sumAcc, Fin.sum_univ_one]; rfl
  | succ n ih =>
    rw [sumAcc, ih (Nat.lt_of_succ_lt h), add_assoc]
    refine congrArg (z + ·) ?_
    exact (Fin.sum_univ_castSucc
      (fun t : Fin (n + 1 + 1) => f ⟨t.val, Nat.lt_of_lt_of_le t.isLt (Nat.succ_le_of_lt h)⟩)).symm

/-- The running total after the last step is the start plus the whole sum. -/
theorem sumAcc_last {M : Type*} [AddCommMonoid M] {T : ℕ} (z : M) (f : Fin T → M) (n : ℕ) (hn : n + 1 = T) :
    sumAcc z f n (hn ▸ Nat.lt_succ_self n) = z + ∑ t, f t := by
  subst hn
  rw [sumAcc_eq]

/-- The running total after step `T - 1` of `T > 0` steps is the start plus the whole sum. -/
theorem sumAcc_pred {M : Type*} [AddCommMonoid M] {T : ℕ} (z : M) (f : Fin T → M) (hT : 0 < T) :
    sumAcc z f (T - 1) (Nat.sub_lt hT Nat.one_pos) = z + ∑ t, f t := by
  obtain ⟨n, rfl⟩ : ∃ n, T = n + 1 := ⟨T - 1, (Nat.sub_add_cancel hT).symm⟩
  exact sumAcc_last z f n rfl

/-- A sum taken block by block, `T` blocks of `B` positions, is the sum over the `T * B` positions, the position
    `n` lying in block `n / B` at place `n % B`. -/
theorem sum_blocks_fin {M : Type*} [AddCommMonoid M] (T B : ℕ) (g : Fin T → Fin B → M) :
    ∑ t : Fin T, ∑ r : Fin B, g t r = ∑ n : Fin (T * B), g n.divNat n.modNat :=
  calc ∑ t : Fin T, ∑ r : Fin B, g t r
      = ∑ p : Fin T × Fin B, g p.1 p.2 := (Fintype.sum_prod_type fun p : Fin T × Fin B => g p.1 p.2).symm
    _ = ∑ n : Fin (T * B), g (finProdFinEquiv.symm n).1 (finProdFinEquiv.symm n).2 :=
        (Equiv.sum_comp finProdFinEquiv.symm fun p : Fin T × Fin B => g p.1 p.2).symm
    _ = ∑ n : Fin (T * B), g n.divNat n.modNat := Finset.sum_congr rfl fun _ _ => rfl

/-- The same regrouping for a summand given on the natural numbers. -/
theorem sum_blocks_nat {M : Type*} [AddCommMonoid M] (T B : ℕ) (G : ℕ → ℕ → M) :
    ∑ t : Fin T, ∑ r : Fin B, G t r = ∑ n : Fin (T * B), G (n / B) (n % B) :=
  sum_blocks_fin T B fun t r => G t r

/-- The same regrouping for a summand of the position alone: position `r` of block `t` is the position
    `B * t + r` of the whole. -/
theorem sum_blocks_index {M : Type*} [AddCommMonoid M] (T B : ℕ) (F : ℕ → M) :
    ∑ t : Fin T, ∑ r : Fin B, F (B * t + r) = ∑ n : Fin (T * B), F n := by
  rw [sum_blocks_nat T B fun t r => F (B * t + r)]
  exact Finset.sum_congr rfl fun n _ => congrArg F (Nat.div_add_mod n.val B)

/-- A total accumulated block by block from `z` — after the last of `T` blocks of `B` positions — is `z` plus the
    sum over all `T * B` positions. -/
theorem sumAcc_blocks {M : Type*} [AddCommMonoid M] (T B : ℕ) (z : M) (F : ℕ → M) (n : ℕ) (hn : n + 1 = T) :
    sumAcc z (fun t : Fin T => ∑ r : Fin B, F (B * t + r)) n (hn ▸ Nat.lt_succ_self n)
      = z + ∑ k : Fin (T * B), F k := by
  rw [sumAcc_last z _ n hn, sum_blocks_index]

end Cert.LibGcnEReal

end
-- ==== Proof.KAccumLib.lean ====
/-
  A block of rows to which a bias row is added and which is cut off below at zero, and the column sums of the block
  and of its entrywise square added to two running rows, read entry by entry on the extended reals.

  For an N×f array A and a 1×f bias row b let R (r, j) = max (A (r, j) + b (0, j), 0).  A block of B consecutive rows
  of A starting at row B·t, with the bias row, gives the B×f block of R at the same rows.  A running row to which the
  block's column sums are added gains, at column j, the sum of R (B·t + p, j) over the rows p of the block; started
  from zero and carried over T blocks with T·B = N it ends as the column sums of R.  The same holds for the squares.
  Addition on the extended reals is a commutative monoid, so regrouping the sums needs no finiteness.
-/
import Idealize.ShloMosaic.Lib.ValueIdx
import Idealize.ShloMosaic.Lib.ValueLayout
import Idealize.ShloMosaic.Lib.Pipeline.Value
import Idealize.ShloMosaic.PureOps.Ideal.Laws
import proofs.«108922_j32160715112488_1_alg».proof.Proof.Spec
import proofs.«108922_j32160715112488_1_alg».proof.Proof.LibMlpStats
import proofs.«108922_j32160715112488_1_alg».proof.Proof.LibGcnEReal

noncomputable section

namespace Cert.KernelIdeal.KVal

open Idealize.ShloMosaic Idealize.ShloMosaic.ValueIdx
open Cert.Gcn
open scoped BigOperators

variable {N B f : Nat}

/-- The offsets of an access at the origin of a matrix, however the zeros are spelt. -/
theorem zero2 : (![0, 0] : Fin 2 → Nat) = fun _ => 0 := funext fun a => by fin_cases a <;> rfl

/-! ### The block: bias added, cut off below at zero -/

/-- A block of rows plus a bias row broadcast down the rows, cut off below at zero, as a kernel body spells it. -/
def biasCut (hx : (⟨2, ![B, f]⟩ : Shape).ShapeCasts ⟨2, ![B, f]⟩)
    (hr : (⟨2, ![1, f]⟩ : Shape).ShapeCasts ⟨2, ![1, f]⟩)
    (hbc : (⟨2, ![1, f]⟩ : Shape).Broadcasts ⟨2, ![B, f]⟩)
    (x : Vec Ideal ⟨2, ![B, f]⟩ .f32) (y : Vec Ideal ⟨2, ![1, f]⟩ .f32) : FVec Ideal ⟨2, ![B, f]⟩ .f32 :=
  maximumf (addf (shapeCast ⟨2, ![B, f]⟩ x hx) (broadcastTo ⟨2, ![B, f]⟩ (shapeCast ⟨2, ![1, f]⟩ y hr) hbc))
    (broadcast ⟨2, ![B, f]⟩ (Scalar.ofBits .f32 0x00000000#32))

/-- Entry (p, q) of the block: the larger of x (p, q) + y (0, q) and zero. -/
theorem biasCut_apply (hx : (⟨2, ![B, f]⟩ : Shape).ShapeCasts ⟨2, ![B, f]⟩)
    (hr : (⟨2, ![1, f]⟩ : Shape).ShapeCasts ⟨2, ![1, f]⟩)
    (hbc : (⟨2, ![1, f]⟩ : Shape).Broadcasts ⟨2, ![B, f]⟩)
    (x : Vec Ideal ⟨2, ![B, f]⟩ .f32) (y : Vec Ideal ⟨2, ![1, f]⟩ .f32) (p : Fin B) (q : Fin f) :
    biasCut hx hr hbc x y (ix2 p q) = max (x (ix2 p q) + y (ix2 (0 : Fin 1) q)) 0 := by
  unfold biasCut
  simp only [shapeCast_self]
  rw [maximumf_apply, addf_apply, broadcastTo_1b_ab_apply, broadcast_apply]
  have hz : (Scalar.ofBits (F := Ideal) .f32 0x00000000#32 : Ideal .f32) = 0 := Ideal.ofBits_zero_f32
  rw [hz]

/-- A row of zeros as a kernel body spells it reads zero everywhere. -/
theorem zeroRow_apply (i : (⟨2, ![1, f]⟩ : Shape).Idx) :
    (broadcast (⟨2, ![1, f]⟩ : Shape) (Scalar.ofBits (F := Ideal) .f32 0x00000000#32) : FVec Ideal ⟨2, ![1, f]⟩ .f32) i = 0 := by
  rw [broadcast_apply]
  exact Ideal.ofBits_zero_f32

/-! ### A column of the whole array as a summand on the natural numbers -/

/-- Entry (k, q) of an N×f array for k below N, and zero past the last row. -/
def rowAt (v : (Sh2 N f).Idx → EReal) (q : Fin f) (k : ℕ) : EReal :=
  if h : k < N then v (ix2 ⟨k, h⟩ q) else 0

/-- The column sums of an N×f array, at column q, as the sum over the T·B = N row numbers. -/
theorem colsum_eq_sum_rowAt (T : ℕ) (hTB : T * B = N) (v : (Sh2 N f).Idx → EReal) (u : Fin 1) (q : Fin f) :
    colsum v (ix2 u q) = ∑ k : Fin (T * B), rowAt v q k := by
  subst hTB
  unfold colsum
  refine Finset.sum_congr rfl fun k _ => ?_
  rw [rowAt, dif_pos k.isLt]
  rfl

/-- A running row started from zero and grown once per block by the block's part of a column is, after the last of
    T blocks of B rows, the column sum over all T·B = N rows. -/
theorem sumAcc_eq_colsum (T : ℕ) (hTB : T * B = N) (v : (Sh2 N f).Idx → EReal) (u : Fin 1) (q : Fin f)
    (n : ℕ) (hn : n + 1 = T) (h : n < T) :
    Cert.LibGcnEReal.sumAcc 0 (fun t : Fin T => ∑ r : Fin B, rowAt v q (B * t + r)) n h = colsum v (ix2 u q) := by
  rw [colsum_eq_sum_rowAt T hTB v u q]
  exact (Cert.LibGcnEReal.sumAcc_blocks T B 0 (rowAt v q) n hn).trans (zero_add _)

/-! ### One block of the cut-off array -/

/-- Where a block holds rows B·t … B·t + B − 1 of A and the bias row holds b, entry (p, q) of the block with the bias
    added and cut off at zero is entry (B·t + p, q) of the whole cut-off array. -/
theorem cut_block (A : (Sh2 N f).Idx → EReal) (b : (Sh2 1 f).Idx → EReal) (t : ℕ) (ht : B * t + B ≤ N)
    (x : Vec Ideal ⟨2, ![B, f]⟩ .f32) (y : Vec Ideal ⟨2, ![1, f]⟩ .f32)
    (hx : ∀ (p : Fin B) (q : Fin f), x (ix2 p q) = A (ix2 ⟨B * t + p.val, by have := p.isLt; omega⟩ q))
    (hy : ∀ q : Fin f, y (ix2 (0 : Fin 1) q) = b (ix2 (0 : Fin 1) q)) (p : Fin B) (q : Fin f) :
    max (x (ix2 p q) + y (ix2 (0 : Fin 1) q)) 0 = rowAt (brelu A b) q (B * t + p.val) := by
  have hp := p.isLt
  rw [rowAt, dif_pos (by omega), hx, hy]
  rfl

/-! ### One step of the two running rows -/

/-- The running row of column sums after a block: what it held plus the block's part of the column. -/
theorem colStep (hx : (⟨2, ![B, f]⟩ : Shape).ShapeCasts ⟨2, ![B, f]⟩)
    (hr : (⟨2, ![1, f]⟩ : Shape).ShapeCasts ⟨2, ![1, f]⟩)
    (hbc : (⟨2, ![1, f]⟩ : Shape).Broadcasts ⟨2, ![B, f]⟩)
    (hred : (⟨2, ![B, f]⟩ : Shape).Reduces [0] ⟨1, ![f]⟩) (hφ : FKind.Formats .f32)
    (hacc : (0x00000000#32 : BitVec (FTy.bits .f32)) = FKind.add.neutral .f32 hφ)
    (hc : (⟨1, ![f]⟩ : Shape).ShapeCasts ⟨2, ![1, f]⟩)
    (A : (Sh2 N f).Idx → EReal) (b : (Sh2 1 f).Idx → EReal) (t : ℕ) (ht : B * t + B ≤ N)
    (x : Vec Ideal ⟨2, ![B, f]⟩ .f32) (y : Vec Ideal ⟨2, ![1, f]⟩ .f32) (acc : Vec Ideal ⟨2, ![1, f]⟩ .f32)
    (hxA : ∀ (p : Fin B) (q : Fin f), x (ix2 p q) = A (ix2 ⟨B * t + p.val, by have := p.isLt; omega⟩ q))
    (hyb : ∀ q : Fin f, y (ix2 (0 : Fin 1) q) = b (ix2 (0 : Fin 1) q)) (u : Fin 1) (q : Fin f) :
    Cert.LibMlpStats.accCols hred hφ hacc hr hc (biasCut hx hr hbc x y) acc (ix2 u q)
      = acc (ix2 u q) + ∑ r : Fin B, rowAt (brelu A b) q (B * t + r) := by
  rw [Cert.LibMlpStats.accCols_apply]
  refine congrArg (acc (ix2 u q) + ·) (Finset.sum_congr rfl fun p _ => ?_)
  exact (biasCut_apply hx hr hbc x y p q).trans (cut_block A b t ht x y hxA hyb p q)

/-- The running row of column sums of squares after a block: what it held plus the block's part of the column of
    squares. -/
theorem sqStep (hx : (⟨2, ![B, f]⟩ : Shape).ShapeCasts ⟨2, ![B, f]⟩)
    (hr : (⟨2, ![1, f]⟩ : Shape).ShapeCasts ⟨2, ![1, f]⟩)
    (hbc : (⟨2, ![1, f]⟩ : Shape).Broadcasts ⟨2, ![B, f]⟩)
    (hred : (⟨2, ![B, f]⟩ : Shape).Reduces [0] ⟨1, ![f]⟩) (hφ : FKind.Formats .f32)
    (hacc : (0x00000000#32 : BitVec (FTy.bits .f32)) = FKind.add.neutral .f32 hφ)
    (hc : (⟨1, ![f]⟩ : Shape).ShapeCasts ⟨2, ![1, f]⟩)
    (A : (Sh2 N f).Idx → EReal) (b : (Sh2 1 f).Idx → EReal) (t : ℕ) (ht : B * t + B ≤ N)
    (x : Vec Ideal ⟨2, ![B, f]⟩ .f32) (y : Vec Ideal ⟨2, ![1, f]⟩ .f32) (acc : Vec Ideal ⟨2, ![1, f]⟩ .f32)
    (hxA : ∀ (p : Fin B) (q : Fin f), x (ix2 p q) = A (ix2 ⟨B * t + p.val, by have := p.isLt; omega⟩ q))
    (hyb : ∀ q : Fin f, y (ix2 (0 : Fin 1) q) = b (ix2 (0 : Fin 1) q)) (u : Fin 1) (q : Fin f) :
    Cert.LibMlpStats.accCols hred hφ hacc hr hc (mulf (biasCut hx hr hbc x y) (biasCut hx hr hbc x y)) acc (ix2 u q)
      = acc (ix2 u q) + ∑ r : Fin B, rowAt (sqr (brelu A b)) q (B * t + r) := by
  rw [Cert.LibMlpStats.accCols_apply]
  refine congrArg (acc (ix2 u q) + ·) (Finset.sum_congr rfl fun p _ => ?_)
  have hp := p.isLt
  have e := (biasCut_apply hx hr hbc x y p q).trans (cut_block A b t ht x y hxA hyb p q)
  rw [mulf_apply, e, rowAt, rowAt, dif_pos (by omega), dif_pos (by omega)]
  rfl

end Cert.KernelIdeal.KVal

end
-- ==== Proof.KAccum1.lean ====
/-
  The value of region 1: a bias row added to 100000 rows of 128 features, cut off below at zero, and the column sums
  of the result and of its squares.

  The grid has 20 points; point t reads rows 5000 t … 5000 t + 4999 of the feature array and the whole bias row,
  writes the same rows of the cut-off array, and adds the block's column sums and column sums of squares to two
  1×128 rows that stay in place over the grid and are set to zero at point 0.  So the first output ends as
  R (r, j) = max (agg (r, j) + b (0, j), 0), the second as the column sums of R over all 100000 rows and the third as
  the column sums of the squares of R: after point t a running row holds the sum over the rows of blocks 0 … t, by
  induction on t, and the sum over the 20 blocks of 5000 rows is the sum over the 100000 rows.
-/
import proofs.«108922_j32160715112488_1_alg».proof.Proof.Gen.KernelIdeal.Frame
import proofs.«108922_j32160715112488_1_alg».proof.Proof.KAccumLib
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Gcn

/-! ## What each control case leaves in each output, as the body's arithmetic of the blocks it read -/

section Pieces1
variable {F : FTy → Type} [FloatOps F]

/-- At the first point the block written to output 2 is the bias-and-cut block of the two input blocks. -/
theorem out1_A_2_eq (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i)
    (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  try sl_unfold_words
  rw [View.canon_unit_zero zero2]
  simp only [View.readAt_eq_ld, h1.read_unread, h2.read_unread, View.ld_unit_zero (S := S5000x128) zero2, View.ld_unit_zero (S := S1x128) zero2]

/-- At the first point the running row of sums is set to zero and then grown by the block's column sums. -/
theorem out1_A_3_eq (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i)
    (x0 : Vec F S5000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) zero2, View.readCov_unit_zero (S := S1x128) _ zero2]
  simp only [View.readAt_eq_ld, h1.read_unread, h2.read_unread, View.ld_unit_zero (S := S5000x128) zero2, View.ld_unit_zero (S := S1x128) zero2]

/-- At the first point the running row of sums of squares is set to zero and then grown by the block's column sums
    of squares. -/
theorem out1_A_4_eq (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i)
    (x0 : Vec F S5000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) zero2, View.readCov_unit_zero (S := S1x128) _ zero2]
  simp only [View.readAt_eq_ld, h1.read_unread, h2.read_unread, View.ld_unit_zero (S := S5000x128) zero2, View.ld_unit_zero (S := S1x128) zero2]

/-- At a later point the block written to output 2 is the bias-and-cut block of the two input blocks. -/
theorem out1_B_2_eq (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i)
    (x0 : Vec F S5000x128 .f32) (x1 : Vec F S1x128 .f32) (xo3 : Vec F S1x128 .f32) (xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  try sl_unfold_words
  rw [View.canon_unit_zero zero2]
  simp only [View.readAt_eq_ld, h1.read_unread, h2.read_unread, View.ld_unit_zero (S := S5000x128) zero2, View.ld_unit_zero (S := S1x128) zero2]

/-- At a later point the running row of sums grows by the block's column sums. -/
theorem out1_B_3_eq (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i)
    (x0 : Vec F S5000x128 .f32) (x1 : Vec F S1x128 .f32) (xo3 : Vec F S1x128 .f32) (xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  try sl_unfold_words
  rw [View.canon_unit_zero zero2]
  simp only [View.readAt_eq_ld, h1.read_unread, h2.read_unread, h4.read_unread, View.ld_unit_zero (S := S5000x128) zero2, View.ld_unit_zero (S := S1x128) zero2]

/-- At a later point the running row of sums of squares grows by the block's column sums of squares. -/
theorem out1_B_4_eq (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i)
    (x0 : Vec F S5000x128 .f32) (x1 : Vec F S1x128 .f32) (xo3 : Vec F S1x128 .f32) (xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  try sl_unfold_words
  rw [View.canon_unit_zero zero2]
  simp only [View.readAt_eq_ld, h1.read_unread, h2.read_unread, h5.read_unread, View.ld_unit_zero (S := S5000x128) zero2, View.ld_unit_zero (S := S1x128) zero2]

end Pieces1

/-! ## The body's arithmetic at an index, over the whole arrays -/

section Arith1

/-- The block written to output 2, at an entry whose place in the whole array is k: the cut-off array there. -/
theorem pay3_1 (A : (Sh2 100000 128).Idx → EReal) (b : (Sh2 1 128).Idx → EReal) (t : ℕ) (ht : 5000 * t + 5000 ≤ 100000)
    (x : Vec Ideal S5000x128 .f32) (y : Vec Ideal S1x128 .f32)
    (hxA : ∀ (p : Fin 5000) (q : Fin 128), x (ix2 p q) = A (ix2 ⟨5000 * t + p.val, by have := p.isLt; omega⟩ q))
    (hyb : ∀ q : Fin 128, y (ix2 (0 : Fin 1) q) = b (ix2 (0 : Fin 1) q))
    (j : S5000x128.Idx) (k : (Sh2 100000 128).Idx) (hk0 : (k 0).val = 5000 * t + (j 0).val) (hk1 : (k 1).val = (j 1).val) :
    k1_pay3 (F := Ideal) x y j = brelu A b k := by
  obtain ⟨p, q, rfl⟩ : ∃ (p : Fin 5000) (q : Fin 128), j = ix2 p q := ⟨j 0, j 1, eq_ix2 j⟩
  have hp := p.isLt
  refine (biasCut_apply shapeCasts_S5000x128_S5000x128 shapeCasts_S1x128_S1x128 broadcasts_S1x128_S5000x128 x y p q).trans ?_
  refine (cut_block A b t ht x y hxA hyb p q).trans ?_
  rw [rowAt, dif_pos (by omega)]
  refine congrArg (brelu A b) ?_
  funext a
  apply Fin.ext
  match a with
  | ⟨0, _⟩ => exact hk0.symm
  | ⟨1, _⟩ => exact hk1.symm

/-- The running row of sums after a block. -/
theorem pay4_1 (A : (Sh2 100000 128).Idx → EReal) (b : (Sh2 1 128).Idx → EReal) (t : ℕ) (ht : 5000 * t + 5000 ≤ 100000)
    (x : Vec Ideal S5000x128 .f32) (y acc : Vec Ideal S1x128 .f32)
    (hxA : ∀ (p : Fin 5000) (q : Fin 128), x (ix2 p q) = A (ix2 ⟨5000 * t + p.val, by have := p.isLt; omega⟩ q))
    (hyb : ∀ q : Fin 128, y (ix2 (0 : Fin 1) q) = b (ix2 (0 : Fin 1) q)) (u : Fin 1) (q : Fin 128) :
    k1_pay4 (F := Ideal) x y acc (ix2 u q) = acc (ix2 u q) + ∑ r : Fin 5000, rowAt (brelu A b) q (5000 * t + r) :=
  colStep shapeCasts_S5000x128_S5000x128 shapeCasts_S1x128_S1x128 broadcasts_S1x128_S5000x128 reduces_S5000x128_S128 (.inl rfl) rfl
    shapeCasts_S128_S1x128 A b t ht x y acc hxA hyb u q

/-- The running row of sums of squares after a block. -/
theorem pay5_1 (A : (Sh2 100000 128).Idx → EReal) (b : (Sh2 1 128).Idx → EReal) (t : ℕ) (ht : 5000 * t + 5000 ≤ 100000)
    (x : Vec Ideal S5000x128 .f32) (y acc : Vec Ideal S1x128 .f32)
    (hxA : ∀ (p : Fin 5000) (q : Fin 128), x (ix2 p q) = A (ix2 ⟨5000 * t + p.val, by have := p.isLt; omega⟩ q))
    (hyb : ∀ q : Fin 128, y (ix2 (0 : Fin 1) q) = b (ix2 (0 : Fin 1) q)) (u : Fin 1) (q : Fin 128) :
    k1_pay5 (F := Ideal) x y acc (ix2 u q) = acc (ix2 u q) + ∑ r : Fin 5000, rowAt (sqr (brelu A b)) q (5000 * t + r) :=
  sqStep shapeCasts_S5000x128_S5000x128 shapeCasts_S1x128_S1x128 broadcasts_S1x128_S5000x128 reduces_S5000x128_S128 (.inl rfl) rfl
    shapeCasts_S128_S1x128 A b t ht x y acc hxA hyb u q

end Arith1

/-! ## The region, at any entry contents -/

section Region1
variable (V : (c : Dev nD) → (b : Ref sig .tc) → Buf (Elt Ideal) ((c : Thread nD τ).loc b))

/-- The feature array and the bias row as the region finds them. -/
abbrev agg1 (c : Dev nD) : (Sh2 100000 128).Idx → EReal := V c (Pipeline.arrRef spec1 0)
abbrev bias1 (c : Dev nD) : (Sh2 1 128).Idx → EReal := V c (Pipeline.arrRef spec1 1)

theorem lt20_1 (t : Fin cfg1.N) : t.val < 20 := lt_of_lt_of_eq t.isLt (show cfg1.N = 20 from N_1)

/-- The last grid point. -/
abbrev last1 : Fin cfg1.N := ⟨19, by rw [show cfg1.N = 20 from N_1]; decide⟩

/-- The windows' index maps at every grid point: windows 0 and 2 are at block row t, window 1 at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point t is rows 5000 t … 5000 t + 4999 of the feature array. -/
theorem iblk1_0_apply (c : Dev nD) (t : Fin cfg1.N) (p : Fin 5000) (q : Fin 128) :
    (iblk1 V c 0 t : Vec Ideal S5000x128 .f32) (ix2 p q)
      = agg1 V c (ix2 ⟨5000 * t.val + p.val, by have := lt20_1 t; have := p.isLt; omega⟩ q) := by
  obtain ⟨e0, e1, -⟩ := idx1 t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- Window 1's block at every point is the bias row. -/
theorem iblk1_1_apply (c : Dev nD) (t : Fin cfg1.N) (q : Fin 128) :
    (iblk1 V c 1 t : Vec Ideal S1x128 .f32) (ix2 (0 : Fin 1) q) = bias1 V c (ix2 (0 : Fin 1) q) := by
  obtain ⟨-, -, e2, e3, -⟩ := idx1 t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- After every point output 2's buffer holds the bias-and-cut block of that point's input blocks. -/
theorem outs1_2 (c : Dev nD) (t : Fin cfg1.N) :
    (outsAt1 V c t.val t.isLt).1 = k1_pay3 (iblk1 V c 0 t) (iblk1 V c 1 t) := by
  by_cases h0 : t.val % 20 = 0
  · rw [outsAt1_A V c t h0]
    dsimp only
    exact out1_A_2_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact out1_B_2_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1 (outsAt1 V c (t.val - 1) (Nat.lt_of_le_of_lt (Nat.sub_le _ _) t.isLt)).2.2

/-- After point n the running row of sums holds, at column q, the sum over the rows of blocks 0 … n. -/
theorem outs1_3 (c : Dev nD) : ∀ (n : ℕ) (h : n < cfg1.N) (u : Fin 1) (q : Fin 128),
    (outsAt1 V c n h).2.1 (ix2 u q)
      = Cert.LibGcnEReal.sumAcc (T := 20) 0
          (fun t : Fin 20 => ∑ r : Fin 5000, rowAt (brelu (agg1 V c) (bias1 V c)) q (5000 * t + r)) n
          (lt_of_lt_of_eq h (show cfg1.N = 20 from N_1))
  | 0, h, u, q => by
    rw [outsAt1_A V c ⟨0, h⟩ rfl]
    refine (congrFun (out1_A_3_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)) (ix2 u q)).trans ?_
    refine (pay4_1 (agg1 V c) (bias1 V c) 0 (by omega) (iblk1 V c 0 ⟨0, h⟩) (iblk1 V c 1 ⟨0, h⟩) (k1_pay1 (F := Ideal))
      (iblk1_0_apply V c ⟨0, h⟩) (iblk1_1_apply V c ⟨0, h⟩) u q).trans ?_
    rw [show (k1_pay1 (F := Ideal)) (ix2 u q) = 0 from zeroRow_apply (ix2 u q)]
    rfl
  | n + 1, h, u, q => by
    have hN : n + 1 < 20 := lt_of_lt_of_eq h (show cfg1.N = 20 from N_1)
    have hB : ¬(⟨n + 1, h⟩ : Fin cfg1.N).val % 20 = 0 := by dsimp only; omega
    rw [outsAt1_B V c ⟨n + 1, h⟩ hB]
    refine (congrFun (out1_B_3_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩)
      (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2) (ix2 u q)).trans ?_
    refine (pay4_1 (agg1 V c) (bias1 V c) (n + 1) (by omega) (iblk1 V c 0 ⟨n + 1, h⟩) (iblk1 V c 1 ⟨n + 1, h⟩) _
      (iblk1_0_apply V c ⟨n + 1, h⟩) (iblk1_1_apply V c ⟨n + 1, h⟩) u q).trans ?_
    show (outsAt1 V c n _).2.1 (ix2 u q) + _ = _
    rw [outs1_3 c n (Nat.lt_of_succ_lt h) u q]
    rfl

/-- After point n the running row of sums of squares holds, at column q, the sum of the squares over the rows of
    blocks 0 … n. -/
theorem outs1_4 (c : Dev nD) : ∀ (n : ℕ) (h : n < cfg1.N) (u : Fin 1) (q : Fin 128),
    (outsAt1 V c n h).2.2 (ix2 u q)
      = Cert.LibGcnEReal.sumAcc (T := 20) 0
          (fun t : Fin 20 => ∑ r : Fin 5000, rowAt (sqr (brelu (agg1 V c) (bias1 V c))) q (5000 * t + r)) n
          (lt_of_lt_of_eq h (show cfg1.N = 20 from N_1))
  | 0, h, u, q => by
    rw [outsAt1_A V c ⟨0, h⟩ rfl]
    refine (congrFun (out1_A_4_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)) (ix2 u q)).trans ?_
    refine (pay5_1 (agg1 V c) (bias1 V c) 0 (by omega) (iblk1 V c 0 ⟨0, h⟩) (iblk1 V c 1 ⟨0, h⟩) (k1_pay2 (F := Ideal))
      (iblk1_0_apply V c ⟨0, h⟩) (iblk1_1_apply V c ⟨0, h⟩) u q).trans ?_
    rw [show (k1_pay2 (F := Ideal)) (ix2 u q) = 0 from zeroRow_apply (ix2 u q)]
    rfl
  | n + 1, h, u, q => by
    have hN : n + 1 < 20 := lt_of_lt_of_eq h (show cfg1.N = 20 from N_1)
    have hB : ¬(⟨n + 1, h⟩ : Fin cfg1.N).val % 20 = 0 := by dsimp only; omega
    rw [outsAt1_B V c ⟨n + 1, h⟩ hB]
    refine (congrFun (out1_B_4_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩)
      (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2) (ix2 u q)).trans ?_
    refine (pay5_1 (agg1 V c) (bias1 V c) (n + 1) (by omega) (iblk1 V c 0 ⟨n + 1, h⟩) (iblk1 V c 1 ⟨n + 1, h⟩) _
      (iblk1_0_apply V c ⟨n + 1, h⟩) (iblk1_1_apply V c ⟨n + 1, h⟩) u q).trans ?_
    show (outsAt1 V c n _).2.2 (ix2 u q) + _ = _
    rw [outs1_4 c n (Nat.lt_of_succ_lt h) u q]
    rfl

/-- After the last point the running row of sums is the column sums of the cut-off array. -/
theorem lastSum1 (c : Dev nD) (n : ℕ) (h : n < cfg1.N) (hn : n + 1 = 20) :
    (outsAt1 V c n h).2.1 = colsum (brelu (agg1 V c) (bias1 V c)) := by
  funext i
  obtain ⟨u, q, rfl⟩ : ∃ (u : Fin 1) (q : Fin 128), i = ix2 u q := ⟨i 0, i 1, eq_ix2 i⟩
  rw [outs1_3 V c n h u q]
  exact sumAcc_eq_colsum (N := 100000) (B := 5000) 20 (by norm_num) (brelu (agg1 V c) (bias1 V c)) u q n hn _

/-- After the last point the running row of sums of squares is the column sums of the squares of the cut-off array. -/
theorem lastSumsq1 (c : Dev nD) (n : ℕ) (h : n < cfg1.N) (hn : n + 1 = 20) :
    (outsAt1 V c n h).2.2 = colsum (sqr (brelu (agg1 V c) (bias1 V c))) := by
  funext i
  obtain ⟨u, q, rfl⟩ : ∃ (u : Fin 1) (q : Fin 128), i = ix2 u q := ⟨i 0, i 1, eq_ix2 i⟩
  rw [outs1_4 V c n h u q]
  exact sumAcc_eq_colsum (N := 100000) (B := 5000) 20 (by norm_num) (sqr (brelu (agg1 V c) (bias1 V c))) u q n hn _

/-! ## From the blocks to the arrays -/

/-- What point t writes back of output 2 is block t of the cut-off array. -/
theorem flushed1_2 (c : Dev nD) (t : Fin cfg1.N) :
    (dat1 V c).flushed 2 t
      = ((cfg1.win 2).blk t).view.read (Elt Ideal) (brelu (agg1 V c) (bias1 V c)) := by
  obtain ⟨-, -, -, -, e4, e5⟩ := idx1 t
  have ht := lt20_1 t
  show (cfg1.win 2).cut (grid1.coords t) ((dat1 V c).after 2 t) = _
  rw [after1_2, outs1_2]
  funext j
  rw [View.read_apply]
  refine pay3_1 (agg1 V c) (bias1 V c) t.val (by omega) (iblk1 V c 0 t) (iblk1 V c 1 t)
    (iblk1_0_apply V c t) (iblk1_1_apply V c t) _ _ ?_ ?_
  · show win1_2.index t (0 : Fin 2) * 5000 + 1 * (j 0).val = 5000 * t.val + (j 0).val
    rw [e4]; omega
  · show win1_2.index t (1 : Fin 2) * 128 + 1 * (j 1).val = (j 1).val
    rw [e5]; omega

/-- Row r of the array lies in the block of point r / 5000. -/
theorem cover1_2 (i : (Sh2 100000 128).Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := idx1 t
  refine ⟨t, flush1_2 t, ?_⟩
  show i ∈ ((View.whole main_v45_0).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 128 ≤ (i 1).val ∧ (i 1).val < win1_2.index t (1 : Fin 2) * 128 + 128
    rw [e5]; omega

/-- THE FIRST OUTPUT: the bias added and cut off below at zero. -/
theorem relu1 (c : Dev nD) :
    (Gen.dat1 (F := Ideal) V c).arrAt 2 cfg1.N
      = brelu (V c (Pipeline.arrRef spec1 0) : (Sh2 100000 128).Idx → EReal)
          (V c (Pipeline.arrRef spec1 1) : (Sh2 1 128).Idx → EReal) :=
  (dat1 V c).arrAt_eq_of_cover 2 (brelu (agg1 V c) (bias1 V c)) (fun t _ => flushed1_2 V c t) (cover1_2)

/-- The index maps of the two running rows at every grid point: block (0, 0). -/
theorem idxAcc1 : ∀ t : Fin cfg1.N, win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The one write-back of output 3, after the last point, writes the column sums. -/
theorem flushed1_3 (c : Dev nD) (t : Fin cfg1.N) (hf : (cfg1.win 3).flush t = true) :
    (dat1 V c).flushed 3 t
      = ((cfg1.win 3).blk t).view.read (Elt Ideal) (colsum (brelu (agg1 V c) (bias1 V c))) := by
  have h19 : t.val + 1 = 20 := by have := (flush1_3 t).mp hf; have := lt20_1 t; omega
  obtain ⟨e0, e1, -⟩ := idxAcc1 t
  show (cfg1.win 3).cut (grid1.coords t) ((dat1 V c).after 3 t) = _
  rw [after1_3, lastSum1 V c t.val t.isLt h19]
  have hz' : (fun a => win1_3.index t a * main_v45_1.ty.shape.size a) = fun _ => 0 := funext fun a => by
    match a with
    | ⟨0, _⟩ => show win1_3.index t (0 : Fin 2) * 1 = 0; rw [e0]
    | ⟨1, _⟩ => show win1_3.index t (1 : Fin 2) * 128 = 0; rw [e1]
  exact (Memref.read_access_unit_zero (Elt Ideal) main_v45_1 hz' (fun a => by rw [congrFun hz' a]; simp) _).symm

/-- The one write-back of output 4, after the last point, writes the column sums of squares. -/
theorem flushed1_4 (c : Dev nD) (t : Fin cfg1.N) (hf : (cfg1.win 4).flush t = true) :
    (dat1 V c).flushed 4 t
      = ((cfg1.win 4).blk t).view.read (Elt Ideal) (colsum (sqr (brelu (agg1 V c) (bias1 V c)))) := by
  have h19 : t.val + 1 = 20 := by have := (flush1_4 t).mp hf; have := lt20_1 t; omega
  obtain ⟨-, -, e2, e3⟩ := idxAcc1 t
  show (cfg1.win 4).cut (grid1.coords t) ((dat1 V c).after 4 t) = _
  rw [after1_4, lastSumsq1 V c t.val t.isLt h19]
  have hz' : (fun a => win1_4.index t a * main_v45_2.ty.shape.size a) = fun _ => 0 := funext fun a => by
    match a with
    | ⟨0, _⟩ => show win1_4.index t (0 : Fin 2) * 1 = 0; rw [e2]
    | ⟨1, _⟩ => show win1_4.index t (1 : Fin 2) * 128 = 0; rw [e3]
  exact (Memref.read_access_unit_zero (Elt Ideal) main_v45_2 hz' (fun a => by rw [congrFun hz' a]; simp) _).symm

/-- THE SECOND OUTPUT: the column sums of the first. -/
theorem sum1 (c : Dev nD) :
    (Gen.dat1 (F := Ideal) V c).arrAt 3 cfg1.N
      = colsum (brelu (V c (Pipeline.arrRef spec1 0) : (Sh2 100000 128).Idx → EReal)
          (V c (Pipeline.arrRef spec1 1) : (Sh2 1 128).Idx → EReal)) :=
  (dat1 V c).arrAt_eq_of_cover 3 (colsum (brelu (agg1 V c) (bias1 V c))) (flushed1_3 V c) fun i => by
    obtain ⟨e0, e1, -⟩ := idxAcc1 last1
    have h0 : (i 0 : Nat) < 1 := (i 0).isLt
    have h1 : (i 1 : Nat) < 128 := (i 1).isLt
    refine ⟨last1, (flush1_3 last1).mpr rfl, ?_⟩
    show i ∈ ((View.whole main_v45_1).slice (win1_3.rect last1)).set
    rw [View.set_slice_whole, Rect.mem_set_unit]
    intro a
    match a with
    | ⟨0, _⟩ =>
      show win1_3.index last1 (0 : Fin 2) * 1 ≤ (i 0 : Nat) ∧ (i 0 : Nat) < win1_3.index last1 (0 : Fin 2) * 1 + 1
      rw [e0]; omega
    | ⟨1, _⟩ =>
      show win1_3.index last1 (1 : Fin 2) * 128 ≤ (i 1 : Nat) ∧ (i 1 : Nat) < win1_3.index last1 (1 : Fin 2) * 128 + 128
      rw [e1]; omega

/-- THE THIRD OUTPUT: the column sums of the squares of the first. -/
theorem sumsq1 (c : Dev nD) :
    (Gen.dat1 (F := Ideal) V c).arrAt 4 cfg1.N
      = colsum (sqr (brelu (V c (Pipeline.arrRef spec1 0) : (Sh2 100000 128).Idx → EReal)
          (V c (Pipeline.arrRef spec1 1) : (Sh2 1 128).Idx → EReal))) :=
  (dat1 V c).arrAt_eq_of_cover 4 (colsum (sqr (brelu (agg1 V c) (bias1 V c)))) (flushed1_4 V c) fun i => by
    obtain ⟨-, -, e2, e3⟩ := idxAcc1 last1
    have h0 : (i 0 : Nat) < 1 := (i 0).isLt
    have h1 : (i 1 : Nat) < 128 := (i 1).isLt
    refine ⟨last1, (flush1_4 last1).mpr rfl, ?_⟩
    show i ∈ ((View.whole main_v45_2).slice (win1_4.rect last1)).set
    rw [View.set_slice_whole, Rect.mem_set_unit]
    intro a
    match a with
    | ⟨0, _⟩ =>
      show win1_4.index last1 (0 : Fin 2) * 1 ≤ (i 0 : Nat) ∧ (i 0 : Nat) < win1_4.index last1 (0 : Fin 2) * 1 + 1
      rw [e2]; omega
    | ⟨1, _⟩ =>
      show win1_4.index last1 (1 : Fin 2) * 128 ≤ (i 1 : Nat) ∧ (i 1 : Nat) < win1_4.index last1 (1 : Fin 2) * 128 + 128
      rw [e3]; omega

end Region1

end Cert.KernelIdeal.KVal

end
-- ==== Proof.KAccum4.lean ====
/-
  The value of region 4: a bias row added to 100000 rows of 128 features, cut off below at zero, and the column sums
  of the result and of its squares.

  The grid has 20 points; point t reads rows 5000 t … 5000 t + 4999 of the feature array and the whole bias row,
  writes the same rows of the cut-off array, and adds the block's column sums and column sums of squares to two
  1×128 rows that stay in place over the grid and are set to zero at point 0.  So the first output ends as
  R (r, j) = max (agg (r, j) + b (0, j), 0), the second as the column sums of R over all 100000 rows and the third as
  the column sums of the squares of R: after point t a running row holds the sum over the rows of blocks 0 … t, by
  induction on t, and the sum over the 20 blocks of 5000 rows is the sum over the 100000 rows.
-/
import proofs.«108922_j32160715112488_1_alg».proof.Proof.Gen.KernelIdeal.Frame
import proofs.«108922_j32160715112488_1_alg».proof.Proof.KAccumLib
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Gcn

/-! ## What each control case leaves in each output, as the body's arithmetic of the blocks it read -/

section Pieces4
variable {F : FTy → Type} [FloatOps F]

/-- At the first point the block written to output 2 is the bias-and-cut block of the two input blocks. -/
theorem out4_A_2_eq (c : Dev nD) (i : grid4.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S5000x128 .f32) (x1 : Vec F S1x128 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  try sl_unfold_words
  rw [View.canon_unit_zero zero2]
  simp only [View.readAt_eq_ld, h1.read_unread, h2.read_unread, View.ld_unit_zero (S := S5000x128) zero2, View.ld_unit_zero (S := S1x128) zero2]

/-- At the first point the running row of sums is set to zero and then grown by the block's column sums. -/
theorem out4_A_3_eq (c : Dev nD) (i : grid4.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S5000x128 .f32) (x1 : Vec F S1x128 .f32) :
    out4_A_3 c i a1 h1 a2 h2 a3 h3 a4 h4 a5 h5 hc x0 x1 = k4_pay4 x0 x1 (k4_pay1 (F := F)) := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x128) zero2, View.readCov_unit_zero (S := S1x128) _ zero2]
  simp only [View.readAt_eq_ld, h1.read_unread, h2.read_unread, View.ld_unit_zero (S := S5000x128) zero2, View.ld_unit_zero (S := S1x128) zero2]

/-- At the first point the running row of sums of squares is set to zero and then grown by the block's column sums
    of squares. -/
theorem out4_A_4_eq (c : Dev nD) (i : grid4.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond4_0 i)
    (x0 : Vec F S5000x128 .f32) (x1 : Vec F S1x128 .f32) :
    out4_A_4 c i a1 h1 a2 h2 a3 h3 a4 h4 a5 h5 hc x0 x1 = k4_pay5 x0 x1 (k4_pay2 (F := F)) := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x128) zero2, View.readCov_unit_zero (S := S1x128) _ zero2]
  simp only [View.readAt_eq_ld, h1.read_unread, h2.read_unread, View.ld_unit_zero (S := S5000x128) zero2, View.ld_unit_zero (S := S1x128) zero2]

/-- At a later point the block written to output 2 is the bias-and-cut block of the two input blocks. -/
theorem out4_B_2_eq (c : Dev nD) (i : grid4.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S5000x128 .f32) (x1 : Vec F S1x128 .f32) (xo3 : Vec F S1x128 .f32) (xo4 : Vec F S1x128 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  try sl_unfold_words
  rw [View.canon_unit_zero zero2]
  simp only [View.readAt_eq_ld, h1.read_unread, h2.read_unread, View.ld_unit_zero (S := S5000x128) zero2, View.ld_unit_zero (S := S1x128) zero2]

/-- At a later point the running row of sums grows by the block's column sums. -/
theorem out4_B_3_eq (c : Dev nD) (i : grid4.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S5000x128 .f32) (x1 : Vec F S1x128 .f32) (xo3 : Vec F S1x128 .f32) (xo4 : Vec F S1x128 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  try sl_unfold_words
  rw [View.canon_unit_zero zero2]
  simp only [View.readAt_eq_ld, h1.read_unread, h2.read_unread, h4.read_unread, View.ld_unit_zero (S := S5000x128) zero2, View.ld_unit_zero (S := S1x128) zero2]

/-- At a later point the running row of sums of squares grows by the block's column sums of squares. -/
theorem out4_B_4_eq (c : Dev nD) (i : grid4.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond4_0 i)
    (x0 : Vec F S5000x128 .f32) (x1 : Vec F S1x128 .f32) (xo3 : Vec F S1x128 .f32) (xo4 : Vec F S1x128 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  try sl_unfold_words
  rw [View.canon_unit_zero zero2]
  simp only [View.readAt_eq_ld, h1.read_unread, h2.read_unread, h5.read_unread, View.ld_unit_zero (S := S5000x128) zero2, View.ld_unit_zero (S := S1x128) zero2]

end Pieces4

/-! ## The body's arithmetic at an index, over the whole arrays -/

section Arith4

/-- The block written to output 2, at an entry whose place in the whole array is k: the cut-off array there. -/
theorem pay3_4 (A : (Sh2 100000 128).Idx → EReal) (b : (Sh2 1 128).Idx → EReal) (t : ℕ) (ht : 5000 * t + 5000 ≤ 100000)
    (x : Vec Ideal S5000x128 .f32) (y : Vec Ideal S1x128 .f32)
    (hxA : ∀ (p : Fin 5000) (q : Fin 128), x (ix2 p q) = A (ix2 ⟨5000 * t + p.val, by have := p.isLt; omega⟩ q))
    (hyb : ∀ q : Fin 128, y (ix2 (0 : Fin 1) q) = b (ix2 (0 : Fin 1) q))
    (j : S5000x128.Idx) (k : (Sh2 100000 128).Idx) (hk0 : (k 0).val = 5000 * t + (j 0).val) (hk1 : (k 1).val = (j 1).val) :
    k4_pay3 (F := Ideal) x y j = brelu A b k := by
  obtain ⟨p, q, rfl⟩ : ∃ (p : Fin 5000) (q : Fin 128), j = ix2 p q := ⟨j 0, j 1, eq_ix2 j⟩
  have hp := p.isLt
  refine (biasCut_apply shapeCasts_S5000x128_S5000x128 shapeCasts_S1x128_S1x128 broadcasts_S1x128_S5000x128 x y p q).trans ?_
  refine (cut_block A b t ht x y hxA hyb p q).trans ?_
  rw [rowAt, dif_pos (by omega)]
  refine congrArg (brelu A b) ?_
  funext a
  apply Fin.ext
  match a with
  | ⟨0, _⟩ => exact hk0.symm
  | ⟨1, _⟩ => exact hk1.symm

/-- The running row of sums after a block. -/
theorem pay4_4 (A : (Sh2 100000 128).Idx → EReal) (b : (Sh2 1 128).Idx → EReal) (t : ℕ) (ht : 5000 * t + 5000 ≤ 100000)
    (x : Vec Ideal S5000x128 .f32) (y acc : Vec Ideal S1x128 .f32)
    (hxA : ∀ (p : Fin 5000) (q : Fin 128), x (ix2 p q) = A (ix2 ⟨5000 * t + p.val, by have := p.isLt; omega⟩ q))
    (hyb : ∀ q : Fin 128, y (ix2 (0 : Fin 1) q) = b (ix2 (0 : Fin 1) q)) (u : Fin 1) (q : Fin 128) :
    k4_pay4 (F := Ideal) x y acc (ix2 u q) = acc (ix2 u q) + ∑ r : Fin 5000, rowAt (brelu A b) q (5000 * t + r) :=
  colStep shapeCasts_S5000x128_S5000x128 shapeCasts_S1x128_S1x128 broadcasts_S1x128_S5000x128 reduces_S5000x128_S128 (.inl rfl) rfl
    shapeCasts_S128_S1x128 A b t ht x y acc hxA hyb u q

/-- The running row of sums of squares after a block. -/
theorem pay5_4 (A : (Sh2 100000 128).Idx → EReal) (b : (Sh2 1 128).Idx → EReal) (t : ℕ) (ht : 5000 * t + 5000 ≤ 100000)
    (x : Vec Ideal S5000x128 .f32) (y acc : Vec Ideal S1x128 .f32)
    (hxA : ∀ (p : Fin 5000) (q : Fin 128), x (ix2 p q) = A (ix2 ⟨5000 * t + p.val, by have := p.isLt; omega⟩ q))
    (hyb : ∀ q : Fin 128, y (ix2 (0 : Fin 1) q) = b (ix2 (0 : Fin 1) q)) (u : Fin 1) (q : Fin 128) :
    k4_pay5 (F := Ideal) x y acc (ix2 u q) = acc (ix2 u q) + ∑ r : Fin 5000, rowAt (sqr (brelu A b)) q (5000 * t + r) :=
  sqStep shapeCasts_S5000x128_S5000x128 shapeCasts_S1x128_S1x128 broadcasts_S1x128_S5000x128 reduces_S5000x128_S128 (.inl rfl) rfl
    shapeCasts_S128_S1x128 A b t ht x y acc hxA hyb u q

end Arith4

/-! ## The region, at any entry contents -/

section Region4
variable (V : (c : Dev nD) → (b : Ref sig .tc) → Buf (Elt Ideal) ((c : Thread nD τ).loc b))

/-- The feature array and the bias row as the region finds them. -/
abbrev agg4 (c : Dev nD) : (Sh2 100000 128).Idx → EReal := V c (Pipeline.arrRef spec4 0)
abbrev bias4 (c : Dev nD) : (Sh2 1 128).Idx → EReal := V c (Pipeline.arrRef spec4 1)

theorem lt20_4 (t : Fin cfg4.N) : t.val < 20 := lt_of_lt_of_eq t.isLt (show cfg4.N = 20 from N_4)

/-- The last grid point. -/
abbrev last4 : Fin cfg4.N := ⟨19, by rw [show cfg4.N = 20 from N_4]; decide⟩

/-- The windows' index maps at every grid point: windows 0 and 2 are at block row t, window 1 at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point t is rows 5000 t … 5000 t + 4999 of the feature array. -/
theorem iblk4_0_apply (c : Dev nD) (t : Fin cfg4.N) (p : Fin 5000) (q : Fin 128) :
    (iblk4 V c 0 t : Vec Ideal S5000x128 .f32) (ix2 p q)
      = agg4 V c (ix2 ⟨5000 * t.val + p.val, by have := lt20_4 t; have := p.isLt; omega⟩ q) := by
  obtain ⟨e0, e1, -⟩ := idx4 t
  unfold iblk4
  rw [View.read_apply]
  show V c (Pipeline.arrRef spec4 0) _ = V c (Pipeline.arrRef spec4 0) _
  refine congrArg _ ?_
  funext a
  apply Fin.ext
  match a with
  | ⟨0, _⟩ => show win4_0.index t (0 : Fin 2) * 5000 + 1 * p.val = 5000 * t.val + p.val; rw [e0]; omega
  | ⟨1, _⟩ => show win4_0.index t (1 : Fin 2) * 128 + 1 * q.val = q.val; rw [e1]; omega

/-- Window 1's block at every point is the bias row. -/
theorem iblk4_1_apply (c : Dev nD) (t : Fin cfg4.N) (q : Fin 128) :
    (iblk4 V c 1 t : Vec Ideal S1x128 .f32) (ix2 (0 : Fin 1) q) = bias4 V c (ix2 (0 : Fin 1) q) := by
  obtain ⟨-, -, e2, e3, -⟩ := idx4 t
  unfold iblk4
  rw [View.read_apply]
  show V c (Pipeline.arrRef spec4 1) _ = V c (Pipeline.arrRef spec4 1) _
  refine congrArg _ ?_
  funext a
  apply Fin.ext
  match a with
  | ⟨0, _⟩ => show win4_1.index t (0 : Fin 2) * 1 + 1 * 0 = 0; rw [e2]
  | ⟨1, _⟩ => show win4_1.index t (1 : Fin 2) * 128 + 1 * q.val = q.val; rw [e3]; omega

/-- After every point output 2's buffer holds the bias-and-cut block of that point's input blocks. -/
theorem outs4_2 (c : Dev nD) (t : Fin cfg4.N) :
    (outsAt4 V c t.val t.isLt).1 = k4_pay3 (iblk4 V c 0 t) (iblk4 V c 1 t) := by
  by_cases h0 : t.val % 20 = 0
  · rw [outsAt4_A V c t h0]
    dsimp only
    exact out4_A_2_eq (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · rw [outsAt4_B V c t h0]
    dsimp only
    exact out4_B_2_eq (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t)
      (outsAt4 V c (t.val - 1) (Nat.lt_of_le_of_lt (Nat.sub_le _ _) t.isLt)).2.1 (outsAt4 V c (t.val - 1) (Nat.lt_of_le_of_lt (Nat.sub_le _ _) t.isLt)).2.2

/-- After point n the running row of sums holds, at column q, the sum over the rows of blocks 0 … n. -/
theorem outs4_3 (c : Dev nD) : ∀ (n : ℕ) (h : n < cfg4.N) (u : Fin 1) (q : Fin 128),
    (outsAt4 V c n h).2.1 (ix2 u q)
      = Cert.LibGcnEReal.sumAcc (T := 20) 0
          (fun t : Fin 20 => ∑ r : Fin 5000, rowAt (brelu (agg4 V c) (bias4 V c)) q (5000 * t + r)) n
          (lt_of_lt_of_eq h (show cfg4.N = 20 from N_4))
  | 0, h, u, q => by
    rw [outsAt4_A V c ⟨0, h⟩ rfl]
    refine (congrFun (out4_A_3_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩)) (ix2 u q)).trans ?_
    refine (pay4_4 (agg4 V c) (bias4 V c) 0 (by omega) (iblk4 V c 0 ⟨0, h⟩) (iblk4 V c 1 ⟨0, h⟩) (k4_pay1 (F := Ideal))
      (iblk4_0_apply V c ⟨0, h⟩) (iblk4_1_apply V c ⟨0, h⟩) u q).trans ?_
    rw [show (k4_pay1 (F := Ideal)) (ix2 u q) = 0 from zeroRow_apply (ix2 u q)]
    rfl
  | n + 1, h, u, q => by
    have hN : n + 1 < 20 := lt_of_lt_of_eq h (show cfg4.N = 20 from N_4)
    have hB : ¬(⟨n + 1, h⟩ : Fin cfg4.N).val % 20 = 0 := by dsimp only; omega
    rw [outsAt4_B V c ⟨n + 1, h⟩ hB]
    refine (congrFun (out4_B_3_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun hh => hB ((hcond4_0 ⟨n + 1, h⟩).mp hh)) (iblk4 V c 0 ⟨n + 1, h⟩) (iblk4 V c 1 ⟨n + 1, h⟩)
      (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2) (ix2 u q)).trans ?_
    refine (pay4_4 (agg4 V c) (bias4 V c) (n + 1) (by omega) (iblk4 V c 0 ⟨n + 1, h⟩) (iblk4 V c 1 ⟨n + 1, h⟩) _
      (iblk4_0_apply V c ⟨n + 1, h⟩) (iblk4_1_apply V c ⟨n + 1, h⟩) u q).trans ?_
    show (outsAt4 V c n _).2.1 (ix2 u q) + _ = _
    rw [outs4_3 c n (Nat.lt_of_succ_lt h) u q]
    rfl

/-- After point n the running row of sums of squares holds, at column q, the sum of the squares over the rows of
    blocks 0 … n. -/
theorem outs4_4 (c : Dev nD) : ∀ (n : ℕ) (h : n < cfg4.N) (u : Fin 1) (q : Fin 128),
    (outsAt4 V c n h).2.2 (ix2 u q)
      = Cert.LibGcnEReal.sumAcc (T := 20) 0
          (fun t : Fin 20 => ∑ r : Fin 5000, rowAt (sqr (brelu (agg4 V c) (bias4 V c))) q (5000 * t + r)) n
          (lt_of_lt_of_eq h (show cfg4.N = 20 from N_4))
  | 0, h, u, q => by
    rw [outsAt4_A V c ⟨0, h⟩ rfl]
    refine (congrFun (out4_A_4_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩)) (ix2 u q)).trans ?_
    refine (pay5_4 (agg4 V c) (bias4 V c) 0 (by omega) (iblk4 V c 0 ⟨0, h⟩) (iblk4 V c 1 ⟨0, h⟩) (k4_pay2 (F := Ideal))
      (iblk4_0_apply V c ⟨0, h⟩) (iblk4_1_apply V c ⟨0, h⟩) u q).trans ?_
    rw [show (k4_pay2 (F := Ideal)) (ix2 u q) = 0 from zeroRow_apply (ix2 u q)]
    rfl
  | n + 1, h, u, q => by
    have hN : n + 1 < 20 := lt_of_lt_of_eq h (show cfg4.N = 20 from N_4)
    have hB : ¬(⟨n + 1, h⟩ : Fin cfg4.N).val % 20 = 0 := by dsimp only; omega
    rw [outsAt4_B V c ⟨n + 1, h⟩ hB]
    refine (congrFun (out4_B_4_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun hh => hB ((hcond4_0 ⟨n + 1, h⟩).mp hh)) (iblk4 V c 0 ⟨n + 1, h⟩) (iblk4 V c 1 ⟨n + 1, h⟩)
      (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2) (ix2 u q)).trans ?_
    refine (pay5_4 (agg4 V c) (bias4 V c) (n + 1) (by omega) (iblk4 V c 0 ⟨n + 1, h⟩) (iblk4 V c 1 ⟨n + 1, h⟩) _
      (iblk4_0_apply V c ⟨n + 1, h⟩) (iblk4_1_apply V c ⟨n + 1, h⟩) u q).trans ?_
    show (outsAt4 V c n _).2.2 (ix2 u q) + _ = _
    rw [outs4_4 c n (Nat.lt_of_succ_lt h) u q]
    rfl

/-- After the last point the running row of sums is the column sums of the cut-off array. -/
theorem lastSum4 (c : Dev nD) (n : ℕ) (h : n < cfg4.N) (hn : n + 1 = 20) :
    (outsAt4 V c n h).2.1 = colsum (brelu (agg4 V c) (bias4 V c)) := by
  funext i
  obtain ⟨u, q, rfl⟩ : ∃ (u : Fin 1) (q : Fin 128), i = ix2 u q := ⟨i 0, i 1, eq_ix2 i⟩
  rw [outs4_3 V c n h u q]
  exact sumAcc_eq_colsum (N := 100000) (B := 5000) 20 (by norm_num) (brelu (agg4 V c) (bias4 V c)) u q n hn _

/-- After the last point the running row of sums of squares is the column sums of the squares of the cut-off array. -/
theorem lastSumsq4 (c : Dev nD) (n : ℕ) (h : n < cfg4.N) (hn : n + 1 = 20) :
    (outsAt4 V c n h).2.2 = colsum (sqr (brelu (agg4 V c) (bias4 V c))) := by
  funext i
  obtain ⟨u, q, rfl⟩ : ∃ (u : Fin 1) (q : Fin 128), i = ix2 u q := ⟨i 0, i 1, eq_ix2 i⟩
  rw [outs4_4 V c n h u q]
  exact sumAcc_eq_colsum (N := 100000) (B := 5000) 20 (by norm_num) (sqr (brelu (agg4 V c) (bias4 V c))) u q n hn _

/-! ## From the blocks to the arrays -/

/-- What point t writes back of output 2 is block t of the cut-off array. -/
theorem flushed4_2 (c : Dev nD) (t : Fin cfg4.N) :
    (dat4 V c).flushed 2 t
      = ((cfg4.win 2).blk t).view.read (Elt Ideal) (brelu (agg4 V c) (bias4 V c)) := by
  obtain ⟨-, -, -, -, e4, e5⟩ := idx4 t
  have ht := lt20_4 t
  show (cfg4.win 2).cut (grid4.coords t) ((dat4 V c).after 2 t) = _
  rw [after4_2, outs4_2]
  funext j
  rw [View.read_apply]
  refine pay3_4 (agg4 V c) (bias4 V c) t.val (by omega) (iblk4 V c 0 t) (iblk4 V c 1 t)
    (iblk4_0_apply V c t) (iblk4_1_apply V c t) _ _ ?_ ?_
  · show win4_2.index t (0 : Fin 2) * 5000 + 1 * (j 0).val = 5000 * t.val + (j 0).val
    rw [e4]; omega
  · show win4_2.index t (1 : Fin 2) * 128 + 1 * (j 1).val = (j 1).val
    rw [e5]; omega

/-- Row r of the array lies in the block of point r / 5000. -/
theorem cover4_2 (i : (Sh2 100000 128).Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e4, e5⟩ := idx4 t
  refine ⟨t, flush4_2 t, ?_⟩
  show i ∈ ((View.whole main_v74_0).slice (win4_2.rect t)).set
  rw [View.set_slice_whole, Rect.mem_set_unit]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 128 ≤ (i 1).val ∧ (i 1).val < win4_2.index t (1 : Fin 2) * 128 + 128
    rw [e5]; omega

/-- THE FIRST OUTPUT: the bias added and cut off below at zero. -/
theorem relu4 (c : Dev nD) :
    (Gen.dat4 (F := Ideal) V c).arrAt 2 cfg4.N
      = brelu (V c (Pipeline.arrRef spec4 0) : (Sh2 100000 128).Idx → EReal)
          (V c (Pipeline.arrRef spec4 1) : (Sh2 1 128).Idx → EReal) :=
  (dat4 V c).arrAt_eq_of_cover 2 (brelu (agg4 V c) (bias4 V c)) (fun t _ => flushed4_2 V c t) (cover4_2)

/-- The index maps of the two running rows at every grid point: block (0, 0). -/
theorem idxAcc4 : ∀ t : Fin cfg4.N, win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The one write-back of output 3, after the last point, writes the column sums. -/
theorem flushed4_3 (c : Dev nD) (t : Fin cfg4.N) (hf : (cfg4.win 3).flush t = true) :
    (dat4 V c).flushed 3 t
      = ((cfg4.win 3).blk t).view.read (Elt Ideal) (colsum (brelu (agg4 V c) (bias4 V c))) := by
  have h19 : t.val + 1 = 20 := by have := (flush4_3 t).mp hf; have := lt20_4 t; omega
  obtain ⟨e0, e1, -⟩ := idxAcc4 t
  show (cfg4.win 3).cut (grid4.coords t) ((dat4 V c).after 3 t) = _
  rw [after4_3, lastSum4 V c t.val t.isLt h19]
  have hz' : (fun a => win4_3.index t a * main_v74_1.ty.shape.size a) = fun _ => 0 := funext fun a => by
    match a with
    | ⟨0, _⟩ => show win4_3.index t (0 : Fin 2) * 1 = 0; rw [e0]
    | ⟨1, _⟩ => show win4_3.index t (1 : Fin 2) * 128 = 0; rw [e1]
  exact (Memref.read_access_unit_zero (Elt Ideal) main_v74_1 hz' (fun a => by rw [congrFun hz' a]; simp) _).symm

/-- The one write-back of output 4, after the last point, writes the column sums of squares. -/
theorem flushed4_4 (c : Dev nD) (t : Fin cfg4.N) (hf : (cfg4.win 4).flush t = true) :
    (dat4 V c).flushed 4 t
      = ((cfg4.win 4).blk t).view.read (Elt Ideal) (colsum (sqr (brelu (agg4 V c) (bias4 V c)))) := by
  have h19 : t.val + 1 = 20 := by have := (flush4_4 t).mp hf; have := lt20_4 t; omega
  obtain ⟨-, -, e2, e3⟩ := idxAcc4 t
  show (cfg4.win 4).cut (grid4.coords t) ((dat4 V c).after 4 t) = _
  rw [after4_4, lastSumsq4 V c t.val t.isLt h19]
  have hz' : (fun a => win4_4.index t a * main_v74_2.ty.shape.size a) = fun _ => 0 := funext fun a => by
    match a with
    | ⟨0, _⟩ => show win4_4.index t (0 : Fin 2) * 1 = 0; rw [e2]
    | ⟨1, _⟩ => show win4_4.index t (1 : Fin 2) * 128 = 0; rw [e3]
  exact (Memref.read_access_unit_zero (Elt Ideal) main_v74_2 hz' (fun a => by rw [congrFun hz' a]; simp) _).symm

/-- THE SECOND OUTPUT: the column sums of the first. -/
theorem sum4 (c : Dev nD) :
    (Gen.dat4 (F := Ideal) V c).arrAt 3 cfg4.N
      = colsum (brelu (V c (Pipeline.arrRef spec4 0) : (Sh2 100000 128).Idx → EReal)
          (V c (Pipeline.arrRef spec4 1) : (Sh2 1 128).Idx → EReal)) :=
  (dat4 V c).arrAt_eq_of_cover 3 (colsum (brelu (agg4 V c) (bias4 V c))) (flushed4_3 V c) fun i => by
    obtain ⟨e0, e1, -⟩ := idxAcc4 last4
    have h0 : (i 0 : Nat) < 1 := (i 0).isLt
    have h1 : (i 1 : Nat) < 128 := (i 1).isLt
    refine ⟨last4, (flush4_3 last4).mpr rfl, ?_⟩
    show i ∈ ((View.whole main_v74_1).slice (win4_3.rect last4)).set
    rw [View.set_slice_whole, Rect.mem_set_unit]
    intro a
    match a with
    | ⟨0, _⟩ =>
      show win4_3.index last4 (0 : Fin 2) * 1 ≤ (i 0 : Nat) ∧ (i 0 : Nat) < win4_3.index last4 (0 : Fin 2) * 1 + 1
      rw [e0]; omega
    | ⟨1, _⟩ =>
      show win4_3.index last4 (1 : Fin 2) * 128 ≤ (i 1 : Nat) ∧ (i 1 : Nat) < win4_3.index last4 (1 : Fin 2) * 128 + 128
      rw [e1]; omega

/-- THE THIRD OUTPUT: the column sums of the squares of the first. -/
theorem sumsq4 (c : Dev nD) :
    (Gen.dat4 (F := Ideal) V c).arrAt 4 cfg4.N
      = colsum (sqr (brelu (V c (Pipeline.arrRef spec4 0) : (Sh2 100000 128).Idx → EReal)
          (V c (Pipeline.arrRef spec4 1) : (Sh2 1 128).Idx → EReal))) :=
  (dat4 V c).arrAt_eq_of_cover 4 (colsum (sqr (brelu (agg4 V c) (bias4 V c)))) (flushed4_4 V c) fun i => by
    obtain ⟨-, -, e2, e3⟩ := idxAcc4 last4
    have h0 : (i 0 : Nat) < 1 := (i 0).isLt
    have h1 : (i 1 : Nat) < 128 := (i 1).isLt
    refine ⟨last4, (flush4_4 last4).mpr rfl, ?_⟩
    show i ∈ ((View.whole main_v74_2).slice (win4_4.rect last4)).set
    rw [View.set_slice_whole, Rect.mem_set_unit]
    intro a
    match a with
    | ⟨0, _⟩ =>
      show win4_4.index last4 (0 : Fin 2) * 1 ≤ (i 0 : Nat) ∧ (i 0 : Nat) < win4_4.index last4 (0 : Fin 2) * 1 + 1
      rw [e2]; omega
    | ⟨1, _⟩ =>
      show win4_4.index last4 (1 : Fin 2) * 128 ≤ (i 1 : Nat) ∧ (i 1 : Nat) < win4_4.index last4 (1 : Fin 2) * 128 + 128
      rw [e3]; omega

end Region4

end Cert.KernelIdeal.KVal

end
-- ==== Proof.KAccum7.lean ====
/-
  The value of region 7: a bias row added to 100000 rows of 64 features, cut off below at zero, and the column sums
  of the result and of its squares.

  The grid has 20 points; point t reads rows 5000 t … 5000 t + 4999 of the feature array and the whole bias row,
  writes the same rows of the cut-off array, and adds the block's column sums and column sums of squares to two
  1×64 rows that stay in place over the grid and are set to zero at point 0.  So the first output ends as
  R (r, j) = max (agg (r, j) + b (0, j), 0), the second as the column sums of R over all 100000 rows and the third as
  the column sums of the squares of R: after point t a running row holds the sum over the rows of blocks 0 … t, by
  induction on t, and the sum over the 20 blocks of 5000 rows is the sum over the 100000 rows.
-/
import proofs.«108922_j32160715112488_1_alg».proof.Proof.Gen.KernelIdeal.Frame
import proofs.«108922_j32160715112488_1_alg».proof.Proof.KAccumLib
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.Gcn

/-! ## What each control case leaves in each output, as the body's arithmetic of the blocks it read -/

section Pieces7
variable {F : FTy → Type} [FloatOps F]

/-- At the first point the block written to output 2 is the bias-and-cut block of the two input blocks. -/
theorem out7_A_2_eq (c : Dev nD) (i : grid7.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond7_0 i)
    (x0 : Vec F S5000x64 .f32) (x1 : Vec F S1x64 .f32) :
    out7_A_2 c i a1 h1 a2 h2 a3 h3 a4 h4 a5 h5 hc x0 x1 = k7_pay3 x0 x1 := by
  unfold out7_A_2
  rw [View.read_writes_eq_canon _ _ _ (cover7_A_2 c i a1 h1 a2 h2 a3 h3 a4 h4 a5 h5 hc x0 x1)]
  unfold kernelRun7_A
  dsimp only
  try sl_unfold_words
  rw [View.canon_unit_zero zero2]
  simp only [View.readAt_eq_ld, h1.read_unread, h2.read_unread, View.ld_unit_zero (S := S5000x64) zero2, View.ld_unit_zero (S := S1x64) zero2]

/-- At the first point the running row of sums is set to zero and then grown by the block's column sums. -/
theorem out7_A_3_eq (c : Dev nD) (i : grid7.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond7_0 i)
    (x0 : Vec F S5000x64 .f32) (x1 : Vec F S1x64 .f32) :
    out7_A_3 c i a1 h1 a2 h2 a3 h3 a4 h4 a5 h5 hc x0 x1 = k7_pay4 x0 x1 (k7_pay1 (F := F)) := by
  unfold out7_A_3
  rw [View.read_writes_eq_canon _ _ _ (cover7_A_3 c i a1 h1 a2 h2 a3 h3 a4 h4 a5 h5 hc x0 x1)]
  unfold kernelRun7_A
  dsimp only
  sl_unfold_words
  rw [View.canon_cons_unit_zero (S := S1x64) zero2, View.readCov_unit_zero (S := S1x64) _ zero2]
  simp only [View.readAt_eq_ld, h1.read_unread, h2.read_unread, View.ld_unit_zero (S := S5000x64) zero2, View.ld_unit_zero (S := S1x64) zero2]

/-- At the first point the running row of sums of squares is set to zero and then grown by the block's column sums
    of squares. -/
theorem out7_A_4_eq (c : Dev nD) (i : grid7.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond7_0 i)
    (x0 : Vec F S5000x64 .f32) (x1 : Vec F S1x64 .f32) :
    out7_A_4 c i a1 h1 a2 h2 a3 h3 a4 h4 a5 h5 hc x0 x1 = k7_pay5 x0 x1 (k7_pay2 (F := F)) := by
  unfold out7_A_4
  rw [View.read_writes_eq_canon _ _ _ (cover7_A_4 c i a1 h1 a2 h2 a3 h3 a4 h4 a5 h5 hc x0 x1)]
  unfold kernelRun7_A
  dsimp only
  sl_unfold_words
  rw [View.canon_cons_unit_zero (S := S1x64) zero2, View.readCov_unit_zero (S := S1x64) _ zero2]
  simp only [View.readAt_eq_ld, h1.read_unread, h2.read_unread, View.ld_unit_zero (S := S5000x64) zero2, View.ld_unit_zero (S := S1x64) zero2]

/-- At a later point the block written to output 2 is the bias-and-cut block of the two input blocks. -/
theorem out7_B_2_eq (c : Dev nD) (i : grid7.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond7_0 i)
    (x0 : Vec F S5000x64 .f32) (x1 : Vec F S1x64 .f32) (xo3 : Vec F S1x64 .f32) (xo4 : Vec F S1x64 .f32) :
    out7_B_2 c i a1 h1 a2 h2 a3 h3 a4 h4 a5 h5 hc x0 x1 xo3 xo4 = k7_pay3 x0 x1 := by
  unfold out7_B_2
  rw [View.read_writes_eq_canon _ _ _ (cover7_B_2 c i a1 h1 a2 h2 a3 h3 a4 h4 a5 h5 hc x0 x1 xo3 xo4)]
  unfold kernelRun7_B
  dsimp only
  try sl_unfold_words
  rw [View.canon_unit_zero zero2]
  simp only [View.readAt_eq_ld, h1.read_unread, h2.read_unread, View.ld_unit_zero (S := S5000x64) zero2, View.ld_unit_zero (S := S1x64) zero2]

/-- At a later point the running row of sums grows by the block's column sums. -/
theorem out7_B_3_eq (c : Dev nD) (i : grid7.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond7_0 i)
    (x0 : Vec F S5000x64 .f32) (x1 : Vec F S1x64 .f32) (xo3 : Vec F S1x64 .f32) (xo4 : Vec F S1x64 .f32) :
    out7_B_3 c i a1 h1 a2 h2 a3 h3 a4 h4 a5 h5 hc x0 x1 xo3 xo4 = k7_pay4 x0 x1 xo3 := by
  unfold out7_B_3
  rw [View.read_writes_eq_canon _ _ _ (cover7_B_3 c i a1 h1 a2 h2 a3 h3 a4 h4 a5 h5 hc x0 x1 xo3 xo4)]
  unfold kernelRun7_B
  dsimp only
  try sl_unfold_words
  rw [View.canon_unit_zero zero2]
  simp only [View.readAt_eq_ld, h1.read_unread, h2.read_unread, h4.read_unread, View.ld_unit_zero (S := S5000x64) zero2, View.ld_unit_zero (S := S1x64) zero2]

/-- At a later point the running row of sums of squares grows by the block's column sums of squares. -/
theorem out7_B_4_eq (c : Dev nD) (i : grid7.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond7_0 i)
    (x0 : Vec F S5000x64 .f32) (x1 : Vec F S1x64 .f32) (xo3 : Vec F S1x64 .f32) (xo4 : Vec F S1x64 .f32) :
    out7_B_4 c i a1 h1 a2 h2 a3 h3 a4 h4 a5 h5 hc x0 x1 xo3 xo4 = k7_pay5 x0 x1 xo4 := by
  unfold out7_B_4
  rw [View.read_writes_eq_canon _ _ _ (cover7_B_4 c i a1 h1 a2 h2 a3 h3 a4 h4 a5 h5 hc x0 x1 xo3 xo4)]
  unfold kernelRun7_B
  dsimp only
  try sl_unfold_words
  rw [View.canon_unit_zero zero2]
  simp only [View.readAt_eq_ld, h1.read_unread, h2.read_unread, h5.read_unread, View.ld_unit_zero (S := S5000x64) zero2, View.ld_unit_zero (S := S1x64) zero2]

end Pieces7

/-! ## The body's arithmetic at an index, over the whole arrays -/

section Arith7

/-- The block written to output 2, at an entry whose place in the whole array is k: the cut-off array there. -/
theorem pay3_7 (A : (Sh2 100000 64).Idx → EReal) (b : (Sh2 1 64).Idx → EReal) (t : ℕ) (ht : 5000 * t + 5000 ≤ 100000)
    (x : Vec Ideal S5000x64 .f32) (y : Vec Ideal S1x64 .f32)
    (hxA : ∀ (p : Fin 5000) (q : Fin 64), x (ix2 p q) = A (ix2 ⟨5000 * t + p.val, by have := p.isLt; omega⟩ q))
    (hyb : ∀ q : Fin 64, y (ix2 (0 : Fin 1) q) = b (ix2 (0 : Fin 1) q))
    (j : S5000x64.Idx) (k : (Sh2 100000 64).Idx) (hk0 : (k 0).val = 5000 * t + (j 0).val) (hk1 : (k 1).val = (j 1).val) :
    k7_pay3 (F := Ideal) x y j = brelu A b k := by
  obtain ⟨p, q, rfl⟩ : ∃ (p : Fin 5000) (q : Fin 64), j = ix2 p q := ⟨j 0, j 1, eq_ix2 j⟩
  have hp := p.isLt
  refine (biasCut_apply shapeCasts_S5000x64_S5000x64 shapeCasts_S1x64_S1x64 broadcasts_S1x64_S5000x64 x y p q).trans ?_
  refine (cut_block A b t ht x y hxA hyb p q).trans ?_
  rw [rowAt, dif_pos (by omega)]
  refine congrArg (brelu A b) ?_
  funext a
  apply Fin.ext
  match a with
  | ⟨0, _⟩ => exact hk0.symm
  | ⟨1, _⟩ => exact hk1.symm

/-- The running row of sums after a block. -/
theorem pay4_7 (A : (Sh2 100000 64).Idx → EReal) (b : (Sh2 1 64).Idx → EReal) (t : ℕ) (ht : 5000 * t + 5000 ≤ 100000)
    (x : Vec Ideal S5000x64 .f32) (y acc : Vec Ideal S1x64 .f32)
    (hxA : ∀ (p : Fin 5000) (q : Fin 64), x (ix2 p q) = A (ix2 ⟨5000 * t + p.val, by have := p.isLt; omega⟩ q))
    (hyb : ∀ q : Fin 64, y (ix2 (0 : Fin 1) q) = b (ix2 (0 : Fin 1) q)) (u : Fin 1) (q : Fin 64) :
    k7_pay4 (F := Ideal) x y acc (ix2 u q) = acc (ix2 u q) + ∑ r : Fin 5000, rowAt (brelu A b) q (5000 * t + r) :=
  colStep shapeCasts_S5000x64_S5000x64 shapeCasts_S1x64_S1x64 broadcasts_S1x64_S5000x64 reduces_S5000x64_S64 (.inl rfl) rfl
    shapeCasts_S64_S1x64 A b t ht x y acc hxA hyb u q

/-- The running row of sums of squares after a block. -/
theorem pay5_7 (A : (Sh2 100000 64).Idx → EReal) (b : (Sh2 1 64).Idx → EReal) (t : ℕ) (ht : 5000 * t + 5000 ≤ 100000)
    (x : Vec Ideal S5000x64 .f32) (y acc : Vec Ideal S1x64 .f32)
    (hxA : ∀ (p : Fin 5000) (q : Fin 64), x (ix2 p q) = A (ix2 ⟨5000 * t + p.val, by have := p.isLt; omega⟩ q))
    (hyb : ∀ q : Fin 64, y (ix2 (0 : Fin 1) q) = b (ix2 (0 : Fin 1) q)) (u : Fin 1) (q : Fin 64) :
    k7_pay5 (F := Ideal) x y acc (ix2 u q) = acc (ix2 u q) + ∑ r : Fin 5000, rowAt (sqr (brelu A b)) q (5000 * t + r) :=
  sqStep shapeCasts_S5000x64_S5000x64 shapeCasts_S1x64_S1x64 broadcasts_S1x64_S5000x64 reduces_S5000x64_S64 (.inl rfl) rfl
    shapeCasts_S64_S1x64 A b t ht x y acc hxA hyb u q

end Arith7

/-! ## The region, at any entry contents -/

section Region7
variable (V : (c : Dev nD) → (b : Ref sig .tc) → Buf (Elt Ideal) ((c : Thread nD τ).loc b))

/-- The feature array and the bias row as the region finds them. -/
abbrev agg7 (c : Dev nD) : (Sh2 100000 64).Idx → EReal := V c (Pipeline.arrRef spec7 0)
abbrev bias7 (c : Dev nD) : (Sh2 1 64).Idx → EReal := V c (Pipeline.arrRef spec7 1)

theorem lt20_7 (t : Fin cfg7.N) : t.val < 20 := lt_of_lt_of_eq t.isLt (show cfg7.N = 20 from N_7)

/-- The last grid point. -/
abbrev last7 : Fin cfg7.N := ⟨19, by rw [show cfg7.N = 20 from N_7]; decide⟩

/-- The windows' index maps at every grid point: windows 0 and 2 are at block row t, window 1 at block 0. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Window 0's block at point t is rows 5000 t … 5000 t + 4999 of the feature array. -/
theorem iblk7_0_apply (c : Dev nD) (t : Fin cfg7.N) (p : Fin 5000) (q : Fin 64) :
    (iblk7 V c 0 t : Vec Ideal S5000x64 .f32) (ix2 p q)
      = agg7 V c (ix2 ⟨5000 * t.val + p.val, by have := lt20_7 t; have := p.isLt; omega⟩ q) := by
  obtain ⟨e0, e1, -⟩ := idx7 t
  unfold iblk7
  rw [View.read_apply]
  show V c (Pipeline.arrRef spec7 0) _ = V c (Pipeline.arrRef spec7 0) _
  refine congrArg _ ?_
  funext a
  apply Fin.ext
  match a with
  | ⟨0, _⟩ => show win7_0.index t (0 : Fin 2) * 5000 + 1 * p.val = 5000 * t.val + p.val; rw [e0]; omega
  | ⟨1, _⟩ => show win7_0.index t (1 : Fin 2) * 64 + 1 * q.val = q.val; rw [e1]; omega

/-- Window 1's block at every point is the bias row. -/
theorem iblk7_1_apply (c : Dev nD) (t : Fin cfg7.N) (q : Fin 64) :
    (iblk7 V c 1 t : Vec Ideal S1x64 .f32) (ix2 (0 : Fin 1) q) = bias7 V c (ix2 (0 : Fin 1) q) := by
  obtain ⟨-, -, e2, e3, -⟩ := idx7 t
  unfold iblk7
  rw [View.read_apply]
  show V c (Pipeline.arrRef spec7 1) _ = V c (Pipeline.arrRef spec7 1) _
  refine congrArg _ ?_
  funext a
  apply Fin.ext
  match a with
  | ⟨0, _⟩ => show win7_1.index t (0 : Fin 2) * 1 + 1 * 0 = 0; rw [e2]
  | ⟨1, _⟩ => show win7_1.index t (1 : Fin 2) * 64 + 1 * q.val = q.val; rw [e3]; omega

/-- After every point output 2's buffer holds the bias-and-cut block of that point's input blocks. -/
theorem outs7_2 (c : Dev nD) (t : Fin cfg7.N) :
    (outsAt7 V c t.val t.isLt).1 = k7_pay3 (iblk7 V c 0 t) (iblk7 V c 1 t) := by
  by_cases h0 : t.val % 20 = 0
  · rw [outsAt7_A V c t h0]
    dsimp only
    exact out7_A_2_eq (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)
  · rw [outsAt7_B V c t h0]
    dsimp only
    exact out7_B_2_eq (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t)
      (outsAt7 V c (t.val - 1) (Nat.lt_of_le_of_lt (Nat.sub_le _ _) t.isLt)).2.1 (outsAt7 V c (t.val - 1) (Nat.lt_of_le_of_lt (Nat.sub_le _ _) t.isLt)).2.2

/-- After point n the running row of sums holds, at column q, the sum over the rows of blocks 0 … n. -/
theorem outs7_3 (c : Dev nD) : ∀ (n : ℕ) (h : n < cfg7.N) (u : Fin 1) (q : Fin 64),
    (outsAt7 V c n h).2.1 (ix2 u q)
      = Cert.LibGcnEReal.sumAcc (T := 20) 0
          (fun t : Fin 20 => ∑ r : Fin 5000, rowAt (brelu (agg7 V c) (bias7 V c)) q (5000 * t + r)) n
          (lt_of_lt_of_eq h (show cfg7.N = 20 from N_7))
  | 0, h, u, q => by
    rw [outsAt7_A V c ⟨0, h⟩ rfl]
    refine (congrFun (out7_A_3_eq (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) (ms7_3 ⟨0, h⟩) (hs7_3 ⟨0, h⟩) (ms7_4 ⟨0, h⟩) (hs7_4 ⟨0, h⟩) ((hcond7_0 ⟨0, h⟩).mpr rfl) (iblk7 V c 0 ⟨0, h⟩) (iblk7 V c 1 ⟨0, h⟩)) (ix2 u q)).trans ?_
    refine (pay4_7 (agg7 V c) (bias7 V c) 0 (by omega) (iblk7 V c 0 ⟨0, h⟩) (iblk7 V c 1 ⟨0, h⟩) (k7_pay1 (F := Ideal))
      (iblk7_0_apply V c ⟨0, h⟩) (iblk7_1_apply V c ⟨0, h⟩) u q).trans ?_
    rw [show (k7_pay1 (F := Ideal)) (ix2 u q) = 0 from zeroRow_apply (ix2 u q)]
    rfl
  | n + 1, h, u, q => by
    have hN : n + 1 < 20 := lt_of_lt_of_eq h (show cfg7.N = 20 from N_7)
    have hB : ¬(⟨n + 1, h⟩ : Fin cfg7.N).val % 20 = 0 := by dsimp only; omega
    rw [outsAt7_B V c ⟨n + 1, h⟩ hB]
    refine (congrFun (out7_B_3_eq (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) (ms7_4 ⟨n + 1, h⟩) (hs7_4 ⟨n + 1, h⟩) (fun hh => hB ((hcond7_0 ⟨n + 1, h⟩).mp hh)) (iblk7 V c 0 ⟨n + 1, h⟩) (iblk7 V c 1 ⟨n + 1, h⟩)
      (outsAt7 V c ((⟨n + 1, h⟩ : Fin cfg7.N).val - 1) (Nat.lt_of_le_of_lt (Nat.sub_le _ _) (⟨n + 1, h⟩ : Fin cfg7.N).isLt)).2.1 (outsAt7 V c ((⟨n + 1, h⟩ : Fin cfg7.N).val - 1) (Nat.lt_of_le_of_lt (Nat.sub_le _ _) (⟨n + 1, h⟩ : Fin cfg7.N).isLt)).2.2) (ix2 u q)).trans ?_
    refine (pay4_7 (agg7 V c) (bias7 V c) (n + 1) (by omega) (iblk7 V c 0 ⟨n + 1, h⟩) (iblk7 V c 1 ⟨n + 1, h⟩) _
      (iblk7_0_apply V c ⟨n + 1, h⟩) (iblk7_1_apply V c ⟨n + 1, h⟩) u q).trans ?_
    show (outsAt7 V c n _).2.1 (ix2 u q) + _ = _
    rw [outs7_3 c n (Nat.lt_of_succ_lt h) u q]
    rfl

/-- After point n the running row of sums of squares holds, at column q, the sum of the squares over the rows of
    blocks 0 … n. -/
theorem outs7_4 (c : Dev nD) : ∀ (n : ℕ) (h : n < cfg7.N) (u : Fin 1) (q : Fin 64),
    (outsAt7 V c n h).2.2 (ix2 u q)
      = Cert.LibGcnEReal.sumAcc (T := 20) 0
          (fun t : Fin 20 => ∑ r : Fin 5000, rowAt (sqr (brelu (agg7 V c) (bias7 V c))) q (5000 * t + r)) n
          (lt_of_lt_of_eq h (show cfg7.N = 20 from N_7))
  | 0, h, u, q => by
    rw [outsAt7_A V c ⟨0, h⟩ rfl]
    refine (congrFun (out7_A_4_eq (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) (ms7_3 ⟨0, h⟩) (hs7_3 ⟨0, h⟩) (ms7_4 ⟨0, h⟩) (hs7_4 ⟨0, h⟩) ((hcond7_0 ⟨0, h⟩).mpr rfl) (iblk7 V c 0 ⟨0, h⟩) (iblk7 V c 1 ⟨0, h⟩)) (ix2 u q)).trans ?_
    refine (pay5_7 (agg7 V c) (bias7 V c) 0 (by omega) (iblk7 V c 0 ⟨0, h⟩) (iblk7 V c 1 ⟨0, h⟩) (k7_pay2 (F := Ideal))
      (iblk7_0_apply V c ⟨0, h⟩) (iblk7_1_apply V c ⟨0, h⟩) u q).trans ?_
    rw [show (k7_pay2 (F := Ideal)) (ix2 u q) = 0 from zeroRow_apply (ix2 u q)]
    rfl
  | n + 1, h, u, q => by
    have hN : n + 1 < 20 := lt_of_lt_of_eq h (show cfg7.N = 20 from N_7)
    have hB : ¬(⟨n + 1, h⟩ : Fin cfg7.N).val % 20 = 0 := by dsimp only; omega
    rw [outsAt7_B V c ⟨n + 1, h⟩ hB]
    refine (congrFun (out7_B_4_eq (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) (ms7_4 ⟨n + 1, h⟩) (hs7_4 ⟨n + 1, h⟩) (fun hh => hB ((hcond7_0 ⟨n + 1, h⟩).mp hh)) (iblk7 V c 0 ⟨n + 1, h⟩) (iblk7 V c 1 ⟨n + 1, h⟩)
      (outsAt7 V c ((⟨n + 1, h⟩ : Fin cfg7.N).val - 1) (Nat.lt_of_le_of_lt (Nat.sub_le _ _) (⟨n + 1, h⟩ : Fin cfg7.N).isLt)).2.1 (outsAt7 V c ((⟨n + 1, h⟩ : Fin cfg7.N).val - 1) (Nat.lt_of_le_of_lt (Nat.sub_le _ _) (⟨n + 1, h⟩ : Fin cfg7.N).isLt)).2.2) (ix2 u q)).trans ?_
    refine (pay5_7 (agg7 V c) (bias7 V c) (n + 1) (by omega) (iblk7 V c 0 ⟨n + 1, h⟩) (iblk7 V c 1 ⟨n + 1, h⟩) _
      (iblk7_0_apply V c ⟨n + 1, h⟩) (iblk7_1_apply V c ⟨n + 1, h⟩) u q).trans ?_
    show (outsAt7 V c n _).2.2 (ix2 u q) + _ = _
    rw [outs7_4 c n (Nat.lt_of_succ_lt h) u q]
    rfl

/-- After the last point the running row of sums is the column sums of the cut-off array. -/
theorem lastSum7 (c : Dev nD) (n : ℕ) (h : n < cfg7.N) (hn : n + 1 = 20) :
    (outsAt7 V c n h).2.1 = colsum (brelu (agg7 V c) (bias7 V c)) := by
  funext i
  obtain ⟨u, q, rfl⟩ : ∃ (u : Fin 1) (q : Fin 64), i = ix2 u q := ⟨i 0, i 1, eq_ix2 i⟩
  rw [outs7_3 V c n h u q]
  exact sumAcc_eq_colsum (N := 100000) (B := 5000) 20 (by norm_num) (brelu (agg7 V c) (bias7 V c)) u q n hn _

/-- After the last point the running row of sums of squares is the column sums of the squares of the cut-off array. -/
theorem lastSumsq7 (c : Dev nD) (n : ℕ) (h : n < cfg7.N) (hn : n + 1 = 20) :
    (outsAt7 V c n h).2.2 = colsum (sqr (brelu (agg7 V c) (bias7 V c))) := by
  funext i
  obtain ⟨u, q, rfl⟩ : ∃ (u : Fin 1) (q : Fin 64), i = ix2 u q := ⟨i 0, i 1, eq_ix2 i⟩
  rw [outs7_4 V c n h u q]
  exact sumAcc_eq_colsum (N := 100000) (B := 5000) 20 (by norm_num) (sqr (brelu (agg7 V c) (bias7 V c))) u q n hn _

/-! ## From the blocks to the arrays -/

/-- What point t writes back of output 2 is block t of the cut-off array. -/
theorem flushed7_2 (c : Dev nD) (t : Fin cfg7.N) :
    (dat7 V c).flushed 2 t
      = ((cfg7.win 2).blk t).view.read (Elt Ideal) (brelu (agg7 V c) (bias7 V c)) := by
  obtain ⟨-, -, -, -, e4, e5⟩ := idx7 t
  have ht := lt20_7 t
  show (cfg7.win 2).cut (grid7.coords t) ((dat7 V c).after 2 t) = _
  rw [after7_2, outs7_2]
  funext j
  rw [View.read_apply]
  refine pay3_7 (agg7 V c) (bias7 V c) t.val (by omega) (iblk7 V c 0 t) (iblk7 V c 1 t)
    (iblk7_0_apply V c t) (iblk7_1_apply V c t) _ _ ?_ ?_
  · show win7_2.index t (0 : Fin 2) * 5000 + 1 * (j 0).val = 5000 * t.val + (j 0).val
    rw [e4]; omega
  · show win7_2.index t (1 : Fin 2) * 64 + 1 * (j 1).val = (j 1).val
    rw [e5]; omega

/-- Row r of the array lies in the block of point r / 5000. -/
theorem cover7_2 (i : (Sh2 100000 64).Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, e4, e5⟩ := idx7 t
  refine ⟨t, flush7_2 t, ?_⟩
  show i ∈ ((View.whole main_v103_0).slice (win7_2.rect t)).set
  rw [View.set_slice_whole, Rect.mem_set_unit]
  intro a
  match a with
  | ⟨0, _⟩ =>
    show win7_2.index t (0 : Fin 2) * 5000 ≤ (i 0).val ∧ (i 0).val < win7_2.index t (0 : Fin 2) * 5000 + 5000
    rw [e4, ht]; omega
  | ⟨1, _⟩ =>
    show win7_2.index t (1 : Fin 2) * 64 ≤ (i 1).val ∧ (i 1).val < win7_2.index t (1 : Fin 2) * 64 + 64
    rw [e5]; omega

/-- THE FIRST OUTPUT: the bias added and cut off below at zero. -/
theorem relu7 (c : Dev nD) :
    (Gen.dat7 (F := Ideal) V c).arrAt 2 cfg7.N
      = brelu (V c (Pipeline.arrRef spec7 0) : (Sh2 100000 64).Idx → EReal)
          (V c (Pipeline.arrRef spec7 1) : (Sh2 1 64).Idx → EReal) :=
  (dat7 V c).arrAt_eq_of_cover 2 (brelu (agg7 V c) (bias7 V c)) (fun t _ => flushed7_2 V c t) (cover7_2)

/-- The index maps of the two running rows at every grid point: block (0, 0). -/
theorem idxAcc7 : ∀ t : Fin cfg7.N, win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The one write-back of output 3, after the last point, writes the column sums. -/
theorem flushed7_3 (c : Dev nD) (t : Fin cfg7.N) (hf : (cfg7.win 3).flush t = true) :
    (dat7 V c).flushed 3 t
      = ((cfg7.win 3).blk t).view.read (Elt Ideal) (colsum (brelu (agg7 V c) (bias7 V c))) := by
  have h19 : t.val + 1 = 20 := by have := (flush7_3 t).mp hf; have := lt20_7 t; omega
  obtain ⟨e0, e1, -⟩ := idxAcc7 t
  show (cfg7.win 3).cut (grid7.coords t) ((dat7 V c).after 3 t) = _
  rw [after7_3, lastSum7 V c t.val t.isLt h19]
  have hz' : (fun a => win7_3.index t a * main_v103_1.ty.shape.size a) = fun _ => 0 := funext fun a => by
    match a with
    | ⟨0, _⟩ => show win7_3.index t (0 : Fin 2) * 1 = 0; rw [e0]
    | ⟨1, _⟩ => show win7_3.index t (1 : Fin 2) * 64 = 0; rw [e1]
  exact (Memref.read_access_unit_zero (Elt Ideal) main_v103_1 hz' (fun a => by rw [congrFun hz' a]; simp) _).symm

/-- The one write-back of output 4, after the last point, writes the column sums of squares. -/
theorem flushed7_4 (c : Dev nD) (t : Fin cfg7.N) (hf : (cfg7.win 4).flush t = true) :
    (dat7 V c).flushed 4 t
      = ((cfg7.win 4).blk t).view.read (Elt Ideal) (colsum (sqr (brelu (agg7 V c) (bias7 V c)))) := by
  have h19 : t.val + 1 = 20 := by have := (flush7_4 t).mp hf; have := lt20_7 t; omega
  obtain ⟨-, -, e2, e3⟩ := idxAcc7 t
  show (cfg7.win 4).cut (grid7.coords t) ((dat7 V c).after 4 t) = _
  rw [after7_4, lastSumsq7 V c t.val t.isLt h19]
  have hz' : (fun a => win7_4.index t a * main_v103_2.ty.shape.size a) = fun _ => 0 := funext fun a => by
    match a with
    | ⟨0, _⟩ => show win7_4.index t (0 : Fin 2) * 1 = 0; rw [e2]
    | ⟨1, _⟩ => show win7_4.index t (1 : Fin 2) * 64 = 0; rw [e3]
  exact (Memref.read_access_unit_zero (Elt Ideal) main_v103_2 hz' (fun a => by rw [congrFun hz' a]; simp) _).symm

/-- THE SECOND OUTPUT: the column sums of the first. -/
theorem sum7 (c : Dev nD) :
    (Gen.dat7 (F := Ideal) V c).arrAt 3 cfg7.N
      = colsum (brelu (V c (Pipeline.arrRef spec7 0) : (Sh2 100000 64).Idx → EReal)
          (V c (Pipeline.arrRef spec7 1) : (Sh2 1 64).Idx → EReal)) :=
  (dat7 V c).arrAt_eq_of_cover 3 (colsum (brelu (agg7 V c) (bias7 V c))) (flushed7_3 V c) fun i => by
    obtain ⟨e0, e1, -⟩ := idxAcc7 last7
    have h0 : (i 0 : Nat) < 1 := (i 0).isLt
    have h1 : (i 1 : Nat) < 64 := (i 1).isLt
    refine ⟨last7, (flush7_3 last7).mpr rfl, ?_⟩
    show i ∈ ((View.whole main_v103_1).slice (win7_3.rect last7)).set
    rw [View.set_slice_whole, Rect.mem_set_unit]
    intro a
    match a with
    | ⟨0, _⟩ =>
      show win7_3.index last7 (0 : Fin 2) * 1 ≤ (i 0 : Nat) ∧ (i 0 : Nat) < win7_3.index last7 (0 : Fin 2) * 1 + 1
      rw [e0]; omega
    | ⟨1, _⟩ =>
      show win7_3.index last7 (1 : Fin 2) * 64 ≤ (i 1 : Nat) ∧ (i 1 : Nat) < win7_3.index last7 (1 : Fin 2) * 64 + 64
      rw [e1]; omega

/-- THE THIRD OUTPUT: the column sums of the squares of the first. -/
theorem sumsq7 (c : Dev nD) :
    (Gen.dat7 (F := Ideal) V c).arrAt 4 cfg7.N
      = colsum (sqr (brelu (V c (Pipeline.arrRef spec7 0) : (Sh2 100000 64).Idx → EReal)
          (V c (Pipeline.arrRef spec7 1) : (Sh2 1 64).Idx → EReal))) :=
  (dat7 V c).arrAt_eq_of_cover 4 (colsum (sqr (brelu (agg7 V c) (bias7 V c)))) (flushed7_4 V c) fun i => by
    obtain ⟨-, -, e2, e3⟩ := idxAcc7 last7
    have h0 : (i 0 : Nat) < 1 := (i 0).isLt
    have h1 : (i 1 : Nat) < 64 := (i 1).isLt
    refine ⟨last7, (flush7_4 last7).mpr rfl, ?_⟩
    show i ∈ ((View.whole main_v103_2).slice (win7_4.rect last7)).set
    rw [View.set_slice_whole, Rect.mem_set_unit]
    intro a
    match a with
    | ⟨0, _⟩ =>
      show win7_4.index last7 (0 : Fin 2) * 1 ≤ (i 0 : Nat) ∧ (i 0 : Nat) < win7_4.index last7 (0 : Fin 2) * 1 + 1
      rw [e2]; omega
    | ⟨1, _⟩ =>
      show win7_4.index last7 (1 : Fin 2) * 64 ≤ (i 1 : Nat) ∧ (i 1 : Nat) < win7_4.index last7 (1 : Fin 2) * 64 + 64
      rw [e3]; omega

end Region7

end Cert.KernelIdeal.KVal

end
-- ==== Proof.LibColumnCasts.lean ====
import Idealize.ShloMosaic.Lib.ValueIdx
import Idealize.ShloMosaic.Lib.ValueLayout
import Idealize.ShloMosaic.Lib.Pipeline.Value

/-! Column forms of the layout operations read at an index given by coordinates: a vector `[a]` viewed
as a column `[a, 1]`, a column `[a, 1]` viewed as a row `[1, a]`, and a column `[a, 1]` broadcast along
its unit axis to `[a, b]`. Each reads the operand at the row's coordinate, whatever the unit coordinate. -/

namespace Cert.LibColumnCasts

open Idealize.ShloMosaic Idealize.ShloMosaic.ValueIdx

variable {α : Type}

/-- A vector `[a]` cast to the column `[a, 1]` reads, at `(i, u)`, the operand at `i`, whatever the unit
coordinate `u`: both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both indices sit
at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]` reads, at `(p, c)`, the column's entry in
row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnCasts
-- ==== Proof.KNormLib.lean ====
/-
  Lane reductions of a row-wise log-softmax, read at an index given by coordinates.

  The maximum of each row of a matrix taken lane by lane from minus infinity is the fold of `max` from `⊥` over the
  columns of that row; the sum of each row taken lane by lane is the finite sum over the columns of that row. With them
  the log-softmax of the rows, spelt as a tiled kernel spells it — subtract the row's maximum kept as a column, take the
  exponential, sum each row, take the logarithm of the sums kept as a column, subtract — reads at `(p, q)` as
  `(v (p, q) - max_k v (p, k)) - log (∑_j exp (v (p, j) - max_k v (p, k)))`.
-/
import Idealize.ShloMosaic.Lib.ValueIdx
import Idealize.ShloMosaic.Lib.ValueLayout
import Idealize.ShloMosaic.Lib.Pipeline.Value
import Idealize.ShloMosaic.PureOps.Ideal.Laws
import proofs.«108922_j32160715112488_1_alg».proof.Proof.LibColumnCasts

namespace Cert.KNormLib

open Idealize.ShloMosaic Idealize.ShloMosaic.ValueIdx Cert.LibColumnCasts
open scoped BigOperators

variable {s : Shape} {φ : FTy}

/-- The entrywise exponential, read at an index. -/
theorem exp_apply (x : FVec Ideal s φ) (i : s.Idx) : exp x i = Ideal.exp (x i) := rfl
/-- The entrywise logarithm, read at an index. -/
theorem log_apply (x : FVec Ideal s φ) (i : s.Idx) : log x i = Ideal.log (x i) := rfl
/-- The entrywise reciprocal square root, read at an index. -/
theorem rsqrt_apply (x : FVec Ideal s φ) (i : s.Idx) : rsqrt x i = Ideal.rsqrt (x i) := rfl

/-- The index of a matrix over row `p` with column `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The single-precision pattern of minus infinity denotes `⊥`. -/
theorem ofBits_neg_inf : FloatOps.ofBits (F := Ideal) .f32 0xFF800000#32 = (⊥ : EReal) := by
  simp [Ideal.ofBits, Ideal.ieee]

/-- The lane maximum of a matrix along its columns, from minus infinity: at row `p` the fold of `max` from `⊥` over
    the entries of that row. -/
theorem multiReduction_max_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = Finset.univ.fold max (⊥ : EReal) fun k : Fin b => src (ix2 p k) := by
  refine (Ideal.multiReduction_maximumf_single src 0xFF800000#32 h hφ hacc (ix1 p)).trans ?_
  have hf : (src ∘ h.lift (ix1 p)) = fun k : Fin b => src (ix2 p k) :=
    funext fun k => congrArg src (lift_row h p k)
  rw [hf, ofBits_neg_inf]
  rfl

/-- The lane sum of a matrix along its columns: at row `p` the sum of the entries of that row. -/
theorem multiReduction_add_row {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- THE LOG-SOFTMAX OF THE ROWS AS A TILED KERNEL SPELLS IT, read at `(p, q)`: the entry less its row's maximum,
    less the logarithm of the row's sum of the exponentials of the entries less the maximum. -/
theorem logsoftmax_lanes {a b : ℕ} (v : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩ (multiReduction .maximumf [1] ⟨1, ![a]⟩ v 0xFF800000#32 hr hφ hmax) hc) hb))
        (broadcastTo ⟨2, ![a, b]⟩ (log (shapeCast ⟨2, ![a, 1]⟩
          (multiReduction .add [1] ⟨1, ![a]⟩
            (exp (subf v (broadcastTo ⟨2, ![a, b]⟩ (shapeCast ⟨2, ![a, 1]⟩ (multiReduction .maximumf [1] ⟨1, ![a]⟩ v 0xFF800000#32 hr hφ hmax) hc) hb)))
            0x00000000#32 hr hφ hadd) hc)) hb) (ix2 p q)
      = (v (ix2 p q) - Finset.univ.fold max (⊥ : EReal) fun k : Fin b => v (ix2 p k))
          - Ideal.log (∑ j : Fin b, Ideal.exp (v (ix2 p j) - Finset.univ.fold max (⊥ : EReal) fun k : Fin b => v (ix2 p k))) := by
  have hm := multiReduction_max_row v hr hφ hmax p
  have ha := multiReduction_add_row
    (exp (subf v (broadcastTo ⟨2, ![a, b]⟩ (shapeCast ⟨2, ![a, 1]⟩ (multiReduction .maximumf [1] ⟨1, ![a]⟩ v 0xFF800000#32 hr hφ hmax) hc) hb)))
    hr hφ hadd p
  simp only [subf_apply, exp_apply, log_apply, broadcastTo_a1_ab_apply, shapeCast_a_a1_apply] at ha ⊢
  rw [ha, hm]

end Cert.KNormLib
-- ==== Proof.KNorm2.lean ====
/-
  The value of normalisation region 2: the array it writes is the column-wise normalisation of its first operand.

  The region walks the 100000 rows in 20 blocks of 5000. At every block it holds the whole 1 × 128 rows of means, variances,
  scales and shifts and one 5000 × 128 block of the input, and stores
  `(x - mean) * rsqrt (max var 0 + eps) * g + be` entry by entry: row `r` of the result depends only on row `r` of
  the input and on the four rows, so block `t` of the result is block `t` of the same formula read on the whole arrays,
  and the 20 blocks tile the rows (row `r` lies in block `r / 5000`).
-/
import proofs.«108922_j32160715112488_1_alg».proof.Proof.Gen.KernelIdeal.Frame
import proofs.«108922_j32160715112488_1_alg».proof.Proof.Spec
import proofs.«108922_j32160715112488_1_alg».proof.Proof.KNormLib
import Idealize.ShloMosaic.Lib.Pipeline.Value
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.KVal

open Cert.KernelIdeal Cert.KernelIdeal.Gen Cert.KNormLib Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The stored value at row `p`, column `q` of a block: the block's entry less the mean of its column, times the
    reciprocal square root of the column's variance cut off below at zero plus the stabiliser, times the column's scale,
    plus the column's shift. -/
theorem pay2_apply (v0 : Vec Ideal S1x128 .f32) (v7 : Vec Ideal S5000x128 .f32) (v9 v15 v19 : Vec Ideal S1x128 .f32)
    (p : Fin 5000) (q : Fin 128) :
    Gen.k2_pay1 (F := Ideal) v0 v7 v9 v15 v19 (ix2 p q)
      = (v7 (ix2 p q) - v9 (ix2 (0 : Fin 1) q))
          * Ideal.rsqrt (max (v0 (ix2 (0 : Fin 1) q)) 0 + epsE)
          * v15 (ix2 (0 : Fin 1) q) + v19 (ix2 (0 : Fin 1) q) := by
  unfold Gen.k2_pay1
  simp only [shapeCast_self, addf_apply, mulf_apply, subf_apply, broadcastTo_1b_ab_apply]
  show _ * Ideal.rsqrt (max (v0 (ix2 (0 : Fin 1) q)) (Ideal.ofBits .f32 0x00000000#32) + Ideal.ofBits .f32 0x3727C5AC#32) * _ + _ = _
  rw [Ideal.ofBits_zero_f32]

/-- What the body leaves in the output's staging buffer is the normalisation formula read on the blocks it holds. -/
theorem out2_eq (x0 : Vec Ideal S5000x128 .f32) (x1 x2 x3 x4 : Vec Ideal S1x128 .f32) :
    Gen.out2_5 (F := Ideal) x0 x1 x2 x3 x4 = bnK (n := 5000) (c := 128) x0 x1 x2 x3 x4 := by
  unfold Gen.out2_5
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  exact pay2_apply x2 x0 x1 x3 x4 p q

/-- The printed index maps over the grid: the row-tiled windows sit at block `t` of the rows, the four rows at block 0. -/
theorem idx_facts2 : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The input's block at point `t` is rows `5000 t … 5000 t + 4999` of the input. -/
theorem iblk2_0_apply (c : Dev nD) (t : Fin cfg2.N) (y : S5000x128.Idx) (k : S100000x128.Idx)
    (hk0 : (k 0).val = t.val * 5000 + (y 0).val) (hk1 : (k 1).val = (y 1).val) :
    (Gen.iblk2 V c 0 t : Vec Ideal S5000x128 .f32) y = (V c (Pipeline.arrRef spec2 0) : S100000x128.Idx → EReal) k := by
  obtain ⟨e0, e1, -⟩ := idx_facts2 t
  unfold Gen.iblk2
  rw [View.read_apply]
  show (V c (Pipeline.arrRef spec2 0) : S100000x128.Idx → EReal) _ = (V c (Pipeline.arrRef spec2 0) : S100000x128.Idx → EReal) k
  refine congrArg _ (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- Window 1's block at every point is the whole 1 × 128 row. -/
theorem iblk2_1_apply (c : Dev nD) (t : Fin cfg2.N) (y : S1x128.Idx) (k : S1x128.Idx)
    (hk0 : (k 0).val = (y 0).val) (hk1 : (k 1).val = (y 1).val) :
    (Gen.iblk2 V c 1 t : Vec Ideal S1x128 .f32) y = (V c (Pipeline.arrRef spec2 1) : S1x128.Idx → EReal) k := by
  have e := idx_facts2 t
  have e0 : win2_1.index t (0 : Fin 2) = 0 := e.2.2.2.2.1
  have e1 : win2_1.index t (1 : Fin 2) = 0 := e.2.2.2.2.2.1
  unfold Gen.iblk2
  rw [View.read_apply]
  show (V c (Pipeline.arrRef spec2 1) : S1x128.Idx → EReal) _ = (V c (Pipeline.arrRef spec2 1) : S1x128.Idx → EReal) k
  refine congrArg _ (funext fun a => Fin.ext ?_)
  match a with
  | ⟨0, _⟩ => show win2_1.index t (0 : Fin 2) * 1 + 1 * (y 0).val = (k 0).val; rw [e0, hk0]; omega
  | ⟨1, _⟩ => show win2_1.index t (1 : Fin 2) * 128 + 1 * (y 1).val = (k 1).val; rw [e1, hk1]; omega

/-- Window 2's block at every point is the whole 1 × 128 row. -/
theorem iblk2_2_apply (c : Dev nD) (t : Fin cfg2.N) (y : S1x128.Idx) (k : S1x128.Idx)
    (hk0 : (k 0).val = (y 0).val) (hk1 : (k 1).val = (y 1).val) :
    (Gen.iblk2 V c 2 t : Vec Ideal S1x128 .f32) y = (V c (Pipeline.arrRef spec2 2) : S1x128.Idx → EReal) k := by
  have e := idx_facts2 t
  have e0 : win2_2.index t (0 : Fin 2) = 0 := e.2.2.2.2.2.2.1
  have e1 : win2_2.index t (1 : Fin 2) = 0 := e.2.2.2.2.2.2.2.1
  unfold Gen.iblk2
  rw [View.read_apply]
  show (V c (Pipeline.arrRef spec2 2) : S1x128.Idx → EReal) _ = (V c (Pipeline.arrRef spec2 2) : S1x128.Idx → EReal) k
  refine congrArg _ (funext fun a => Fin.ext ?_)
  match a with
  | ⟨0, _⟩ => show win2_2.index t (0 : Fin 2) * 1 + 1 * (y 0).val = (k 0).val; rw [e0, hk0]; omega
  | ⟨1, _⟩ => show win2_2.index t (1 : Fin 2) * 128 + 1 * (y 1).val = (k 1).val; rw [e1, hk1]; omega

/-- Window 3's block at every point is the whole 1 × 128 row. -/
theorem iblk2_3_apply (c : Dev nD) (t : Fin cfg2.N) (y : S1x128.Idx) (k : S1x128.Idx)
    (hk0 : (k 0).val = (y 0).val) (hk1 : (k 1).val = (y 1).val) :
    (Gen.iblk2 V c 3 t : Vec Ideal S1x128 .f32) y = (V c (Pipeline.arrRef spec2 3) : S1x128.Idx → EReal) k := by
  have e := idx_facts2 t
  have e0 : win2_3.index t (0 : Fin 2) = 0 := e.2.2.2.2.2.2.2.2.1
  have e1 : win2_3.index t (1 : Fin 2) = 0 := e.2.2.2.2.2.2.2.2.2.1
  unfold Gen.iblk2
  rw [View.read_apply]
  show (V c (Pipeline.arrRef spec2 3) : S1x128.Idx → EReal) _ = (V c (Pipeline.arrRef spec2 3) : S1x128.Idx → EReal) k
  refine congrArg _ (funext fun a => Fin.ext ?_)
  match a with
  | ⟨0, _⟩ => show win2_3.index t (0 : Fin 2) * 1 + 1 * (y 0).val = (k 0).val; rw [e0, hk0]; omega
  | ⟨1, _⟩ => show win2_3.index t (1 : Fin 2) * 128 + 1 * (y 1).val = (k 1).val; rw [e1, hk1]; omega

/-- Window 4's block at every point is the whole 1 × 128 row. -/
theorem iblk2_4_apply (c : Dev nD) (t : Fin cfg2.N) (y : S1x128.Idx) (k : S1x128.Idx)
    (hk0 : (k 0).val = (y 0).val) (hk1 : (k 1).val = (y 1).val) :
    (Gen.iblk2 V c 4 t : Vec Ideal S1x128 .f32) y = (V c (Pipeline.arrRef spec2 4) : S1x128.Idx → EReal) k := by
  have e := idx_facts2 t
  have e0 : win2_4.index t (0 : Fin 2) = 0 := e.2.2.2.2.2.2.2.2.2.2.1
  have e1 : win2_4.index t (1 : Fin 2) = 0 := e.2.2.2.2.2.2.2.2.2.2.2
  unfold Gen.iblk2
  rw [View.read_apply]
  show (V c (Pipeline.arrRef spec2 4) : S1x128.Idx → EReal) _ = (V c (Pipeline.arrRef spec2 4) : S1x128.Idx → EReal) k
  refine congrArg _ (funext fun a => Fin.ext ?_)
  match a with
  | ⟨0, _⟩ => show win2_4.index t (0 : Fin 2) * 1 + 1 * (y 0).val = (k 0).val; rw [e0, hk0]; omega
  | ⟨1, _⟩ => show win2_4.index t (1 : Fin 2) * 128 + 1 * (y 1).val = (k 1).val; rw [e1, hk1]; omega

/-- The normalisation of the whole input by the four rows, as the region finds them. -/
abbrev G2 (c : Dev nD) : S100000x128.Idx → EReal :=
  bnK (n := 100000) (c := 128) (V c (Pipeline.arrRef spec2 0) : S100000x128.Idx → EReal) (V c (Pipeline.arrRef spec2 1) : S1x128.Idx → EReal)
    (V c (Pipeline.arrRef spec2 2) : S1x128.Idx → EReal) (V c (Pipeline.arrRef spec2 3) : S1x128.Idx → EReal)
    (V c (Pipeline.arrRef spec2 4) : S1x128.Idx → EReal)

/-- What point `t` writes back is block `t` of the normalised array. -/
theorem flushed2_eq (c : Dev nD) (t : Fin cfg2.N) :
    (Gen.dat2 (F := Ideal) V c).flushed 5 t = ((cfg2.win 5).blk t).view.read (Elt Ideal) (G2 V c) := by
  show (cfg2.win 5).cut (grid2.coords t) ((Gen.dat2 (F := Ideal) V c).after 5 t) = _
  rw [Gen.after2_5, out2_eq]
  obtain ⟨-, -, e0, e1, -⟩ := idx_facts2 t
  funext j
  rw [View.read_apply]
  have hj0 : (j 0).val < 5000 := (j 0).isLt
  have hj1 : (j 1).val < 128 := (j 1).isLt
  have hi0 : ((((cfg2.win 5).blk t).view.emb j : S100000x128.Idx) 0).val = t.val * 5000 + (j 0).val := by
    show win2_5.index t (0 : Fin 2) * 5000 + 1 * (j 0).val = _; rw [e0]; omega
  have hi1 : ((((cfg2.win 5).blk t).view.emb j : S100000x128.Idx) 1).val = (j 1).val := by
    show win2_5.index t (1 : Fin 2) * 128 + 1 * (j 1).val = _; rw [e1]; omega
  show bnK (n := 5000) (c := 128) (Gen.iblk2 V c 0 t) (Gen.iblk2 V c 1 t) (Gen.iblk2 V c 2 t) (Gen.iblk2 V c 3 t) (Gen.iblk2 V c 4 t) j
      = G2 V c (((cfg2.win 5).blk t).view.emb j)
  unfold G2 bnK
  rw [iblk2_0_apply V c t j _ hi0 hi1,
    iblk2_1_apply V c t (ix2 (0 : Fin 1) (colOfIx (n := 5000) (c := 128) j)) (ix2 (0 : Fin 1) (colOfIx (n := 100000) (c := 128) (((cfg2.win 5).blk t).view.emb j))) rfl hi1,
    iblk2_2_apply V c t (ix2 (0 : Fin 1) (colOfIx (n := 5000) (c := 128) j)) (ix2 (0 : Fin 1) (colOfIx (n := 100000) (c := 128) (((cfg2.win 5).blk t).view.emb j))) rfl hi1,
    iblk2_3_apply V c t (ix2 (0 : Fin 1) (colOfIx (n := 5000) (c := 128) j)) (ix2 (0 : Fin 1) (colOfIx (n := 100000) (c := 128) (((cfg2.win 5).blk t).view.emb j))) rfl hi1,
    iblk2_4_apply V c t (ix2 (0 : Fin 1) (colOfIx (n := 5000) (c := 128) j)) (ix2 (0 : Fin 1) (colOfIx (n := 100000) (c := 128) (((cfg2.win 5).blk t).view.emb j))) rfl hi1]

/-- An index of the output array lies in point `t`'s block iff each coordinate lies in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v58).slice (win2_5.rect t)).set ↔ _
  rw [View.set_slice_whole, Rect.mem_set_unit]
  exact Iff.rfl

/-- The 20 blocks tile the rows: row `r` lies in the block of point `r / 5000`. -/
theorem cover2 (i : S100000x128.Idx) : ∃ t : Fin cfg2.N, (cfg2.win 5).flush t = true ∧ i ∈ ((cfg2.win 5).blk t).view.set := by
  have hN : cfg2.N = 20 := N_2
  have hi0 : (i 0).val < 100000 := (i 0).isLt
  have hi1 : (i 1).val < 128 := (i 1).isLt
  have ht : (i 0).val / 5000 < cfg2.N := by rw [hN]; omega
  refine ⟨⟨(i 0).val / 5000, ht⟩, flush2_5 _, ?_⟩
  rw [mem_blk2]
  obtain ⟨-, -, e0, e1, -⟩ := idx_facts2 ⟨(i 0).val / 5000, ht⟩
  have e0' : win2_5.index ⟨(i 0).val / 5000, ht⟩ (0 : Fin 2) = (i 0).val / 5000 := e0
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0']; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e1]; omega

/-- THE ARRAY the region writes: the normalisation of its input by the four rows. -/
theorem bn2 (c : Dev nD) :
    ((Gen.dat2 (F := Ideal) V c).arrAt 5 cfg2.N : S100000x128.Idx → EReal)
      = bnK (n := 100000) (c := 128) (V c (Pipeline.arrRef spec2 0) : S100000x128.Idx → EReal) (V c (Pipeline.arrRef spec2 1) : S1x128.Idx → EReal)
          (V c (Pipeline.arrRef spec2 2) : S1x128.Idx → EReal) (V c (Pipeline.arrRef spec2 3) : S1x128.Idx → EReal)
          (V c (Pipeline.arrRef spec2 4) : S1x128.Idx → EReal) :=
  (Gen.dat2 (F := Ideal) V c).arrAt_eq_of_cover 5 (G2 V c) (fun t _ => flushed2_eq V c t) cover2

end Cert.KernelIdeal.KVal

end
-- ==== Proof.KNorm5.lean ====
/-
  The value of normalisation region 5: the array it writes is the column-wise normalisation of its first operand.

  The region walks the 100000 rows in 20 blocks of 5000. At every block it holds the whole 1 × 128 rows of means, variances,
  scales and shifts and one 5000 × 128 block of the input, and stores
  `(x - mean) * rsqrt (max var 0 + eps) * g + be` entry by entry: row `r` of the result depends only on row `r` of
  the input and on the four rows, so block `t` of the result is block `t` of the same formula read on the whole arrays,
  and the 20 blocks tile the rows (row `r` lies in block `r / 5000`).
-/
import proofs.«108922_j32160715112488_1_alg».proof.Proof.Gen.KernelIdeal.Frame
import proofs.«108922_j32160715112488_1_alg».proof.Proof.Spec
import proofs.«108922_j32160715112488_1_alg».proof.Proof.KNormLib
import Idealize.ShloMosaic.Lib.Pipeline.Value
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.KVal

open Cert.KernelIdeal Cert.KernelIdeal.Gen Cert.KNormLib Cert.Gcn

variable (V : (c : Dev nD) → (b : Ref sig .tc) → Buf (Elt Ideal) ((c : Thread nD τ).loc b))

theorem hz5 : (![0, 0] : Fin 2 → Nat) = fun _ => 0 := funext fun a => by fin_cases a <;> rfl

/-- The stored value at row `p`, column `q` of a block: the block's entry less the mean of its column, times the
    reciprocal square root of the column's variance cut off below at zero plus the stabiliser, times the column's scale,
    plus the column's shift. -/
theorem pay5_apply (v0 : Vec Ideal S1x128 .f32) (v7 : Vec Ideal S5000x128 .f32) (v9 v15 v19 : Vec Ideal S1x128 .f32)
    (p : Fin 5000) (q : Fin 128) :
    Gen.k5_pay1 (F := Ideal) v0 v7 v9 v15 v19 (ix2 p q)
      = (v7 (ix2 p q) - v9 (ix2 (0 : Fin 1) q))
          * Ideal.rsqrt (max (v0 (ix2 (0 : Fin 1) q)) 0 + epsE)
          * v15 (ix2 (0 : Fin 1) q) + v19 (ix2 (0 : Fin 1) q) := by
  unfold Gen.k5_pay1
  simp only [shapeCast_self, addf_apply, mulf_apply, subf_apply, broadcastTo_1b_ab_apply]
  show _ * Ideal.rsqrt (max (v0 (ix2 (0 : Fin 1) q)) (Ideal.ofBits .f32 0x00000000#32) + Ideal.ofBits .f32 0x3727C5AC#32) * _ + _ = _
  rw [Ideal.ofBits_zero_f32]

/-- What the body leaves in the output's staging buffer is the normalisation formula read on the blocks it holds. -/
theorem out5_eq (x0 : Vec Ideal S5000x128 .f32) (x1 x2 x3 x4 : Vec Ideal S1x128 .f32) :
    Gen.out5_5 (F := Ideal) x0 x1 x2 x3 x4 = bnK (n := 5000) (c := 128) x0 x1 x2 x3 x4 := by
  unfold Gen.out5_5
  rw [View.canon_unit_zero hz5]
  simp only [View.ld_unit_zero (S := S5000x128) hz5, View.ld_unit_zero (S := S1x128) hz5]
  funext j
  obtain ⟨p, q, rfl⟩ : ∃ (p : Fin 5000) (q : Fin 128), j = ix2 p q := ⟨j 0, j 1, eq_ix2 j⟩
  exact pay5_apply x2 x0 x1 x3 x4 p q

/-- The printed index maps over the grid: the row-tiled windows sit at block `t` of the rows, the four rows at block 0. -/
theorem idx_facts5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The input's block at point `t` is rows `5000 t … 5000 t + 4999` of the input. -/
theorem iblk5_0_apply (c : Dev nD) (t : Fin cfg5.N) (y : S5000x128.Idx) (k : S100000x128.Idx)
    (hk0 : (k 0).val = t.val * 5000 + (y 0).val) (hk1 : (k 1).val = (y 1).val) :
    (Gen.iblk5 V c 0 t : Vec Ideal S5000x128 .f32) y = (V c (Pipeline.arrRef spec5 0) : S100000x128.Idx → EReal) k := by
  obtain ⟨e0, e1, -⟩ := idx_facts5 t
  unfold Gen.iblk5
  rw [View.read_apply]
  show (V c (Pipeline.arrRef spec5 0) : S100000x128.Idx → EReal) _ = (V c (Pipeline.arrRef spec5 0) : S100000x128.Idx → EReal) k
  refine congrArg _ (funext fun a => Fin.ext ?_)
  match a with
  | ⟨0, _⟩ => show win5_0.index t (0 : Fin 2) * 5000 + 1 * (y 0).val = (k 0).val; rw [e0, hk0]; omega
  | ⟨1, _⟩ => show win5_0.index t (1 : Fin 2) * 128 + 1 * (y 1).val = (k 1).val; rw [e1, hk1]; omega

/-- Window 1's block at every point is the whole 1 × 128 row. -/
theorem iblk5_1_apply (c : Dev nD) (t : Fin cfg5.N) (y : S1x128.Idx) (k : S1x128.Idx)
    (hk0 : (k 0).val = (y 0).val) (hk1 : (k 1).val = (y 1).val) :
    (Gen.iblk5 V c 1 t : Vec Ideal S1x128 .f32) y = (V c (Pipeline.arrRef spec5 1) : S1x128.Idx → EReal) k := by
  have e := idx_facts5 t
  have e0 : win5_1.index t (0 : Fin 2) = 0 := e.2.2.2.2.1
  have e1 : win5_1.index t (1 : Fin 2) = 0 := e.2.2.2.2.2.1
  unfold Gen.iblk5
  rw [View.read_apply]
  show (V c (Pipeline.arrRef spec5 1) : S1x128.Idx → EReal) _ = (V c (Pipeline.arrRef spec5 1) : S1x128.Idx → EReal) k
  refine congrArg _ (funext fun a => Fin.ext ?_)
  match a with
  | ⟨0, _⟩ => show win5_1.index t (0 : Fin 2) * 1 + 1 * (y 0).val = (k 0).val; rw [e0, hk0]; omega
  | ⟨1, _⟩ => show win5_1.index t (1 : Fin 2) * 128 + 1 * (y 1).val = (k 1).val; rw [e1, hk1]; omega

/-- Window 2's block at every point is the whole 1 × 128 row. -/
theorem iblk5_2_apply (c : Dev nD) (t : Fin cfg5.N) (y : S1x128.Idx) (k : S1x128.Idx)
    (hk0 : (k 0).val = (y 0).val) (hk1 : (k 1).val = (y 1).val) :
    (Gen.iblk5 V c 2 t : Vec Ideal S1x128 .f32) y = (V c (Pipeline.arrRef spec5 2) : S1x128.Idx → EReal) k := by
  have e := idx_facts5 t
  have e0 : win5_2.index t (0 : Fin 2) = 0 := e.2.2.2.2.2.2.1
  have e1 : win5_2.index t (1 : Fin 2) = 0 := e.2.2.2.2.2.2.2.1
  unfold Gen.iblk5
  rw [View.read_apply]
  show (V c (Pipeline.arrRef spec5 2) : S1x128.Idx → EReal) _ = (V c (Pipeline.arrRef spec5 2) : S1x128.Idx → EReal) k
  refine congrArg _ (funext fun a => Fin.ext ?_)
  match a with
  | ⟨0, _⟩ => show win5_2.index t (0 : Fin 2) * 1 + 1 * (y 0).val = (k 0).val; rw [e0, hk0]; omega
  | ⟨1, _⟩ => show win5_2.index t (1 : Fin 2) * 128 + 1 * (y 1).val = (k 1).val; rw [e1, hk1]; omega

/-- Window 3's block at every point is the whole 1 × 128 row. -/
theorem iblk5_3_apply (c : Dev nD) (t : Fin cfg5.N) (y : S1x128.Idx) (k : S1x128.Idx)
    (hk0 : (k 0).val = (y 0).val) (hk1 : (k 1).val = (y 1).val) :
    (Gen.iblk5 V c 3 t : Vec Ideal S1x128 .f32) y = (V c (Pipeline.arrRef spec5 3) : S1x128.Idx → EReal) k := by
  have e := idx_facts5 t
  have e0 : win5_3.index t (0 : Fin 2) = 0 := e.2.2.2.2.2.2.2.2.1
  have e1 : win5_3.index t (1 : Fin 2) = 0 := e.2.2.2.2.2.2.2.2.2.1
  unfold Gen.iblk5
  rw [View.read_apply]
  show (V c (Pipeline.arrRef spec5 3) : S1x128.Idx → EReal) _ = (V c (Pipeline.arrRef spec5 3) : S1x128.Idx → EReal) k
  refine congrArg _ (funext fun a => Fin.ext ?_)
  match a with
  | ⟨0, _⟩ => show win5_3.index t (0 : Fin 2) * 1 + 1 * (y 0).val = (k 0).val; rw [e0, hk0]; omega
  | ⟨1, _⟩ => show win5_3.index t (1 : Fin 2) * 128 + 1 * (y 1).val = (k 1).val; rw [e1, hk1]; omega

/-- Window 4's block at every point is the whole 1 × 128 row. -/
theorem iblk5_4_apply (c : Dev nD) (t : Fin cfg5.N) (y : S1x128.Idx) (k : S1x128.Idx)
    (hk0 : (k 0).val = (y 0).val) (hk1 : (k 1).val = (y 1).val) :
    (Gen.iblk5 V c 4 t : Vec Ideal S1x128 .f32) y = (V c (Pipeline.arrRef spec5 4) : S1x128.Idx → EReal) k := by
  have e := idx_facts5 t
  have e0 : win5_4.index t (0 : Fin 2) = 0 := e.2.2.2.2.2.2.2.2.2.2.1
  have e1 : win5_4.index t (1 : Fin 2) = 0 := e.2.2.2.2.2.2.2.2.2.2.2
  unfold Gen.iblk5
  rw [View.read_apply]
  show (V c (Pipeline.arrRef spec5 4) : S1x128.Idx → EReal) _ = (V c (Pipeline.arrRef spec5 4) : S1x128.Idx → EReal) k
  refine congrArg _ (funext fun a => Fin.ext ?_)
  match a with
  | ⟨0, _⟩ => show win5_4.index t (0 : Fin 2) * 1 + 1 * (y 0).val = (k 0).val; rw [e0, hk0]; omega
  | ⟨1, _⟩ => show win5_4.index t (1 : Fin 2) * 128 + 1 * (y 1).val = (k 1).val; rw [e1, hk1]; omega

/-- The normalisation of the whole input by the four rows, as the region finds them. -/
abbrev G5 (c : Dev nD) : S100000x128.Idx → EReal :=
  bnK (n := 100000) (c := 128) (V c (Pipeline.arrRef spec5 0) : S100000x128.Idx → EReal) (V c (Pipeline.arrRef spec5 1) : S1x128.Idx → EReal)
    (V c (Pipeline.arrRef spec5 2) : S1x128.Idx → EReal) (V c (Pipeline.arrRef spec5 3) : S1x128.Idx → EReal)
    (V c (Pipeline.arrRef spec5 4) : S1x128.Idx → EReal)

/-- What point `t` writes back is block `t` of the normalised array. -/
theorem flushed5_eq (c : Dev nD) (t : Fin cfg5.N) :
    (Gen.dat5 (F := Ideal) V c).flushed 5 t = ((cfg5.win 5).blk t).view.read (Elt Ideal) (G5 V c) := by
  show (cfg5.win 5).cut (grid5.coords t) ((Gen.dat5 (F := Ideal) V c).after 5 t) = _
  rw [Gen.after5_5, out5_eq]
  obtain ⟨-, -, e0, e1, -⟩ := idx_facts5 t
  funext j
  rw [View.read_apply]
  have hj0 : (j 0).val < 5000 := (j 0).isLt
  have hj1 : (j 1).val < 128 := (j 1).isLt
  have hi0 : ((((cfg5.win 5).blk t).view.emb j : S100000x128.Idx) 0).val = t.val * 5000 + (j 0).val := by
    show win5_5.index t (0 : Fin 2) * 5000 + 1 * (j 0).val = _; rw [e0]; omega
  have hi1 : ((((cfg5.win 5).blk t).view.emb j : S100000x128.Idx) 1).val = (j 1).val := by
    show win5_5.index t (1 : Fin 2) * 128 + 1 * (j 1).val = _; rw [e1]; omega
  show bnK (n := 5000) (c := 128) (Gen.iblk5 V c 0 t) (Gen.iblk5 V c 1 t) (Gen.iblk5 V c 2 t) (Gen.iblk5 V c 3 t) (Gen.iblk5 V c 4 t) j
      = G5 V c (((cfg5.win 5).blk t).view.emb j)
  unfold G5 bnK
  rw [iblk5_0_apply V c t j _ hi0 hi1,
    iblk5_1_apply V c t (ix2 (0 : Fin 1) (colOfIx (n := 5000) (c := 128) j)) (ix2 (0 : Fin 1) (colOfIx (n := 100000) (c := 128) (((cfg5.win 5).blk t).view.emb j))) rfl hi1,
    iblk5_2_apply V c t (ix2 (0 : Fin 1) (colOfIx (n := 5000) (c := 128) j)) (ix2 (0 : Fin 1) (colOfIx (n := 100000) (c := 128) (((cfg5.win 5).blk t).view.emb j))) rfl hi1,
    iblk5_3_apply V c t (ix2 (0 : Fin 1) (colOfIx (n := 5000) (c := 128) j)) (ix2 (0 : Fin 1) (colOfIx (n := 100000) (c := 128) (((cfg5.win 5).blk t).view.emb j))) rfl hi1,
    iblk5_4_apply V c t (ix2 (0 : Fin 1) (colOfIx (n := 5000) (c := 128) j)) (ix2 (0 : Fin 1) (colOfIx (n := 100000) (c := 128) (((cfg5.win 5).blk t).view.emb j))) rfl hi1]

/-- An index of the output array lies in point `t`'s block iff each coordinate lies in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v87).slice (win5_5.rect t)).set ↔ _
  rw [View.set_slice_whole, Rect.mem_set_unit]
  exact Iff.rfl

/-- The 20 blocks tile the rows: row `r` lies in the block of point `r / 5000`. -/
theorem cover5 (i : S100000x128.Idx) : ∃ t : Fin cfg5.N, (cfg5.win 5).flush t = true ∧ i ∈ ((cfg5.win 5).blk t).view.set := by
  have hN : cfg5.N = 20 := N_5
  have hi0 : (i 0).val < 100000 := (i 0).isLt
  have hi1 : (i 1).val < 128 := (i 1).isLt
  have ht : (i 0).val / 5000 < cfg5.N := by rw [hN]; omega
  refine ⟨⟨(i 0).val / 5000, ht⟩, flush5_5 _, ?_⟩
  rw [mem_blk5]
  obtain ⟨-, -, e0, e1, -⟩ := idx_facts5 ⟨(i 0).val / 5000, ht⟩
  have e0' : win5_5.index ⟨(i 0).val / 5000, ht⟩ (0 : Fin 2) = (i 0).val / 5000 := e0
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e0']; omega
  | ⟨1, _⟩ =>
    show win5_5.index ⟨(i 0).val / 5000, ht⟩ (1 : Fin 2) * 128 ≤ (i 1).val ∧ (i 1).val < win5_5.index ⟨(i 0).val / 5000, ht⟩ (1 : Fin 2) * 128 + 128
    rw [e1]; omega

/-- THE ARRAY the region writes: the normalisation of its input by the four rows. -/
theorem bn5 (c : Dev nD) :
    ((Gen.dat5 (F := Ideal) V c).arrAt 5 cfg5.N : S100000x128.Idx → EReal)
      = bnK (n := 100000) (c := 128) (V c (Pipeline.arrRef spec5 0) : S100000x128.Idx → EReal) (V c (Pipeline.arrRef spec5 1) : S1x128.Idx → EReal)
          (V c (Pipeline.arrRef spec5 2) : S1x128.Idx → EReal) (V c (Pipeline.arrRef spec5 3) : S1x128.Idx → EReal)
          (V c (Pipeline.arrRef spec5 4) : S1x128.Idx → EReal) :=
  (Gen.dat5 (F := Ideal) V c).arrAt_eq_of_cover 5 (G5 V c) (fun t _ => flushed5_eq V c t) cover5

end Cert.KernelIdeal.KVal

end
-- ==== Proof.KNorm8.lean ====
/-
  The value of normalisation region 8: the array it writes is the column-wise normalisation of its first operand.

  The region walks the 100000 rows in 20 blocks of 5000. At every block it holds the whole 1 × 64 rows of means, variances,
  scales and shifts and one 5000 × 64 block of the input, and stores
  `(x - mean) * rsqrt (max var 0 + eps) * g + be` entry by entry: row `r` of the result depends only on row `r` of
  the input and on the four rows, so block `t` of the result is block `t` of the same formula read on the whole arrays,
  and the 20 blocks tile the rows (row `r` lies in block `r / 5000`).
-/
import proofs.«108922_j32160715112488_1_alg».proof.Proof.Gen.KernelIdeal.Frame
import proofs.«108922_j32160715112488_1_alg».proof.Proof.Spec
import proofs.«108922_j32160715112488_1_alg».proof.Proof.KNormLib
import Idealize.ShloMosaic.Lib.Pipeline.Value
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.KVal

open Cert.KernelIdeal Cert.KernelIdeal.Gen Cert.KNormLib Cert.Gcn

variable (V : (c : Dev nD) → (b : Ref sig .tc) → Buf (Elt Ideal) ((c : Thread nD τ).loc b))

theorem hz8 : (![0, 0] : Fin 2 → Nat) = fun _ => 0 := funext fun a => by fin_cases a <;> rfl

/-- The stored value at row `p`, column `q` of a block: the block's entry less the mean of its column, times the
    reciprocal square root of the column's variance cut off below at zero plus the stabiliser, times the column's scale,
    plus the column's shift. -/
theorem pay8_apply (v0 : Vec Ideal S1x64 .f32) (v7 : Vec Ideal S5000x64 .f32) (v9 v15 v19 : Vec Ideal S1x64 .f32)
    (p : Fin 5000) (q : Fin 64) :
    Gen.k8_pay1 (F := Ideal) v0 v7 v9 v15 v19 (ix2 p q)
      = (v7 (ix2 p q) - v9 (ix2 (0 : Fin 1) q))
          * Ideal.rsqrt (max (v0 (ix2 (0 : Fin 1) q)) 0 + epsE)
          * v15 (ix2 (0 : Fin 1) q) + v19 (ix2 (0 : Fin 1) q) := by
  unfold Gen.k8_pay1
  simp only [shapeCast_self, addf_apply, mulf_apply, subf_apply, broadcastTo_1b_ab_apply]
  show _ * Ideal.rsqrt (max (v0 (ix2 (0 : Fin 1) q)) (Ideal.ofBits .f32 0x00000000#32) + Ideal.ofBits .f32 0x3727C5AC#32) * _ + _ = _
  rw [Ideal.ofBits_zero_f32]

/-- What the body leaves in the output's staging buffer is the normalisation formula read on the blocks it holds. -/
theorem out8_eq (x0 : Vec Ideal S5000x64 .f32) (x1 x2 x3 x4 : Vec Ideal S1x64 .f32) :
    Gen.out8_5 (F := Ideal) x0 x1 x2 x3 x4 = bnK (n := 5000) (c := 64) x0 x1 x2 x3 x4 := by
  unfold Gen.out8_5
  rw [View.canon_unit_zero hz8]
  simp only [View.ld_unit_zero (S := S5000x64) hz8, View.ld_unit_zero (S := S1x64) hz8]
  funext j
  obtain ⟨p, q, rfl⟩ : ∃ (p : Fin 5000) (q : Fin 64), j = ix2 p q := ⟨j 0, j 1, eq_ix2 j⟩
  exact pay8_apply x2 x0 x1 x3 x4 p q

/-- The printed index maps over the grid: the row-tiled windows sit at block `t` of the rows, the four rows at block 0. -/
theorem idx_facts8 : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- The input's block at point `t` is rows `5000 t … 5000 t + 4999` of the input. -/
theorem iblk8_0_apply (c : Dev nD) (t : Fin cfg8.N) (y : S5000x64.Idx) (k : S100000x64.Idx)
    (hk0 : (k 0).val = t.val * 5000 + (y 0).val) (hk1 : (k 1).val = (y 1).val) :
    (Gen.iblk8 V c 0 t : Vec Ideal S5000x64 .f32) y = (V c (Pipeline.arrRef spec8 0) : S100000x64.Idx → EReal) k := by
  obtain ⟨e0, e1, -⟩ := idx_facts8 t
  unfold Gen.iblk8
  rw [View.read_apply]
  show (V c (Pipeline.arrRef spec8 0) : S100000x64.Idx → EReal) _ = (V c (Pipeline.arrRef spec8 0) : S100000x64.Idx → EReal) k
  refine congrArg _ (funext fun a => Fin.ext ?_)
  match a with
  | ⟨0, _⟩ => show win8_0.index t (0 : Fin 2) * 5000 + 1 * (y 0).val = (k 0).val; rw [e0, hk0]; omega
  | ⟨1, _⟩ => show win8_0.index t (1 : Fin 2) * 64 + 1 * (y 1).val = (k 1).val; rw [e1, hk1]; omega

/-- Window 1's block at every point is the whole 1 × 64 row. -/
theorem iblk8_1_apply (c : Dev nD) (t : Fin cfg8.N) (y : S1x64.Idx) (k : S1x64.Idx)
    (hk0 : (k 0).val = (y 0).val) (hk1 : (k 1).val = (y 1).val) :
    (Gen.iblk8 V c 1 t : Vec Ideal S1x64 .f32) y = (V c (Pipeline.arrRef spec8 1) : S1x64.Idx → EReal) k := by
  have e := idx_facts8 t
  have e0 : win8_1.index t (0 : Fin 2) = 0 := e.2.2.2.2.1
  have e1 : win8_1.index t (1 : Fin 2) = 0 := e.2.2.2.2.2.1
  unfold Gen.iblk8
  rw [View.read_apply]
  show (V c (Pipeline.arrRef spec8 1) : S1x64.Idx → EReal) _ = (V c (Pipeline.arrRef spec8 1) : S1x64.Idx → EReal) k
  refine congrArg _ (funext fun a => Fin.ext ?_)
  match a with
  | ⟨0, _⟩ => show win8_1.index t (0 : Fin 2) * 1 + 1 * (y 0).val = (k 0).val; rw [e0, hk0]; omega
  | ⟨1, _⟩ => show win8_1.index t (1 : Fin 2) * 64 + 1 * (y 1).val = (k 1).val; rw [e1, hk1]; omega

/-- Window 2's block at every point is the whole 1 × 64 row. -/
theorem iblk8_2_apply (c : Dev nD) (t : Fin cfg8.N) (y : S1x64.Idx) (k : S1x64.Idx)
    (hk0 : (k 0).val = (y 0).val) (hk1 : (k 1).val = (y 1).val) :
    (Gen.iblk8 V c 2 t : Vec Ideal S1x64 .f32) y = (V c (Pipeline.arrRef spec8 2) : S1x64.Idx → EReal) k := by
  have e := idx_facts8 t
  have e0 : win8_2.index t (0 : Fin 2) = 0 := e.2.2.2.2.2.2.1
  have e1 : win8_2.index t (1 : Fin 2) = 0 := e.2.2.2.2.2.2.2.1
  unfold Gen.iblk8
  rw [View.read_apply]
  show (V c (Pipeline.arrRef spec8 2) : S1x64.Idx → EReal) _ = (V c (Pipeline.arrRef spec8 2) : S1x64.Idx → EReal) k
  refine congrArg _ (funext fun a => Fin.ext ?_)
  match a with
  | ⟨0, _⟩ => show win8_2.index t (0 : Fin 2) * 1 + 1 * (y 0).val = (k 0).val; rw [e0, hk0]; omega
  | ⟨1, _⟩ => show win8_2.index t (1 : Fin 2) * 64 + 1 * (y 1).val = (k 1).val; rw [e1, hk1]; omega

/-- Window 3's block at every point is the whole 1 × 64 row. -/
theorem iblk8_3_apply (c : Dev nD) (t : Fin cfg8.N) (y : S1x64.Idx) (k : S1x64.Idx)
    (hk0 : (k 0).val = (y 0).val) (hk1 : (k 1).val = (y 1).val) :
    (Gen.iblk8 V c 3 t : Vec Ideal S1x64 .f32) y = (V c (Pipeline.arrRef spec8 3) : S1x64.Idx → EReal) k := by
  have e := idx_facts8 t
  have e0 : win8_3.index t (0 : Fin 2) = 0 := e.2.2.2.2.2.2.2.2.1
  have e1 : win8_3.index t (1 : Fin 2) = 0 := e.2.2.2.2.2.2.2.2.2.1
  unfold Gen.iblk8
  rw [View.read_apply]
  show (V c (Pipeline.arrRef spec8 3) : S1x64.Idx → EReal) _ = (V c (Pipeline.arrRef spec8 3) : S1x64.Idx → EReal) k
  refine congrArg _ (funext fun a => Fin.ext ?_)
  match a with
  | ⟨0, _⟩ => show win8_3.index t (0 : Fin 2) * 1 + 1 * (y 0).val = (k 0).val; rw [e0, hk0]; omega
  | ⟨1, _⟩ => show win8_3.index t (1 : Fin 2) * 64 + 1 * (y 1).val = (k 1).val; rw [e1, hk1]; omega

/-- Window 4's block at every point is the whole 1 × 64 row. -/
theorem iblk8_4_apply (c : Dev nD) (t : Fin cfg8.N) (y : S1x64.Idx) (k : S1x64.Idx)
    (hk0 : (k 0).val = (y 0).val) (hk1 : (k 1).val = (y 1).val) :
    (Gen.iblk8 V c 4 t : Vec Ideal S1x64 .f32) y = (V c (Pipeline.arrRef spec8 4) : S1x64.Idx → EReal) k := by
  have e := idx_facts8 t
  have e0 : win8_4.index t (0 : Fin 2) = 0 := e.2.2.2.2.2.2.2.2.2.2.1
  have e1 : win8_4.index t (1 : Fin 2) = 0 := e.2.2.2.2.2.2.2.2.2.2.2
  unfold Gen.iblk8
  rw [View.read_apply]
  show (V c (Pipeline.arrRef spec8 4) : S1x64.Idx → EReal) _ = (V c (Pipeline.arrRef spec8 4) : S1x64.Idx → EReal) k
  refine congrArg _ (funext fun a => Fin.ext ?_)
  match a with
  | ⟨0, _⟩ => show win8_4.index t (0 : Fin 2) * 1 + 1 * (y 0).val = (k 0).val; rw [e0, hk0]; omega
  | ⟨1, _⟩ => show win8_4.index t (1 : Fin 2) * 64 + 1 * (y 1).val = (k 1).val; rw [e1, hk1]; omega

/-- The normalisation of the whole input by the four rows, as the region finds them. -/
abbrev G8 (c : Dev nD) : S100000x64.Idx → EReal :=
  bnK (n := 100000) (c := 64) (V c (Pipeline.arrRef spec8 0) : S100000x64.Idx → EReal) (V c (Pipeline.arrRef spec8 1) : S1x64.Idx → EReal)
    (V c (Pipeline.arrRef spec8 2) : S1x64.Idx → EReal) (V c (Pipeline.arrRef spec8 3) : S1x64.Idx → EReal)
    (V c (Pipeline.arrRef spec8 4) : S1x64.Idx → EReal)

/-- What point `t` writes back is block `t` of the normalised array. -/
theorem flushed8_eq (c : Dev nD) (t : Fin cfg8.N) :
    (Gen.dat8 (F := Ideal) V c).flushed 5 t = ((cfg8.win 5).blk t).view.read (Elt Ideal) (G8 V c) := by
  show (cfg8.win 5).cut (grid8.coords t) ((Gen.dat8 (F := Ideal) V c).after 5 t) = _
  rw [Gen.after8_5, out8_eq]
  obtain ⟨-, -, e0, e1, -⟩ := idx_facts8 t
  funext j
  rw [View.read_apply]
  have hj0 : (j 0).val < 5000 := (j 0).isLt
  have hj1 : (j 1).val < 64 := (j 1).isLt
  have hi0 : ((((cfg8.win 5).blk t).view.emb j : S100000x64.Idx) 0).val = t.val * 5000 + (j 0).val := by
    show win8_5.index t (0 : Fin 2) * 5000 + 1 * (j 0).val = _; rw [e0]; omega
  have hi1 : ((((cfg8.win 5).blk t).view.emb j : S100000x64.Idx) 1).val = (j 1).val := by
    show win8_5.index t (1 : Fin 2) * 64 + 1 * (j 1).val = _; rw [e1]; omega
  show bnK (n := 5000) (c := 64) (Gen.iblk8 V c 0 t) (Gen.iblk8 V c 1 t) (Gen.iblk8 V c 2 t) (Gen.iblk8 V c 3 t) (Gen.iblk8 V c 4 t) j
      = G8 V c (((cfg8.win 5).blk t).view.emb j)
  unfold G8 bnK
  rw [iblk8_0_apply V c t j _ hi0 hi1,
    iblk8_1_apply V c t (ix2 (0 : Fin 1) (colOfIx (n := 5000) (c := 64) j)) (ix2 (0 : Fin 1) (colOfIx (n := 100000) (c := 64) (((cfg8.win 5).blk t).view.emb j))) rfl hi1,
    iblk8_2_apply V c t (ix2 (0 : Fin 1) (colOfIx (n := 5000) (c := 64) j)) (ix2 (0 : Fin 1) (colOfIx (n := 100000) (c := 64) (((cfg8.win 5).blk t).view.emb j))) rfl hi1,
    iblk8_3_apply V c t (ix2 (0 : Fin 1) (colOfIx (n := 5000) (c := 64) j)) (ix2 (0 : Fin 1) (colOfIx (n := 100000) (c := 64) (((cfg8.win 5).blk t).view.emb j))) rfl hi1,
    iblk8_4_apply V c t (ix2 (0 : Fin 1) (colOfIx (n := 5000) (c := 64) j)) (ix2 (0 : Fin 1) (colOfIx (n := 100000) (c := 64) (((cfg8.win 5).blk t).view.emb j))) rfl hi1]

/-- An index of the output array lies in point `t`'s block iff each coordinate lies in the block's range on its axis. -/
theorem mem_blk8 (t : Fin cfg8.N) (i : S100000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v116).slice (win8_5.rect t)).set ↔ _
  rw [View.set_slice_whole, Rect.mem_set_unit]
  exact Iff.rfl

/-- The 20 blocks tile the rows: row `r` lies in the block of point `r / 5000`. -/
theorem cover8 (i : S100000x64.Idx) : ∃ t : Fin cfg8.N, (cfg8.win 5).flush t = true ∧ i ∈ ((cfg8.win 5).blk t).view.set := by
  have hN : cfg8.N = 20 := N_8
  have hi0 : (i 0).val < 100000 := (i 0).isLt
  have hi1 : (i 1).val < 64 := (i 1).isLt
  have ht : (i 0).val / 5000 < cfg8.N := by rw [hN]; omega
  refine ⟨⟨(i 0).val / 5000, ht⟩, flush8_5 _, ?_⟩
  rw [mem_blk8]
  obtain ⟨-, -, e0, e1, -⟩ := idx_facts8 ⟨(i 0).val / 5000, ht⟩
  have e0' : win8_5.index ⟨(i 0).val / 5000, ht⟩ (0 : Fin 2) = (i 0).val / 5000 := e0
  intro a
  match a with
  | ⟨0, _⟩ =>
    show win8_5.index ⟨(i 0).val / 5000, ht⟩ (0 : Fin 2) * 5000 ≤ (i 0).val ∧ (i 0).val < win8_5.index ⟨(i 0).val / 5000, ht⟩ (0 : Fin 2) * 5000 + 5000
    rw [e0']; omega
  | ⟨1, _⟩ =>
    show win8_5.index ⟨(i 0).val / 5000, ht⟩ (1 : Fin 2) * 64 ≤ (i 1).val ∧ (i 1).val < win8_5.index ⟨(i 0).val / 5000, ht⟩ (1 : Fin 2) * 64 + 64
    rw [e1]; omega

/-- THE ARRAY the region writes: the normalisation of its input by the four rows. -/
theorem bn8 (c : Dev nD) :
    ((Gen.dat8 (F := Ideal) V c).arrAt 5 cfg8.N : S100000x64.Idx → EReal)
      = bnK (n := 100000) (c := 64) (V c (Pipeline.arrRef spec8 0) : S100000x64.Idx → EReal) (V c (Pipeline.arrRef spec8 1) : S1x64.Idx → EReal)
          (V c (Pipeline.arrRef spec8 2) : S1x64.Idx → EReal) (V c (Pipeline.arrRef spec8 3) : S1x64.Idx → EReal)
          (V c (Pipeline.arrRef spec8 4) : S1x64.Idx → EReal) :=
  (Gen.dat8 (F := Ideal) V c).arrAt_eq_of_cover 5 (G8 V c) (fun t _ => flushed8_eq V c t) cover8

end Cert.KernelIdeal.KVal

end
-- ==== Proof.KLsm10.lean ====
/-
  The value of the log-softmax region: the array it writes is the row-wise log-softmax of its first operand with the
  bias row added.

  The region walks the 100000 rows in 20 blocks of 5000. At every block it holds the whole 1 × 2 bias row and one
  5000 × 2 block of the aggregated logits; it adds the bias, takes each row's maximum and each row's sum of exponentials
  over the two lanes, and stores `z - log (∑ exp z)` with `z = v - max v`. Row `r` of the result depends only on row
  `r` of the input and on the bias row, so block `t` of the result is block `t` of the same formula read on the whole
  arrays, and the 20 blocks tile the rows (row `r` lies in block `r / 5000`).
-/
import proofs.«108922_j32160715112488_1_alg».proof.Proof.Gen.KernelIdeal.Frame
import proofs.«108922_j32160715112488_1_alg».proof.Proof.Spec
import proofs.«108922_j32160715112488_1_alg».proof.Proof.KNormLib
import Idealize.ShloMosaic.Lib.Pipeline.Value
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.KVal

open Cert.KernelIdeal Cert.KernelIdeal.Gen Cert.KNormLib Cert.Gcn

/-- The log-softmax at an index depends only on the index's row: two matrices that agree along a row of each, column
    by column, have the same log-softmax at the entries of those rows in the same column. -/
theorem logsoftmax_congr_row {n n' c : ℕ} (v : (Sh2 n c).Idx → EReal) (v' : (Sh2 n' c).Idx → EReal)
    (j : (Sh2 n c).Idx) (i : (Sh2 n' c).Idx) (hcol : colOfIx i = colOfIx j)
    (hrow : ∀ k : Fin c, v (ix2 (rowOfIx j) k) = v' (ix2 (rowOfIx i) k)) : logsoftmax v j = logsoftmax v' i := by
  have hji : v j = v' i := by
    rw [eq_ix2_row_col j, eq_ix2_row_col i, hcol]
    exact hrow (colOfIx j)
  unfold logsoftmax rowmax
  simp only [hrow, hji]

variable (V : (c : Dev nD) → (b : Ref sig .tc) → Buf (Elt Ideal) ((c : Thread nD τ).loc b))

theorem hz10 : (![0, 0] : Fin 2 → Nat) = fun _ => 0 := funext fun a => by fin_cases a <;> rfl

/-- The stored value at row `p`, lane `q` of a block: the log-softmax, along row `p`, of the block with the bias row added. -/
theorem pay10_apply (v0 : Vec Ideal S5000x2 .f32) (v2 : Vec Ideal S1x2 .f32) (p : Fin 5000) (q : Fin 2) :
    Gen.k10_pay1 (F := Ideal) v0 v2 (ix2 p q)
      = logsoftmax (n := 5000) (c := 2) (biased (n := 5000) (c := 2) v0 v2) (ix2 p q) := by
  unfold Gen.k10_pay1
  simp only [shapeCast_self]
  refine (logsoftmax_lanes (addf v0 (broadcastTo S5000x2 v2 Gen.broadcasts_S1x2_S5000x2)) _ _ _ _ _ _ p q).trans ?_
  simp only [addf_apply, broadcastTo_1b_ab_apply]
  rfl

/-- What the body leaves in the output's staging buffer is the log-softmax of the biased block it holds. -/
theorem out10_eq (x0 : Vec Ideal S5000x2 .f32) (x1 : Vec Ideal S1x2 .f32) :
    Gen.out10_2 (F := Ideal) x0 x1 = logsoftmax (n := 5000) (c := 2) (biased (n := 5000) (c := 2) x0 x1) := by
  unfold Gen.out10_2
  rw [View.canon_unit_zero hz10]
  simp only [View.ld_unit_zero (S := S5000x2) hz10, View.ld_unit_zero (S := S1x2) hz10]
  funext j
  obtain ⟨p, q, rfl⟩ : ∃ (p : Fin 5000) (q : Fin 2), j = ix2 p q := ⟨j 0, j 1, eq_ix2 j⟩
  exact pay10_apply x0 x1 p q

/-- The printed index maps over the grid: the row-tiled windows sit at block `t` of the rows, the bias row at block 0. -/
theorem idx_facts10 : ∀ t : Fin cfg10.N,
    win10_0.index t (0 : Fin 2) = t.val ∧ win10_0.index t (1 : Fin 2) = 0
    ∧ win10_2.index t (0 : Fin 2) = t.val ∧ win10_2.index t (1 : Fin 2) = 0
    ∧ win10_1.index t (0 : Fin 2) = 0 ∧ win10_1.index t (1 : Fin 2) = 0 :=
  (by decide +kernel : ∀ t : Fin grid10.N, _)

/-- The input's block at point `t` is rows `5000 t … 5000 t + 4999` of the input. -/
theorem iblk10_0_apply (c : Dev nD) (t : Fin cfg10.N) (y : S5000x2.Idx) (k : S100000x2.Idx)
    (hk0 : (k 0).val = t.val * 5000 + (y 0).val) (hk1 : (k 1).val = (y 1).val) :
    (Gen.iblk10 V c 0 t : Vec Ideal S5000x2 .f32) y = (V c (Pipeline.arrRef spec10 0) : S100000x2.Idx → EReal) k := by
  obtain ⟨e0, e1, -⟩ := idx_facts10 t
  unfold Gen.iblk10
  rw [View.read_apply]
  show (V c (Pipeline.arrRef spec10 0) : S100000x2.Idx → EReal) _ = (V c (Pipeline.arrRef spec10 0) : S100000x2.Idx → EReal) k
  refine congrArg _ (funext fun a => Fin.ext ?_)
  match a with
  | ⟨0, _⟩ => show win10_0.index t (0 : Fin 2) * 5000 + 1 * (y 0).val = (k 0).val; rw [e0, hk0]; omega
  | ⟨1, _⟩ => show win10_0.index t (1 : Fin 2) * 2 + 1 * (y 1).val = (k 1).val; rw [e1, hk1]; omega

/-- The bias window's block at every point is the whole 1 × 2 row. -/
theorem iblk10_1_apply (c : Dev nD) (t : Fin cfg10.N) (y : S1x2.Idx) (k : S1x2.Idx)
    (hk0 : (k 0).val = (y 0).val) (hk1 : (k 1).val = (y 1).val) :
    (Gen.iblk10 V c 1 t : Vec Ideal S1x2 .f32) y = (V c (Pipeline.arrRef spec10 1) : S1x2.Idx → EReal) k := by
  obtain ⟨-, -, -, -, e0, e1⟩ := idx_facts10 t
  unfold Gen.iblk10
  rw [View.read_apply]
  show (V c (Pipeline.arrRef spec10 1) : S1x2.Idx → EReal) _ = (V c (Pipeline.arrRef spec10 1) : S1x2.Idx → EReal) k
  refine congrArg _ (funext fun a => Fin.ext ?_)
  match a with
  | ⟨0, _⟩ => show win10_1.index t (0 : Fin 2) * 1 + 1 * (y 0).val = (k 0).val; rw [e0, hk0]; omega
  | ⟨1, _⟩ => show win10_1.index t (1 : Fin 2) * 2 + 1 * (y 1).val = (k 1).val; rw [e1, hk1]; omega

/-- The row-wise log-softmax of the whole biased input, as the region finds its operands. -/
abbrev G10 (c : Dev nD) : S100000x2.Idx → EReal :=
  logsoftmax (n := 100000) (c := 2) (biased (n := 100000) (c := 2) (V c (Pipeline.arrRef spec10 0) : S100000x2.Idx → EReal)
    (V c (Pipeline.arrRef spec10 1) : S1x2.Idx → EReal))

/-- What point `t` writes back is block `t` of the log-softmax array. -/
theorem flushed10_eq (c : Dev nD) (t : Fin cfg10.N) :
    (Gen.dat10 (F := Ideal) V c).flushed 2 t = ((cfg10.win 2).blk t).view.read (Elt Ideal) (G10 V c) := by
  show (cfg10.win 2).cut (grid10.coords t) ((Gen.dat10 (F := Ideal) V c).after 2 t) = _
  rw [Gen.after10_2, out10_eq]
  obtain ⟨-, -, e0, e1, -⟩ := idx_facts10 t
  funext j
  rw [View.read_apply]
  have hj0 : (j 0).val < 5000 := (j 0).isLt
  have hj1 : (j 1).val < 2 := (j 1).isLt
  have hi0 : ((((cfg10.win 2).blk t).view.emb j : S100000x2.Idx) 0).val = t.val * 5000 + (j 0).val := by
    show win10_2.index t (0 : Fin 2) * 5000 + 1 * (j 0).val = _; rw [e0]; omega
  have hi1 : ((((cfg10.win 2).blk t).view.emb j : S100000x2.Idx) 1).val = (j 1).val := by
    show win10_2.index t (1 : Fin 2) * 2 + 1 * (j 1).val = _; rw [e1]; omega
  show logsoftmax (n := 5000) (c := 2) (biased (n := 5000) (c := 2) (Gen.iblk10 V c 0 t) (Gen.iblk10 V c 1 t)) j
      = G10 V c (((cfg10.win 2).blk t).view.emb j)
  refine logsoftmax_congr_row (n := 5000) (n' := 100000) (c := 2) _ _ j (((cfg10.win 2).blk t).view.emb j) (Fin.ext hi1) fun k => ?_
  unfold biased
  rw [iblk10_0_apply V c t (ix2 (rowOfIx (n := 5000) (c := 2) j) k)
      (ix2 (rowOfIx (n := 100000) (c := 2) (((cfg10.win 2).blk t).view.emb j)) k) hi0 rfl,
    iblk10_1_apply V c t _ (ix2 (0 : Fin 1) (colOfIx (n := 100000) (c := 2) (ix2 (rowOfIx (n := 100000) (c := 2) (((cfg10.win 2).blk t).view.emb j)) k))) rfl rfl]

/-- An index of the output array lies in point `t`'s block iff each coordinate lies in the block's range on its axis. -/
theorem mem_blk10 (t : Fin cfg10.N) (i : S100000x2.Idx) :
    i ∈ ((cfg10.win 2).blk t).view.set ↔ ∀ a : Fin 2, win10_2.index t a * S5000x2.size a ≤ (i a).val ∧ (i a).val < win10_2.index t a * S5000x2.size a + S5000x2.size a := by
  show i ∈ ((View.whole main_v132).slice (win10_2.rect t)).set ↔ _
  rw [View.set_slice_whole, Rect.mem_set_unit]
  exact Iff.rfl

/-- THE ARRAY the region writes: the row-wise log-softmax of its input with the bias row added. -/
theorem lsm10 (c : Dev nD) :
    ((Gen.dat10 (F := Ideal) V c).arrAt 2 cfg10.N : S100000x2.Idx → EReal)
      = logsoftmax (n := 100000) (c := 2) (biased (n := 100000) (c := 2) (V c (Pipeline.arrRef spec10 0) : S100000x2.Idx → EReal)
          (V c (Pipeline.arrRef spec10 1) : S1x2.Idx → EReal)) :=
  (Gen.dat10 (F := Ideal) V c).arrAt_eq_of_cover 2 (G10 V c) (fun t _ => flushed10_eq V c t) fun i => by
    have hN : cfg10.N = 20 := N_10
    have hi0 : ((i : S100000x2.Idx) 0).val < 100000 := ((i : S100000x2.Idx) 0).isLt
    have hi1 : ((i : S100000x2.Idx) 1).val < 2 := ((i : S100000x2.Idx) 1).isLt
    have ht : ((i : S100000x2.Idx) 0).val / 5000 < cfg10.N := by rw [hN]; omega
    refine ⟨⟨((i : S100000x2.Idx) 0).val / 5000, ht⟩, flush10_2 _, ?_⟩
    rw [mem_blk10]
    obtain ⟨-, -, e0, e1, -⟩ := idx_facts10 ⟨((i : S100000x2.Idx) 0).val / 5000, ht⟩
    intro a
    match a with
    | ⟨0, _⟩ =>
      show win10_2.index _ (0 : Fin 2) * 5000 ≤ ((i : S100000x2.Idx) 0).val ∧ ((i : S100000x2.Idx) 0).val < win10_2.index _ (0 : Fin 2) * 5000 + 5000
      rw [e0]; show ((i : S100000x2.Idx) 0).val / 5000 * 5000 ≤ _ ∧ _ < ((i : S100000x2.Idx) 0).val / 5000 * 5000 + 5000; omega
    | ⟨1, _⟩ =>
      show win10_2.index _ (1 : Fin 2) * 2 ≤ ((i : S100000x2.Idx) 1).val ∧ ((i : S100000x2.Idx) 1).val < win10_2.index _ (1 : Fin 2) * 2 + 2
      rw [e1]; omega

end Cert.KernelIdeal.KVal

end
-- ==== Proof.KChain.lean ====
/-
  The value of the idealized kernel program: region by region and stretch by stretch the buffers hold the stages of
  the network in the kernel's spelling, so the result array is the whole network of the launch arrays.
-/
import proofs.«108922_j32160715112488_1_alg».proof.Proof.KHost
import proofs.«108922_j32160715112488_1_alg».proof.Proof.KRows
import proofs.«108922_j32160715112488_1_alg».proof.Proof.NetDefs
import proofs.«108922_j32160715112488_1_alg».proof.Proof.KMatmul0
import proofs.«108922_j32160715112488_1_alg».proof.Proof.KMatmul3
import proofs.«108922_j32160715112488_1_alg».proof.Proof.KMatmul6
import proofs.«108922_j32160715112488_1_alg».proof.Proof.KMatmul9
import proofs.«108922_j32160715112488_1_alg».proof.Proof.KAccum1
import proofs.«108922_j32160715112488_1_alg».proof.Proof.KAccum4
import proofs.«108922_j32160715112488_1_alg».proof.Proof.KAccum7
import proofs.«108922_j32160715112488_1_alg».proof.Proof.KNorm2
import proofs.«108922_j32160715112488_1_alg».proof.Proof.KNorm5
import proofs.«108922_j32160715112488_1_alg».proof.Proof.KNorm8
import proofs.«108922_j32160715112488_1_alg».proof.Proof.KLsm10

set_option maxRecDepth 16384

noncomputable section

namespace Cert.KernelIdeal.KVal

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg)

set_option maxHeartbeats 8000000 in
/-- Layer 1: from the layer's input to its normalised activation, the hidden layer in the kernel's spelling. -/
theorem layer1 (c : Dev nD) :
    (W8 m ρ c (Proc.devRef .tc main_v58) : S100000x128.Idx → EReal)
      = hiddenK (convOf128 (m ((c : Thread nD τ).loc main_arg1))) (m ((c : Thread nD τ).loc main_arg0)) (m ((c : Thread nD τ).loc main_arg2)) (rowv (m ((c : Thread nD τ).loc main_arg3))) (rowv (m ((c : Thread nD τ).loc main_arg4))) (rowv (m ((c : Thread nD τ).loc main_arg5))) := by
  -- the product with the weights
  have hH : (W4 m ρ c (Proc.devRef .tc main_v30) : S100000x128.Idx → EReal) = mm (m ((c : Thread nD τ).loc main_arg0)) (m ((c : Thread nD τ).loc main_arg2)) := by
    have h := mm0 (V3 m ρ) c
    rw [show (V3 m ρ c main_arg0 : S100000x24.Idx → EReal) = (m ((c : Thread nD τ).loc main_arg0)) from W3_arg0 m ρ c,
      show (V3 m ρ c main_arg2 : S24x128.Idx → EReal) = (m ((c : Thread nD τ).loc main_arg2)) from W3_arg2 m ρ c] at h
    exact (W4_arr m ρ c 2).trans h
  -- the aggregation and the bias row
  have hA := W5_v43 m ρ c
  rw [hH, W4_v3 m ρ c, W3_v3 m ρ c, W4_v6 m ρ c, W3_v6 m ρ c, W4_v29 m ρ c, W3_v29 m ρ c] at hA
  have hB := W5_v44 m ρ c
  rw [W4_arg3 m ρ c, row128_eq] at hB
  -- bias, cut-off, column sums
  have hR : (W6 m ρ c (Proc.devRef .tc main_v45_0) : S100000x128.Idx → EReal) = act (convOf128 (m ((c : Thread nD τ).loc main_arg1))) (m ((c : Thread nD τ).loc main_arg0)) (m ((c : Thread nD τ).loc main_arg2)) (rowv (m ((c : Thread nD τ).loc main_arg3))) := by
    have h := relu1 (V5 m ρ) c
    rw [show (V5 m ρ c (Pipeline.arrRef spec1 0) : S100000x128.Idx → EReal) = _ from hA,
      show (V5 m ρ c (Pipeline.arrRef spec1 1) : S1x128.Idx → EReal) = _ from hB] at h
    exact (W6_arr m ρ c 2).trans h
  have hS : (W6 m ρ c (Proc.devRef .tc main_v45_1) : S1x128.Idx → EReal) = colsum (act (convOf128 (m ((c : Thread nD τ).loc main_arg1))) (m ((c : Thread nD τ).loc main_arg0)) (m ((c : Thread nD τ).loc main_arg2)) (rowv (m ((c : Thread nD τ).loc main_arg3)))) := by
    have h := sum1 (V5 m ρ) c
    rw [show (V5 m ρ c (Pipeline.arrRef spec1 0) : S100000x128.Idx → EReal) = _ from hA,
      show (V5 m ρ c (Pipeline.arrRef spec1 1) : S1x128.Idx → EReal) = _ from hB] at h
    exact (W6_arr m ρ c 3).trans h
  have hQ : (W6 m ρ c (Proc.devRef .tc main_v45_2) : S1x128.Idx → EReal) = colsum (sqr (act (convOf128 (m ((c : Thread nD τ).loc main_arg1))) (m ((c : Thread nD τ).loc main_arg0)) (m ((c : Thread nD τ).loc main_arg2)) (rowv (m ((c : Thread nD τ).loc main_arg3))))) := by
    have h := sumsq1 (V5 m ρ) c
    rw [show (V5 m ρ c (Pipeline.arrRef spec1 0) : S100000x128.Idx → EReal) = _ from hA,
      show (V5 m ρ c (Pipeline.arrRef spec1 1) : S1x128.Idx → EReal) = _ from hB] at h
    exact (W6_arr m ρ c 4).trans h
  -- means, variances, scale and shift rows
  have hM := W7_v54 m ρ c
  rw [hS, meanRow128_eq] at hM
  have hV := W7_v55 m ρ c
  rw [hS, hQ, varRow128_eq] at hV
  have hG := W7_v56 m ρ c
  rw [W6_arg4 m ρ c, row128_eq] at hG
  have hBe := W7_v57 m ρ c
  rw [W6_arg5 m ρ c, row128_eq] at hBe
  have hR' := (W7_v45_0 m ρ c).trans hR
  -- the normalisation
  have h := bn2 (V7 m ρ) c
  rw [show (V7 m ρ c (Pipeline.arrRef spec2 0) : S100000x128.Idx → EReal) = _ from hR',
    show (V7 m ρ c (Pipeline.arrRef spec2 1) : S1x128.Idx → EReal) = _ from hM,
    show (V7 m ρ c (Pipeline.arrRef spec2 2) : S1x128.Idx → EReal) = _ from hV,
    show (V7 m ρ c (Pipeline.arrRef spec2 3) : S1x128.Idx → EReal) = _ from hG,
    show (V7 m ρ c (Pipeline.arrRef spec2 4) : S1x128.Idx → EReal) = _ from hBe] at h
  exact (W8_arr m ρ c 5).trans h

set_option maxHeartbeats 8000000 in
/-- Layer 2: from the layer's input to its normalised activation, the hidden layer in the kernel's spelling. -/
theorem layer2 (c : Dev nD) (X : S100000x128.Idx → EReal)
    (hX : (W8 m ρ c (Proc.devRef .tc main_v58) : S100000x128.Idx → EReal) = X) :
    (W13 m ρ c (Proc.devRef .tc main_v87) : S100000x128.Idx → EReal)
      = hiddenK (convOf128 (m ((c : Thread nD τ).loc main_arg1))) X (m ((c : Thread nD τ).loc main_arg6)) (rowv (m ((c : Thread nD τ).loc main_arg7))) (rowv (m ((c : Thread nD τ).loc main_arg8))) (rowv (m ((c : Thread nD τ).loc main_arg9))) := by
  -- the product with the weights
  have hH : (W9 m ρ c (Proc.devRef .tc main_v59) : S100000x128.Idx → EReal) = mm X (m ((c : Thread nD τ).loc main_arg6)) := by
    have h := mm3 (V8 m ρ) c
    rw [show (V8 m ρ c main_v58 : S100000x128.Idx → EReal) = X from hX,
      show (V8 m ρ c main_arg6 : S128x128.Idx → EReal) = (m ((c : Thread nD τ).loc main_arg6)) from W8_arg6 m ρ c] at h
    exact (W9_arr m ρ c 2).trans h
  -- the aggregation and the bias row
  have hA := W10_v72 m ρ c
  rw [hH, W9_v3 m ρ c, W3_v3 m ρ c, W9_v6 m ρ c, W3_v6 m ρ c, W9_v29 m ρ c, W3_v29 m ρ c] at hA
  have hB := W10_v73 m ρ c
  rw [W9_arg7 m ρ c, row128_eq] at hB
  -- bias, cut-off, column sums
  have hR : (W11 m ρ c (Proc.devRef .tc main_v74_0) : S100000x128.Idx → EReal) = act (convOf128 (m ((c : Thread nD τ).loc main_arg1))) X (m ((c : Thread nD τ).loc main_arg6)) (rowv (m ((c : Thread nD τ).loc main_arg7))) := by
    have h := relu4 (V10 m ρ) c
    rw [show (V10 m ρ c (Pipeline.arrRef spec4 0) : S100000x128.Idx → EReal) = _ from hA,
      show (V10 m ρ c (Pipeline.arrRef spec4 1) : S1x128.Idx → EReal) = _ from hB] at h
    exact (W11_arr m ρ c 2).trans h
  have hS : (W11 m ρ c (Proc.devRef .tc main_v74_1) : S1x128.Idx → EReal) = colsum (act (convOf128 (m ((c : Thread nD τ).loc main_arg1))) X (m ((c : Thread nD τ).loc main_arg6)) (rowv (m ((c : Thread nD τ).loc main_arg7)))) := by
    have h := sum4 (V10 m ρ) c
    rw [show (V10 m ρ c (Pipeline.arrRef spec4 0) : S100000x128.Idx → EReal) = _ from hA,
      show (V10 m ρ c (Pipeline.arrRef spec4 1) : S1x128.Idx → EReal) = _ from hB] at h
    exact (W11_arr m ρ c 3).trans h
  have hQ : (W11 m ρ c (Proc.devRef .tc main_v74_2) : S1x128.Idx → EReal) = colsum (sqr (act (convOf128 (m ((c : Thread nD τ).loc main_arg1))) X (m ((c : Thread nD τ).loc main_arg6)) (rowv (m ((c : Thread nD τ).loc main_arg7))))) := by
    have h := sumsq4 (V10 m ρ) c
    rw [show (V10 m ρ c (Pipeline.arrRef spec4 0) : S100000x128.Idx → EReal) = _ from hA,
      show (V10 m ρ c (Pipeline.arrRef spec4 1) : S1x128.Idx → EReal) = _ from hB] at h
    exact (W11_arr m ρ c 4).trans h
  -- means, variances, scale and shift rows
  have hM := W12_v83 m ρ c
  rw [hS, meanRow128_eq] at hM
  have hV := W12_v84 m ρ c
  rw [hS, hQ, varRow128_eq] at hV
  have hG := W12_v85 m ρ c
  rw [W11_arg8 m ρ c, row128_eq] at hG
  have hBe := W12_v86 m ρ c
  rw [W11_arg9 m ρ c, row128_eq] at hBe
  have hR' := (W12_v74_0 m ρ c).trans hR
  -- the normalisation
  have h := bn5 (V12 m ρ) c
  rw [show (V12 m ρ c (Pipeline.arrRef spec5 0) : S100000x128.Idx → EReal) = _ from hR',
    show (V12 m ρ c (Pipeline.arrRef spec5 1) : S1x128.Idx → EReal) = _ from hM,
    show (V12 m ρ c (Pipeline.arrRef spec5 2) : S1x128.Idx → EReal) = _ from hV,
    show (V12 m ρ c (Pipeline.arrRef spec5 3) : S1x128.Idx → EReal) = _ from hG,
    show (V12 m ρ c (Pipeline.arrRef spec5 4) : S1x128.Idx → EReal) = _ from hBe] at h
  exact (W13_arr m ρ c 5).trans h

set_option maxHeartbeats 8000000 in
/-- Layer 3: from the layer's input to its normalised activation, the hidden layer in the kernel's spelling. -/
theorem layer3 (c : Dev nD) (X : S100000x128.Idx → EReal)
    (hX : (W13 m ρ c (Proc.devRef .tc main_v87) : S100000x128.Idx → EReal) = X) :
    (W18 m ρ c (Proc.devRef .tc main_v116) : S100000x64.Idx → EReal)
      = hiddenK (convOf64 (m ((c : Thread nD τ).loc main_arg1))) X (m ((c : Thread nD τ).loc main_arg10)) (rowv (m ((c : Thread nD τ).loc main_arg11))) (rowv (m ((c : Thread nD τ).loc main_arg12))) (rowv (m ((c : Thread nD τ).loc main_arg13))) := by
  -- the product with the weights
  have hH : (W14 m ρ c (Proc.devRef .tc main_v88) : S100000x64.Idx → EReal) = mm X (m ((c : Thread nD τ).loc main_arg10)) := by
    have h := mm6 (V13 m ρ) c
    rw [show (V13 m ρ c main_v87 : S100000x128.Idx → EReal) = X from hX,
      show (V13 m ρ c main_arg10 : S128x64.Idx → EReal) = (m ((c : Thread nD τ).loc main_arg10)) from W13_arg10 m ρ c] at h
    exact (W14_arr m ρ c 2).trans h
  -- the aggregation and the bias row
  have hA := W15_v101 m ρ c
  rw [hH, W14_v3 m ρ c, W3_v3 m ρ c, W14_v6 m ρ c, W3_v6 m ρ c, W14_v29 m ρ c, W3_v29 m ρ c] at hA
  have hB := W15_v102 m ρ c
  rw [W14_arg11 m ρ c, row64_eq] at hB
  -- bias, cut-off, column sums
  have hR : (W16 m ρ c (Proc.devRef .tc main_v103_0) : S100000x64.Idx → EReal) = act (convOf64 (m ((c : Thread nD τ).loc main_arg1))) X (m ((c : Thread nD τ).loc main_arg10)) (rowv (m ((c : Thread nD τ).loc main_arg11))) := by
    have h := relu7 (V15 m ρ) c
    rw [show (V15 m ρ c (Pipeline.arrRef spec7 0) : S100000x64.Idx → EReal) = _ from hA,
      show (V15 m ρ c (Pipeline.arrRef spec7 1) : S1x64.Idx → EReal) = _ from hB] at h
    exact (W16_arr m ρ c 2).trans h
  have hS : (W16 m ρ c (Proc.devRef .tc main_v103_1) : S1x64.Idx → EReal) = colsum (act (convOf64 (m ((c : Thread nD τ).loc main_arg1))) X (m ((c : Thread nD τ).loc main_arg10)) (rowv (m ((c : Thread nD τ).loc main_arg11)))) := by
    have h := sum7 (V15 m ρ) c
    rw [show (V15 m ρ c (Pipeline.arrRef spec7 0) : S100000x64.Idx → EReal) = _ from hA,
      show (V15 m ρ c (Pipeline.arrRef spec7 1) : S1x64.Idx → EReal) = _ from hB] at h
    exact (W16_arr m ρ c 3).trans h
  have hQ : (W16 m ρ c (Proc.devRef .tc main_v103_2) : S1x64.Idx → EReal) = colsum (sqr (act (convOf64 (m ((c : Thread nD τ).loc main_arg1))) X (m ((c : Thread nD τ).loc main_arg10)) (rowv (m ((c : Thread nD τ).loc main_arg11))))) := by
    have h := sumsq7 (V15 m ρ) c
    rw [show (V15 m ρ c (Pipeline.arrRef spec7 0) : S100000x64.Idx → EReal) = _ from hA,
      show (V15 m ρ c (Pipeline.arrRef spec7 1) : S1x64.Idx → EReal) = _ from hB] at h
    exact (W16_arr m ρ c 4).trans h
  -- means, variances, scale and shift rows
  have hM := W17_v112 m ρ c
  rw [hS, meanRow64_eq] at hM
  have hV := W17_v113 m ρ c
  rw [hS, hQ, varRow64_eq] at hV
  have hG := W17_v114 m ρ c
  rw [W16_arg12 m ρ c, row64_eq] at hG
  have hBe := W17_v115 m ρ c
  rw [W16_arg13 m ρ c, row64_eq] at hBe
  have hR' := (W17_v103_0 m ρ c).trans hR
  -- the normalisation
  have h := bn8 (V17 m ρ) c
  rw [show (V17 m ρ c (Pipeline.arrRef spec8 0) : S100000x64.Idx → EReal) = _ from hR',
    show (V17 m ρ c (Pipeline.arrRef spec8 1) : S1x64.Idx → EReal) = _ from hM,
    show (V17 m ρ c (Pipeline.arrRef spec8 2) : S1x64.Idx → EReal) = _ from hV,
    show (V17 m ρ c (Pipeline.arrRef spec8 3) : S1x64.Idx → EReal) = _ from hG,
    show (V17 m ρ c (Pipeline.arrRef spec8 4) : S1x64.Idx → EReal) = _ from hBe] at h
  exact (W18_arr m ρ c 5).trans h

set_option maxHeartbeats 8000000 in
/-- The last layer: from its input to the result array, the product, the aggregation, the bias and the logarithm of
    the softmax along each row. -/
theorem layer4 (c : Dev nD) (X : S100000x64.Idx → EReal)
    (hX : (W18 m ρ c (Proc.devRef .tc main_v116) : S100000x64.Idx → EReal) = X) :
    (W21 m ρ c (Proc.devRef .tc main_v132) : S100000x2.Idx → EReal)
      = lastLayer (convOf2 (m ((c : Thread nD τ).loc main_arg1))) X (m ((c : Thread nD τ).loc main_arg14)) (rowv (m ((c : Thread nD τ).loc main_arg15))) := by
  have hH : (W19 m ρ c (Proc.devRef .tc main_v117) : S100000x2.Idx → EReal) = mm X (m ((c : Thread nD τ).loc main_arg14)) := by
    have h := mm9 (V18 m ρ) c
    rw [show (V18 m ρ c main_v116 : S100000x64.Idx → EReal) = X from hX,
      show (V18 m ρ c main_arg14 : S64x2.Idx → EReal) = (m ((c : Thread nD τ).loc main_arg14)) from W18_arg14 m ρ c] at h
    exact (W19_arr m ρ c 2).trans h
  have hA := W20_v130 m ρ c
  rw [hH, W19_v3 m ρ c, W3_v3 m ρ c, W19_v6 m ρ c, W3_v6 m ρ c, W19_v29 m ρ c, W3_v29 m ρ c] at hA
  have hB := W20_v131 m ρ c
  rw [W19_arg15 m ρ c, row2_eq] at hB
  have h := lsm10 (V20 m ρ) c
  rw [show (V20 m ρ c (Pipeline.arrRef spec10 0) : S100000x2.Idx → EReal) = _ from hA,
    show (V20 m ρ c (Pipeline.arrRef spec10 1) : S1x2.Idx → EReal) = _ from hB] at h
  exact (W21_arr m ρ c 2).trans h

/-- THE VALUE OF THE PROGRAM: the result array after the last region is the network, in the kernel's spelling, of
    the sixteen launch arrays. -/
theorem kernel_value (c : Dev nD) :
    (W21 m ρ c (Proc.devRef .tc main_v132) : S100000x2.Idx → EReal)
      = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  layer4 m ρ c _ (layer3 m ρ c _ (layer2 m ρ c _ (layer1 m ρ c)))

end Cert.KernelIdeal.KVal

end
-- ==== Proof.RefOps.lean ====
/- The reference program's @main as a straight line of host operations: every call of a module-local
   function replaced, at its call site, by the callee's operations over that call's own buffers (a callee
   that itself calls one, likewise), the whole cut into nine consecutive segments at the layer boundaries;
   and the buffer contents at each boundary, a fold of the segments' results from the launch memory. -/
import proofs.«108922_j32160715112488_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The operations, segment by segment -/

/-- The graph's edge weights: both index rows extended by the self loops, the in-degree by a scatter-add of ones, its inverse square root where the degree is positive, gathered at both ends of every edge and multiplied. (40 operations.) -/
abbrev seg0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]
/-- Each operation of `seg0` touches TensorCore references only. -/
theorem seg0_sub : (seg0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Layer 1, the convolution: the features times the weights, gathered at each edge's source, scaled by the edge weight, summed into the edge's target, plus the bias. (20 operations.) -/
abbrev seg1 : List (HloOp τ sig (Elt F)) :=
  [ StableHlo.binary main_arg0 main_arg2 main_v30 ((fun l r => Host.dotGeneral dot_S100000x24_S24x128_S100000x128_1_0_0_1_n_n none l r) : (⟨S100000x24, .f32⟩ : BufTy).Contents (Elt F) → (⟨S24x128, .f32⟩ : BufTy).Contents (Elt F) → (⟨S100000x128, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)) ]
/-- Each operation of `seg1` touches TensorCore references only. -/
theorem seg1_sub : (seg1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Layer 1, the rest: the rectifier, the column mean, the biased column variance, and the normalisation scaled by gamma and shifted by beta. (47 operations.) -/
abbrev seg2 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v46 : StableHlo.TRef sig ⟨S100000x128, .f32⟩) (.of main_call1_v0 : StableHlo.TRef sig ⟨S100000x128, .f32⟩) (.of main_v47 : StableHlo.TRef sig ⟨S100000x128, .f32⟩) maximumf,
    StableHlo.nullary main_cst_9 (constant S_ .f32 0x00000000#32),
    StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary (.of main_call2_cst : StableHlo.TRef sig ⟨S_, .f32⟩) (constant S_ .f32 0x00000000#32),
    StableHlo.TRef.binary (.of main_v47 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v47 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_11 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v51 : StableHlo.TRef sig ⟨S128, .f32⟩) (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]
/-- Each operation of `seg2` touches TensorCore references only. -/
theorem seg2_sub : (seg2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Layer 2, the convolution, as layer 1's. (20 operations.) -/
abbrev seg3 : List (HloOp τ sig (Elt F)) :=
  [ StableHlo.binary main_v66 main_arg6 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_13 (constantI S_ 32 0#32),
    StableHlo.unary main_c_13 main_v68 (broadcastInDim S1700000 ![] bcast_S_S1700000 : (⟨S_, .i32⟩ : BufTy).Contents (Elt F) → (⟨S1700000, .i32⟩ : BufTy).Contents (Elt F)),
    StableHlo.binary main_v3 main_v68 main_v69 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v70 (broadcastInDim S1700000 ![] bcast_S_S1700000 : (⟨S_, .i32⟩ : BufTy).Contents (Elt F) → (⟨S1700000, .i32⟩ : BufTy).Contents (Elt F)),
    StableHlo.binary main_v3 main_v70 main_v71 (addi : (⟨S1700000, .i32⟩ : BufTy).Contents (Elt F) → (⟨S1700000, .i32⟩ : BufTy).Contents (Elt F) → (⟨S1700000, .i32⟩ : BufTy).Contents (Elt F)),
    StableHlo.ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v72 main_v73 (broadcastInDim S1700000x1 ![0] bcast_S1700000_S1700000x1_0 : (⟨S1700000, .i32⟩ : BufTy).Contents (Elt F) → (⟨S1700000x1, .i32⟩ : BufTy).Contents (Elt F)),
    StableHlo.binary main_v67 main_v73 main_v74 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v75 (broadcastInDim S1700000x1 ![0] bcast_S1700000_S1700000x1_0 : (⟨S1700000, .f32⟩ : BufTy).Contents (Elt F) → (⟨S1700000x1, .f32⟩ : BufTy).Contents (Elt F)),
    StableHlo.unary main_v75 main_v76 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v74 main_v76 main_v77 (mulf : (⟨S1700000x128, .f32⟩ : BufTy).Contents (Elt F) → (⟨S1700000x128, .f32⟩ : BufTy).Contents (Elt F) → (⟨S1700000x128, .f32⟩ : BufTy).Contents (Elt F)),
    StableHlo.nullary main_cst_15 (constant S_ .f32 0x00000000#32),
    StableHlo.unary main_cst_15 main_v78 (broadcastInDim S100000x128 ![] bcast_S_S100000x128 : (⟨S_, .f32⟩ : BufTy).Contents (Elt F) → (⟨S100000x128, .f32⟩ : BufTy).Contents (Elt F)),
    StableHlo.unary main_v6 main_v79 (broadcastInDim S1700000x1 ![0] bcast_S1700000_S1700000x1_0 : (⟨S1700000, .i32⟩ : BufTy).Contents (Elt F) → (⟨S1700000x1, .i32⟩ : BufTy).Contents (Elt F)),
    StableHlo.ternary main_v78 main_v79 main_v77 main_v80 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)) ]
/-- Each operation of `seg3` touches TensorCore references only. -/
theorem seg3_sub : (seg3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Layer 2, the rest: rectifier and normalisation, as layer 1's. (47 operations.) -/
abbrev seg4 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v83 : StableHlo.TRef sig ⟨S100000x128, .f32⟩) (.of main_call3_v0 : StableHlo.TRef sig ⟨S100000x128, .f32⟩) (.of main_v84 : StableHlo.TRef sig ⟨S100000x128, .f32⟩) maximumf,
    StableHlo.nullary main_cst_16 (constant S_ .f32 0x00000000#32),
    StableHlo.binary main_v84 main_cst_16 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary (.of main_call4_cst : StableHlo.TRef sig ⟨S_, .f32⟩) (constant S_ .f32 0x00000000#32),
    StableHlo.TRef.binary (.of main_v84 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v84 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_18 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v88 : StableHlo.TRef sig ⟨S128, .f32⟩) (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v96 main_v97 (mulf : (⟨S100000x128, .f32⟩ : BufTy).Contents (Elt F) → (⟨S100000x128, .f32⟩ : BufTy).Contents (Elt F) → (⟨S100000x128, .f32⟩ : BufTy).Contents (Elt F)),
    StableHlo.unary main_arg8 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v99 main_v100 (mulf : (⟨S100000x128, .f32⟩ : BufTy).Contents (Elt F) → (⟨S100000x128, .f32⟩ : BufTy).Contents (Elt F) → (⟨S100000x128, .f32⟩ : BufTy).Contents (Elt F)),
    StableHlo.unary main_arg9 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)) ]
/-- Each operation of `seg4` touches TensorCore references only. -/
theorem seg4_sub : (seg4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Layer 3, the convolution, onto 64 columns. (20 operations.) -/
abbrev seg5 : List (HloOp τ sig (Elt F)) :=
  [ StableHlo.binary main_v103 main_arg10 main_v104 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_20 (constantI S_ 32 0#32),
    StableHlo.unary main_c_20 main_v105 (broadcastInDim S1700000 ![] bcast_S_S1700000 : (⟨S_, .i32⟩ : BufTy).Contents (Elt F) → (⟨S1700000, .i32⟩ : BufTy).Contents (Elt F)),
    StableHlo.binary main_v3 main_v105 main_v106 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v107 (broadcastInDim S1700000 ![] bcast_S_S1700000 : (⟨S_, .i32⟩ : BufTy).Contents (Elt F) → (⟨S1700000, .i32⟩ : BufTy).Contents (Elt F)),
    StableHlo.binary main_v3 main_v107 main_v108 (addi : (⟨S1700000, .i32⟩ : BufTy).Contents (Elt F) → (⟨S1700000, .i32⟩ : BufTy).Contents (Elt F) → (⟨S1700000, .i32⟩ : BufTy).Contents (Elt F)),
    StableHlo.ternary main_v106 main_v108 main_v3 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v109 main_v110 (broadcastInDim S1700000x1 ![0] bcast_S1700000_S1700000x1_0 : (⟨S1700000, .i32⟩ : BufTy).Contents (Elt F) → (⟨S1700000x1, .i32⟩ : BufTy).Contents (Elt F)),
    StableHlo.binary main_v104 main_v110 main_v111 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v29 main_v112 (broadcastInDim S1700000x1 ![0] bcast_S1700000_S1700000x1_0 : (⟨S1700000, .f32⟩ : BufTy).Contents (Elt F) → (⟨S1700000x1, .f32⟩ : BufTy).Contents (Elt F)),
    StableHlo.unary main_v112 main_v113 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v111 main_v113 main_v114 (mulf : (⟨S1700000x64, .f32⟩ : BufTy).Contents (Elt F) → (⟨S1700000x64, .f32⟩ : BufTy).Contents (Elt F) → (⟨S1700000x64, .f32⟩ : BufTy).Contents (Elt F)),
    StableHlo.nullary main_cst_22 (constant S_ .f32 0x00000000#32),
    StableHlo.unary main_cst_22 main_v115 (broadcastInDim S100000x64 ![] bcast_S_S100000x64 : (⟨S_, .f32⟩ : BufTy).Contents (Elt F) → (⟨S100000x64, .f32⟩ : BufTy).Contents (Elt F)),
    StableHlo.unary main_v6 main_v116 (broadcastInDim S1700000x1 ![0] bcast_S1700000_S1700000x1_0 : (⟨S1700000, .i32⟩ : BufTy).Contents (Elt F) → (⟨S1700000x1, .i32⟩ : BufTy).Contents (Elt F)),
    StableHlo.ternary main_v115 main_v116 main_v114 main_v117 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg11 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S100000x64 ![0, 1] bcast_S1x64_S100000x64_0_1 : (⟨S1x64, .f32⟩ : BufTy).Contents (Elt F) → (⟨S100000x64, .f32⟩ : BufTy).Contents (Elt F)),
    StableHlo.binary main_v117 main_v119 main_v120 (addf : (⟨S100000x64, .f32⟩ : BufTy).Contents (Elt F) → (⟨S100000x64, .f32⟩ : BufTy).Contents (Elt F) → (⟨S100000x64, .f32⟩ : BufTy).Contents (Elt F)) ]
/-- Each operation of `seg5` touches TensorCore references only. -/
theorem seg5_sub : (seg5 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Layer 3, the rest: rectifier and normalisation over 64 columns. (47 operations.) -/
abbrev seg6 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x64, .f32⟩) (broadcastInDim S100000x64 ![] bcast_S_S100000x64),
    StableHlo.TRef.binary (.of main_v120 : StableHlo.TRef sig ⟨S100000x64, .f32⟩) (.of main_call5_v0 : StableHlo.TRef sig ⟨S100000x64, .f32⟩) (.of main_v121 : StableHlo.TRef sig ⟨S100000x64, .f32⟩) maximumf,
    StableHlo.nullary main_cst_23 (constant S_ .f32 0x00000000#32),
    StableHlo.binary main_v121 main_cst_23 main_v122 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_24 (constant S_ .f32 0x47C35000#32),
    StableHlo.unary main_cst_24 main_v123 (broadcastInDim S64 ![] bcast_S_S64 : (⟨S_, .f32⟩ : BufTy).Contents (Elt F) → (⟨S64, .f32⟩ : BufTy).Contents (Elt F)),
    StableHlo.binary main_v122 main_v123 main_v124 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary (.of main_call6_cst : StableHlo.TRef sig ⟨S_, .f32⟩) (constant S_ .f32 0x00000000#32),
    StableHlo.TRef.binary (.of main_v121 : StableHlo.TRef sig ⟨S100000x64, .f32⟩) (.of main_call6_cst : StableHlo.TRef sig ⟨S_, .f32⟩) (.of main_call6_v0 : StableHlo.TRef sig ⟨S64, .f32⟩) (fun x v => Host.reduceAdd x v reducesTo_S100000x64_S64_d0 h_S_),
    StableHlo.TRef.unary (.of main_call6_v0 : StableHlo.TRef sig ⟨S64, .f32⟩) (.of main_call6_v1 : StableHlo.TRef sig ⟨S1x64, .f32⟩) (broadcastInDim S1x64 ![1] bcast_S64_S1x64_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x64, .f32⟩) (broadcastInDim S1x64 ![] bcast_S_S1x64),
    StableHlo.TRef.binary (.of main_call6_v1 : StableHlo.TRef sig ⟨S1x64, .f32⟩) (.of main_call6_v2 : StableHlo.TRef sig ⟨S1x64, .f32⟩) (.of main_call6_v3 : StableHlo.TRef sig ⟨S1x64, .f32⟩) Host.divf,
    StableHlo.TRef.unary (.of main_call6_v3 : StableHlo.TRef sig ⟨S1x64, .f32⟩) (.of main_call6_v4 : StableHlo.TRef sig ⟨S100000x64, .f32⟩) (broadcastInDim S100000x64 ![0, 1] bcast_S1x64_S100000x64_0_1),
    StableHlo.TRef.binary (.of main_v121 : StableHlo.TRef sig ⟨S100000x64, .f32⟩) (.of main_call6_v4 : StableHlo.TRef sig ⟨S100000x64, .f32⟩) (.of main_call6_v5 : StableHlo.TRef sig ⟨S100000x64, .f32⟩) subf,
    StableHlo.TRef.binary (.of main_call6_v5 : StableHlo.TRef sig ⟨S100000x64, .f32⟩) (.of main_call6_v5 : StableHlo.TRef sig ⟨S100000x64, .f32⟩) (.of main_call6_v6 : StableHlo.TRef sig ⟨S100000x64, .f32⟩) mulf,
    StableHlo.TRef.unary (.of main_c_25 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x64, .f32⟩) (.of main_call6_cst_2 : StableHlo.TRef sig ⟨S_, .f32⟩) (.of main_call6_v9 : StableHlo.TRef sig ⟨S64, .f32⟩) (fun x v => Host.reduceAdd x v reducesTo_S100000x64_S64_d0 h_S_),
    StableHlo.TRef.unary (.of main_call6_v8 : StableHlo.TRef sig ⟨S_, .f32⟩) (.of main_call6_v10 : StableHlo.TRef sig ⟨S64, .f32⟩) (broadcastInDim S64 ![] bcast_S_S64),
    StableHlo.TRef.binary (.of main_call6_v9 : StableHlo.TRef sig ⟨S64, .f32⟩) (.of main_call6_v10 : StableHlo.TRef sig ⟨S64, .f32⟩) (.of main_call6_v11 : StableHlo.TRef sig ⟨S64, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S64, .f32⟩) (broadcastInDim S64 ![] bcast_S_S64),
    StableHlo.TRef.ternary (.of main_call6_v12 : StableHlo.TRef sig ⟨S_, .i1⟩) (.of main_call6_v11 : StableHlo.TRef sig ⟨S64, .f32⟩) (.of main_call6_call0_v1 : StableHlo.TRef sig ⟨S64, .f32⟩) (.of main_v125 : StableHlo.TRef sig ⟨S64, .f32⟩) (fun p a b => select (broadcastInDim S64 ![] bcast_S_S64 p) a b),
    StableHlo.unary main_v124 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v121 main_v127 main_v128 (subf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3727C5AC#32),
    StableHlo.unary main_cst_26 main_v129 (broadcastInDim S64 ![] bcast_S_S64 : (⟨S_, .f32⟩ : BufTy).Contents (Elt F) → (⟨S64, .f32⟩ : BufTy).Contents (Elt F)),
    StableHlo.binary main_v125 main_v129 main_v130 (addf : (⟨S64, .f32⟩ : BufTy).Contents (Elt F) → (⟨S64, .f32⟩ : BufTy).Contents (Elt F) → (⟨S64, .f32⟩ : BufTy).Contents (Elt F)),
    StableHlo.unary main_v130 main_v131 (Host.rsqrt : (⟨S64, .f32⟩ : BufTy).Contents (Elt F) → (⟨S64, .f32⟩ : BufTy).Contents (Elt F)),
    StableHlo.unary main_v131 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v128 main_v133 main_v134 (mulf : (⟨S100000x64, .f32⟩ : BufTy).Contents (Elt F) → (⟨S100000x64, .f32⟩ : BufTy).Contents (Elt F) → (⟨S100000x64, .f32⟩ : BufTy).Contents (Elt F)),
    StableHlo.unary main_arg12 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v136 main_v137 (mulf : (⟨S100000x64, .f32⟩ : BufTy).Contents (Elt F) → (⟨S100000x64, .f32⟩ : BufTy).Contents (Elt F) → (⟨S100000x64, .f32⟩ : BufTy).Contents (Elt F)),
    StableHlo.unary main_arg13 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v139 main_v140 (addf : (⟨S100000x64, .f32⟩ : BufTy).Contents (Elt F) → (⟨S100000x64, .f32⟩ : BufTy).Contents (Elt F) → (⟨S100000x64, .f32⟩ : BufTy).Contents (Elt F)) ]
/-- Each operation of `seg6` touches TensorCore references only. -/
theorem seg6_sub : (seg6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- The output convolution, onto 2 columns. (20 operations.) -/
abbrev seg7 : List (HloOp τ sig (Elt F)) :=
  [ StableHlo.binary main_v140 main_arg14 main_v141 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.nullary main_c_27 (constantI S_ 32 0#32),
    StableHlo.unary main_c_27 main_v142 (broadcastInDim S1700000 ![] bcast_S_S1700000 : (⟨S_, .i32⟩ : BufTy).Contents (Elt F) → (⟨S1700000, .i32⟩ : BufTy).Contents (Elt F)),
    StableHlo.binary main_v3 main_v142 main_v143 (cmpi .slt : (⟨S1700000, .i32⟩ : BufTy).Contents (Elt F) → (⟨S1700000, .i32⟩ : BufTy).Contents (Elt F) → (⟨S1700000, .i1⟩ : BufTy).Contents (Elt F)),
    StableHlo.nullary main_c_28 (constantI S_ 32 100000#32),
    StableHlo.unary main_c_28 main_v144 (broadcastInDim S1700000 ![] bcast_S_S1700000 : (⟨S_, .i32⟩ : BufTy).Contents (Elt F) → (⟨S1700000, .i32⟩ : BufTy).Contents (Elt F)),
    StableHlo.binary main_v3 main_v144 main_v145 (addi : (⟨S1700000, .i32⟩ : BufTy).Contents (Elt F) → (⟨S1700000, .i32⟩ : BufTy).Contents (Elt F) → (⟨S1700000, .i32⟩ : BufTy).Contents (Elt F)),
    StableHlo.ternary main_v143 main_v145 main_v3 main_v146 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v146 main_v147 (broadcastInDim S1700000x1 ![0] bcast_S1700000_S1700000x1_0 : (⟨S1700000, .i32⟩ : BufTy).Contents (Elt F) → (⟨S1700000x1, .i32⟩ : BufTy).Contents (Elt F)),
    StableHlo.binary main_v141 main_v147 main_v148 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    StableHlo.unary main_v29 main_v149 (broadcastInDim S1700000x1 ![0] bcast_S1700000_S1700000x1_0 : (⟨S1700000, .f32⟩ : BufTy).Contents (Elt F) → (⟨S1700000x1, .f32⟩ : BufTy).Contents (Elt F)),
    StableHlo.unary main_v149 main_v150 (broadcastInDim S1700000x2 ![0, 1] bcast_S1700000x1_S1700000x2_0_1 : (⟨S1700000x1, .f32⟩ : BufTy).Contents (Elt F) → (⟨S1700000x2, .f32⟩ : BufTy).Contents (Elt F)),
    StableHlo.binary main_v148 main_v150 main_v151 (mulf : (⟨S1700000x2, .f32⟩ : BufTy).Contents (Elt F) → (⟨S1700000x2, .f32⟩ : BufTy).Contents (Elt F) → (⟨S1700000x2, .f32⟩ : BufTy).Contents (Elt F)),
    StableHlo.nullary main_cst_29 (constant S_ .f32 0x00000000#32),
    StableHlo.unary main_cst_29 main_v152 (broadcastInDim S100000x2 ![] bcast_S_S100000x2 : (⟨S_, .f32⟩ : BufTy).Contents (Elt F) → (⟨S100000x2, .f32⟩ : BufTy).Contents (Elt F)),
    StableHlo.unary main_v6 main_v153 (broadcastInDim S1700000x1 ![0] bcast_S1700000_S1700000x1_0 : (⟨S1700000, .i32⟩ : BufTy).Contents (Elt F) → (⟨S1700000x1, .i32⟩ : BufTy).Contents (Elt F)),
    StableHlo.ternary main_v152 main_v153 main_v151 main_v154 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    StableHlo.unary main_arg15 main_v155 (broadcastInDim S1x2 ![1] bcast_S2_S1x2_1 : (⟨S2, .f32⟩ : BufTy).Contents (Elt F) → (⟨S1x2, .f32⟩ : BufTy).Contents (Elt F)),
    StableHlo.unary main_v155 main_v156 (broadcastInDim S100000x2 ![0, 1] bcast_S1x2_S100000x2_0_1 : (⟨S1x2, .f32⟩ : BufTy).Contents (Elt F) → (⟨S100000x2, .f32⟩ : BufTy).Contents (Elt F)),
    StableHlo.binary main_v154 main_v156 main_v157 (addf : (⟨S100000x2, .f32⟩ : BufTy).Contents (Elt F) → (⟨S100000x2, .f32⟩ : BufTy).Contents (Elt F) → (⟨S100000x2, .f32⟩ : BufTy).Contents (Elt F)) ]
/-- Each operation of `seg7` touches TensorCore references only. -/
theorem seg7_sub : (seg7 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- The row-wise log-softmax: the row maximum, the shifted exponentials, the logarithm of their row sum, subtracted. (15 operations.) -/
abbrev seg8 : List (HloOp τ sig (Elt F)) :=
  [ StableHlo.TRef.nullary (.of main_call7_cst : StableHlo.TRef sig ⟨S_, .f32⟩) (constant S_ .f32 0xFF800000#32),
    StableHlo.TRef.binary (.of main_v157 : StableHlo.TRef sig ⟨S100000x2, .f32⟩) (.of main_call7_cst : StableHlo.TRef sig ⟨S_, .f32⟩) (.of main_call7_v0 : StableHlo.TRef sig ⟨S100000, .f32⟩) (fun x v => Host.reduce FloatOps.maximumf x v reducesTo_S100000x2_S100000_d1 h_S_),
    StableHlo.TRef.nullary (.of main_call7_cst_0 : StableHlo.TRef sig ⟨S_, .f32⟩) (constant S_ .f32 0xFF800000#32),
    StableHlo.TRef.unary (.of main_call7_cst_0 : StableHlo.TRef sig ⟨S_, .f32⟩) (.of main_call7_v1 : StableHlo.TRef sig ⟨S100000, .f32⟩) (broadcastInDim S100000 ![] bcast_S_S100000),
    StableHlo.TRef.binary (.of main_call7_v1 : StableHlo.TRef sig ⟨S100000, .f32⟩) (.of main_call7_v0 : StableHlo.TRef sig ⟨S100000, .f32⟩) (.of main_call7_v2 : StableHlo.TRef sig ⟨S100000, .f32⟩) maximumf,
    StableHlo.TRef.unary (.of main_call7_v2 : StableHlo.TRef sig ⟨S100000, .f32⟩) (.of main_call7_v3 : StableHlo.TRef sig ⟨S100000x1, .f32⟩) (broadcastInDim S100000x1 ![0] bcast_S100000_S100000x1_0),
    StableHlo.TRef.unary (.of main_call7_v3 : StableHlo.TRef sig ⟨S100000x1, .f32⟩) (.of main_call7_v4 : StableHlo.TRef sig ⟨S100000x2, .f32⟩) (broadcastInDim S100000x2 ![0, 1] bcast_S100000x1_S100000x2_0_1),
    StableHlo.TRef.binary (.of main_v157 : StableHlo.TRef sig ⟨S100000x2, .f32⟩) (.of main_call7_v4 : StableHlo.TRef sig ⟨S100000x2, .f32⟩) (.of main_call7_v5 : StableHlo.TRef sig ⟨S100000x2, .f32⟩) subf,
    StableHlo.TRef.unary (.of main_call7_v5 : StableHlo.TRef sig ⟨S100000x2, .f32⟩) (.of main_call7_v6 : StableHlo.TRef sig ⟨S100000x2, .f32⟩) Host.exp,
    StableHlo.TRef.nullary (.of main_call7_cst_1 : StableHlo.TRef sig ⟨S_, .f32⟩) (constant S_ .f32 0x00000000#32),
    StableHlo.TRef.binary (.of main_call7_v6 : StableHlo.TRef sig ⟨S100000x2, .f32⟩) (.of main_call7_cst_1 : StableHlo.TRef sig ⟨S_, .f32⟩) (.of main_call7_v7 : StableHlo.TRef sig ⟨S100000, .f32⟩) (fun x v => Host.reduceAdd x v reducesTo_S100000x2_S100000_d1 h_S_),
    StableHlo.TRef.unary (.of main_call7_v7 : StableHlo.TRef sig ⟨S100000, .f32⟩) (.of main_call7_v8 : StableHlo.TRef sig ⟨S100000x1, .f32⟩) (broadcastInDim S100000x1 ![0] bcast_S100000_S100000x1_0),
    StableHlo.TRef.unary (.of main_call7_v8 : StableHlo.TRef sig ⟨S100000x1, .f32⟩) (.of main_call7_v9 : StableHlo.TRef sig ⟨S100000x1, .f32⟩) Host.log,
    StableHlo.TRef.unary (.of main_call7_v9 : StableHlo.TRef sig ⟨S100000x1, .f32⟩) (.of main_call7_v10 : StableHlo.TRef sig ⟨S100000x2, .f32⟩) (broadcastInDim S100000x2 ![0, 1] bcast_S100000x1_S100000x2_0_1),
    StableHlo.TRef.binary (.of main_call7_v5 : StableHlo.TRef sig ⟨S100000x2, .f32⟩) (.of main_call7_v10 : StableHlo.TRef sig ⟨S100000x2, .f32⟩) (.of main_v158 : StableHlo.TRef sig ⟨S100000x2, .f32⟩) subf ]
/-- Each operation of `seg8` touches TensorCore references only. -/
theorem seg8_sub : (seg8 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-! ## The whole line -/

/-- @main's 276 operations, in order. -/
abbrev ops : List (HloOp τ sig (Elt F)) := seg0 ++ seg1 ++ seg2 ++ seg3 ++ seg4 ++ seg5 ++ seg6 ++ seg7 ++ seg8

/-! ## The buffer contents at each segment boundary: a fold through @main -/

/-- Core `c`'s buffers at launch. -/
abbrev R0 (m : (ℓ : Loc nD τ sig) → Buf (Elt F) ℓ) (ρ : Dev nD → PrngReg) : Dev nD → Valuation τ sig (Elt F) :=
  fun c b => (s₀ m ρ).mem ((c : Dev nD), b)
/-- After `seg0`. -/
abbrev R1 (m : (ℓ : Loc nD τ sig) → Buf (Elt F) ℓ) (ρ : Dev nD → PrngReg) : Dev nD → Valuation τ sig (Elt F) :=
  fun c => StableHlo.after seg0 (R0 m ρ c)
/-- After `seg1`. -/
abbrev R2 (m : (ℓ : Loc nD τ sig) → Buf (Elt F) ℓ) (ρ : Dev nD → PrngReg) : Dev nD → Valuation τ sig (Elt F) :=
  fun c => StableHlo.after seg1 (R1 m ρ c)
/-- After `seg2`. -/
abbrev R3 (m : (ℓ : Loc nD τ sig) → Buf (Elt F) ℓ) (ρ : Dev nD → PrngReg) : Dev nD → Valuation τ sig (Elt F) :=
  fun c => StableHlo.after seg2 (R2 m ρ c)
/-- After `seg3`. -/
abbrev R4 (m : (ℓ : Loc nD τ sig) → Buf (Elt F) ℓ) (ρ : Dev nD → PrngReg) : Dev nD → Valuation τ sig (Elt F) :=
  fun c => StableHlo.after seg3 (R3 m ρ c)
/-- After `seg4`. -/
abbrev R5 (m : (ℓ : Loc nD τ sig) → Buf (Elt F) ℓ) (ρ : Dev nD → PrngReg) : Dev nD → Valuation τ sig (Elt F) :=
  fun c => StableHlo.after seg4 (R4 m ρ c)
/-- After `seg5`. -/
abbrev R6 (m : (ℓ : Loc nD τ sig) → Buf (Elt F) ℓ) (ρ : Dev nD → PrngReg) : Dev nD → Valuation τ sig (Elt F) :=
  fun c => StableHlo.after seg5 (R5 m ρ c)
/-- After `seg6`. -/
abbrev R7 (m : (ℓ : Loc nD τ sig) → Buf (Elt F) ℓ) (ρ : Dev nD → PrngReg) : Dev nD → Valuation τ sig (Elt F) :=
  fun c => StableHlo.after seg6 (R6 m ρ c)
/-- After `seg7`. -/
abbrev R8 (m : (ℓ : Loc nD τ sig) → Buf (Elt F) ℓ) (ρ : Dev nD → PrngReg) : Dev nD → Valuation τ sig (Elt F) :=
  fun c => StableHlo.after seg7 (R7 m ρ c)
/-- After `seg8`. -/
abbrev R9 (m : (ℓ : Loc nD τ sig) → Buf (Elt F) ℓ) (ρ : Dev nD → PrngReg) : Dev nD → Valuation τ sig (Elt F) :=
  fun c => StableHlo.after seg8 (R8 m ρ c)

/-- The fold of the whole line from the launch memory is the last boundary's contents. -/
theorem after_ops (m : (ℓ : Loc nD τ sig) → Buf (Elt F) ℓ) (ρ : Dev nD → PrngReg) (c : Dev nD) :
    StableHlo.after ops (R0 m ρ c) = R9 m ρ c := by
  simp only [ops, StableHlo.after_append]

end Cert.ReferenceIdeal.RefRun

end
-- ==== Proof.RefRun.lean ====
/- The reference program's run: @main is the straight line `ops` (window by window of the printed
   program, the module-local calls unfolded), so every weakly fair execution terminates with each buffer
   at the fold of the operations' results over the launch memory; the result buffer is left as that fold,
   read at the last segment boundary, and the sixteen arguments hold what they held at launch, since no
   operation writes one. -/
import proofs.«108922_j32160715112488_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line

The printed program cuts @main into four windows by count, the segments are cut at the layers: three
segments straddle a window's end, and each is split there. -/

/-- `seg2` up to the end of the printed window 0. -/
abbrev seg2a : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v46 : StableHlo.TRef sig ⟨S100000x128, .f32⟩) (.of main_call1_v0 : StableHlo.TRef sig ⟨S100000x128, .f32⟩) (.of main_v47 : StableHlo.TRef sig ⟨S100000x128, .f32⟩) maximumf,
    StableHlo.nullary main_cst_9 (constant S_ .f32 0x00000000#32) ]
/-- `seg2` from the start of the printed window 1. -/
abbrev seg2b : List (HloOp τ sig (Elt F)) :=
  [ StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary (.of main_call2_cst : StableHlo.TRef sig ⟨S_, .f32⟩) (constant S_ .f32 0x00000000#32),
    StableHlo.TRef.binary (.of main_v47 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v47 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_11 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v51 : StableHlo.TRef sig ⟨S128, .f32⟩) (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]
theorem seg2_split : (seg2 : List (HloOp τ sig (Elt F))) = seg2a ++ seg2b := rfl

/-- `seg4` up to the end of the printed window 1. -/
abbrev seg4a : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v83 : StableHlo.TRef sig ⟨S100000x128, .f32⟩) (.of main_call3_v0 : StableHlo.TRef sig ⟨S100000x128, .f32⟩) (.of main_v84 : StableHlo.TRef sig ⟨S100000x128, .f32⟩) maximumf,
    StableHlo.nullary main_cst_16 (constant S_ .f32 0x00000000#32),
    StableHlo.binary main_v84 main_cst_16 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary (.of main_call4_cst : StableHlo.TRef sig ⟨S_, .f32⟩) (constant S_ .f32 0x00000000#32),
    StableHlo.TRef.binary (.of main_v84 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v84 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_18 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v88 : StableHlo.TRef sig ⟨S128, .f32⟩) (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v96 main_v97 (mulf : (⟨S100000x128, .f32⟩ : BufTy).Contents (Elt F) → (⟨S100000x128, .f32⟩ : BufTy).Contents (Elt F) → (⟨S100000x128, .f32⟩ : BufTy).Contents (Elt F)) ]
/-- `seg4` from the start of the printed window 2. -/
abbrev seg4b : List (HloOp τ sig (Elt F)) :=
  [ StableHlo.unary main_arg8 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v99 main_v100 (mulf : (⟨S100000x128, .f32⟩ : BufTy).Contents (Elt F) → (⟨S100000x128, .f32⟩ : BufTy).Contents (Elt F) → (⟨S100000x128, .f32⟩ : BufTy).Contents (Elt F)),
    StableHlo.unary main_arg9 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)) ]
theorem seg4_split : (seg4 : List (HloOp τ sig (Elt F))) = seg4a ++ seg4b := rfl

/-- `seg7` up to the end of the printed window 2. -/
abbrev seg7a : List (HloOp τ sig (Elt F)) :=
  [ StableHlo.binary main_v140 main_arg14 main_v141 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.nullary main_c_27 (constantI S_ 32 0#32),
    StableHlo.unary main_c_27 main_v142 (broadcastInDim S1700000 ![] bcast_S_S1700000 : (⟨S_, .i32⟩ : BufTy).Contents (Elt F) → (⟨S1700000, .i32⟩ : BufTy).Contents (Elt F)),
    StableHlo.binary main_v3 main_v142 main_v143 (cmpi .slt : (⟨S1700000, .i32⟩ : BufTy).Contents (Elt F) → (⟨S1700000, .i32⟩ : BufTy).Contents (Elt F) → (⟨S1700000, .i1⟩ : BufTy).Contents (Elt F)),
    StableHlo.nullary main_c_28 (constantI S_ 32 100000#32),
    StableHlo.unary main_c_28 main_v144 (broadcastInDim S1700000 ![] bcast_S_S1700000 : (⟨S_, .i32⟩ : BufTy).Contents (Elt F) → (⟨S1700000, .i32⟩ : BufTy).Contents (Elt F)),
    StableHlo.binary main_v3 main_v144 main_v145 (addi : (⟨S1700000, .i32⟩ : BufTy).Contents (Elt F) → (⟨S1700000, .i32⟩ : BufTy).Contents (Elt F) → (⟨S1700000, .i32⟩ : BufTy).Contents (Elt F)),
    StableHlo.ternary main_v143 main_v145 main_v3 main_v146 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v146 main_v147 (broadcastInDim S1700000x1 ![0] bcast_S1700000_S1700000x1_0 : (⟨S1700000, .i32⟩ : BufTy).Contents (Elt F) → (⟨S1700000x1, .i32⟩ : BufTy).Contents (Elt F)),
    StableHlo.binary main_v141 main_v147 main_v148 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)) ]
/-- `seg7` from the start of the printed window 3. -/
abbrev seg7b : List (HloOp τ sig (Elt F)) :=
  [ StableHlo.unary main_v29 main_v149 (broadcastInDim S1700000x1 ![0] bcast_S1700000_S1700000x1_0 : (⟨S1700000, .f32⟩ : BufTy).Contents (Elt F) → (⟨S1700000x1, .f32⟩ : BufTy).Contents (Elt F)),
    StableHlo.unary main_v149 main_v150 (broadcastInDim S1700000x2 ![0, 1] bcast_S1700000x1_S1700000x2_0_1 : (⟨S1700000x1, .f32⟩ : BufTy).Contents (Elt F) → (⟨S1700000x2, .f32⟩ : BufTy).Contents (Elt F)),
    StableHlo.binary main_v148 main_v150 main_v151 (mulf : (⟨S1700000x2, .f32⟩ : BufTy).Contents (Elt F) → (⟨S1700000x2, .f32⟩ : BufTy).Contents (Elt F) → (⟨S1700000x2, .f32⟩ : BufTy).Contents (Elt F)),
    StableHlo.nullary main_cst_29 (constant S_ .f32 0x00000000#32),
    StableHlo.unary main_cst_29 main_v152 (broadcastInDim S100000x2 ![] bcast_S_S100000x2 : (⟨S_, .f32⟩ : BufTy).Contents (Elt F) → (⟨S100000x2, .f32⟩ : BufTy).Contents (Elt F)),
    StableHlo.unary main_v6 main_v153 (broadcastInDim S1700000x1 ![0] bcast_S1700000_S1700000x1_0 : (⟨S1700000, .i32⟩ : BufTy).Contents (Elt F) → (⟨S1700000x1, .i32⟩ : BufTy).Contents (Elt F)),
    StableHlo.ternary main_v152 main_v153 main_v151 main_v154 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    StableHlo.unary main_arg15 main_v155 (broadcastInDim S1x2 ![1] bcast_S2_S1x2_1 : (⟨S2, .f32⟩ : BufTy).Contents (Elt F) → (⟨S1x2, .f32⟩ : BufTy).Contents (Elt F)),
    StableHlo.unary main_v155 main_v156 (broadcastInDim S100000x2 ![0, 1] bcast_S1x2_S100000x2_0_1 : (⟨S1x2, .f32⟩ : BufTy).Contents (Elt F) → (⟨S100000x2, .f32⟩ : BufTy).Contents (Elt F)),
    StableHlo.binary main_v154 main_v156 main_v157 (addf : (⟨S100000x2, .f32⟩ : BufTy).Contents (Elt F) → (⟨S100000x2, .f32⟩ : BufTy).Contents (Elt F) → (⟨S100000x2, .f32⟩ : BufTy).Contents (Elt F)) ]
theorem seg7_split : (seg7 : List (HloOp τ sig (Elt F))) = seg7a ++ seg7b := rfl

/-! Each window is the run of its operations: both sides are one chain of `hlo` steps once the callees'
    definitions are unfolded at their calls and sequencing is reassociated, which is computation. -/

set_option maxRecDepth 100000 in
set_option maxHeartbeats 4000000 in
theorem part0_eq (c : Dev nD) : main_part0 (F := F) c = seq (seg0 ++ seg1 ++ seg2a) := rfl

set_option maxRecDepth 100000 in
set_option maxHeartbeats 4000000 in
theorem part1_eq (c : Dev nD) : main_part1 (F := F) c = seq (seg2b ++ seg3 ++ seg4a) := rfl

set_option maxRecDepth 100000 in
set_option maxHeartbeats 4000000 in
theorem part2_eq (c : Dev nD) : main_part2 (F := F) c = seq (seg4b ++ seg5 ++ seg6 ++ seg7a) := rfl

set_option maxRecDepth 100000 in
set_option maxHeartbeats 4000000 in
theorem part3_eq (c : Dev nD) : main_part3 (F := F) c = seq (seg7b ++ seg8) := rfl

/-- @main is the whole line: its four windows in order are the four runs in order (`seq_append`). -/
theorem main_eq (c : Dev nD) : main (F := F) c = seq ops := by
  have h : (ops : List (HloOp τ sig (Elt F))) = (seg0 ++ seg1 ++ seg2a) ++ ((seg2b ++ seg3 ++ seg4a) ++ ((seg4b ++ seg5 ++ seg6 ++ seg7a) ++ (seg7b ++ seg8))) := by
    simp only [ops, seg2_split, seg4_split, seg7_split, List.append_assoc]
  rw [h, seq_append (seg0 ++ seg1 ++ seg2a) _, seq_append (seg2b ++ seg3 ++ seg4a) _,
    seq_append (seg4b ++ seg5 ++ seg6 ++ seg7a) _, ← part0_eq c, ← part1_eq c, ← part2_eq c, ← part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨List.forall_append.mpr ⟨List.forall_append.mpr ⟨List.forall_append.mpr ⟨seg0_sub, seg1_sub⟩, seg2_sub⟩, seg3_sub⟩, seg4_sub⟩,
      seg5_sub⟩, seg6_sub⟩, seg7_sub⟩, seg8_sub⟩

/-! Every operation determines what it writes (none leaves a buffer at contents of the machine's choosing). -/
theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem seg8_fresh : (seg8 : List (HloOp τ sig (Elt F))).Forall fun op => op.fresh = ∅ :=
  ⟨rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (List.forall_append.mpr ⟨List.forall_append.mpr ⟨List.forall_append.mpr ⟨List.forall_append.mpr ⟨List.forall_append.mpr
    ⟨List.forall_append.mpr ⟨List.forall_append.mpr ⟨List.forall_append.mpr ⟨seg0_fresh, seg1_fresh⟩, seg2_fresh⟩, seg3_fresh⟩, seg4_fresh⟩,
      seg5_fresh⟩, seg6_fresh⟩, seg7_fresh⟩, seg8_fresh⟩)

/-! ## What each segment writes

Each operation writes one buffer, its result's; a segment's written buffers as a list of references, so that
"this reference is not written" is decided over references. -/

/-- An operation whose one written buffer is among `W` writes inside `W`. -/
theorem writes_sub_of_eq {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- The buffers `seg0` writes, in order. -/
abbrev W0 : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem seg0_writes : (seg0 : List (HloOp τ sig (Elt F))).Forall fun op => op.writes ⊆ ((W0).map (Proc.devRef (τ := τ) .tc)).toFinset :=
  ⟨writes_sub_of_eq (nullary_writes ..) (by decide),
   writes_sub_of_eq (unary_writes ..) (by decide),
   writes_sub_of_eq (reshape_writes ..) (by decide),
   writes_sub_of_eq (binary_writes ..) (by decide),
   writes_sub_of_eq (unary_writes ..) (by decide),
   writes_sub_of_eq (reshape_writes ..) (by decide),
   writes_sub_of_eq (binary_writes ..) (by decide),
   writes_sub_of_eq (nullary_writes ..) (by decide),
   writes_sub_of_eq (unary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (ternary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (ternary_writes ..) (by decide),
   writes_sub_of_eq (unary_writes ..) (by decide),
   writes_sub_of_eq (binary_writes ..) (by decide),
   writes_sub_of_eq (binary_writes ..) (by decide)⟩

/-- The buffers `seg1` writes, in order. -/
abbrev W1 : List (Ref sig .tc) :=
  [main_v30, main_c_6, main_v31, main_v32, main_c_7, main_v33, main_v34, main_v35, main_v36, main_v37, main_v38, main_v39, main_v40, main_cst_8, main_v41, main_v42, main_v43, main_v44, main_v45, main_v46]
theorem seg1_writes : (seg1 : List (HloOp τ sig (Elt F))).Forall fun op => op.writes ⊆ ((W1).map (Proc.devRef (τ := τ) .tc)).toFinset :=
  ⟨writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (ternary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide)⟩

/-- The buffers `seg2` writes, in order. -/
abbrev W2 : List (Ref sig .tc) :=
  [main_call1_cst, main_call1_v0, main_v47, main_cst_9, main_v48, main_cst_10, main_v49, main_v50, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51, main_v52, main_v53, main_v54, main_cst_12, main_v55, main_v56, main_v57, main_v58, main_v59, main_v60, main_v61, main_v62, main_v63, main_v64, main_v65, main_v66]
theorem seg2_writes : (seg2 : List (HloOp τ sig (Elt F))).Forall fun op => op.writes ⊆ ((W2).map (Proc.devRef (τ := τ) .tc)).toFinset :=
  ⟨writes_sub_of_eq (nullary_writes ..) (by decide),
   writes_sub_of_eq (unary_writes ..) (by decide),
   writes_sub_of_eq (binary_writes ..) (by decide),
   writes_sub_of_eq (nullary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (nullary_writes ..) (by decide),
   writes_sub_of_eq (binary_writes ..) (by decide),
   writes_sub_of_eq (unary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (binary_writes ..) (by decide),
   writes_sub_of_eq (binary_writes ..) (by decide),
   writes_sub_of_eq (unary_writes ..) (by decide),
   writes_sub_of_eq (nullary_writes ..) (by decide),
   writes_sub_of_eq (binary_writes ..) (by decide),
   writes_sub_of_eq (nullary_writes ..) (by decide),
   writes_sub_of_eq (binary_writes ..) (by decide),
   writes_sub_of_eq (unary_writes ..) (by decide),
   writes_sub_of_eq (binary_writes ..) (by decide),
   writes_sub_of_eq (nullary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide)⟩

/-- The buffers `seg3` writes, in order. -/
abbrev W3 : List (Ref sig .tc) :=
  [main_v67, main_c_13, main_v68, main_v69, main_c_14, main_v70, main_v71, main_v72, main_v73, main_v74, main_v75, main_v76, main_v77, main_cst_15, main_v78, main_v79, main_v80, main_v81, main_v82, main_v83]
theorem seg3_writes : (seg3 : List (HloOp τ sig (Elt F))).Forall fun op => op.writes ⊆ ((W3).map (Proc.devRef (τ := τ) .tc)).toFinset :=
  ⟨writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (ternary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide)⟩

/-- The buffers `seg4` writes, in order. -/
abbrev W4 : List (Ref sig .tc) :=
  [main_call3_cst, main_call3_v0, main_v84, main_cst_16, main_v85, main_cst_17, main_v86, main_v87, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v88, main_v89, main_v90, main_v91, main_cst_19, main_v92, main_v93, main_v94, main_v95, main_v96, main_v97, main_v98, main_v99, main_v100, main_v101, main_v102, main_v103]
theorem seg4_writes : (seg4 : List (HloOp τ sig (Elt F))).Forall fun op => op.writes ⊆ ((W4).map (Proc.devRef (τ := τ) .tc)).toFinset :=
  ⟨writes_sub_of_eq (nullary_writes ..) (by decide),
   writes_sub_of_eq (unary_writes ..) (by decide),
   writes_sub_of_eq (binary_writes ..) (by decide),
   writes_sub_of_eq (nullary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (nullary_writes ..) (by decide),
   writes_sub_of_eq (binary_writes ..) (by decide),
   writes_sub_of_eq (unary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (binary_writes ..) (by decide),
   writes_sub_of_eq (binary_writes ..) (by decide),
   writes_sub_of_eq (unary_writes ..) (by decide),
   writes_sub_of_eq (nullary_writes ..) (by decide),
   writes_sub_of_eq (binary_writes ..) (by decide),
   writes_sub_of_eq (nullary_writes ..) (by decide),
   writes_sub_of_eq (binary_writes ..) (by decide),
   writes_sub_of_eq (unary_writes ..) (by decide),
   writes_sub_of_eq (binary_writes ..) (by decide),
   writes_sub_of_eq (nullary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide)⟩

/-- The buffers `seg5` writes, in order. -/
abbrev W5 : List (Ref sig .tc) :=
  [main_v104, main_c_20, main_v105, main_v106, main_c_21, main_v107, main_v108, main_v109, main_v110, main_v111, main_v112, main_v113, main_v114, main_cst_22, main_v115, main_v116, main_v117, main_v118, main_v119, main_v120]
theorem seg5_writes : (seg5 : List (HloOp τ sig (Elt F))).Forall fun op => op.writes ⊆ ((W5).map (Proc.devRef (τ := τ) .tc)).toFinset :=
  ⟨writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (ternary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide)⟩

/-- The buffers `seg6` writes, in order. -/
abbrev W6 : List (Ref sig .tc) :=
  [main_call5_cst, main_call5_v0, main_v121, main_cst_23, main_v122, main_cst_24, main_v123, main_v124, main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v125, main_v126, main_v127, main_v128, main_cst_26, main_v129, main_v130, main_v131, main_v132, main_v133, main_v134, main_v135, main_v136, main_v137, main_v138, main_v139, main_v140]
theorem seg6_writes : (seg6 : List (HloOp τ sig (Elt F))).Forall fun op => op.writes ⊆ ((W6).map (Proc.devRef (τ := τ) .tc)).toFinset :=
  ⟨writes_sub_of_eq (nullary_writes ..) (by decide),
   writes_sub_of_eq (unary_writes ..) (by decide),
   writes_sub_of_eq (binary_writes ..) (by decide),
   writes_sub_of_eq (nullary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (nullary_writes ..) (by decide),
   writes_sub_of_eq (binary_writes ..) (by decide),
   writes_sub_of_eq (unary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (binary_writes ..) (by decide),
   writes_sub_of_eq (binary_writes ..) (by decide),
   writes_sub_of_eq (unary_writes ..) (by decide),
   writes_sub_of_eq (nullary_writes ..) (by decide),
   writes_sub_of_eq (binary_writes ..) (by decide),
   writes_sub_of_eq (nullary_writes ..) (by decide),
   writes_sub_of_eq (binary_writes ..) (by decide),
   writes_sub_of_eq (unary_writes ..) (by decide),
   writes_sub_of_eq (binary_writes ..) (by decide),
   writes_sub_of_eq (nullary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide)⟩

/-- The buffers `seg7` writes, in order. -/
abbrev W7 : List (Ref sig .tc) :=
  [main_v141, main_c_27, main_v142, main_v143, main_c_28, main_v144, main_v145, main_v146, main_v147, main_v148, main_v149, main_v150, main_v151, main_cst_29, main_v152, main_v153, main_v154, main_v155, main_v156, main_v157]
theorem seg7_writes : (seg7 : List (HloOp τ sig (Elt F))).Forall fun op => op.writes ⊆ ((W7).map (Proc.devRef (τ := τ) .tc)).toFinset :=
  ⟨writes_sub_of_eq (binary_writes ..) (by decide),
   writes_sub_of_eq (nullary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (ternary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (nullary_writes ..) (by decide),
   writes_sub_of_eq (unary_writes ..) (by decide),
   writes_sub_of_eq (unary_writes ..) (by decide),
   writes_sub_of_eq (ternary_writes ..) (by decide),
   writes_sub_of_eq (unary_writes ..) (by decide),
   writes_sub_of_eq (unary_writes ..) (by decide),
   writes_sub_of_eq (binary_writes ..) (by decide)⟩

/-- The buffers `seg8` writes, in order. -/
abbrev W8 : List (Ref sig .tc) :=
  [main_call7_cst, main_call7_v0, main_call7_cst_0, main_call7_v1, main_call7_v2, main_call7_v3, main_call7_v4, main_call7_v5, main_call7_v6, main_call7_cst_1, main_call7_v7, main_call7_v8, main_call7_v9, main_call7_v10, main_v158]
theorem seg8_writes : (seg8 : List (HloOp τ sig (Elt F))).Forall fun op => op.writes ⊆ ((W8).map (Proc.devRef (τ := τ) .tc)).toFinset :=
  ⟨writes_sub_of_eq (nullary_writes ..) (by decide),
   writes_sub_of_eq (binary_writes ..) (by decide),
   writes_sub_of_eq (nullary_writes ..) (by decide),
   writes_sub_of_eq (unary_writes ..) (by decide),
   writes_sub_of_eq (binary_writes ..) (by decide),
   writes_sub_of_eq (unary_writes ..) (by decide),
   writes_sub_of_eq (unary_writes ..) (by decide),
   writes_sub_of_eq (binary_writes ..) (by decide),
   writes_sub_of_eq (unary_writes ..) (by decide),
   writes_sub_of_eq (nullary_writes ..) (by decide),
   writes_sub_of_eq (binary_writes ..) (by decide),
   writes_sub_of_eq (unary_writes ..) (by decide),
   writes_sub_of_eq (unary_writes ..) (by decide),
   writes_sub_of_eq (unary_writes ..) (by decide),
   writes_sub_of_eq (binary_writes ..) (by decide)⟩

/-- A reference no segment writes holds at the last boundary what it held at launch: the fold walked back
    through the nine segments. -/
theorem R9_keep (m : (ℓ : Loc nD τ sig) → Buf (Elt F) ℓ) (ρ : Dev nD → PrngReg) (c : Dev nD) {r : Ref sig .tc}
    (h0 : r ∉ W0) (h1 : r ∉ W1) (h2 : r ∉ W2) (h3 : r ∉ W3) (h4 : r ∉ W4) (h5 : r ∉ W5) (h6 : r ∉ W6) (h7 : r ∉ W7)
    (h8 : r ∉ W8) : R9 m ρ c (Proc.devRef .tc r) = m ((c.tc : Thread nD τ).loc r) :=
  calc R9 m ρ c (Proc.devRef .tc r)
    _ = R8 m ρ c (Proc.devRef .tc r) := after_of_writes_sub seg8 _ seg8_writes h8
    _ = R7 m ρ c (Proc.devRef .tc r) := after_of_writes_sub seg7 _ seg7_writes h7
    _ = R6 m ρ c (Proc.devRef .tc r) := after_of_writes_sub seg6 _ seg6_writes h6
    _ = R5 m ρ c (Proc.devRef .tc r) := after_of_writes_sub seg5 _ seg5_writes h5
    _ = R4 m ρ c (Proc.devRef .tc r) := after_of_writes_sub seg4 _ seg4_writes h4
    _ = R3 m ρ c (Proc.devRef .tc r) := after_of_writes_sub seg3 _ seg3_writes h3
    _ = R2 m ρ c (Proc.devRef .tc r) := after_of_writes_sub seg2 _ seg2_writes h2
    _ = R1 m ρ c (Proc.devRef .tc r) := after_of_writes_sub seg1 _ seg1_writes h1
    _ = R0 m ρ c (Proc.devRef .tc r) := after_of_writes_sub seg0 _ seg0_writes h0
    _ = m ((c.tc : Thread nD τ).loc r) := rfl

/-! ## The run -/

/-- On every device, for any float values, from any memory with zero counters: every weakly fair execution of
    @main terminates with the result buffer at the fold of the nine segments over the launch memory (read at
    the last boundary), and the sixteen arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v158) = R9 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v158).trans (congrFun (after_ops m ρ c) _),
      (h c main_arg0).trans ((congrFun (after_ops m ρ c) _).trans (R9_keep m ρ c (by decide) (by decide) (by decide) (by decide) (by decide) (by decide) (by decide) (by decide) (by decide))),
      (h c main_arg1).trans ((congrFun (after_ops m ρ c) _).trans (R9_keep m ρ c (by decide) (by decide) (by decide) (by decide) (by decide) (by decide) (by decide) (by decide) (by decide))),
      (h c main_arg2).trans ((congrFun (after_ops m ρ c) _).trans (R9_keep m ρ c (by decide) (by decide) (by decide) (by decide) (by decide) (by decide) (by decide) (by decide) (by decide))),
      (h c main_arg3).trans ((congrFun (after_ops m ρ c) _).trans (R9_keep m ρ c (by decide) (by decide) (by decide) (by decide) (by decide) (by decide) (by decide) (by decide) (by decide))),
      (h c main_arg4).trans ((congrFun (after_ops m ρ c) _).trans (R9_keep m ρ c (by decide) (by decide) (by decide) (by decide) (by decide) (by decide) (by decide) (by decide) (by decide))),
      (h c main_arg5).trans ((congrFun (after_ops m ρ c) _).trans (R9_keep m ρ c (by decide) (by decide) (by decide) (by decide) (by decide) (by decide) (by decide) (by decide) (by decide))),
      (h c main_arg6).trans ((congrFun (after_ops m ρ c) _).trans (R9_keep m ρ c (by decide) (by decide) (by decide) (by decide) (by decide) (by decide) (by decide) (by decide) (by decide))),
      (h c main_arg7).trans ((congrFun (after_ops m ρ c) _).trans (R9_keep m ρ c (by decide) (by decide) (by decide) (by decide) (by decide) (by decide) (by decide) (by decide) (by decide))),
      (h c main_arg8).trans ((congrFun (after_ops m ρ c) _).trans (R9_keep m ρ c (by decide) (by decide) (by decide) (by decide) (by decide) (by decide) (by decide) (by decide) (by decide))),
      (h c main_arg9).trans ((congrFun (after_ops m ρ c) _).trans (R9_keep m ρ c (by decide) (by decide) (by decide) (by decide) (by decide) (by decide) (by decide) (by decide) (by decide))),
      (h c main_arg10).trans ((congrFun (after_ops m ρ c) _).trans (R9_keep m ρ c (by decide) (by decide) (by decide) (by decide) (by decide) (by decide) (by decide) (by decide) (by decide))),
      (h c main_arg11).trans ((congrFun (after_ops m ρ c) _).trans (R9_keep m ρ c (by decide) (by decide) (by decide) (by decide) (by decide) (by decide) (by decide) (by decide) (by decide))),
      (h c main_arg12).trans ((congrFun (after_ops m ρ c) _).trans (R9_keep m ρ c (by decide) (by decide) (by decide) (by decide) (by decide) (by decide) (by decide) (by decide) (by decide))),
      (h c main_arg13).trans ((congrFun (after_ops m ρ c) _).trans (R9_keep m ρ c (by decide) (by decide) (by decide) (by decide) (by decide) (by decide) (by decide) (by decide) (by decide))),
      (h c main_arg14).trans ((congrFun (after_ops m ρ c) _).trans (R9_keep m ρ c (by decide) (by decide) (by decide) (by decide) (by decide) (by decide) (by decide) (by decide) (by decide))),
      (h c main_arg15).trans ((congrFun (after_ops m ρ c) _).trans (R9_keep m ρ c (by decide) (by decide) (by decide) (by decide) (by decide) (by decide) (by decide) (by decide) (by decide)))⟩)
    (run_seq scopedRefs_eq scopedSems_eq defs main (fun _ => ops) main_eq (fun _ => ops_sub) m ρ (fun _ => ops_fresh))

end Cert.ReferenceIdeal.RefRun

end
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibRowBroadcast.lean ====
/-
  Broadcasts of a row vector and of a scalar, read at an index.

  A vector b of K entries broadcast to one row [1, K] and then down M rows reads b j at (n, j); a [1, K] row broadcast
  down M rows reads its entry (0, j) at (n, j); a vector broadcast to one row reads b j at (0, j); a scalar broadcast
  to any shape reads the scalar everywhere.
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector broadcast to one row, read at (u, j), is its entry j. -/
theorem vec_to_row_apply {K : Nat} (hb1 : (⟨1, ![K]⟩ : Shape).BroadcastsInDim ⟨2, ![1, K]⟩ ![1])
    (b : (⟨1, ![K]⟩ : Shape).Idx → α) (u : Fin 1) (j : Fin K) :
    broadcastInDim (⟨2, ![1, K]⟩ : Shape) ![1] hb1 b (ix2 u j) = b (ix1 j) :=
  broadcastInDim_apply ![1] hb1 b (ix2 u j) (ix1 j)
    (fun a => by
      match a with
      | ⟨0, _⟩ =>
        show j.val = if K = 1 then 0 else j.val
        split
        · have := j.isLt; omega
        · rfl)

/-- A [1, K] row broadcast down M rows, read at (n, j), is its entry (0, j). -/
theorem row_down_apply {M K : Nat} (hb2 : (⟨2, ![1, K]⟩ : Shape).BroadcastsInDim ⟨2, ![M, K]⟩ ![0, 1])
    (v : (⟨2, ![1, K]⟩ : Shape).Idx → α) (n : Fin M) (j : Fin K) :
    broadcastInDim (⟨2, ![M, K]⟩ : Shape) ![0, 1] hb2 v (ix2 n j) = v (ix2 (0 : Fin 1) j) :=
  broadcastInDim_apply ![0, 1] hb2 v (ix2 n j) (ix2 (0 : Fin 1) j)
    (fun a => by
      match a with
      | ⟨0, _⟩ => rfl
      | ⟨1, _⟩ =>
        show j.val = if K = 1 then 0 else j.val
        split
        · have := j.isLt; omega
        · rfl)

/-- A vector broadcast to one row and then down M rows, read at (n, j), is its entry j. -/
theorem vec_down_apply {M K : Nat} (hb1 : (⟨1, ![K]⟩ : Shape).BroadcastsInDim ⟨2, ![1, K]⟩ ![1])
    (hb2 : (⟨2, ![1, K]⟩ : Shape).BroadcastsInDim ⟨2, ![M, K]⟩ ![0, 1]) (b : (⟨1, ![K]⟩ : Shape).Idx → α)
    (n : Fin M) (j : Fin K) :
    broadcastInDim (⟨2, ![M, K]⟩ : Shape) ![0, 1] hb2 (broadcastInDim (⟨2, ![1, K]⟩ : Shape) ![1] hb1 b) (ix2 n j)
      = b (ix1 j) := by
  rw [row_down_apply, vec_to_row_apply]

/-- A scalar broadcast to any shape reads the scalar at every index. -/
theorem scalar_apply {t : Shape} (h : (⟨0, ![]⟩ : Shape).BroadcastsInDim t ![]) (x : (⟨0, ![]⟩ : Shape).Idx → α) (i : t.Idx) :
    broadcastInDim t ![] h x i = x ix0 :=
  broadcastInDim_apply ![] h x i ix0 (fun a => a.elim0)

end Cert.LibRowBroadcast

end
-- ==== Proof.RefReadLib.lean ====
/-
  The reference's stages after the aggregation, read index by index.

  The bias is a vector laid out as a row and stretched down the rows; the product with the weights is a sum over
  the contracted coordinate; a column sum is the initial value plus the sum over the rows.  The normalisation is
  spelt with its own mean (the column sums divided by the count), the variance as the mean of the squared
  deviations — its divisor the count minus the integer zero read as a float, its value guarded by a test that
  the divisor is positive, which it is —, the reciprocal square root of the variance plus the stabiliser, and the
  scale and shift rows.  Read at an entry this is the normalisation of the specification.
-/
import Idealize.ShloMosaic.PureOps.Ideal
import Idealize.ShloMosaic.PureOps.Ideal.Laws
import Idealize.ShloMosaic.Lib.ValueIdx
import Idealize.ShloMosaic.Lib.Pipeline.Value
import proofs.«108922_j32160715112488_1_alg».proof.Proof.Net
import proofs.«108922_j32160715112488_1_alg».proof.Proof.LibHostDot
import proofs.«108922_j32160715112488_1_alg».proof.Proof.LibRowBroadcast

noncomputable section

namespace Cert.Gcn.RefForms

open Idealize.ShloMosaic Idealize.ShloMosaic.ValueIdx Cert.LibRowBroadcast
open scoped BigOperators

/-! ## The specification's normalisation over an arbitrary activation -/

/-- The normalisation of a hidden layer as the reference spells it, over an arbitrary activation `R`. -/
def normR {n c : ℕ} (R : (Sh2 n c).Idx → EReal) (g be : (Sh2 1 c).Idx → EReal) : (Sh2 n c).Idx → EReal :=
  fun i =>
    (R i - Ideal.div (0 + ∑ r : Fin n, R (ix2 r (colOfIx i))) cntE)
      * Ideal.rsqrt (Ideal.div (0 + ∑ r : Fin n,
            (R (ix2 r (colOfIx i)) - Ideal.div (0 + ∑ r : Fin n, R (ix2 r (colOfIx i))) cntE)
          * (R (ix2 r (colOfIx i)) - Ideal.div (0 + ∑ r : Fin n, R (ix2 r (colOfIx i))) cntE)) cntE
          + epsE)
      * g (ix2 (0 : Fin 1) (colOfIx i)) + be (ix2 (0 : Fin 1) (colOfIx i))

/-- A hidden layer is the normalisation of its activation. -/
theorem hiddenR_eq_normR {n a c : ℕ} (conv : ((Sh2 n c).Idx → EReal) → (Sh2 n c).Idx → EReal)
    (X : (Sh2 n a).Idx → EReal) (W : (Sh2 a c).Idx → EReal) (b g be : (Sh2 1 c).Idx → EReal) :
    hiddenR conv X W b g be = normR (act conv X W b) g be := rfl

/-- The activation is the biased aggregate cut off below at zero. -/
theorem act_eq_max_biased {n a c : ℕ} (conv : ((Sh2 n c).Idx → EReal) → (Sh2 n c).Idx → EReal)
    (X : (Sh2 n a).Idx → EReal) (W : (Sh2 a c).Idx → EReal) (b : (Sh2 1 c).Idx → EReal) :
    act conv X W b = fun i => max (biased (conv (mm X W)) b i) 0 := rfl

/-! ## Constants -/

/-- The count `0x47C35000` denotes the real `100000`. -/
theorem ofBits_cnt : Ideal.ofBits .f32 0x47C35000#32 = ((100000 : ℝ) : EReal) := by
  simp [Ideal.ofBits, Ideal.ieee, -EReal.coe_mul]; norm_num

/-- The count minus the integer zero read as a float is the count. -/
theorem cnt_sub_zero : cntE - (((0#32 : BitVec 32).toInt : ℝ) : EReal) = cntE := by
  have h : ((0#32 : BitVec 32).toInt : ℝ) = 0 := by norm_num
  rw [h, EReal.coe_zero, sub_zero]

/-- The count is positive: the comparison "greater than zero" answers one. -/
theorem cmp_cnt_pos : Ideal.cmp .ogt cntE (Ideal.ofBits .f32 0x00000000#32) = 1#1 := by
  rw [Ideal.ofBits_zero_f32]
  show Ideal.cmp .ogt (Ideal.ofBits .f32 0x47C35000#32) 0 = 1#1
  rw [ofBits_cnt]
  unfold Ideal.cmp
  have h : (0 : EReal) < ((100000 : ℝ) : EReal) := by exact_mod_cast (by norm_num : (0 : ℝ) < 100000)
  simp [h]

/-! ## The product and the bias -/

/-- The host product of an `n × a` by an `a × c` matrix is the specification's matrix product. -/
theorem dot_eq_mm {n a c : ℕ}
    (w : DotDims.WF ⟨2, ![n, a]⟩ ⟨2, ![a, c]⟩ ⟨2, ![n, c]⟩ [1] [0] [0] [1] [] [])
    (prec : Option ContractPrecision) (X : FVec Ideal ⟨2, ![n, a]⟩ .f32) (W : FVec Ideal ⟨2, ![a, c]⟩ .f32) :
    Host.dotGeneral (⟨[1], [0], [0], [1], [], [], w⟩ : DotDims ⟨2, ![n, a]⟩ ⟨2, ![a, c]⟩ ⟨2, ![n, c]⟩) prec X W
      = mm X W := by
  funext i
  obtain ⟨r, j, rfl⟩ : ∃ (r : Fin n) (j : Fin c), i = ix2 r j := ⟨rowOfIx i, colOfIx i, eq_ix2_row_col i⟩
  exact Cert.LibHostDot.hostDot_nn_apply w prec X W r j

/-- Adding a bias vector, laid out as a row and stretched down the rows, is the specification's biased aggregate. -/
theorem bias_eq {n c : ℕ} (hb1 : (⟨1, ![c]⟩ : Shape).BroadcastsInDim ⟨2, ![1, c]⟩ ![1])
    (hb2 : (⟨2, ![1, c]⟩ : Shape).BroadcastsInDim ⟨2, ![n, c]⟩ ![0, 1])
    (agg : FVec Ideal ⟨2, ![n, c]⟩ .f32) (b : FVec Ideal ⟨1, ![c]⟩ .f32) :
    addf agg (broadcastInDim ⟨2, ![n, c]⟩ ![0, 1] hb2 (broadcastInDim ⟨2, ![1, c]⟩ ![1] hb1 b))
      = biased agg (rowv b) := by
  funext i
  obtain ⟨r, j, rfl⟩ : ∃ (r : Fin n) (j : Fin c), i = ix2 r j := ⟨rowOfIx i, colOfIx i, eq_ix2_row_col i⟩
  show agg (ix2 r j) + broadcastInDim ⟨2, ![n, c]⟩ ![0, 1] hb2 (broadcastInDim ⟨2, ![1, c]⟩ ![1] hb1 b) (ix2 r j) = _
  rw [vec_down_apply]
  rfl

/-! ## Column sums -/

/-- The reduced index `j` with row `k` put back is `(k, j)`. -/
theorem lift_rows {n c : ℕ} (h : (⟨2, ![n, c]⟩ : Shape).Reduces [0] (⟨1, ![c]⟩ : Shape)) (j : Fin c)
    (k : Fin ((⟨2, ![n, c]⟩ : Shape).size 0)) : h.lift (ix1 j) k = ix2 (⟨k.val, k.isLt⟩ : Fin n) j := by
  funext a; apply Fin.ext
  fin_cases a <;> rfl

/-- The host's sum over the rows, at column `j`: the initial value plus the sum over all rows. -/
theorem colsum_apply {n c : ℕ} (h' : (⟨2, ![n, c]⟩ : Shape).ReducesTo [0] (⟨1, ![c]⟩ : Shape))
    (h : (⟨2, ![n, c]⟩ : Shape).Reduces [0] (⟨1, ![c]⟩ : Shape)) (hu : 0 < (⟨0, ![]⟩ : Shape).numel)
    (x : FVec Ideal ⟨2, ![n, c]⟩ .f32) (init : FVec Ideal ⟨0, ![]⟩ .f32) (j : Fin c) :
    Host.reduceAdd (F := Ideal) x init h' hu (ix1 j) = init (Shape.Idx.first hu) + ∑ r : Fin n, x (ix2 r j) := by
  show Ideal.hostReduceAdd h' x (init (Shape.Idx.first hu)) (ix1 j) = _
  rw [Ideal.hostReduceAdd_single h' h]
  refine congrArg (init (Shape.Idx.first hu) + ·) ?_
  exact Finset.sum_congr rfl fun k _ => congrArg x (lift_rows h j k)

/-! ## The normalisation as the reference spells it -/

section Norm

variable {n c : ℕ}
  (hNC : (⟨0, ![]⟩ : Shape).BroadcastsInDim ⟨2, ![n, c]⟩ ![])
  (hC : (⟨0, ![]⟩ : Shape).BroadcastsInDim ⟨1, ![c]⟩ ![])
  (h1C : (⟨0, ![]⟩ : Shape).BroadcastsInDim ⟨2, ![1, c]⟩ ![])
  (hb1 : (⟨1, ![c]⟩ : Shape).BroadcastsInDim ⟨2, ![1, c]⟩ ![1])
  (hb2 : (⟨2, ![1, c]⟩ : Shape).BroadcastsInDim ⟨2, ![n, c]⟩ ![0, 1])
  (hr' : (⟨2, ![n, c]⟩ : Shape).ReducesTo [0] (⟨1, ![c]⟩ : Shape))
  (hu : 0 < (⟨0, ![]⟩ : Shape).numel)

/-- The cut-off below at zero: the larger of the entry and a broadcast zero. -/
def refRelu (z : FVec Ideal ⟨2, ![n, c]⟩ .f32) : FVec Ideal ⟨2, ![n, c]⟩ .f32 :=
  maximumf z (broadcastInDim ⟨2, ![n, c]⟩ ![] hNC (constant (F := Ideal) ⟨0, ![]⟩ .f32 0x00000000#32))

/-- The column means: the column sums from zero, divided by the broadcast count. -/
def refMean (R : FVec Ideal ⟨2, ![n, c]⟩ .f32) : FVec Ideal ⟨1, ![c]⟩ .f32 :=
  Host.divf (F := Ideal)
    (Host.reduceAdd (F := Ideal) R (constant (F := Ideal) ⟨0, ![]⟩ .f32 0x00000000#32) hr' hu)
    (broadcastInDim ⟨1, ![c]⟩ ![] hC (constant (F := Ideal) ⟨0, ![]⟩ .f32 0x47C35000#32))

/-- The column means once more, as a `1 × c` row: the variance's own copy. -/
def refMeanRow (R : FVec Ideal ⟨2, ![n, c]⟩ .f32) : FVec Ideal ⟨2, ![1, c]⟩ .f32 :=
  Host.divf (F := Ideal)
    (broadcastInDim ⟨2, ![1, c]⟩ ![1] hb1
      (Host.reduceAdd (F := Ideal) R (constant (F := Ideal) ⟨0, ![]⟩ .f32 0x00000000#32) hr' hu))
    (broadcastInDim ⟨2, ![1, c]⟩ ![] h1C (constant (F := Ideal) ⟨0, ![]⟩ .f32 0x47C35000#32))

/-- The variance's divisor: the count minus the integer zero read as a float. -/
def refDivisor : FVec Ideal ⟨0, ![]⟩ .f32 :=
  subf (constant (F := Ideal) ⟨0, ![]⟩ .f32 0x47C35000#32) (sitofp (F := Ideal) .f32 (constantI ⟨0, ![]⟩ 32 0#32))

/-- The squared deviations from the column means. -/
def refSqDev (R : FVec Ideal ⟨2, ![n, c]⟩ .f32) : FVec Ideal ⟨2, ![n, c]⟩ .f32 :=
  mulf (subf R (broadcastInDim ⟨2, ![n, c]⟩ ![0, 1] hb2 (refMeanRow h1C hb1 hr' hu R)))
    (subf R (broadcastInDim ⟨2, ![n, c]⟩ ![0, 1] hb2 (refMeanRow h1C hb1 hr' hu R)))

/-- The column variances: the sums of the squared deviations divided by the divisor where the divisor is positive,
    else not a number. -/
def refVar (R : FVec Ideal ⟨2, ![n, c]⟩ .f32) : FVec Ideal ⟨1, ![c]⟩ .f32 :=
  select (broadcastInDim ⟨1, ![c]⟩ ![] hC
      (cmpf (F := Ideal) .ogt refDivisor (constant (F := Ideal) ⟨0, ![]⟩ .f32 0x00000000#32)))
    (Host.divf (F := Ideal)
      (Host.reduceAdd (F := Ideal) (refSqDev h1C hb1 hb2 hr' hu R)
        (constant (F := Ideal) ⟨0, ![]⟩ .f32 0x00000000#32) hr' hu)
      (broadcastInDim ⟨1, ![c]⟩ ![] hC refDivisor))
    (broadcastInDim ⟨1, ![c]⟩ ![] hC (constant (F := Ideal) ⟨0, ![]⟩ .f32 0x7FC00000#32))

/-- The normalisation of an activation `R`, scaled by `g` and shifted by `be`. -/
def refNormOf (R : FVec Ideal ⟨2, ![n, c]⟩ .f32) (g be : FVec Ideal ⟨1, ![c]⟩ .f32) : FVec Ideal ⟨2, ![n, c]⟩ .f32 :=
  addf
    (mulf
      (mulf
        (subf R (broadcastInDim ⟨2, ![n, c]⟩ ![0, 1] hb2 (broadcastInDim ⟨2, ![1, c]⟩ ![1] hb1 (refMean hC hr' hu R))))
        (broadcastInDim ⟨2, ![n, c]⟩ ![0, 1] hb2 (broadcastInDim ⟨2, ![1, c]⟩ ![1] hb1
          (Host.rsqrt (F := Ideal) (addf (refVar hC h1C hb1 hb2 hr' hu R)
            (broadcastInDim ⟨1, ![c]⟩ ![] hC (constant (F := Ideal) ⟨0, ![]⟩ .f32 0x3727C5AC#32)))))))
      (broadcastInDim ⟨2, ![n, c]⟩ ![0, 1] hb2 (broadcastInDim ⟨2, ![1, c]⟩ ![1] hb1 g)))
    (broadcastInDim ⟨2, ![n, c]⟩ ![0, 1] hb2 (broadcastInDim ⟨2, ![1, c]⟩ ![1] hb1 be))

/-- The rest of a hidden layer: cut-off at zero, then the normalisation. -/
def refNorm (z : FVec Ideal ⟨2, ![n, c]⟩ .f32) (g be : FVec Ideal ⟨1, ![c]⟩ .f32) : FVec Ideal ⟨2, ![n, c]⟩ .f32 :=
  refNormOf hC h1C hb1 hb2 hr' hu (refRelu hNC z) g be

/-- The cut-off read at an entry. -/
theorem refRelu_apply (z : FVec Ideal ⟨2, ![n, c]⟩ .f32) (i : (⟨2, ![n, c]⟩ : Shape).Idx) :
    refRelu hNC z i = max (z i) 0 := by
  show max (z i) (broadcastInDim ⟨2, ![n, c]⟩ ![] hNC (constant (F := Ideal) ⟨0, ![]⟩ .f32 0x00000000#32) i) = _
  rw [scalar_apply]
  show max (z i) (Ideal.ofBits .f32 0x00000000#32) = _
  rw [Ideal.ofBits_zero_f32]

/-- The divisor is the count. -/
theorem refDivisor_apply (k : (⟨0, ![]⟩ : Shape).Idx) : refDivisor k = cntE := cnt_sub_zero

variable (hr : (⟨2, ![n, c]⟩ : Shape).Reduces [0] (⟨1, ![c]⟩ : Shape))
include hr

/-- The column mean read at a column. -/
theorem refMean_apply (R : FVec Ideal ⟨2, ![n, c]⟩ .f32) (j : Fin c) :
    refMean hC hr' hu R (ix1 j) = Ideal.div (0 + ∑ r : Fin n, R (ix2 r j)) cntE := by
  show Ideal.div (Host.reduceAdd (F := Ideal) R (constant (F := Ideal) ⟨0, ![]⟩ .f32 0x00000000#32) hr' hu (ix1 j))
      (broadcastInDim ⟨1, ![c]⟩ ![] hC (constant (F := Ideal) ⟨0, ![]⟩ .f32 0x47C35000#32) (ix1 j)) = _
  rw [colsum_apply hr' hr hu, scalar_apply]
  show Ideal.div (Ideal.ofBits .f32 0x00000000#32 + _) (Ideal.ofBits .f32 0x47C35000#32) = _
  rw [Ideal.ofBits_zero_f32]

/-- The variance's own copy of the column mean, read at `(0, j)`. -/
theorem refMeanRow_apply (R : FVec Ideal ⟨2, ![n, c]⟩ .f32) (j : Fin c) :
    refMeanRow h1C hb1 hr' hu R (ix2 (0 : Fin 1) j) = Ideal.div (0 + ∑ r : Fin n, R (ix2 r j)) cntE := by
  show Ideal.div (broadcastInDim ⟨2, ![1, c]⟩ ![1] hb1
        (Host.reduceAdd (F := Ideal) R (constant (F := Ideal) ⟨0, ![]⟩ .f32 0x00000000#32) hr' hu) (ix2 (0 : Fin 1) j))
      (broadcastInDim ⟨2, ![1, c]⟩ ![] h1C (constant (F := Ideal) ⟨0, ![]⟩ .f32 0x47C35000#32) (ix2 (0 : Fin 1) j)) = _
  rw [vec_to_row_apply, colsum_apply hr' hr hu, scalar_apply]
  show Ideal.div (Ideal.ofBits .f32 0x00000000#32 + _) (Ideal.ofBits .f32 0x47C35000#32) = _
  rw [Ideal.ofBits_zero_f32]

/-- A squared deviation read at an entry. -/
theorem refSqDev_apply (R : FVec Ideal ⟨2, ![n, c]⟩ .f32) (r : Fin n) (j : Fin c) :
    refSqDev h1C hb1 hb2 hr' hu R (ix2 r j)
      = (R (ix2 r j) - Ideal.div (0 + ∑ r : Fin n, R (ix2 r j)) cntE)
        * (R (ix2 r j) - Ideal.div (0 + ∑ r : Fin n, R (ix2 r j)) cntE) := by
  show (R (ix2 r j) - broadcastInDim ⟨2, ![n, c]⟩ ![0, 1] hb2 (refMeanRow h1C hb1 hr' hu R) (ix2 r j))
      * (R (ix2 r j) - broadcastInDim ⟨2, ![n, c]⟩ ![0, 1] hb2 (refMeanRow h1C hb1 hr' hu R) (ix2 r j)) = _
  rw [row_down_apply, refMeanRow_apply h1C hb1 hr' hu hr]

/-- The column variance read at a column: the guard's test holds, so it is the quotient. -/
theorem refVar_apply (R : FVec Ideal ⟨2, ![n, c]⟩ .f32) (j : Fin c) :
    refVar hC h1C hb1 hb2 hr' hu R (ix1 j)
      = Ideal.div (0 + ∑ r : Fin n,
          (R (ix2 r j) - Ideal.div (0 + ∑ r : Fin n, R (ix2 r j)) cntE)
            * (R (ix2 r j) - Ideal.div (0 + ∑ r : Fin n, R (ix2 r j)) cntE)) cntE := by
  show Scalar.select
      (broadcastInDim ⟨1, ![c]⟩ ![] hC
        (cmpf (F := Ideal) .ogt refDivisor (constant (F := Ideal) ⟨0, ![]⟩ .f32 0x00000000#32)) (ix1 j))
      (Ideal.div
        (Host.reduceAdd (F := Ideal) (refSqDev h1C hb1 hb2 hr' hu R)
          (constant (F := Ideal) ⟨0, ![]⟩ .f32 0x00000000#32) hr' hu (ix1 j))
        (broadcastInDim ⟨1, ![c]⟩ ![] hC refDivisor (ix1 j)))
      (broadcastInDim ⟨1, ![c]⟩ ![] hC (constant (F := Ideal) ⟨0, ![]⟩ .f32 0x7FC00000#32) (ix1 j)) = _
  rw [scalar_apply, scalar_apply hC refDivisor, colsum_apply hr' hr hu, refDivisor_apply]
  have hp : cmpf (F := Ideal) .ogt refDivisor (constant (F := Ideal) ⟨0, ![]⟩ .f32 0x00000000#32) ix0 = 1#1 := by
    show Ideal.cmp .ogt (refDivisor ix0) (Ideal.ofBits .f32 0x00000000#32) = 1#1
    rw [refDivisor_apply]; exact cmp_cnt_pos
  rw [hp]
  show Ideal.div (Ideal.ofBits .f32 0x00000000#32 + _) cntE = _
  rw [Ideal.ofBits_zero_f32]
  refine congrArg (fun s => Ideal.div (0 + s) cntE) ?_
  exact Finset.sum_congr rfl fun r _ => refSqDev_apply h1C hb1 hb2 hr' hu hr R r j

/-- THE NORMALISATION READ AT AN ENTRY: the reference's chain over an activation `R` is the specification's. -/
theorem refNormOf_eq (R : FVec Ideal ⟨2, ![n, c]⟩ .f32) (g be : FVec Ideal ⟨1, ![c]⟩ .f32) :
    refNormOf hC h1C hb1 hb2 hr' hu R g be = normR R (rowv g) (rowv be) := by
  funext i
  obtain ⟨r, j, rfl⟩ : ∃ (r : Fin n) (j : Fin c), i = ix2 r j := ⟨rowOfIx i, colOfIx i, eq_ix2_row_col i⟩
  show (R (ix2 r j)
        - broadcastInDim ⟨2, ![n, c]⟩ ![0, 1] hb2 (broadcastInDim ⟨2, ![1, c]⟩ ![1] hb1 (refMean hC hr' hu R)) (ix2 r j))
      * broadcastInDim ⟨2, ![n, c]⟩ ![0, 1] hb2 (broadcastInDim ⟨2, ![1, c]⟩ ![1] hb1
          (Host.rsqrt (F := Ideal) (addf (refVar hC h1C hb1 hb2 hr' hu R)
            (broadcastInDim ⟨1, ![c]⟩ ![] hC (constant (F := Ideal) ⟨0, ![]⟩ .f32 0x3727C5AC#32))))) (ix2 r j)
      * broadcastInDim ⟨2, ![n, c]⟩ ![0, 1] hb2 (broadcastInDim ⟨2, ![1, c]⟩ ![1] hb1 g) (ix2 r j)
      + broadcastInDim ⟨2, ![n, c]⟩ ![0, 1] hb2 (broadcastInDim ⟨2, ![1, c]⟩ ![1] hb1 be) (ix2 r j) = _
  rw [vec_down_apply, vec_down_apply, vec_down_apply, vec_down_apply, refMean_apply hC hr' hu hr]
  show _ * Ideal.rsqrt (refVar hC h1C hb1 hb2 hr' hu R (ix1 j)
      + broadcastInDim ⟨1, ![c]⟩ ![] hC (constant (F := Ideal) ⟨0, ![]⟩ .f32 0x3727C5AC#32) (ix1 j)) * _ + _ = _
  rw [refVar_apply hC h1C hb1 hb2 hr' hu hr, scalar_apply]
  rfl

/-- The rest of a hidden layer is the specification's normalisation of the cut-off activation. -/
theorem refNorm_eq (z : FVec Ideal ⟨2, ![n, c]⟩ .f32) (g be : FVec Ideal ⟨1, ![c]⟩ .f32) :
    refNorm hNC hC h1C hb1 hb2 hr' hu z g be = normR (fun i => max (z i) 0) (rowv g) (rowv be) := by
  have hz : refRelu hNC z = fun i => max (z i) 0 := funext fun i => refRelu_apply hNC z i
  unfold refNorm
  rw [refNormOf_eq hC h1C hb1 hb2 hr' hu hr, hz]

end Norm

end Cert.Gcn.RefForms

end
-- ==== Proof.RefRead0.lean ====
/-
  The first segment of the reference, read: from the edge array it leaves the source and the target node numbers
  of all edges (the array's two rows, each followed by the nodes themselves) and every edge's weight, the product
  of the degree scales of its two ends.  These are the same chains of operations as the tiled program's, so they
  are stated with the shared functions of the edge array.
-/
import proofs.«108922_j32160715112488_1_alg».proof.Proof.RefOps
import proofs.«108922_j32160715112488_1_alg».proof.Proof.KDefs

noncomputable section

namespace Cert.ReferenceIdeal.RefRun

open Cert.ReferenceIdeal Cert.ReferenceIdeal.Gen Idealize.ShloMosaic Idealize.ShloMosaic.TcCoe Idealize.SL.Sem Idealize.ShloMosaic.StableHlo

/-- After the first segment the buffer of the source words holds the edge array's row 0 followed by the nodes. -/
theorem seg0_src (V : Valuation τ sig (Elt Ideal)) :
    (StableHlo.after (seg0 (F := Ideal)) V (Proc.devRef .tc main_v3) : IVec S1700000 32)
      = Cert.KernelIdeal.KVal.edgeSrc (V (Proc.devRef .tc main_arg1)) := by
  after_results; rfl

/-- After the first segment the buffer of the target words holds the edge array's row 1 followed by the nodes. -/
theorem seg0_dst (V : Valuation τ sig (Elt Ideal)) :
    (StableHlo.after (seg0 (F := Ideal)) V (Proc.devRef .tc main_v6) : IVec S1700000 32)
      = Cert.KernelIdeal.KVal.edgeDst (V (Proc.devRef .tc main_arg1)) := by
  after_results; rfl

/-! ## The edge weights: the first segment cut after the two rows of node numbers

The weights' chain reads the two rows of node numbers several times over; it is read from the contents the first
seven operations leave, where the rows are two buffers. -/

section Split

variable {F : FTy → Type} [FloatOps F]

/-- The first segment up to the two rows of node numbers. -/
abbrev seg0a : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The first segment from there on: the degrees, the scales, the edge weights. -/
abbrev seg0b : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

theorem seg0_split : (seg0 : List (HloOp τ sig (Elt F))) = seg0a ++ seg0b := rfl

end Split

/-! ## The typed references' casts

An operation of a module-local function reads and writes its buffers through references that carry the type of
the value; at a literal reference the transport along the type equation is the identity. -/

/-- Writing through a typed reference and reading back through it returns the value. -/
theorem ofBuf_toBuf {T : BufTy} {Val : EltTy → Type} (x : StableHlo.TRef sig T) (v : T.Contents Val) :
    x.ofBuf (x.toBuf v) = v := by
  unfold StableHlo.TRef.ofBuf StableHlo.TRef.toBuf
  simp

theorem toBuf_main_v14 (p1 : main_v14.ty = ⟨S100000, .f32⟩) (p2 p3)
    (v : (⟨S100000, .f32⟩ : BufTy).Contents (Elt Ideal)) :
    (StableHlo.TRef.of main_v14 p1 p2 p3 : StableHlo.TRef sig ⟨S100000, .f32⟩).toBuf (Val := Elt Ideal) v = v := rfl

theorem ofBuf_main_v12 (p1 : main_v12.ty = ⟨S100000, .i1⟩) (p2 p3)
    (v : (⟨S100000, .i1⟩ : BufTy).Contents (Elt Ideal)) :
    (StableHlo.TRef.of main_v12 p1 p2 p3 : StableHlo.TRef sig ⟨S100000, .i1⟩).ofBuf (Val := Elt Ideal) v = v := rfl

theorem ofBuf_main_v13 (p1 : main_v13.ty = ⟨S100000, .f32⟩) (p2 p3)
    (v : (⟨S100000, .f32⟩ : BufTy).Contents (Elt Ideal)) :
    (StableHlo.TRef.of main_v13 p1 p2 p3 : StableHlo.TRef sig ⟨S100000, .f32⟩).ofBuf (Val := Elt Ideal) v = v := rfl

theorem ofBuf_main_cst_2 (p1 : main_cst_2.ty = ⟨S_, .f32⟩) (p2 p3)
    (v : (⟨S_, .f32⟩ : BufTy).Contents (Elt Ideal)) :
    (StableHlo.TRef.of main_cst_2 p1 p2 p3 : StableHlo.TRef sig ⟨S_, .f32⟩).ofBuf (Val := Elt Ideal) v = v := rfl

/-- The rest of the first segment leaves, from any contents `W`, the edge weights of the two rows it finds. -/
theorem seg0b_nrm (W : Valuation τ sig (Elt Ideal)) :
    (StableHlo.after (seg0b (F := Ideal)) W (Proc.devRef .tc main_v29) : FVec Ideal S1700000 .f32)
      = Cert.KernelIdeal.KVal.edgeNrm (W (Proc.devRef .tc main_v3)) (W (Proc.devRef .tc main_v6)) := by
  after_results_simp
  simp only [ofBuf_toBuf, toBuf_main_v14, ofBuf_main_v12, ofBuf_main_v13, ofBuf_main_cst_2]
  rfl

/-- THE EDGE WEIGHTS: after the first segment the buffer of the edge weights holds, for every edge, the product of
    the degree scales of its source and of its target. -/
theorem seg0_nrm (V : Valuation τ sig (Elt Ideal)) :
    (StableHlo.after (seg0 (F := Ideal)) V (Proc.devRef .tc main_v29) : FVec Ideal S1700000 .f32)
      = Cert.KernelIdeal.KVal.edgeNrm (Cert.KernelIdeal.KVal.edgeSrc (V (Proc.devRef .tc main_arg1)))
          (Cert.KernelIdeal.KVal.edgeDst (V (Proc.devRef .tc main_arg1))) := by
  have hs : (StableHlo.after (seg0a (F := Ideal)) V (Proc.devRef .tc main_v3) : IVec S1700000 32)
      = Cert.KernelIdeal.KVal.edgeSrc (V (Proc.devRef .tc main_arg1)) := by after_results; rfl
  have hd : (StableHlo.after (seg0a (F := Ideal)) V (Proc.devRef .tc main_v6) : IVec S1700000 32)
      = Cert.KernelIdeal.KVal.edgeDst (V (Proc.devRef .tc main_arg1)) := by after_results; rfl
  rw [seg0_split, StableHlo.after_append, seg0b_nrm, hs, hd]

end Cert.ReferenceIdeal.RefRun

end
-- ==== Proof.LibGraphOps.lean ====
/-
  The host's gather and accumulating scatter of a graph, read at an index.

  A graph's edges are listed as a column of `E` node numbers (32-bit words).  Gathering node data by such a column
  reads, for edge `e`, the node whose number is the `e`-th word, read signed and clamped into `[0, N − 1]`.
  Scattering edge data back adds the datum of edge `e` into the node whose number is the `e`-th word, read signed,
  and drops it when that number is not a node.  The lemmas below say where each update lands, coordinate by
  coordinate, for a scatter of rows of an `E × C` matrix into an `N × C` matrix and for a scatter of `E` scalars
  into a vector of `N`, and what a gather of scalars reads; the last part is the arithmetic of the index
  normalisation (a negative index counts from the end) on 32-bit words.
-/
import Idealize.ShloMosaic.PureOps.Ideal
import Idealize.ShloMosaic.Lib.ValueIdx

noncomputable section

namespace Cert.LibGraphOps

open Idealize.ShloMosaic Idealize.ShloMosaic.ValueIdx

variable {N C E w : Nat}

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-! ## A scatter of rows -/

/-- On the row axis the target coordinate of the update at `(e, c)` is the `e`-th index word read signed: the start
    comes from the index column and the row axis carries no window coordinate. -/
theorem rows_coord_row (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) :
    d.start (ix2 e c) idx 0 + (d.window (ix2 e c) 0 : Int) = (idx (ix2 e (0 : Fin 1))).toInt := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims ⟨2, ![N, C]⟩ ⟨2, ![E, 1]⟩ ⟨2, ![E, C]⟩) := by
    show (0 : Fin 2) ∉ (List.finRange 2).filter (fun x => decide (x ∉ ([0] : List (Fin 2))))
    decide
  have hu : ScatterDims.uScatter (⟨[1], [0], [0], 1, wf⟩ : ScatterDims ⟨2, ![N, C]⟩ ⟨2, ![E, 1]⟩ ⟨2, ![E, C]⟩) = [0] := by
    show (List.finRange 2).filter (fun x => decide (x ∉ ([1] : List (Fin 2)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => ((ix2 e c) a).val) (getElem_of_eq_singleton _ 0 hu _ _)
  · apply Fin.ext
    simp only [ScatterDims.siIdx]
    split
    · rfl
    · rename_i h
      exact absurd rfl h

/-- On the column axis the target coordinate of the update at `(e, c)` is `c`: no start, and the window coordinate
    is the update's own column. -/
theorem rows_coord_col (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) :
    d.start (ix2 e c) idx 1 + (d.window (ix2 e c) 1 : Int) = (c.val : Int) := by
  obtain ⟨uw, iw, sd, iv, wf⟩ := d
  dsimp only at h1 h2 h3 h4
  subst h1 h2 h3 h4
  have m1 : (1 : Fin 2) ∉ ([0] : List (Fin 2)) := by decide
  have k1 : (1 : Fin 2) ∈ ScatterDims.sKept (⟨[1], [0], [0], 1, wf⟩ : ScatterDims ⟨2, ![N, C]⟩ ⟨2, ![E, 1]⟩ ⟨2, ![E, C]⟩) := by
    show (1 : Fin 2) ∈ (List.finRange 2).filter (fun x => decide (x ∉ ([0] : List (Fin 2))))
    decide
  simp only [ScatterDims.start, ScatterDims.window]
  rw [dif_neg m1, dif_pos k1]
  simp only [zero_add]
  refine congrArg (fun n : Nat => (n : Int)) ?_
  exact congrArg (fun a => ((ix2 e c) a).val) (getElem_singleton_any (1 : Fin 2) _ _)

/-- WHERE A ROW UPDATE LANDS.  The update at `(e, c)` lands at entry `(i, j)` exactly when it keeps its column,
    `c = j`, and the `e`-th index word reads, signed, as the row number `i`; an update whose word is not a row number
    lands nowhere. -/
theorem rows_resultIdx_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (i : Fin N) (j : Fin C) :
    d.resultIdx? (ix2 e c) idx = some (ix2 i j) ↔ c = j ∧ (idx (ix2 e (0 : Fin 1))).toInt = (i.val : Int) := by
  have c0 := rows_coord_row d h1 h2 h3 h4 idx e c
  have c1 := rows_coord_col d h1 h2 h3 h4 idx e c
  unfold ScatterDims.resultIdx?
  split
  · rename_i hall
    have p0 := (hall 0).1
    constructor
    · intro h
      have h' := Option.some.inj h
      have e0 : (d.start (ix2 e c) idx 0 + (d.window (ix2 e c) 0 : Int)).toNat = i.val := congrArg Fin.val (congrFun h' 0)
      have e1 : (d.start (ix2 e c) idx 1 + (d.window (ix2 e c) 1 : Int)).toNat = j.val := congrArg Fin.val (congrFun h' 1)
      rw [c1, Int.toNat_natCast] at e1
      refine ⟨Fin.ext e1, ?_⟩
      rw [← c0]
      omega
    · rintro ⟨hc, hr⟩
      subst hc
      refine congrArg some (funext ?_)
      refine Fin.forall_fin_two.2 ⟨?_, ?_⟩
      · apply Fin.ext
        show (d.start (ix2 e c) idx 0 + (d.window (ix2 e c) 0 : Int)).toNat = i.val
        rw [c0, hr, Int.toNat_natCast]
      · apply Fin.ext
        show (d.start (ix2 e c) idx 1 + (d.window (ix2 e c) 1 : Int)).toNat = c.val
        rw [c1, Int.toNat_natCast]
  · rename_i hall
    constructor
    · intro h
      exact absurd h (by simp)
    · rintro ⟨hc, hr⟩
      refine absurd ?_ hall
      refine Fin.forall_fin_two.2 ⟨?_, ?_⟩
      · rw [c0, hr]
        exact ⟨Int.natCast_nonneg _, by exact_mod_cast i.isLt⟩
      · rw [c1]
        exact ⟨Int.natCast_nonneg _, by exact_mod_cast c.isLt⟩

/-! ## A scatter of scalars into a vector -/

/-- The target coordinate of the `e`-th scalar update is the `e`-th index word read signed. -/
theorem vec_coord (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) :
    d.start (ix1 e) idx 0 + (d.window (ix1 e) 0 : Int) = (idx (ix2 e (0 : Fin 1))).toInt := by
  obtain ⟨uw, iw, sd, iv, wf⟩ := d
  dsimp only at h1 h2 h3 h4
  subst h1 h2 h3 h4
  have m0 : (0 : Fin 1) ∈ ([0] : List (Fin 1)) := by decide
  have k0 : (0 : Fin 1) ∉ ScatterDims.sKept (⟨[], [0], [0], 1, wf⟩ : ScatterDims ⟨1, ![N]⟩ ⟨2, ![E, 1]⟩ ⟨1, ![E]⟩) := by
    show (0 : Fin 1) ∉ (List.finRange 1).filter (fun x => decide (x ∉ ([0] : List (Fin 1))))
    decide
  have hu : ScatterDims.uScatter (⟨[], [0], [0], 1, wf⟩ : ScatterDims ⟨1, ![N]⟩ ⟨2, ![E, 1]⟩ ⟨1, ![E]⟩) = [0] := by
    show (List.finRange 1).filter (fun x => decide (x ∉ ([] : List (Fin 1)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => ((ix1 e) a).val) (getElem_of_eq_singleton _ 0 hu _ _)
  · apply Fin.ext
    simp only [ScatterDims.siIdx]
    split
    · rfl
    · rename_i h
      exact absurd rfl h

/-- WHERE A SCALAR UPDATE LANDS.  The `e`-th update lands at entry `i` exactly when the `e`-th index word reads,
    signed, as `i`; an update whose word is not an entry number lands nowhere. -/
theorem vec_resultIdx_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  have c0 := vec_coord d h1 h2 h3 h4 idx e
  unfold ScatterDims.resultIdx?
  split
  · rename_i hall
    have p0 := (hall 0).1
    constructor
    · intro h
      have h' := Option.some.inj h
      have e0 : (d.start (ix1 e) idx 0 + (d.window (ix1 e) 0 : Int)).toNat = i.val := congrArg Fin.val (congrFun h' 0)
      rw [← c0]
      omega
    · intro hr
      refine congrArg some (funext ?_)
      refine Fin.forall_fin_one.2 ?_
      apply Fin.ext
      show (d.start (ix1 e) idx 0 + (d.window (ix1 e) 0 : Int)).toNat = i.val
      rw [c0, hr, Int.toNat_natCast]
  · rename_i hall
    constructor
    · intro h
      exact absurd h (by simp)
    · intro hr
      refine absurd ?_ hall
      refine Fin.forall_fin_one.2 ?_
      rw [c0, hr]
      exact ⟨Int.natCast_nonneg _, by exact_mod_cast i.isLt⟩

/-! ## Sums over the updates that land at an entry, reindexed over the edges -/

/-- The row coordinate of an index of the `E × C` updates, as a plain `Fin E`. -/
abbrev rowIx (u : (⟨2, ![E, C]⟩ : Shape).Idx) : Fin E := ⟨(u 0).val, (u 0).isLt⟩
/-- The column coordinate of an index of the `E × C` updates, as a plain `Fin C`. -/
abbrev colIx (u : (⟨2, ![E, C]⟩ : Shape).Idx) : Fin C := ⟨(u 1).val, (u 1).isLt⟩
/-- An index of the updates is its row and column coordinates. -/
theorem eq_rowIx_colIx (u : (⟨2, ![E, C]⟩ : Shape).Idx) : u = ix2 (rowIx u) (colIx u) := by
  funext a; match a with | ⟨0, _⟩ => rfl | ⟨1, _⟩ => rfl

/-- THE ROW SCATTER'S LANDING SET, EDGE BY EDGE.  A sum over the updates `(e, c)` that land at entry `(n, j)` is the
    sum over the edges `e` whose index word reads, signed, as `n`, of the term at `(e, j)`: such an update keeps its
    column, so there is exactly one per such edge. -/
theorem rows_sum_landing {M : Type*} [AddCommMonoid M] (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (n : Fin N) (j : Fin C)
    (f : (⟨2, ![E, C]⟩ : Shape).Idx → M)
    [DecidablePred fun u : (⟨2, ![E, C]⟩ : Shape).Idx => d.resultIdx? u idx = some (ix2 n j)] :
    ∑ u ∈ Finset.univ.filter (fun u : (⟨2, ![E, C]⟩ : Shape).Idx => d.resultIdx? u idx = some (ix2 n j)), f u
      = ∑ e ∈ Finset.univ.filter (fun e : Fin E => (idx (ix2 e (0 : Fin 1))).toInt = (n.val : Int)), f (ix2 e j) := by
  have key : ∀ u : (⟨2, ![E, C]⟩ : Shape).Idx, d.resultIdx? u idx = some (ix2 n j) →
      colIx u = j ∧ (idx (ix2 (rowIx u) (0 : Fin 1))).toInt = (n.val : Int) := by
    intro u hu
    have hu2 : d.resultIdx? (ix2 (rowIx u) (colIx u)) idx = some (ix2 n j) := by
      rw [← eq_rowIx_colIx u]; exact hu
    exact (rows_resultIdx_iff d h1 h2 h3 h4 idx _ _ n j).1 hu2
  have back : ∀ u : (⟨2, ![E, C]⟩ : Shape).Idx, d.resultIdx? u idx = some (ix2 n j) → ix2 (rowIx u) j = u := by
    intro u hu
    have hc := (key u hu).1
    rw [← hc]; exact (eq_rowIx_colIx u).symm
  refine Finset.sum_bij' (fun u _ => rowIx u) (fun e _ => ix2 e j) ?_ ?_ ?_ ?_ ?_
  · intro u hu
    rw [Finset.mem_filter] at hu ⊢
    exact ⟨Finset.mem_univ _, (key u hu.2).2⟩
  · intro e he
    rw [Finset.mem_filter] at he ⊢
    exact ⟨Finset.mem_univ _, (rows_resultIdx_iff d h1 h2 h3 h4 idx e j n j).2 ⟨rfl, he.2⟩⟩
  · intro u hu
    exact back u (Finset.mem_filter.1 hu).2
  · intro e _
    exact Fin.ext rfl
  · intro u hu
    exact congrArg f (back u (Finset.mem_filter.1 hu).2).symm

/-- THE SCALAR SCATTER'S LANDING SET, EDGE BY EDGE.  A sum over the updates that land at entry `n` is the sum over the
    edges whose index word reads, signed, as `n`. -/
theorem vec_sum_landing {M : Type*} [AddCommMonoid M] (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (n : Fin N)
    (f : (⟨1, ![E]⟩ : Shape).Idx → M)
    [DecidablePred fun u : (⟨1, ![E]⟩ : Shape).Idx => d.resultIdx? u idx = some (ix1 n)] :
    ∑ u ∈ Finset.univ.filter (fun u : (⟨1, ![E]⟩ : Shape).Idx => d.resultIdx? u idx = some (ix1 n)), f u
      = ∑ e ∈ Finset.univ.filter (fun e : Fin E => (idx (ix2 e (0 : Fin 1))).toInt = (n.val : Int)), f (ix1 e) := by
  have key : ∀ u : (⟨1, ![E]⟩ : Shape).Idx, d.resultIdx? u idx = some (ix1 n) →
      (idx (ix2 (⟨(u 0).val, (u 0).isLt⟩ : Fin E) (0 : Fin 1))).toInt = (n.val : Int) := by
    intro u hu
    have hu2 : d.resultIdx? (ix1 (⟨(u 0).val, (u 0).isLt⟩ : Fin E)) idx = some (ix1 n) := by
      have hx : u = ix1 (⟨(u 0).val, (u 0).isLt⟩ : Fin E) := by
        funext a; match a with | ⟨0, _⟩ => rfl
      rw [← hx]; exact hu
    exact (vec_resultIdx_iff d h1 h2 h3 h4 idx _ n).1 hu2
  refine Finset.sum_bij' (fun u _ => (⟨(u 0).val, (u 0).isLt⟩ : Fin E)) (fun e _ => ix1 e) ?_ ?_ ?_ ?_ ?_
  · intro u hu
    rw [Finset.mem_filter] at hu ⊢
    exact ⟨Finset.mem_univ _, key u hu.2⟩
  · intro e he
    rw [Finset.mem_filter] at he ⊢
    exact ⟨Finset.mem_univ _, (vec_resultIdx_iff d h1 h2 h3 h4 idx e n).2 he.2⟩
  · intro u _
    funext a; match a with | ⟨0, _⟩ => rfl
  · intro e _
    exact Fin.ext rfl
  · intro u _
    refine congrArg f ?_
    funext a; match a with | ⟨0, _⟩ => rfl

/-- THE ROW SCATTER READ AT AN ENTRY, over the extended reals: the operand's entry plus the sum, over the edges whose
    index word reads as this row, of the update's entry in the same column. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (n : Fin N) (j : Fin C)
    (x : (⟨2, ![N, C]⟩ : Shape).Idx → EReal) (upd : (⟨2, ![E, C]⟩ : Shape).Idx → EReal) :
    Ideal.hostScatterAdd d x idx upd (ix2 n j)
      = x (ix2 n j)
        + ∑ e ∈ Finset.univ.filter (fun e : Fin E => (idx (ix2 e (0 : Fin 1))).toInt = (n.val : Int)), upd (ix2 e j) := by
  unfold Ideal.hostScatterAdd
  rw [rows_sum_landing d h1 h2 h3 h4 idx n j upd]

/-- THE SCALAR SCATTER READ AT AN ENTRY, over the extended reals: the operand's entry plus the sum of the updates of
    the edges whose index word reads as this entry. -/
theorem hostScatterAdd_vec_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (n : Fin N)
    (x : (⟨1, ![N]⟩ : Shape).Idx → EReal) (upd : (⟨1, ![E]⟩ : Shape).Idx → EReal) :
    Ideal.hostScatterAdd d x idx upd (ix1 n)
      = x (ix1 n)
        + ∑ e ∈ Finset.univ.filter (fun e : Fin E => (idx (ix2 e (0 : Fin 1))).toInt = (n.val : Int)), upd (ix1 e) := by
  unfold Ideal.hostScatterAdd
  rw [vec_sum_landing d h1 h2 h3 h4 idx n upd]

end Cert.LibGraphOps

end
-- ==== Proof.LibRowGather.lean ====
/-
  A host gather of whole rows, read at an index.

  The operand is an N×C matrix, the indices an E×1 column of integers, the result E×C: row `e` of the result is the
  operand's row at the `e`-th index, that index read signed and clamped into `[0, N − 1]` (the one admissible start of a
  one-row window).  So the result at `(e, i)` is the operand at `(clamp (idx e), i)`: the column coordinate passes
  through unchanged.  In particular gathering the rows of two matrices laid side by side is laying the two gathers side
  by side, since the clamp depends on the number of rows only.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows by a column of indices. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index selects: the index read signed, clamped into `[0, N − 1]`. -/
def rowOf {w : Nat} (N : Nat) (hN : 0 < N) (v : BitVec w) : Fin N := ⟨min v.toInt.toNat (N - 1), by omega⟩

/-- THE ROW GATHER READ AT `(e, i)`: the operand at the selected row and the same column. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (i : Fin C) :
    Host.gather (rowDims N C E wf) x idx (ix2 e i) = x (ix2 (rowOf N hN (idx (ix2 e (0 : Fin 1)))) i) := by
  unfold Host.gather
  congr 1
  funext a
  refine Fin.ext ?_
  show (rowDims N C E wf).start (ix2 e i) idx a + (rowDims N C E wf).batchCoord (ix2 e i) a + (rowDims N C E wf).offCoord (ix2 e i) a = _
  rw [GatherDims.batchCoord_eq_zero _ _ _ List.not_mem_nil]
  match a with
  | ⟨0, _⟩ =>
    have hs : (rowDims N C E wf).start (ix2 e i) idx (0 : Fin 2) = min (idx (ix2 e (0 : Fin 1))).toInt.toNat (N - 1) := by
      unfold GatherDims.start
      rw [dif_pos (show (0 : Fin 2) ∈ (rowDims N C E wf).startIndexMap from List.mem_singleton.mpr rfl)]
      have hsi : (rowDims N C E wf).siIdx (ix2 e i) ⟨List.idxOf (0 : Fin 2) (rowDims N C E wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    have ho : (rowDims N C E wf).offCoord (ix2 e i) (0 : Fin 2) = 0 :=
      GatherDims.offCoord_eq_zero _ _ _ (fun h => ((GatherDims.mem_sKept _ _).mp h).1 (List.mem_singleton.mpr rfl))
    show (rowDims N C E wf).start (ix2 e i) idx (0 : Fin 2) + 0 + (rowDims N C E wf).offCoord (ix2 e i) (0 : Fin 2)
      = min (idx (ix2 e (0 : Fin 1))).toInt.toNat (N - 1)
    rw [hs, ho]; rfl
  | ⟨1, _⟩ =>
    have hs : (rowDims N C E wf).start (ix2 e i) idx (1 : Fin 2) = 0 := by
      unfold GatherDims.start
      rw [dif_neg (show (1 : Fin 2) ∉ [(0 : Fin 2)] from by decide)]
    have ho : (rowDims N C E wf).offCoord (ix2 e i) (1 : Fin 2) = i.val := by
      unfold GatherDims.offCoord
      rw [dif_pos ((GatherDims.mem_sKept _ _).mpr ⟨(show (1 : Fin 2) ∉ [(0 : Fin 2)] from by decide), List.not_mem_nil⟩)]
      rfl
    show (rowDims N C E wf).start (ix2 e i) idx (1 : Fin 2) + 0 + (rowDims N C E wf).offCoord (ix2 e i) (1 : Fin 2) = i.val
    rw [hs, ho]; omega

end Cert.LibRowGather

end
-- ==== Proof.LibGraphIndex.lean ====
/-
  Node numbers as 32-bit words: what a gather reads, and the index normalisation in front of it.

  A gather by a column of index words reads, for edge `e`, the node whose number is the `e`-th word read signed and
  clamped into `[0, N − 1]`.  Here: the gather of scalars from a vector and the gather of whole rows of a matrix, each
  for any dimension-number record with the right fields; the column of words obtained by laying a vector of words out
  as an `E × 1` matrix; and the normalisation that adds `N` to a negative word (a negative index counts from the
  end), read word by word.  A word that already is a node number is left alone by the normalisation and selects that
  node.
-/
import Idealize.ShloMosaic.Lib.ValueIdx
import Idealize.ShloMosaic.Lib.Pipeline.Value
import proofs.«108922_j32160715112488_1_alg».proof.Proof.LibRowGather

noncomputable section

namespace Cert.LibGraphIndex

open Idealize.ShloMosaic Idealize.ShloMosaic.ValueIdx Cert.LibRowGather

variable {α : Type} {N C E w : Nat}

/-! ## Gathers -/

/-- The dimension numbers of a gather of scalars from a vector by a column of indices. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scalar gather read at `e`, for the record spelt out: the vector at the selected entry. -/
theorem gather_scalars_dims_apply (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (scalarDims N E wf) v idx (ix1 e) = v (ix1 (rowOf N hN (idx (ix2 e (0 : Fin 1))))) := by
  unfold Host.gather
  refine congrArg v (funext fun a => Fin.ext ?_)
  show (scalarDims N E wf).start (ix1 e) idx a + (scalarDims N E wf).batchCoord (ix1 e) a
    + (scalarDims N E wf).offCoord (ix1 e) a = _
  rw [GatherDims.batchCoord_eq_zero _ _ _ List.not_mem_nil]
  match a with
  | ⟨0, _⟩ =>
    have hs : (scalarDims N E wf).start (ix1 e) idx (0 : Fin 1) = min (idx (ix2 e (0 : Fin 1))).toInt.toNat (N - 1) := by
      unfold GatherDims.start
      rw [dif_pos (show (0 : Fin 1) ∈ (scalarDims N E wf).startIndexMap from List.mem_singleton.mpr rfl)]
      have hsi : (scalarDims N E wf).siIdx (ix1 e) ⟨List.idxOf (0 : Fin 1) (scalarDims N E wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    have ho : (scalarDims N E wf).offCoord (ix1 e) (0 : Fin 1) = 0 :=
      GatherDims.offCoord_eq_zero _ _ _ (fun h => ((GatherDims.mem_sKept _ _).mp h).1 (List.mem_singleton.mpr rfl))
    show (scalarDims N E wf).start (ix1 e) idx (0 : Fin 1) + 0 + (scalarDims N E wf).offCoord (ix1 e) (0 : Fin 1)
      = min (idx (ix2 e (0 : Fin 1))).toInt.toNat (N - 1)
    rw [hs, ho]; rfl

/-- THE SCALAR GATHER READ AT `e`: a gather of scalars from a vector of `N` by an `E × 1` column of index words
    reads, at `e`, the vector at the `e`-th word read signed and clamped into `[0, N − 1]`. -/
theorem gather_scalars_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (v : (⟨1, ![N]⟩ : Shape).Idx → α) (idx : IVec ⟨2, ![E, 1]⟩ w) (e : Fin E) :
    Host.gather d v idx (ix1 e) = v (ix1 (rowOf N hN (idx (ix2 e (0 : Fin 1))))) := by
  obtain ⟨od, cd, ob, sb, sm, iv, ss, wf⟩ := d
  dsimp only at h1 h2 h3 h4 h5 h6 h7
  subst h1 h2 h3 h4 h5 h6 h7
  exact gather_scalars_dims_apply hN wf v idx e

/-- THE ROW GATHER READ AT `(e, i)`, for any record with the fields of a gather of whole rows: the matrix at the
    selected row and the same column. -/
theorem gather_rows_apply' (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E)
    (i : Fin C) :
    Host.gather d x idx (ix2 e i) = x (ix2 (rowOf N hN (idx (ix2 e (0 : Fin 1)))) i) := by
  obtain ⟨od, cd, ob, sb, sm, iv, ss, wf⟩ := d
  dsimp only at h1 h2 h3 h4 h5 h6 h7
  subst h1 h2 h3 h4 h5 h6 h7
  exact gather_rows_apply hN wf x idx e i

/-! ## A vector of words laid out as a column -/

/-- A vector of `E` entries broadcast to an `E × 1` column reads, at `(e, 0)`, the vector's entry `e`. -/
theorem bcast_col_apply (hb : (⟨1, ![E]⟩ : Shape).BroadcastsInDim ⟨2, ![E, 1]⟩ ![0])
    (x : (⟨1, ![E]⟩ : Shape).Idx → α) (e : Fin E) (k : Fin 1) :
    broadcastInDim ⟨2, ![E, 1]⟩ ![0] hb x (ix2 e k) = x (ix1 e) := by
  unfold broadcastInDim
  refine congrArg x (funext fun a => ?_)
  match a with
  | ⟨0, _⟩ =>
    refine Fin.ext ?_
    split
    · rename_i h1
      have h1' : E = 1 := h1
      have := e.isLt
      show 0 = e.val
      omega
    · rfl

/-- A constant broadcast to a vector reads the constant at every entry. -/
theorem bcast_const_apply (hb : (⟨0, ![]⟩ : Shape).BroadcastsInDim ⟨1, ![E]⟩ ![]) (K : BitVec w)
    (j : (⟨1, ![E]⟩ : Shape).Idx) :
    broadcastInDim ⟨1, ![E]⟩ ![] hb (constantI ⟨0, ![]⟩ w K) j = K := rfl

/-! ## The index normalisation -/

/-- THE NORMALISATION READ AT AN INDEX.  Where the word is negative (signed comparison with a zero) the sum of the
    word and the offset is taken, elsewhere the word itself: at index `j`, the word plus the offset if the word reads
    negative, else the word. -/
theorem normalise_apply {S : Shape} (s z n : IVec S 32) (j : S.Idx) (hz : z j = 0#32) :
    select (cmpi .slt s z) (addi s n) s j = if (s j).toInt < 0 then s j + n j else s j := by
  show Scalar.select (IntOp.cmpi .slt (s j) (z j)) (IntOp.addi (s j) (n j)) (s j) = _
  rw [hz]
  unfold Scalar.select IntOp.cmpi IntOp.addi
  by_cases h : (s j).toInt < 0
  · rw [if_pos h, if_pos]
    simp [BitVec.slt, h]
  · rw [if_neg h, if_neg]
    simp [BitVec.slt, h]

/-- The same with the zero and the offset `K` given as constants broadcast to the vector's shape. -/
theorem normalise_bcast_apply (hb : (⟨0, ![]⟩ : Shape).BroadcastsInDim ⟨1, ![E]⟩ ![]) (s : IVec ⟨1, ![E]⟩ 32)
    (K : BitVec 32) (e : Fin E) :
    select (cmpi .slt s (broadcastInDim ⟨1, ![E]⟩ ![] hb (constantI ⟨0, ![]⟩ 32 0#32)))
        (addi s (broadcastInDim ⟨1, ![E]⟩ ![] hb (constantI ⟨0, ![]⟩ 32 K))) s (ix1 e)
      = if (s (ix1 e)).toInt < 0 then s (ix1 e) + K else s (ix1 e) :=
  normalise_apply s _ _ (ix1 e) rfl

/-- A word that reads as a natural number is left alone by the normalisation. -/
theorem normalise_of_nat (v K : BitVec 32) (i : Nat) (hv : v.toInt = (i : Int)) :
    (if v.toInt < 0 then v + K else v) = v := by
  rw [if_neg]
  rw [hv]
  exact not_lt.mpr (Int.natCast_nonneg i)

/-- A word that reads as the node number `i` selects node `i`: the clamp does nothing. -/
theorem rowOf_of_eq (hN : 0 < N) (v : BitVec w) (i : Fin N) (hv : v.toInt = (i.val : Int)) : rowOf N hN v = i := by
  apply Fin.ext
  show min v.toInt.toNat (N - 1) = i.val
  rw [hv, Int.toNat_natCast]
  have := i.isLt
  omega

/-- The normalised word as an integer, for any word: a negative word `v` becomes `v + K` exactly (no wrap-around,
    since `-2^31 ≤ v < 0` and `0 ≤ K < 2^31`), another word is unchanged. -/
theorem toInt_normalise (v : BitVec 32) (K : Nat) (hK : K < 2 ^ 31) :
    (if v.toInt < 0 then v + BitVec.ofNat 32 K else v).toInt = if v.toInt < 0 then v.toInt + (K : Int) else v.toInt := by
  have hlo := BitVec.le_toInt v
  have hhi : v.toInt < 2 ^ (32 - 1) := BitVec.toInt_lt
  by_cases h : v.toInt < 0
  · rw [if_pos h, if_pos h, BitVec.toInt_add, BitVec.toInt_ofNat']
    simp only [Int.bmod]
    norm_num at hlo hhi ⊢
    split_ifs <;> omega
  · rw [if_neg h, if_neg h]

end Cert.LibGraphIndex

end
-- ==== Proof.LibGraphConv.lean ====
/-
  One layer of a graph convolution with symmetric degree normalisation, read at an entry.

  The degree scale of node `n` is the reciprocal square root of one plus the number of edges whose target word reads
  as `n`.  A layer gathers, for every edge, the source node's feature row and the product of the two endpoint scales,
  multiplies them, adds the products into the rows named by the target words, and adds the node's own row scaled by
  the square of its scale.  Read at `(n, j)` this is a sum over the edges whose target word reads as `n`, plus the
  self term.  The small lemmas first: what a value stretched along a new or a unit axis reads at an index.
-/
import Idealize.ShloMosaic.PureOps.Ideal
import Idealize.ShloMosaic.Lib.ValueIdx
import proofs.«108922_j32160715112488_1_alg».proof.Proof.LibGraphOps
import proofs.«108922_j32160715112488_1_alg».proof.Proof.LibGraphIndex

noncomputable section

namespace Cert.LibGraphConv

open Idealize.ShloMosaic Idealize.ShloMosaic.ValueIdx Cert.LibRowGather Cert.LibGraphOps Cert.LibGraphIndex

variable {α : Type} {A B N C E w : Nat}

/-! ## Stretching along an axis -/

/-- An `A × 1` column stretched to `A × B` reads, at `(a, b)`, the column's entry `(a, 0)`. -/
theorem bcast_cols_apply (hb : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] hb x (ix2 a b) = x (ix2 a (0 : Fin 1)) := by
  unfold broadcastInDim
  refine congrArg x (funext fun c => ?_)
  match c with
  | ⟨0, _⟩ =>
    refine Fin.ext ?_
    split
    · rename_i h1
      have h1' : A = 1 := h1
      have := a.isLt
      show 0 = a.val
      omega
    · rfl
  | ⟨1, _⟩ =>
    refine Fin.ext ?_
    split
    · rfl
    · rename_i h1
      exact absurd rfl h1

/-- A vector of `B` entries laid out as a `1 × B` row reads, at `(0, b)`, the vector's entry `b`. -/
theorem bcast_row_apply (hb : (⟨1, ![B]⟩ : Shape).BroadcastsInDim ⟨2, ![1, B]⟩ ![1])
    (x : (⟨1, ![B]⟩ : Shape).Idx → α) (k : Fin 1) (b : Fin B) :
    broadcastInDim ⟨2, ![1, B]⟩ ![1] hb x (ix2 k b) = x (ix1 b) := by
  unfold broadcastInDim
  refine congrArg x (funext fun c => ?_)
  match c with
  | ⟨0, _⟩ =>
    refine Fin.ext ?_
    split
    · rename_i h1
      have h1' : B = 1 := h1
      have := b.isLt
      show 0 = b.val
      omega
    · rfl

/-- A `1 × B` row stretched to `A × B` reads, at `(a, b)`, the row's entry `(0, b)`. -/
theorem bcast_rows_apply (hb : (⟨2, ![1, B]⟩ : Shape).BroadcastsInDim ⟨2, ![A, B]⟩ ![0, 1])
    (x : (⟨2, ![1, B]⟩ : Shape).Idx → α) (a : Fin A) (b : Fin B) :
    broadcastInDim ⟨2, ![A, B]⟩ ![0, 1] hb x (ix2 a b) = x (ix2 (0 : Fin 1) b) := by
  unfold broadcastInDim
  refine congrArg x (funext fun c => ?_)
  match c with
  | ⟨0, _⟩ =>
    refine Fin.ext ?_
    split
    · rfl
    · rename_i h1
      exact absurd rfl h1
  | ⟨1, _⟩ =>
    refine Fin.ext ?_
    split
    · rename_i h1
      have h1' : B = 1 := h1
      have := b.isLt
      show 0 = b.val
      omega
    · rfl

/-- A vector of `B` entries laid out as a `1 × B` row and stretched to `A × B` reads, at `(a, b)`, the vector's
    entry `b`. -/
theorem bcast_bias_apply (hb1 : (⟨1, ![B]⟩ : Shape).BroadcastsInDim ⟨2, ![1, B]⟩ ![1])
    (hb2 : (⟨2, ![1, B]⟩ : Shape).BroadcastsInDim ⟨2, ![A, B]⟩ ![0, 1])
    (x : (⟨1, ![B]⟩ : Shape).Idx → α) (a : Fin A) (b : Fin B) :
    broadcastInDim ⟨2, ![A, B]⟩ ![0, 1] hb2 (broadcastInDim ⟨2, ![1, B]⟩ ![1] hb1 x) (ix2 a b) = x (ix1 b) := by
  rw [bcast_rows_apply, bcast_row_apply]

/-! ## The degree scale -/

/-- THE DEGREE SCALE READ AT A NODE.  The reciprocal square root of: the operand's entry, plus the sum of the updates
    of the edges whose target word reads as this node, plus the addend's entry. -/
theorem degree_scale_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (hbE : (⟨1, ![E]⟩ : Shape).BroadcastsInDim ⟨2, ![E, 1]⟩ ![0])
    (z o : FVec Ideal ⟨1, ![N]⟩ .f32) (u : FVec Ideal ⟨1, ![E]⟩ .f32) (sd : IVec ⟨1, ![E]⟩ w) (n : Fin N) :
    Host.rsqrt (addf (Host.scatterAdd d z (broadcastInDim ⟨2, ![E, 1]⟩ ![0] hbE sd) u) o) (ix1 n)
      = Ideal.rsqrt ((z (ix1 n)
          + ∑ e ∈ Finset.univ.filter (fun e : Fin E => (sd (ix1 e)).toInt = (n.val : Int)), u (ix1 e)) + o (ix1 n)) := by
  have hfil : Finset.univ.filter (fun e : Fin E =>
        ((broadcastInDim ⟨2, ![E, 1]⟩ ![0] hbE sd) (ix2 e (0 : Fin 1))).toInt = (n.val : Int))
      = Finset.univ.filter (fun e : Fin E => (sd (ix1 e)).toInt = (n.val : Int)) := by
    refine Finset.filter_congr fun e _ => ?_
    rw [bcast_col_apply]
  show Ideal.rsqrt (Ideal.hostScatterAdd d z (broadcastInDim ⟨2, ![E, 1]⟩ ![0] hbE sd) u (ix1 n) + o (ix1 n)) = _
  rw [hostScatterAdd_vec_apply d h1 h2 h3 h4, hfil]

/-! ## One layer -/

/-- THE LAYER READ AT `(n, j)`.  With `H` the feature rows, `dis` the degree scales, `sd` the target words the
    scatter uses, and `ss1`, `ss2`, `sd2` the source and target words the three gathers use: the operand's entry,
    plus the sum over the edges whose target word reads as `n` of the source row's entry `j` times the product of the
    two gathered scales, plus the node's own entry times the square of its scale. -/
theorem conv_apply (hN : 0 < N)
    (dS : ScatterDims ⟨2, ![N, C]⟩ ⟨2, ![E, 1]⟩ ⟨2, ![E, C]⟩)
    (hS1 : dS.updateWindowDims = [1]) (hS2 : dS.insertedWindowDims = [0]) (hS3 : dS.scatterDimsToOperandDims = [0])
    (hS4 : dS.indexVectorDim = 1)
    (dG : GatherDims ⟨2, ![N, C]⟩ ⟨2, ![E, 1]⟩ ⟨2, ![E, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (dg : GatherDims ⟨1, ![N]⟩ ⟨2, ![E, 1]⟩ ⟨1, ![E]⟩)
    (hg1 : dg.offsetDims = []) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1])
    (hbE : (⟨1, ![E]⟩ : Shape).BroadcastsInDim ⟨2, ![E, 1]⟩ ![0])
    (hbEC : (⟨2, ![E, 1]⟩ : Shape).BroadcastsInDim ⟨2, ![E, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (Z H : FVec Ideal ⟨2, ![N, C]⟩ .f32) (dis : FVec Ideal ⟨1, ![N]⟩ .f32) (sd ss1 ss2 sd2 : IVec ⟨1, ![E]⟩ 32)
    (n : Fin N) (j : Fin C) :
    addf
        (Host.scatterAdd dS Z (broadcastInDim ⟨2, ![E, 1]⟩ ![0] hbE sd)
          (mulf (Host.gather dG H (broadcastInDim ⟨2, ![E, 1]⟩ ![0] hbE ss1))
            (broadcastInDim ⟨2, ![E, C]⟩ ![0, 1] hbEC
              (broadcastInDim ⟨2, ![E, 1]⟩ ![0] hbE
                (mulf (Host.gather dg dis (broadcastInDim ⟨2, ![E, 1]⟩ ![0] hbE ss2))
                  (Host.gather dg dis (broadcastInDim ⟨2, ![E, 1]⟩ ![0] hbE sd2)))))))
        (mulf H (broadcastInDim ⟨2, ![N, C]⟩ ![0, 1] hbNC (broadcastInDim ⟨2, ![N, 1]⟩ ![0] hbN (mulf dis dis))))
        (ix2 n j)
      = (Z (ix2 n j)
          + ∑ e ∈ Finset.univ.filter (fun e : Fin E => (sd (ix1 e)).toInt = (n.val : Int)),
              H (ix2 (rowOf N hN (ss1 (ix1 e))) j)
                * (dis (ix1 (rowOf N hN (ss2 (ix1 e)))) * dis (ix1 (rowOf N hN (sd2 (ix1 e))))))
        + H (ix2 n j) * (dis (ix1 n) * dis (ix1 n)) := by
  have hself : (broadcastInDim ⟨2, ![N, C]⟩ ![0, 1] hbNC (broadcastInDim ⟨2, ![N, 1]⟩ ![0] hbN (mulf dis dis)))
      (ix2 n j) = dis (ix1 n) * dis (ix1 n) := by
    rw [bcast_cols_apply, bcast_col_apply]
    rfl
  have hupd : ∀ e : Fin E,
      (mulf (Host.gather dG H (broadcastInDim ⟨2, ![E, 1]⟩ ![0] hbE ss1))
        (broadcastInDim ⟨2, ![E, C]⟩ ![0, 1] hbEC
          (broadcastInDim ⟨2, ![E, 1]⟩ ![0] hbE
            (mulf (Host.gather dg dis (broadcastInDim ⟨2, ![E, 1]⟩ ![0] hbE ss2))
              (Host.gather dg dis (broadcastInDim ⟨2, ![E, 1]⟩ ![0] hbE sd2)))))) (ix2 e j)
        = H (ix2 (rowOf N hN (ss1 (ix1 e))) j)
            * (dis (ix1 (rowOf N hN (ss2 (ix1 e)))) * dis (ix1 (rowOf N hN (sd2 (ix1 e))))) := by
    intro e
    show Host.gather dG H (broadcastInDim ⟨2, ![E, 1]⟩ ![0] hbE ss1) (ix2 e j)
        * (broadcastInDim ⟨2, ![E, C]⟩ ![0, 1] hbEC
          (broadcastInDim ⟨2, ![E, 1]⟩ ![0] hbE
            (mulf (Host.gather dg dis (broadcastInDim ⟨2, ![E, 1]⟩ ![0] hbE ss2))
              (Host.gather dg dis (broadcastInDim ⟨2, ![E, 1]⟩ ![0] hbE sd2))))) (ix2 e j) = _
    rw [gather_rows_apply' hN dG hG1 hG2 hG3 hG4 hG5 hG6 hG7, bcast_col_apply, bcast_cols_apply, bcast_col_apply]
    show _ * (Host.gather dg dis (broadcastInDim ⟨2, ![E, 1]⟩ ![0] hbE ss2) (ix1 e)
        * Host.gather dg dis (broadcastInDim ⟨2, ![E, 1]⟩ ![0] hbE sd2) (ix1 e)) = _
    rw [gather_scalars_apply hN dg hg1 hg2 hg3 hg4 hg5 hg6 hg7, gather_scalars_apply hN dg hg1 hg2 hg3 hg4 hg5 hg6 hg7,
      bcast_col_apply, bcast_col_apply]
  have hfil : Finset.univ.filter (fun e : Fin E =>
        ((broadcastInDim ⟨2, ![E, 1]⟩ ![0] hbE sd) (ix2 e (0 : Fin 1))).toInt = (n.val : Int))
      = Finset.univ.filter (fun e : Fin E => (sd (ix1 e)).toInt = (n.val : Int)) := by
    refine Finset.filter_congr fun e _ => ?_
    rw [bcast_col_apply]
  show Ideal.hostScatterAdd dS Z (broadcastInDim ⟨2, ![E, 1]⟩ ![0] hbE sd) _ (ix2 n j)
      + H (ix2 n j) * (broadcastInDim ⟨2, ![N, C]⟩ ![0, 1] hbNC (broadcastInDim ⟨2, ![N, 1]⟩ ![0] hbN (mulf dis dis)))
        (ix2 n j) = _
  rw [hostScatterAdd_rows_apply dS hS1 hS2 hS3 hS4, hself, hfil]
  refine congrArg (· + H (ix2 n j) * (dis (ix1 n) * dis (ix1 n))) ?_
  refine congrArg (Z (ix2 n j) + ·) ?_
  exact Finset.sum_congr rfl fun e _ => hupd e

end Cert.LibGraphConv

end
-- ==== Proof.RefRead1.lean ====
/-
  The first layer's convolution in the reference, read: the product of the input features with the `24 × 128`
  weights, aggregated over the graph's edges with their weights, plus the bias row.  The aggregation is the chain of
  host operations the two programs share, so it is stated with the shared function of the features, the source and
  target words and the edge weights; the product and the bias are read into the specification's forms.
-/
import proofs.«108922_j32160715112488_1_alg».proof.Proof.RefOps
import proofs.«108922_j32160715112488_1_alg».proof.Proof.Spec
import proofs.«108922_j32160715112488_1_alg».proof.Proof.Net
import proofs.«108922_j32160715112488_1_alg».proof.Proof.KDefs
import proofs.«108922_j32160715112488_1_alg».proof.Proof.LibHostDot
import proofs.«108922_j32160715112488_1_alg».proof.Proof.LibGraphConv

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.gather Host.scatterAdd in
set_option maxHeartbeats 4000000 in
/-- The segment as the chain of host operations it is: the product with the weights, then the aggregation the two
    programs share (every edge gathers its source's row, scales it by the edge's weight, and the rows are added into
    the targets' rows from zero), then the bias row stretched down the rows and added. -/
theorem seg1_raw (V : Valuation τ sig (Elt Ideal)) :
    (StableHlo.after (seg1 (F := Ideal)) V (Proc.devRef .tc main_v46) : FVec Ideal S100000x128 .f32)
      = addf (Cert.KernelIdeal.KVal.conv128
            (Host.dotGeneral (φ₁ := .f32) (φ₂ := .f32) dot_S100000x24_S24x128_S100000x128_1_0_0_1_n_n none (V (Proc.devRef .tc main_arg0) : FVec Ideal S100000x24 .f32)
              (V (Proc.devRef .tc main_arg2) : FVec Ideal S24x128 .f32))
            (V (Proc.devRef .tc main_v3) : IVec S1700000 32) (V (Proc.devRef .tc main_v6) : IVec S1700000 32)
            (V (Proc.devRef .tc main_v29) : FVec Ideal S1700000 .f32))
          (broadcastInDim S100000x128 ![0, 1] bcast_S1x128_S100000x128_0_1
            (broadcastInDim S1x128 ![1] bcast_S128_S1x128_1 (V (Proc.devRef .tc main_arg3) : FVec Ideal S128 .f32))) := by
  after_results_simp; rfl

/-- The host's product of a `100000 × 24` by a `24 × 128` matrix is the matrix product, entry by entry. -/
theorem dot1_eq_mm (X : FVec Ideal S100000x24 .f32) (W : FVec Ideal S24x128 .f32) :
    Host.dotGeneral dot_S100000x24_S24x128_S100000x128_1_0_0_1_n_n none X W = Cert.Gcn.mm (n := 100000) (a := 24) (c := 128) X W := by
  funext i
  obtain ⟨p, q, rfl⟩ : ∃ (p : Fin 100000) (q : Fin 128), i = ix2 p q :=
    ⟨_, _, Cert.Gcn.eq_ix2_row_col (n := 100000) (c := 128) i⟩
  exact Cert.LibHostDot.hostDot_nn_apply (m := 100000) (k := 24) (n := 128) _ none X W p q

/-- The bias vector laid out as a row and stretched down the rows adds, at every entry, the vector's entry of that
    column: the specification's biased form. -/
theorem bias1_eq (A : FVec Ideal S100000x128 .f32) (b : FVec Ideal S128 .f32) :
    addf A (broadcastInDim S100000x128 ![0, 1] bcast_S1x128_S100000x128_0_1 (broadcastInDim S1x128 ![1] bcast_S128_S1x128_1 b))
      = Cert.Gcn.biased (n := 100000) (c := 128) A (Cert.Gcn.rowv (c := 128) b) := by
  funext i
  obtain ⟨p, q, rfl⟩ : ∃ (p : Fin 100000) (q : Fin 128), i = ix2 p q :=
    ⟨_, _, Cert.Gcn.eq_ix2_row_col (n := 100000) (c := 128) i⟩
  show A (ix2 p q) + broadcastInDim S100000x128 ![0, 1] bcast_S1x128_S100000x128_0_1 (broadcastInDim S1x128 ![1] bcast_S128_S1x128_1 b) (ix2 p q)
    = A (ix2 p q) + b (ix1 q)
  rw [Cert.LibGraphConv.bcast_bias_apply]

/-- THE SEGMENT, READ: the output buffer holds the aggregation of the product of the features it finds with the
    weights, over the edges and edge weights it finds, plus the bias row. -/
theorem seg1_read (V : Valuation τ sig (Elt Ideal)) :
    (StableHlo.after (seg1 (F := Ideal)) V (Proc.devRef .tc main_v46) : S100000x128.Idx → EReal)
      = Cert.Gcn.biased (n := 100000) (c := 128)
          (Cert.KernelIdeal.KVal.conv128
            (Cert.Gcn.mm (n := 100000) (a := 24) (c := 128) (V (Proc.devRef .tc main_arg0)) (V (Proc.devRef .tc main_arg2)))
            (V (Proc.devRef .tc main_v3)) (V (Proc.devRef .tc main_v6)) (V (Proc.devRef .tc main_v29)))
          (Cert.Gcn.rowv (c := 128) (V (Proc.devRef .tc main_arg3))) := by
  rw [seg1_raw, dot1_eq_mm, bias1_eq]

end Cert.ReferenceIdeal.RefRun

end
-- ==== Proof.RefRead2.lean ====
/-
  The first layer's cut-off and normalisation in the reference, read: the segment is the chain of host operations
  that cuts the biased aggregation off below at zero, takes the column means and the column variances (the squared
  deviations' sums divided by the count less a correction that is zero, under a scalar test that holds), and forms
  every entry less its column's mean, times the reciprocal square root of the variance plus the stabiliser, times the
  scale, plus the shift.  That chain and its reading at an entry are stated once for all widths; here it is the
  segment's, at width 128.
-/
import proofs.«108922_j32160715112488_1_alg».proof.Proof.RefOps
import proofs.«108922_j32160715112488_1_alg».proof.Proof.RefReadLib

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.reduceAdd in
set_option maxHeartbeats 4000000 in
/-- The segment leaves, in its output buffer, the reference's normalisation chain applied to the biased aggregation,
    the scale and the shift it finds. -/
theorem seg2_raw (V : Valuation τ sig (Elt Ideal)) :
    (StableHlo.after (seg2 (F := Ideal)) V (Proc.devRef .tc main_v66) : FVec Ideal S100000x128 .f32)
      = Cert.Gcn.RefForms.refNorm bcast_S_S100000x128 bcast_S_S128 bcast_S_S1x128 bcast_S128_S1x128_1 bcast_S1x128_S100000x128_0_1
          reducesTo_S100000x128_S128_d0 h_S_ (V (Proc.devRef .tc main_v46)) (V (Proc.devRef .tc main_arg4))
          (V (Proc.devRef .tc main_arg5)) := by
  after_results_simp; rfl

/-- THE SEGMENT, READ: the output buffer holds the specification's reference form of the normalisation of the cut-off
    of the biased aggregation it finds, with the scale and the shift rows it finds. -/
theorem seg2_read (V : Valuation τ sig (Elt Ideal)) :
    (StableHlo.after (seg2 (F := Ideal)) V (Proc.devRef .tc main_v66) : S100000x128.Idx → EReal)
      = Cert.Gcn.RefForms.normR (n := 100000) (c := 128)
          (fun i => max ((V (Proc.devRef .tc main_v46) : S100000x128.Idx → EReal) i) 0)
          (Cert.Gcn.rowv (c := 128) (V (Proc.devRef .tc main_arg4))) (Cert.Gcn.rowv (c := 128) (V (Proc.devRef .tc main_arg5))) :=
  (seg2_raw V).trans (Cert.Gcn.RefForms.refNorm_eq bcast_S_S100000x128 bcast_S_S128 bcast_S_S1x128 bcast_S128_S1x128_1
    bcast_S1x128_S100000x128_0_1 reducesTo_S100000x128_S128_d0 h_S_ (by decide) _ _ _)

end Cert.ReferenceIdeal.RefRun

end
-- ==== Proof.RefRead3.lean ====
/-
  The second layer's convolution in the reference, read: the product of the normalised features with the `128 × 128`
  weights, aggregated over the graph's edges with their weights, plus the bias row.  The aggregation is the chain of
  host operations the two programs share, so it is stated with the shared function of the features, the source and
  target words and the edge weights; the product and the bias are read into the specification's forms.
-/
import proofs.«108922_j32160715112488_1_alg».proof.Proof.RefOps
import proofs.«108922_j32160715112488_1_alg».proof.Proof.Spec
import proofs.«108922_j32160715112488_1_alg».proof.Proof.Net
import proofs.«108922_j32160715112488_1_alg».proof.Proof.KDefs
import proofs.«108922_j32160715112488_1_alg».proof.Proof.LibHostDot
import proofs.«108922_j32160715112488_1_alg».proof.Proof.LibGraphConv

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.gather Host.scatterAdd in
set_option maxHeartbeats 4000000 in
/-- The segment as the chain of host operations it is: the product with the weights, then the aggregation the two
    programs share (every edge gathers its source's row, scales it by the edge's weight, and the rows are added into
    the targets' rows from zero), then the bias row stretched down the rows and added. -/
theorem seg3_raw (V : Valuation τ sig (Elt Ideal)) :
    (StableHlo.after (seg3 (F := Ideal)) V (Proc.devRef .tc main_v83) : FVec Ideal S100000x128 .f32)
      = addf (Cert.KernelIdeal.KVal.conv128
            (Host.dotGeneral (φ₁ := .f32) (φ₂ := .f32) dot_S100000x128_S128x128_S100000x128_1_0_0_1_n_n none (V (Proc.devRef .tc main_v66) : FVec Ideal S100000x128 .f32)
              (V (Proc.devRef .tc main_arg6) : FVec Ideal S128x128 .f32))
            (V (Proc.devRef .tc main_v3) : IVec S1700000 32) (V (Proc.devRef .tc main_v6) : IVec S1700000 32)
            (V (Proc.devRef .tc main_v29) : FVec Ideal S1700000 .f32))
          (broadcastInDim S100000x128 ![0, 1] bcast_S1x128_S100000x128_0_1
            (broadcastInDim S1x128 ![1] bcast_S128_S1x128_1 (V (Proc.devRef .tc main_arg7) : FVec Ideal S128 .f32))) := by
  after_results_simp; rfl

/-- The host's product of a `100000 × 128` by a `128 × 128` matrix is the matrix product, entry by entry. -/
theorem dot3_eq_mm (X : FVec Ideal S100000x128 .f32) (W : FVec Ideal S128x128 .f32) :
    Host.dotGeneral dot_S100000x128_S128x128_S100000x128_1_0_0_1_n_n none X W = Cert.Gcn.mm (n := 100000) (a := 128) (c := 128) X W := by
  funext i
  obtain ⟨p, q, rfl⟩ : ∃ (p : Fin 100000) (q : Fin 128), i = ix2 p q :=
    ⟨_, _, Cert.Gcn.eq_ix2_row_col (n := 100000) (c := 128) i⟩
  exact Cert.LibHostDot.hostDot_nn_apply (m := 100000) (k := 128) (n := 128) _ none X W p q

/-- The bias vector laid out as a row and stretched down the rows adds, at every entry, the vector's entry of that
    column: the specification's biased form. -/
theorem bias3_eq (A : FVec Ideal S100000x128 .f32) (b : FVec Ideal S128 .f32) :
    addf A (broadcastInDim S100000x128 ![0, 1] bcast_S1x128_S100000x128_0_1 (broadcastInDim S1x128 ![1] bcast_S128_S1x128_1 b))
      = Cert.Gcn.biased (n := 100000) (c := 128) A (Cert.Gcn.rowv (c := 128) b) := by
  funext i
  obtain ⟨p, q, rfl⟩ : ∃ (p : Fin 100000) (q : Fin 128), i = ix2 p q :=
    ⟨_, _, Cert.Gcn.eq_ix2_row_col (n := 100000) (c := 128) i⟩
  show A (ix2 p q) + broadcastInDim S100000x128 ![0, 1] bcast_S1x128_S100000x128_0_1 (broadcastInDim S1x128 ![1] bcast_S128_S1x128_1 b) (ix2 p q)
    = A (ix2 p q) + b (ix1 q)
  rw [Cert.LibGraphConv.bcast_bias_apply]

/-- THE SEGMENT, READ: the output buffer holds the aggregation of the product of the features it finds with the
    weights, over the edges and edge weights it finds, plus the bias row. -/
theorem seg3_read (V : Valuation τ sig (Elt Ideal)) :
    (StableHlo.after (seg3 (F := Ideal)) V (Proc.devRef .tc main_v83) : S100000x128.Idx → EReal)
      = Cert.Gcn.biased (n := 100000) (c := 128)
          (Cert.KernelIdeal.KVal.conv128
            (Cert.Gcn.mm (n := 100000) (a := 128) (c := 128) (V (Proc.devRef .tc main_v66)) (V (Proc.devRef .tc main_arg6)))
            (V (Proc.devRef .tc main_v3)) (V (Proc.devRef .tc main_v6)) (V (Proc.devRef .tc main_v29)))
          (Cert.Gcn.rowv (c := 128) (V (Proc.devRef .tc main_arg7))) := by
  rw [seg3_raw, dot3_eq_mm, bias3_eq]

end Cert.ReferenceIdeal.RefRun

end
-- ==== Proof.RefRead4.lean ====
/-
  The second layer's cut-off and normalisation in the reference, read: the segment is the chain of host operations
  that cuts the biased aggregation off below at zero, takes the column means and the column variances (the squared
  deviations' sums divided by the count less a correction that is zero, under a scalar test that holds), and forms
  every entry less its column's mean, times the reciprocal square root of the variance plus the stabiliser, times the
  scale, plus the shift.  That chain and its reading at an entry are stated once for all widths; here it is the
  segment's, at width 128.
-/
import proofs.«108922_j32160715112488_1_alg».proof.Proof.RefOps
import proofs.«108922_j32160715112488_1_alg».proof.Proof.RefReadLib

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.reduceAdd in
set_option maxHeartbeats 4000000 in
/-- The segment leaves, in its output buffer, the reference's normalisation chain applied to the biased aggregation,
    the scale and the shift it finds. -/
theorem seg4_raw (V : Valuation τ sig (Elt Ideal)) :
    (StableHlo.after (seg4 (F := Ideal)) V (Proc.devRef .tc main_v103) : FVec Ideal S100000x128 .f32)
      = Cert.Gcn.RefForms.refNorm bcast_S_S100000x128 bcast_S_S128 bcast_S_S1x128 bcast_S128_S1x128_1 bcast_S1x128_S100000x128_0_1
          reducesTo_S100000x128_S128_d0 h_S_ (V (Proc.devRef .tc main_v83)) (V (Proc.devRef .tc main_arg8))
          (V (Proc.devRef .tc main_arg9)) := by
  after_results_simp; rfl

/-- THE SEGMENT, READ: the output buffer holds the specification's reference form of the normalisation of the cut-off
    of the biased aggregation it finds, with the scale and the shift rows it finds. -/
theorem seg4_read (V : Valuation τ sig (Elt Ideal)) :
    (StableHlo.after (seg4 (F := Ideal)) V (Proc.devRef .tc main_v103) : S100000x128.Idx → EReal)
      = Cert.Gcn.RefForms.normR (n := 100000) (c := 128)
          (fun i => max ((V (Proc.devRef .tc main_v83) : S100000x128.Idx → EReal) i) 0)
          (Cert.Gcn.rowv (c := 128) (V (Proc.devRef .tc main_arg8))) (Cert.Gcn.rowv (c := 128) (V (Proc.devRef .tc main_arg9))) :=
  (seg4_raw V).trans (Cert.Gcn.RefForms.refNorm_eq bcast_S_S100000x128 bcast_S_S128 bcast_S_S1x128 bcast_S128_S1x128_1
    bcast_S1x128_S100000x128_0_1 reducesTo_S100000x128_S128_d0 h_S_ (by decide) _ _ _)

end Cert.ReferenceIdeal.RefRun

end
-- ==== Proof.RefRead5.lean ====
/-
  The third layer's convolution in the reference, read: the product of the normalised features with the `128 × 64`
  weights, aggregated over the graph's edges with their weights, plus the bias row.  The aggregation is the chain of
  host operations the two programs share, so it is stated with the shared function of the features, the source and
  target words and the edge weights; the product and the bias are read into the specification's forms.
-/
import proofs.«108922_j32160715112488_1_alg».proof.Proof.RefOps
import proofs.«108922_j32160715112488_1_alg».proof.Proof.Spec
import proofs.«108922_j32160715112488_1_alg».proof.Proof.Net
import proofs.«108922_j32160715112488_1_alg».proof.Proof.KDefs
import proofs.«108922_j32160715112488_1_alg».proof.Proof.LibHostDot
import proofs.«108922_j32160715112488_1_alg».proof.Proof.LibGraphConv

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.gather Host.scatterAdd in
set_option maxHeartbeats 4000000 in
/-- The segment as the chain of host operations it is: the product with the weights, then the aggregation the two
    programs share (every edge gathers its source's row, scales it by the edge's weight, and the rows are added into
    the targets' rows from zero), then the bias row stretched down the rows and added. -/
theorem seg5_raw (V : Valuation τ sig (Elt Ideal)) :
    (StableHlo.after (seg5 (F := Ideal)) V (Proc.devRef .tc main_v120) : FVec Ideal S100000x64 .f32)
      = addf (Cert.KernelIdeal.KVal.conv64
            (Host.dotGeneral (φ₁ := .f32) (φ₂ := .f32) dot_S100000x128_S128x64_S100000x64_1_0_0_1_n_n none (V (Proc.devRef .tc main_v103) : FVec Ideal S100000x128 .f32)
              (V (Proc.devRef .tc main_arg10) : FVec Ideal S128x64 .f32))
            (V (Proc.devRef .tc main_v3) : IVec S1700000 32) (V (Proc.devRef .tc main_v6) : IVec S1700000 32)
            (V (Proc.devRef .tc main_v29) : FVec Ideal S1700000 .f32))
          (broadcastInDim S100000x64 ![0, 1] bcast_S1x64_S100000x64_0_1
            (broadcastInDim S1x64 ![1] bcast_S64_S1x64_1 (V (Proc.devRef .tc main_arg11) : FVec Ideal S64 .f32))) := by
  after_results_simp; rfl

/-- The host's product of a `100000 × 128` by a `128 × 64` matrix is the matrix product, entry by entry. -/
theorem dot5_eq_mm (X : FVec Ideal S100000x128 .f32) (W : FVec Ideal S128x64 .f32) :
    Host.dotGeneral dot_S100000x128_S128x64_S100000x64_1_0_0_1_n_n none X W = Cert.Gcn.mm (n := 100000) (a := 128) (c := 64) X W := by
  funext i
  obtain ⟨p, q, rfl⟩ : ∃ (p : Fin 100000) (q : Fin 64), i = ix2 p q :=
    ⟨_, _, Cert.Gcn.eq_ix2_row_col (n := 100000) (c := 64) i⟩
  exact Cert.LibHostDot.hostDot_nn_apply (m := 100000) (k := 128) (n := 64) _ none X W p q

/-- The bias vector laid out as a row and stretched down the rows adds, at every entry, the vector's entry of that
    column: the specification's biased form. -/
theorem bias5_eq (A : FVec Ideal S100000x64 .f32) (b : FVec Ideal S64 .f32) :
    addf A (broadcastInDim S100000x64 ![0, 1] bcast_S1x64_S100000x64_0_1 (broadcastInDim S1x64 ![1] bcast_S64_S1x64_1 b))
      = Cert.Gcn.biased (n := 100000) (c := 64) A (Cert.Gcn.rowv (c := 64) b) := by
  funext i
  obtain ⟨p, q, rfl⟩ : ∃ (p : Fin 100000) (q : Fin 64), i = ix2 p q :=
    ⟨_, _, Cert.Gcn.eq_ix2_row_col (n := 100000) (c := 64) i⟩
  show A (ix2 p q) + broadcastInDim S100000x64 ![0, 1] bcast_S1x64_S100000x64_0_1 (broadcastInDim S1x64 ![1] bcast_S64_S1x64_1 b) (ix2 p q)
    = A (ix2 p q) + b (ix1 q)
  rw [Cert.LibGraphConv.bcast_bias_apply]

/-- THE SEGMENT, READ: the output buffer holds the aggregation of the product of the features it finds with the
    weights, over the edges and edge weights it finds, plus the bias row. -/
theorem seg5_read (V : Valuation τ sig (Elt Ideal)) :
    (StableHlo.after (seg5 (F := Ideal)) V (Proc.devRef .tc main_v120) : S100000x64.Idx → EReal)
      = Cert.Gcn.biased (n := 100000) (c := 64)
          (Cert.KernelIdeal.KVal.conv64
            (Cert.Gcn.mm (n := 100000) (a := 128) (c := 64) (V (Proc.devRef .tc main_v103)) (V (Proc.devRef .tc main_arg10)))
            (V (Proc.devRef .tc main_v3)) (V (Proc.devRef .tc main_v6)) (V (Proc.devRef .tc main_v29)))
          (Cert.Gcn.rowv (c := 64) (V (Proc.devRef .tc main_arg11))) := by
  rw [seg5_raw, dot5_eq_mm, bias5_eq]

end Cert.ReferenceIdeal.RefRun

end
-- ==== Proof.RefRead6.lean ====
/-
  The third layer's cut-off and normalisation in the reference, read: the segment is the chain of host operations
  that cuts the biased aggregation off below at zero, takes the column means and the column variances (the squared
  deviations' sums divided by the count less a correction that is zero, under a scalar test that holds), and forms
  every entry less its column's mean, times the reciprocal square root of the variance plus the stabiliser, times the
  scale, plus the shift.  That chain and its reading at an entry are stated once for all widths; here it is the
  segment's, at width 64.
-/
import proofs.«108922_j32160715112488_1_alg».proof.Proof.RefOps
import proofs.«108922_j32160715112488_1_alg».proof.Proof.RefReadLib

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.reduceAdd in
set_option maxHeartbeats 4000000 in
/-- The segment leaves, in its output buffer, the reference's normalisation chain applied to the biased aggregation,
    the scale and the shift it finds. -/
theorem seg6_raw (V : Valuation τ sig (Elt Ideal)) :
    (StableHlo.after (seg6 (F := Ideal)) V (Proc.devRef .tc main_v140) : FVec Ideal S100000x64 .f32)
      = Cert.Gcn.RefForms.refNorm bcast_S_S100000x64 bcast_S_S64 bcast_S_S1x64 bcast_S64_S1x64_1 bcast_S1x64_S100000x64_0_1
          reducesTo_S100000x64_S64_d0 h_S_ (V (Proc.devRef .tc main_v120)) (V (Proc.devRef .tc main_arg12))
          (V (Proc.devRef .tc main_arg13)) := by
  after_results_simp; rfl

/-- THE SEGMENT, READ: the output buffer holds the specification's reference form of the normalisation of the cut-off
    of the biased aggregation it finds, with the scale and the shift rows it finds. -/
theorem seg6_read (V : Valuation τ sig (Elt Ideal)) :
    (StableHlo.after (seg6 (F := Ideal)) V (Proc.devRef .tc main_v140) : S100000x64.Idx → EReal)
      = Cert.Gcn.RefForms.normR (n := 100000) (c := 64)
          (fun i => max ((V (Proc.devRef .tc main_v120) : S100000x64.Idx → EReal) i) 0)
          (Cert.Gcn.rowv (c := 64) (V (Proc.devRef .tc main_arg12))) (Cert.Gcn.rowv (c := 64) (V (Proc.devRef .tc main_arg13))) :=
  (seg6_raw V).trans (Cert.Gcn.RefForms.refNorm_eq bcast_S_S100000x64 bcast_S_S64 bcast_S_S1x64 bcast_S64_S1x64_1
    bcast_S1x64_S100000x64_0_1 reducesTo_S100000x64_S64_d0 h_S_ (by decide) _ _ _)

end Cert.ReferenceIdeal.RefRun

end
-- ==== Proof.RefRead7.lean ====
/-
  The output layer's convolution in the reference, read: the product of the normalised features with the `64 × 2`
  weights, aggregated over the graph's edges with their weights, plus the bias row.  The aggregation is the chain of
  host operations the two programs share, so it is stated with the shared function of the features, the source and
  target words and the edge weights; the product and the bias are read into the specification's forms.
-/
import proofs.«108922_j32160715112488_1_alg».proof.Proof.RefOps
import proofs.«108922_j32160715112488_1_alg».proof.Proof.Spec
import proofs.«108922_j32160715112488_1_alg».proof.Proof.Net
import proofs.«108922_j32160715112488_1_alg».proof.Proof.KDefs
import proofs.«108922_j32160715112488_1_alg».proof.Proof.LibHostDot
import proofs.«108922_j32160715112488_1_alg».proof.Proof.LibGraphConv

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

attribute [local irreducible] Host.gather Host.scatterAdd in
set_option maxHeartbeats 4000000 in
/-- The segment as the chain of host operations it is: the product with the weights, then the aggregation the two
    programs share (every edge gathers its source's row, scales it by the edge's weight, and the rows are added into
    the targets' rows from zero), then the bias row stretched down the rows and added. -/
theorem seg7_raw (V : Valuation τ sig (Elt Ideal)) :
    (StableHlo.after (seg7 (F := Ideal)) V (Proc.devRef .tc main_v157) : FVec Ideal S100000x2 .f32)
      = addf (Cert.KernelIdeal.KVal.conv2
            (Host.dotGeneral (φ₁ := .f32) (φ₂ := .f32) dot_S100000x64_S64x2_S100000x2_1_0_0_1_n_n none (V (Proc.devRef .tc main_v140) : FVec Ideal S100000x64 .f32)
              (V (Proc.devRef .tc main_arg14) : FVec Ideal S64x2 .f32))
            (V (Proc.devRef .tc main_v3) : IVec S1700000 32) (V (Proc.devRef .tc main_v6) : IVec S1700000 32)
            (V (Proc.devRef .tc main_v29) : FVec Ideal S1700000 .f32))
          (broadcastInDim S100000x2 ![0, 1] bcast_S1x2_S100000x2_0_1
            (broadcastInDim S1x2 ![1] bcast_S2_S1x2_1 (V (Proc.devRef .tc main_arg15) : FVec Ideal S2 .f32))) := by
  after_results_simp; rfl

/-- The host's product of a `100000 × 64` by a `64 × 2` matrix is the matrix product, entry by entry. -/
theorem dot7_eq_mm (X : FVec Ideal S100000x64 .f32) (W : FVec Ideal S64x2 .f32) :
    Host.dotGeneral dot_S100000x64_S64x2_S100000x2_1_0_0_1_n_n none X W = Cert.Gcn.mm (n := 100000) (a := 64) (c := 2) X W := by
  funext i
  obtain ⟨p, q, rfl⟩ : ∃ (p : Fin 100000) (q : Fin 2), i = ix2 p q :=
    ⟨_, _, Cert.Gcn.eq_ix2_row_col (n := 100000) (c := 2) i⟩
  exact Cert.LibHostDot.hostDot_nn_apply (m := 100000) (k := 64) (n := 2) _ none X W p q

/-- The bias vector laid out as a row and stretched down the rows adds, at every entry, the vector's entry of that
    column: the specification's biased form. -/
theorem bias7_eq (A : FVec Ideal S100000x2 .f32) (b : FVec Ideal S2 .f32) :
    addf A (broadcastInDim S100000x2 ![0, 1] bcast_S1x2_S100000x2_0_1 (broadcastInDim S1x2 ![1] bcast_S2_S1x2_1 b))
      = Cert.Gcn.biased (n := 100000) (c := 2) A (Cert.Gcn.rowv (c := 2) b) := by
  funext i
  obtain ⟨p, q, rfl⟩ : ∃ (p : Fin 100000) (q : Fin 2), i = ix2 p q :=
    ⟨_, _, Cert.Gcn.eq_ix2_row_col (n := 100000) (c := 2) i⟩
  show A (ix2 p q) + broadcastInDim S100000x2 ![0, 1] bcast_S1x2_S100000x2_0_1 (broadcastInDim S1x2 ![1] bcast_S2_S1x2_1 b) (ix2 p q)
    = A (ix2 p q) + b (ix1 q)
  rw [Cert.LibGraphConv.bcast_bias_apply]

/-- THE SEGMENT, READ: the output buffer holds the aggregation of the product of the features it finds with the
    weights, over the edges and edge weights it finds, plus the bias row. -/
theorem seg7_read (V : Valuation τ sig (Elt Ideal)) :
    (StableHlo.after (seg7 (F := Ideal)) V (Proc.devRef .tc main_v157) : S100000x2.Idx → EReal)
      = Cert.Gcn.biased (n := 100000) (c := 2)
          (Cert.KernelIdeal.KVal.conv2
            (Cert.Gcn.mm (n := 100000) (a := 64) (c := 2) (V (Proc.devRef .tc main_v140)) (V (Proc.devRef .tc main_arg14)))
            (V (Proc.devRef .tc main_v3)) (V (Proc.devRef .tc main_v6)) (V (Proc.devRef .tc main_v29)))
          (Cert.Gcn.rowv (c := 2) (V (Proc.devRef .tc main_arg15))) := by
  rw [seg7_raw, dot7_eq_mm, bias7_eq]

end Cert.ReferenceIdeal.RefRun

end
-- ==== Proof.RefRead8.lean ====
/-
  The last segment of the reference, read: the logarithm of the softmax along each row of the biased logits, as the
  host spells it — the row maximum by a reduction from minus infinity (and a further maximum with minus infinity,
  which changes nothing), the entries less their row's maximum, the exponentials, their row sum from zero, its
  logarithm kept as a column, subtracted.  Read at an entry it is the specification's form.
-/
import proofs.«108922_j32160715112488_1_alg».proof.Proof.RefOps
import proofs.«108922_j32160715112488_1_alg».proof.Proof.Spec
import proofs.«108922_j32160715112488_1_alg».proof.Proof.LibGraphConv
import proofs.«108922_j32160715112488_1_alg».proof.Proof.LibRowBroadcast
import proofs.«108922_j32160715112488_1_alg».proof.Proof.LibGcnEReal
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The row maxima as the reference takes them: the reduction from minus infinity, and once more the larger of
    minus infinity and it. -/
def lsmMax (x : FVec Ideal S100000x2 .f32) : FVec Ideal S100000 .f32 :=
  maximumf (broadcastInDim S100000 ![] bcast_S_S100000 (constant S_ .f32 0xFF800000#32))
    (Host.reduce FloatOps.maximumf x (constant S_ .f32 0xFF800000#32) reducesTo_S100000x2_S100000_d1 h_S_)

/-- The entries less their row's maximum. -/
def lsmShift (x : FVec Ideal S100000x2 .f32) : FVec Ideal S100000x2 .f32 :=
  subf x (broadcastInDim S100000x2 ![0, 1] bcast_S100000x1_S100000x2_0_1
    (broadcastInDim S100000x1 ![0] bcast_S100000_S100000x1_0 (lsmMax x)))

/-- The logarithm of the softmax along each row as the reference spells it, as one function of the logits. -/
def lsmRef (x : FVec Ideal S100000x2 .f32) : FVec Ideal S100000x2 .f32 :=
  subf (lsmShift x) (broadcastInDim S100000x2 ![0, 1] bcast_S100000x1_S100000x2_0_1
    (Host.log (broadcastInDim S100000x1 ![0] bcast_S100000_S100000x1_0
      (Host.reduceAdd (Host.exp (lsmShift x)) (constant S_ .f32 0x00000000#32) reducesTo_S100000x2_S100000_d1 h_S_))))

/-- The host's logarithm, read at an index. -/
theorem hostLog_apply {s : Shape} (v : FVec Ideal s .f32) (i : s.Idx) : Host.log v i = Ideal.log (v i) := rfl
/-- The host's exponential, read at an index. -/
theorem hostExp_apply {s : Shape} (v : FVec Ideal s .f32) (i : s.Idx) : Host.exp v i = Ideal.exp (v i) := rfl
/-- The host's sum from a constant, read at an index: the exact sum from that constant's value. -/
theorem hostReduceAdd_const_apply {s t : Shape} {axes : List (Fin s.rank)} (x : FVec Ideal s .f32) (b : BitVec 32)
    (h : s.ReducesTo axes t) (hu : 0 < S_.numel) (j : t.Idx) :
    Host.reduceAdd x (constant S_ .f32 b) h hu j = Ideal.hostReduceAdd h x (Ideal.ofBits .f32 b) j := rfl

attribute [local irreducible] Host.reduce Host.reduceAdd in
/-- The last segment leaves, in the result buffer, that function of the biased logits it finds. -/
theorem seg8_raw (V : Valuation τ sig (Elt Ideal)) :
    (StableHlo.after (seg8 (F := Ideal)) V (Proc.devRef .tc main_v158) : FVec Ideal S100000x2 .f32)
      = lsmRef (V (Proc.devRef .tc main_v157)) := by
  after_results; rfl

/-- The index of a matrix over row `p` with column `k` put back is `(p, k)`. -/
theorem lift_row_ix {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The reference's row maximum is the fold of `max` from `⊥` over the row. -/
theorem lsmMax_apply (x : FVec Ideal S100000x2 .f32) (p : Fin 100000) :
    lsmMax x (ix1 p) = Cert.Gcn.rowmax (n := 100000) (c := 2) x p := by
  have hr : (S100000x2).Reduces [1] S100000 := by decide
  show max (broadcastInDim S100000 ![] bcast_S_S100000 (constant (F := Ideal) S_ .f32 0xFF800000#32) (ix1 p))
      (Host.reduce FloatOps.maximumf x (constant S_ .f32 0xFF800000#32) reducesTo_S100000x2_S100000_d1 h_S_ (ix1 p)) = _
  rw [Cert.LibRowBroadcast.scalar_apply,
    Host.reduce_eq_fold_single FloatOps.maximumf x _ reducesTo_S100000x2_S100000_d1 hr h_S_]
  show max (Ideal.ofBits .f32 0xFF800000#32)
      (Finset.univ.fold max (Ideal.ofBits .f32 0xFF800000#32) (x ∘ hr.lift (ix1 p))) = _
  rw [Cert.LibGcnEReal.ofBits_neg_inf, max_bot_left]
  have hf : (x ∘ hr.lift (ix1 p)) = fun k : Fin 2 => x (ix2 p k) :=
    funext fun k => congrArg x (lift_row_ix hr p k)
  rw [hf]
  rfl

/-- The shifted entry at `(p, k)`. -/
theorem lsmShift_apply (x : FVec Ideal S100000x2 .f32) (p : Fin 100000) (k : Fin 2) :
    lsmShift x (ix2 p k) = x (ix2 p k) - Cert.Gcn.rowmax (n := 100000) (c := 2) x p := by
  show x (ix2 p k) - broadcastInDim S100000x2 ![0, 1] bcast_S100000x1_S100000x2_0_1
      (broadcastInDim S100000x1 ![0] bcast_S100000_S100000x1_0 (lsmMax x)) (ix2 p k) = _
  rw [Cert.LibGraphConv.bcast_cols_apply, Cert.LibGraphIndex.bcast_col_apply, lsmMax_apply]

/-- THE REFERENCE'S LOG-SOFTMAX IS THE SPECIFICATION'S. -/
theorem lsmRef_eq (x : FVec Ideal S100000x2 .f32) : lsmRef x = Cert.Gcn.logsoftmax (n := 100000) (c := 2) x := by
  have hr : (S100000x2).Reduces [1] S100000 := by decide
  funext i
  obtain ⟨p, q, rfl⟩ : ∃ (p : Fin 100000) (q : Fin 2), i = ix2 p q := ⟨_, _, Cert.Gcn.eq_ix2_row_col (n := 100000) (c := 2) i⟩
  show lsmShift x (ix2 p q) - broadcastInDim S100000x2 ![0, 1] bcast_S100000x1_S100000x2_0_1
      (Host.log (broadcastInDim S100000x1 ![0] bcast_S100000_S100000x1_0
        (Host.reduceAdd (Host.exp (lsmShift x)) (constant S_ .f32 0x00000000#32) reducesTo_S100000x2_S100000_d1 h_S_))) (ix2 p q)
    = (x (ix2 p q) - Cert.Gcn.rowmax (n := 100000) (c := 2) x p)
        - Ideal.log (∑ j : Fin 2, Ideal.exp (x (ix2 p j) - Cert.Gcn.rowmax (n := 100000) (c := 2) x p))
  rw [Cert.LibGraphConv.bcast_cols_apply, hostLog_apply, Cert.LibGraphIndex.bcast_col_apply, hostReduceAdd_const_apply,
    Ideal.hostReduceAdd_single reducesTo_S100000x2_S100000_d1 hr, Cert.LibGcnEReal.ofBits_zero, zero_add, lsmShift_apply]
  refine congrArg (fun t => (x (ix2 p q) - Cert.Gcn.rowmax (n := 100000) (c := 2) x p) - Ideal.log t) ?_
  refine Finset.sum_congr rfl fun (k : Fin 2) _ => ?_
  rw [lift_row_ix hr p k, hostExp_apply, lsmShift_apply x p k]

/-- THE LAST SEGMENT, READ: the result buffer holds the logarithm of the softmax along each row of the biased
    logits it finds. -/
theorem seg8_read (V : Valuation τ sig (Elt Ideal)) :
    (StableHlo.after (seg8 (F := Ideal)) V (Proc.devRef .tc main_v158) : S100000x2.Idx → EReal)
      = Cert.Gcn.logsoftmax (n := 100000) (c := 2) (V (Proc.devRef .tc main_v157)) :=
  (seg8_raw V).trans (lsmRef_eq _)

/-- The same between the last two segment boundaries of the run. -/
theorem R9_value (m : (ℓ : Loc nD τ sig) → Buf (Elt Ideal) ℓ) (ρ : Dev nD → PrngReg) (c : Dev nD) :
    (R9 m ρ c (Proc.devRef .tc main_v158) : S100000x2.Idx → EReal)
      = Cert.Gcn.logsoftmax (n := 100000) (c := 2) (R8 m ρ c (Proc.devRef .tc main_v157)) :=
  seg8_read (R8 m ρ c)

end Cert.ReferenceIdeal.RefRun

end
-- ==== Proof.RefValue.lean ====
/-
  The value of the reference program: its result array is the network, in the reference's spelling, of the
  sixteen launch arrays.

  The program is a straight line of nine segments.  The first leaves the edge list (sources, targets) and the edge
  weights; no later segment writes them, nor any argument, so every later segment finds them as the first left
  them and the arguments as launched.  Segments 1, 3, 5 and 7 each leave the biased aggregate of a product with a
  weight matrix; segments 2, 4 and 6 the cut-off and normalisation of the aggregate before them, which is a hidden
  layer in the reference's spelling; segment 8 the logarithm of the softmax of the last biased aggregate.  Chained,
  the result is three hidden layers and the last layer: the network.
-/
import proofs.«108922_j32160715112488_1_alg».proof.Proof.RefRun
import proofs.«108922_j32160715112488_1_alg».proof.Proof.RefReadLib
import proofs.«108922_j32160715112488_1_alg».proof.Proof.RefRead0
import proofs.«108922_j32160715112488_1_alg».proof.Proof.RefRead1
import proofs.«108922_j32160715112488_1_alg».proof.Proof.RefRead2
import proofs.«108922_j32160715112488_1_alg».proof.Proof.RefRead3
import proofs.«108922_j32160715112488_1_alg».proof.Proof.RefRead4
import proofs.«108922_j32160715112488_1_alg».proof.Proof.RefRead5
import proofs.«108922_j32160715112488_1_alg».proof.Proof.RefRead6
import proofs.«108922_j32160715112488_1_alg».proof.Proof.RefRead7
import proofs.«108922_j32160715112488_1_alg».proof.Proof.RefRead8
import proofs.«108922_j32160715112488_1_alg».proof.Proof.NetDefs

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gcn Cert.Gcn.RefForms

variable (m : (ℓ : Loc nD τ sig) → Buf (Elt Ideal) ℓ) (ρ : Dev nD → PrngReg) (c : Dev nD)

/-! ## What the segments do not write -/

/-- A reference the first segment does not write holds after it what it held at launch. -/
theorem R1_keep {r : Ref sig .tc} (h0 : r ∉ W0) :
    R1 m ρ c (Proc.devRef .tc r) = m ((c.tc : Thread nD τ).loc r) :=
  after_of_writes_sub seg0 _ seg0_writes h0
/-- A reference the first 2 segments do not write holds after them what it held at launch. -/
theorem R2_keep {r : Ref sig .tc} (h0 : r ∉ W0) (h1 : r ∉ W1) :
    R2 m ρ c (Proc.devRef .tc r) = m ((c.tc : Thread nD τ).loc r) :=
  (after_of_writes_sub seg1 _ seg1_writes h1).trans (R1_keep m ρ c h0)
/-- A reference the first 3 segments do not write holds after them what it held at launch. -/
theorem R3_keep {r : Ref sig .tc} (h0 : r ∉ W0) (h1 : r ∉ W1) (h2 : r ∉ W2) :
    R3 m ρ c (Proc.devRef .tc r) = m ((c.tc : Thread nD τ).loc r) :=
  (after_of_writes_sub seg2 _ seg2_writes h2).trans (R2_keep m ρ c h0 h1)
/-- A reference the first 4 segments do not write holds after them what it held at launch. -/
theorem R4_keep {r : Ref sig .tc} (h0 : r ∉ W0) (h1 : r ∉ W1) (h2 : r ∉ W2) (h3 : r ∉ W3) :
    R4 m ρ c (Proc.devRef .tc r) = m ((c.tc : Thread nD τ).loc r) :=
  (after_of_writes_sub seg3 _ seg3_writes h3).trans (R3_keep m ρ c h0 h1 h2)
/-- A reference the first 5 segments do not write holds after them what it held at launch. -/
theorem R5_keep {r : Ref sig .tc} (h0 : r ∉ W0) (h1 : r ∉ W1) (h2 : r ∉ W2) (h3 : r ∉ W3) (h4 : r ∉ W4) :
    R5 m ρ c (Proc.devRef .tc r) = m ((c.tc : Thread nD τ).loc r) :=
  (after_of_writes_sub seg4 _ seg4_writes h4).trans (R4_keep m ρ c h0 h1 h2 h3)
/-- A reference the first 6 segments do not write holds after them what it held at launch. -/
theorem R6_keep {r : Ref sig .tc} (h0 : r ∉ W0) (h1 : r ∉ W1) (h2 : r ∉ W2) (h3 : r ∉ W3) (h4 : r ∉ W4) (h5 : r ∉ W5) :
    R6 m ρ c (Proc.devRef .tc r) = m ((c.tc : Thread nD τ).loc r) :=
  (after_of_writes_sub seg5 _ seg5_writes h5).trans (R5_keep m ρ c h0 h1 h2 h3 h4)
/-- A reference the first 7 segments do not write holds after them what it held at launch. -/
theorem R7_keep {r : Ref sig .tc} (h0 : r ∉ W0) (h1 : r ∉ W1) (h2 : r ∉ W2) (h3 : r ∉ W3) (h4 : r ∉ W4) (h5 : r ∉ W5) (h6 : r ∉ W6) :
    R7 m ρ c (Proc.devRef .tc r) = m ((c.tc : Thread nD τ).loc r) :=
  (after_of_writes_sub seg6 _ seg6_writes h6).trans (R6_keep m ρ c h0 h1 h2 h3 h4 h5)
/-- A reference that segments 1 to 2 do not write holds after them what it held after the first segment. -/
theorem R3_from1 {r : Ref sig .tc} (h1 : r ∉ W1) (h2 : r ∉ W2) :
    R3 m ρ c (Proc.devRef .tc r) = R1 m ρ c (Proc.devRef .tc r) :=
  (after_of_writes_sub seg2 _ seg2_writes h2).trans (after_of_writes_sub seg1 _ seg1_writes h1)
/-- A reference that segments 1 to 4 do not write holds after them what it held after the first segment. -/
theorem R5_from1 {r : Ref sig .tc} (h1 : r ∉ W1) (h2 : r ∉ W2) (h3 : r ∉ W3) (h4 : r ∉ W4) :
    R5 m ρ c (Proc.devRef .tc r) = R1 m ρ c (Proc.devRef .tc r) :=
  (((after_of_writes_sub seg4 _ seg4_writes h4).trans (after_of_writes_sub seg3 _ seg3_writes h3)).trans (after_of_writes_sub seg2 _ seg2_writes h2)).trans (after_of_writes_sub seg1 _ seg1_writes h1)
/-- A reference that segments 1 to 6 do not write holds after them what it held after the first segment. -/
theorem R7_from1 {r : Ref sig .tc} (h1 : r ∉ W1) (h2 : r ∉ W2) (h3 : r ∉ W3) (h4 : r ∉ W4) (h5 : r ∉ W5) (h6 : r ∉ W6) :
    R7 m ρ c (Proc.devRef .tc r) = R1 m ρ c (Proc.devRef .tc r) :=
  (((((after_of_writes_sub seg6 _ seg6_writes h6).trans (after_of_writes_sub seg5 _ seg5_writes h5)).trans (after_of_writes_sub seg4 _ seg4_writes h4)).trans (after_of_writes_sub seg3 _ seg3_writes h3)).trans (after_of_writes_sub seg2 _ seg2_writes h2)).trans (after_of_writes_sub seg1 _ seg1_writes h1)

/-! ## The graph, as the first segment leaves it -/

/-- After the first segment the source words are the edge array's first row followed by the nodes. -/
theorem R1_src : (R1 m ρ c (Proc.devRef .tc main_v3) : IVec S1700000 32) = (Cert.KernelIdeal.KVal.edgeSrc (m ((c.tc : Thread nD τ).loc main_arg1))) :=
  seg0_src (R0 m ρ c)

/-- After the first segment the target words are the edge array's second row followed by the nodes. -/
theorem R1_dst : (R1 m ρ c (Proc.devRef .tc main_v6) : IVec S1700000 32) = (Cert.KernelIdeal.KVal.edgeDst (m ((c.tc : Thread nD τ).loc main_arg1))) :=
  seg0_dst (R0 m ρ c)

/-- After the first segment the edge weights are those of the two rows of words. -/
theorem R1_nrm : (R1 m ρ c (Proc.devRef .tc main_v29) : FVec Ideal S1700000 .f32) = (Cert.KernelIdeal.KVal.edgeNrm (Cert.KernelIdeal.KVal.edgeSrc (m ((c.tc : Thread nD τ).loc main_arg1))) (Cert.KernelIdeal.KVal.edgeDst (m ((c.tc : Thread nD τ).loc main_arg1)))) :=
  seg0_nrm (R0 m ρ c)

/-! ## The value -/

/-- THE VALUE OF THE PROGRAM: the result array after the last segment is the network, in the reference's spelling,
    of the sixteen launch arrays. -/
theorem ref_value :
    (R9 m ρ c (Proc.devRef .tc main_v158) : S100000x2.Idx → EReal)
      = netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  -- the graph, carried to the segments that aggregate
  have s1 := R1_src m ρ c
  have d1 := R1_dst m ρ c
  have n1 := R1_nrm m ρ c
  have s3 : (R3 m ρ c (Proc.devRef .tc main_v3) : IVec S1700000 32) = (Cert.KernelIdeal.KVal.edgeSrc (m ((c.tc : Thread nD τ).loc main_arg1))) :=
    (R3_from1 m ρ c (by decide) (by decide)).trans s1
  have d3 : (R3 m ρ c (Proc.devRef .tc main_v6) : IVec S1700000 32) = (Cert.KernelIdeal.KVal.edgeDst (m ((c.tc : Thread nD τ).loc main_arg1))) :=
    (R3_from1 m ρ c (by decide) (by decide)).trans d1
  have n3 : (R3 m ρ c (Proc.devRef .tc main_v29) : FVec Ideal S1700000 .f32) = (Cert.KernelIdeal.KVal.edgeNrm (Cert.KernelIdeal.KVal.edgeSrc (m ((c.tc : Thread nD τ).loc main_arg1))) (Cert.KernelIdeal.KVal.edgeDst (m ((c.tc : Thread nD τ).loc main_arg1)))) :=
    (R3_from1 m ρ c (by decide) (by decide)).trans n1
  have s5 : (R5 m ρ c (Proc.devRef .tc main_v3) : IVec S1700000 32) = (Cert.KernelIdeal.KVal.edgeSrc (m ((c.tc : Thread nD τ).loc main_arg1))) :=
    (R5_from1 m ρ c (by decide) (by decide) (by decide) (by decide)).trans s1
  have d5 : (R5 m ρ c (Proc.devRef .tc main_v6) : IVec S1700000 32) = (Cert.KernelIdeal.KVal.edgeDst (m ((c.tc : Thread nD τ).loc main_arg1))) :=
    (R5_from1 m ρ c (by decide) (by decide) (by decide) (by decide)).trans d1
  have n5 : (R5 m ρ c (Proc.devRef .tc main_v29) : FVec Ideal S1700000 .f32) = (Cert.KernelIdeal.KVal.edgeNrm (Cert.KernelIdeal.KVal.edgeSrc (m ((c.tc : Thread nD τ).loc main_arg1))) (Cert.KernelIdeal.KVal.edgeDst (m ((c.tc : Thread nD τ).loc main_arg1)))) :=
    (R5_from1 m ρ c (by decide) (by decide) (by decide) (by decide)).trans n1
  have s7 : (R7 m ρ c (Proc.devRef .tc main_v3) : IVec S1700000 32) = (Cert.KernelIdeal.KVal.edgeSrc (m ((c.tc : Thread nD τ).loc main_arg1))) :=
    (R7_from1 m ρ c (by decide) (by decide) (by decide) (by decide) (by decide) (by decide)).trans s1
  have d7 : (R7 m ρ c (Proc.devRef .tc main_v6) : IVec S1700000 32) = (Cert.KernelIdeal.KVal.edgeDst (m ((c.tc : Thread nD τ).loc main_arg1))) :=
    (R7_from1 m ρ c (by decide) (by decide) (by decide) (by decide) (by decide) (by decide)).trans d1
  have n7 : (R7 m ρ c (Proc.devRef .tc main_v29) : FVec Ideal S1700000 .f32) = (Cert.KernelIdeal.KVal.edgeNrm (Cert.KernelIdeal.KVal.edgeSrc (m ((c.tc : Thread nD τ).loc main_arg1))) (Cert.KernelIdeal.KVal.edgeDst (m ((c.tc : Thread nD τ).loc main_arg1)))) :=
    (R7_from1 m ρ c (by decide) (by decide) (by decide) (by decide) (by decide) (by decide)).trans n1
  -- layer 1
  have a1 : (R2 m ρ c (Proc.devRef .tc main_v46) : S100000x128.Idx → EReal) = biased (n := 100000) (c := 128)
      (Cert.KernelIdeal.KVal.conv128 (mm (n := 100000) (a := 24) (c := 128) (m ((c.tc : Thread nD τ).loc main_arg0)) (m ((c.tc : Thread nD τ).loc main_arg2))) (Cert.KernelIdeal.KVal.edgeSrc (m ((c.tc : Thread nD τ).loc main_arg1))) (Cert.KernelIdeal.KVal.edgeDst (m ((c.tc : Thread nD τ).loc main_arg1))) (Cert.KernelIdeal.KVal.edgeNrm (Cert.KernelIdeal.KVal.edgeSrc (m ((c.tc : Thread nD τ).loc main_arg1))) (Cert.KernelIdeal.KVal.edgeDst (m ((c.tc : Thread nD τ).loc main_arg1))))) (rowv (c := 128) (m ((c.tc : Thread nD τ).loc main_arg3))) := by
    have h := seg1_read (R1 m ρ c)
    rw [show (R1 m ρ c (Proc.devRef .tc main_arg0) : S100000x24.Idx → EReal) = (m ((c.tc : Thread nD τ).loc main_arg0)) from R1_keep m ρ c (by decide), show (R1 m ρ c (Proc.devRef .tc main_arg2) : S24x128.Idx → EReal) = (m ((c.tc : Thread nD τ).loc main_arg2)) from R1_keep m ρ c (by decide),
      show (R1 m ρ c (Proc.devRef .tc main_arg3) : S128.Idx → EReal) = (m ((c.tc : Thread nD τ).loc main_arg3)) from R1_keep m ρ c (by decide), s1, d1, n1] at h
    exact h
  have y1 : (R3 m ρ c (Proc.devRef .tc main_v66) : S100000x128.Idx → EReal) = (hiddenR (convOf128 (m ((c.tc : Thread nD τ).loc main_arg1))) (m ((c.tc : Thread nD τ).loc main_arg0)) (m ((c.tc : Thread nD τ).loc main_arg2)) (rowv (m ((c.tc : Thread nD τ).loc main_arg3))) (rowv (m ((c.tc : Thread nD τ).loc main_arg4))) (rowv (m ((c.tc : Thread nD τ).loc main_arg5)))) := by
    have h := seg2_read (R2 m ρ c)
    rw [show (R2 m ρ c (Proc.devRef .tc main_v46) : S100000x128.Idx → EReal) = _ from a1,
      show (R2 m ρ c (Proc.devRef .tc main_arg4) : S128.Idx → EReal) = (m ((c.tc : Thread nD τ).loc main_arg4)) from R2_keep m ρ c (by decide) (by decide),
      show (R2 m ρ c (Proc.devRef .tc main_arg5) : S128.Idx → EReal) = (m ((c.tc : Thread nD τ).loc main_arg5)) from R2_keep m ρ c (by decide) (by decide)] at h
    exact h
  -- layer 2
  have a2 : (R4 m ρ c (Proc.devRef .tc main_v83) : S100000x128.Idx → EReal) = biased (n := 100000) (c := 128)
      (Cert.KernelIdeal.KVal.conv128 (mm (n := 100000) (a := 128) (c := 128) (hiddenR (convOf128 (m ((c.tc : Thread nD τ).loc main_arg1))) (m ((c.tc : Thread nD τ).loc main_arg0)) (m ((c.tc : Thread nD τ).loc main_arg2)) (rowv (m ((c.tc : Thread nD τ).loc main_arg3))) (rowv (m ((c.tc : Thread nD τ).loc main_arg4))) (rowv (m ((c.tc : Thread nD τ).loc main_arg5)))) (m ((c.tc : Thread nD τ).loc main_arg6))) (Cert.KernelIdeal.KVal.edgeSrc (m ((c.tc : Thread nD τ).loc main_arg1))) (Cert.KernelIdeal.KVal.edgeDst (m ((c.tc : Thread nD τ).loc main_arg1))) (Cert.KernelIdeal.KVal.edgeNrm (Cert.KernelIdeal.KVal.edgeSrc (m ((c.tc : Thread nD τ).loc main_arg1))) (Cert.KernelIdeal.KVal.edgeDst (m ((c.tc : Thread nD τ).loc main_arg1))))) (rowv (c := 128) (m ((c.tc : Thread nD τ).loc main_arg7))) := by
    have h := seg3_read (R3 m ρ c)
    rw [show (R3 m ρ c (Proc.devRef .tc main_v66) : S100000x128.Idx → EReal) = _ from y1, show (R3 m ρ c (Proc.devRef .tc main_arg6) : S128x128.Idx → EReal) = (m ((c.tc : Thread nD τ).loc main_arg6)) from R3_keep m ρ c (by decide) (by decide) (by decide),
      show (R3 m ρ c (Proc.devRef .tc main_arg7) : S128.Idx → EReal) = (m ((c.tc : Thread nD τ).loc main_arg7)) from R3_keep m ρ c (by decide) (by decide) (by decide), s3, d3, n3] at h
    exact h
  have y2 : (R5 m ρ c (Proc.devRef .tc main_v103) : S100000x128.Idx → EReal) = (hiddenR (convOf128 (m ((c.tc : Thread nD τ).loc main_arg1))) (hiddenR (convOf128 (m ((c.tc : Thread nD τ).loc main_arg1))) (m ((c.tc : Thread nD τ).loc main_arg0)) (m ((c.tc : Thread nD τ).loc main_arg2)) (rowv (m ((c.tc : Thread nD τ).loc main_arg3))) (rowv (m ((c.tc : Thread nD τ).loc main_arg4))) (rowv (m ((c.tc : Thread nD τ).loc main_arg5)))) (m ((c.tc : Thread nD τ).loc main_arg6)) (rowv (m ((c.tc : Thread nD τ).loc main_arg7))) (rowv (m ((c.tc : Thread nD τ).loc main_arg8))) (rowv (m ((c.tc : Thread nD τ).loc main_arg9)))) := by
    have h := seg4_read (R4 m ρ c)
    rw [show (R4 m ρ c (Proc.devRef .tc main_v83) : S100000x128.Idx → EReal) = _ from a2,
      show (R4 m ρ c (Proc.devRef .tc main_arg8) : S128.Idx → EReal) = (m ((c.tc : Thread nD τ).loc main_arg8)) from R4_keep m ρ c (by decide) (by decide) (by decide) (by decide),
      show (R4 m ρ c (Proc.devRef .tc main_arg9) : S128.Idx → EReal) = (m ((c.tc : Thread nD τ).loc main_arg9)) from R4_keep m ρ c (by decide) (by decide) (by decide) (by decide)] at h
    exact h
  -- layer 3
  have a3 : (R6 m ρ c (Proc.devRef .tc main_v120) : S100000x64.Idx → EReal) = biased (n := 100000) (c := 64)
      (Cert.KernelIdeal.KVal.conv64 (mm (n := 100000) (a := 128) (c := 64) (hiddenR (convOf128 (m ((c.tc : Thread nD τ).loc main_arg1))) (hiddenR (convOf128 (m ((c.tc : Thread nD τ).loc main_arg1))) (m ((c.tc : Thread nD τ).loc main_arg0)) (m ((c.tc : Thread nD τ).loc main_arg2)) (rowv (m ((c.tc : Thread nD τ).loc main_arg3))) (rowv (m ((c.tc : Thread nD τ).loc main_arg4))) (rowv (m ((c.tc : Thread nD τ).loc main_arg5)))) (m ((c.tc : Thread nD τ).loc main_arg6)) (rowv (m ((c.tc : Thread nD τ).loc main_arg7))) (rowv (m ((c.tc : Thread nD τ).loc main_arg8))) (rowv (m ((c.tc : Thread nD τ).loc main_arg9)))) (m ((c.tc : Thread nD τ).loc main_arg10))) (Cert.KernelIdeal.KVal.edgeSrc (m ((c.tc : Thread nD τ).loc main_arg1))) (Cert.KernelIdeal.KVal.edgeDst (m ((c.tc : Thread nD τ).loc main_arg1))) (Cert.KernelIdeal.KVal.edgeNrm (Cert.KernelIdeal.KVal.edgeSrc (m ((c.tc : Thread nD τ).loc main_arg1))) (Cert.KernelIdeal.KVal.edgeDst (m ((c.tc : Thread nD τ).loc main_arg1))))) (rowv (c := 64) (m ((c.tc : Thread nD τ).loc main_arg11))) := by
    have h := seg5_read (R5 m ρ c)
    rw [show (R5 m ρ c (Proc.devRef .tc main_v103) : S100000x128.Idx → EReal) = _ from y2, show (R5 m ρ c (Proc.devRef .tc main_arg10) : S128x64.Idx → EReal) = (m ((c.tc : Thread nD τ).loc main_arg10)) from R5_keep m ρ c (by decide) (by decide) (by decide) (by decide) (by decide),
      show (R5 m ρ c (Proc.devRef .tc main_arg11) : S64.Idx → EReal) = (m ((c.tc : Thread nD τ).loc main_arg11)) from R5_keep m ρ c (by decide) (by decide) (by decide) (by decide) (by decide), s5, d5, n5] at h
    exact h
  have y3 : (R7 m ρ c (Proc.devRef .tc main_v140) : S100000x64.Idx → EReal) = (hiddenR (convOf64 (m ((c.tc : Thread nD τ).loc main_arg1))) (hiddenR (convOf128 (m ((c.tc : Thread nD τ).loc main_arg1))) (hiddenR (convOf128 (m ((c.tc : Thread nD τ).loc main_arg1))) (m ((c.tc : Thread nD τ).loc main_arg0)) (m ((c.tc : Thread nD τ).loc main_arg2)) (rowv (m ((c.tc : Thread nD τ).loc main_arg3))) (rowv (m ((c.tc : Thread nD τ).loc main_arg4))) (rowv (m ((c.tc : Thread nD τ).loc main_arg5)))) (m ((c.tc : Thread nD τ).loc main_arg6)) (rowv (m ((c.tc : Thread nD τ).loc main_arg7))) (rowv (m ((c.tc : Thread nD τ).loc main_arg8))) (rowv (m ((c.tc : Thread nD τ).loc main_arg9)))) (m ((c.tc : Thread nD τ).loc main_arg10)) (rowv (m ((c.tc : Thread nD τ).loc main_arg11))) (rowv (m ((c.tc : Thread nD τ).loc main_arg12))) (rowv (m ((c.tc : Thread nD τ).loc main_arg13)))) := by
    have h := seg6_read (R6 m ρ c)
    rw [show (R6 m ρ c (Proc.devRef .tc main_v120) : S100000x64.Idx → EReal) = _ from a3,
      show (R6 m ρ c (Proc.devRef .tc main_arg12) : S64.Idx → EReal) = (m ((c.tc : Thread nD τ).loc main_arg12)) from R6_keep m ρ c (by decide) (by decide) (by decide) (by decide) (by decide) (by decide),
      show (R6 m ρ c (Proc.devRef .tc main_arg13) : S64.Idx → EReal) = (m ((c.tc : Thread nD τ).loc main_arg13)) from R6_keep m ρ c (by decide) (by decide) (by decide) (by decide) (by decide) (by decide)] at h
    exact h
  -- the last layer
  have a4 : (R8 m ρ c (Proc.devRef .tc main_v157) : S100000x2.Idx → EReal) = biased (n := 100000) (c := 2)
      (Cert.KernelIdeal.KVal.conv2 (mm (n := 100000) (a := 64) (c := 2) (hiddenR (convOf64 (m ((c.tc : Thread nD τ).loc main_arg1))) (hiddenR (convOf128 (m ((c.tc : Thread nD τ).loc main_arg1))) (hiddenR (convOf128 (m ((c.tc : Thread nD τ).loc main_arg1))) (m ((c.tc : Thread nD τ).loc main_arg0)) (m ((c.tc : Thread nD τ).loc main_arg2)) (rowv (m ((c.tc : Thread nD τ).loc main_arg3))) (rowv (m ((c.tc : Thread nD τ).loc main_arg4))) (rowv (m ((c.tc : Thread nD τ).loc main_arg5)))) (m ((c.tc : Thread nD τ).loc main_arg6)) (rowv (m ((c.tc : Thread nD τ).loc main_arg7))) (rowv (m ((c.tc : Thread nD τ).loc main_arg8))) (rowv (m ((c.tc : Thread nD τ).loc main_arg9)))) (m ((c.tc : Thread nD τ).loc main_arg10)) (rowv (m ((c.tc : Thread nD τ).loc main_arg11))) (rowv (m ((c.tc : Thread nD τ).loc main_arg12))) (rowv (m ((c.tc : Thread nD τ).loc main_arg13)))) (m ((c.tc : Thread nD τ).loc main_arg14))) (Cert.KernelIdeal.KVal.edgeSrc (m ((c.tc : Thread nD τ).loc main_arg1))) (Cert.KernelIdeal.KVal.edgeDst (m ((c.tc : Thread nD τ).loc main_arg1))) (Cert.KernelIdeal.KVal.edgeNrm (Cert.KernelIdeal.KVal.edgeSrc (m ((c.tc : Thread nD τ).loc main_arg1))) (Cert.KernelIdeal.KVal.edgeDst (m ((c.tc : Thread nD τ).loc main_arg1))))) (rowv (c := 2) (m ((c.tc : Thread nD τ).loc main_arg15))) := by
    have h := seg7_read (R7 m ρ c)
    rw [show (R7 m ρ c (Proc.devRef .tc main_v140) : S100000x64.Idx → EReal) = _ from y3, show (R7 m ρ c (Proc.devRef .tc main_arg14) : S64x2.Idx → EReal) = (m ((c.tc : Thread nD τ).loc main_arg14)) from R7_keep m ρ c (by decide) (by decide) (by decide) (by decide) (by decide) (by decide) (by decide),
      show (R7 m ρ c (Proc.devRef .tc main_arg15) : S2.Idx → EReal) = (m ((c.tc : Thread nD τ).loc main_arg15)) from R7_keep m ρ c (by decide) (by decide) (by decide) (by decide) (by decide) (by decide) (by decide), s7, d7, n7] at h
    exact h
  have h := R9_value m ρ c
  rw [show (R8 m ρ c (Proc.devRef .tc main_v157) : S100000x2.Idx → EReal) = _ from a4] at h
  exact h

end Cert.ReferenceIdeal.RefRun

end
-- ==== Proof.BnAlgebra.lean ====
/-
  One column of a batch normalisation, two spellings.

  For finitely many real entries `a i` of a column, a count `c` equal to their number, a positive stabiliser `ε`
  and real scale `g` and shift `β`: taking the variance as the mean of the squares minus the square of the mean
  and cutting it off below at zero, or taking it as the mean of the squared deviations from the mean, gives the
  same normalised value at every entry, and that value is a real number.  The variance of real numbers is not
  negative, so the cut-off does nothing, and the reciprocal square root is taken of a positive real.
-/
import proofs.«108922_j32160715112488_1_alg».proof.Proof.LibGcnEReal

noncomputable section

namespace Cert.Gcn

open Idealize.ShloMosaic Cert.LibGcnEReal
open scoped BigOperators

/-- THE NORMALISED COLUMN, TWO WAYS.  `S` is the column's sum and `Q` the sum of its squares, as a tiled kernel
    accumulates them; the other side recomputes the sum from the initial value `0`. -/
theorem bn_column {ι : Type*} [Fintype ι] (a : ι → EReal) (S Q g β : EReal) (c ε : ℝ)
    (ha : ∀ i, ∃ r : ℝ, a i = (r : EReal)) (hS : S = ∑ i, a i) (hQ : Q = ∑ i, a i * a i)
    (hg : ∃ r : ℝ, g = (r : EReal)) (hβ : ∃ r : ℝ, β = (r : EReal))
    (hc : (Fintype.card ι : ℝ) = c) (hc0 : c ≠ 0) (hε : 0 < ε) (n : ι) :
    (a n - Ideal.div S (c : EReal))
          * Ideal.rsqrt (max (Ideal.div Q (c : EReal) - Ideal.div S (c : EReal) * Ideal.div S (c : EReal)) 0 + (ε : EReal))
          * g + β
        = (a n - Ideal.div (0 + ∑ i, a i) (c : EReal))
          * Ideal.rsqrt (Ideal.div (0 + ∑ i, (a i - Ideal.div (0 + ∑ i, a i) (c : EReal))
              * (a i - Ideal.div (0 + ∑ i, a i) (c : EReal))) (c : EReal) + (ε : EReal))
          * g + β
      ∧ ∃ r : ℝ, (a n - Ideal.div S (c : EReal))
          * Ideal.rsqrt (max (Ideal.div Q (c : EReal) - Ideal.div S (c : EReal) * Ideal.div S (c : EReal)) 0 + (ε : EReal))
          * g + β = (r : EReal) := by
  choose ar har using ha
  obtain ⟨gr, rfl⟩ := hg
  obtain ⟨βr, rfl⟩ := hβ
  subst hS hQ
  obtain ⟨v, hv, hm, h1, h2⟩ := variance_two_ways ar c hc hc0
  simp only [zero_add] at hm h1 h2
  simp only [har, zero_add]
  rw [h1, h2, max_eq_left (EReal.coe_nonneg.mpr hv)]
  refine ⟨rfl, ?_⟩
  have hpos : 0 < v + ε := by linarith
  refine ⟨(ar n - (∑ i, ar i) / c) * (Real.sqrt (v + ε))⁻¹ * gr + βr, ?_⟩
  rw [hm, ← EReal.coe_add v ε, rsqrt_pos hpos, ← EReal.coe_sub, ← EReal.coe_mul, ← EReal.coe_mul, ← EReal.coe_add]

end Cert.Gcn

end
-- ==== Proof.Bridge.lean ====
/-
  The two spellings of a hidden layer agree on real data, and the layer's values are real.

  If the inputs, the weights, the bias, the scale and the shift are real and the aggregation maps real matrices to
  real matrices, the activation before the normalisation is real; then, column by column, the variance formed from
  the sums of the entries and of their squares is the variance of the squared deviations, it is not negative, so its
  cut-off at zero does nothing, and the normalised value is a real number.
-/
import proofs.«108922_j32160715112488_1_alg».proof.Proof.Net
import proofs.«108922_j32160715112488_1_alg».proof.Proof.BnAlgebra

noncomputable section

namespace Cert.Gcn

open Idealize.ShloMosaic Idealize.ShloMosaic.ValueIdx Cert.LibGcnEReal
open scoped BigOperators

/-- Every entry of an array is a real number. -/
abbrev AllReal {S : Shape} (v : S.Idx → EReal) : Prop := ∀ i, ∃ r : ℝ, v i = (r : EReal)

/-- The single-precision pattern `0x47C35000` denotes the real `100000`. -/
theorem cntE_eq : cntE = ((100000 : ℝ) : EReal) := by
  simp [cntE, Ideal.ofBits, Ideal.ieee, -EReal.coe_mul]; norm_num

/-- A product of real matrices is real. -/
theorem mm_real {n a c : ℕ} {X : (Sh2 n a).Idx → EReal} {W : (Sh2 a c).Idx → EReal} (hX : AllReal X) (hW : AllReal W) :
    AllReal (mm X W) := fun i => by
  choose xr hx using hX
  choose wr hw using hW
  refine ⟨∑ k : Fin a, xr (ix2 (rowOfIx i) k) * wr (ix2 k (colOfIx i)), ?_⟩
  unfold mm
  simp only [hx, hw]
  exact dot_real _ _

/-- A real matrix plus a real bias row, cut off below at zero, is real. -/
theorem brelu_real {n c : ℕ} {A : (Sh2 n c).Idx → EReal} {b : (Sh2 1 c).Idx → EReal} (hA : AllReal A) (hb : AllReal b) :
    AllReal (brelu A b) := fun i => by
  obtain ⟨ar, ha⟩ := hA i
  obtain ⟨br, hbr⟩ := hb (ix2 (0 : Fin 1) (colOfIx i))
  refine ⟨max (ar + br) 0, ?_⟩
  unfold brelu
  rw [ha, hbr, ← EReal.coe_add, ← EReal.coe_zero, ← coe_max]

/-- A real matrix plus a real bias row is real. -/
theorem biased_real {n c : ℕ} {A : (Sh2 n c).Idx → EReal} {b : (Sh2 1 c).Idx → EReal} (hA : AllReal A) (hb : AllReal b) :
    AllReal (biased A b) := fun i => by
  obtain ⟨ar, ha⟩ := hA i
  obtain ⟨br, hbr⟩ := hb (ix2 (0 : Fin 1) (colOfIx i))
  refine ⟨ar + br, ?_⟩
  unfold biased
  rw [ha, hbr, ← EReal.coe_add]

/-- A real vector read as a row is real. -/
theorem rowv_real {c : ℕ} {b : (Sh1 c).Idx → EReal} (hb : AllReal b) : AllReal (rowv b) := fun i => hb _

/-- THE HIDDEN LAYER, TWO WAYS, over `100000` rows: on real data the two spellings agree and the value is real. -/
theorem hidden_eq {a c : ℕ} (conv : ((Sh2 100000 c).Idx → EReal) → (Sh2 100000 c).Idx → EReal)
    (hconv : ∀ h, AllReal h → AllReal (conv h))
    (X : (Sh2 100000 a).Idx → EReal) (W : (Sh2 a c).Idx → EReal) (b g be : (Sh2 1 c).Idx → EReal)
    (hX : AllReal X) (hW : AllReal W) (hb : AllReal b) (hg : AllReal g) (hbe : AllReal be) :
    hiddenK conv X W b g be = hiddenR conv X W b g be ∧ AllReal (hiddenK conv X W b g be) := by
  have hR : AllReal (act conv X W b) := brelu_real (hconv _ (mm_real hX hW)) hb
  obtain ⟨ε, hε, heps⟩ := ofBits_eps
  have key : ∀ i : (Sh2 100000 c).Idx,
      hiddenK conv X W b g be i = hiddenR conv X W b g be i ∧ ∃ r : ℝ, hiddenK conv X W b g be i = (r : EReal) := by
    intro i
    have hi : act conv X W b i = act conv X W b (ix2 (rowOfIx i) (colOfIx i)) :=
      congrArg _ (eq_ix2_row_col i)
    have h := bn_column (fun r : Fin 100000 => act conv X W b (ix2 r (colOfIx i)))
      (colsum (act conv X W b) (ix2 (0 : Fin 1) (colOfIx i)))
      (colsum (sqr (act conv X W b)) (ix2 (0 : Fin 1) (colOfIx i)))
      (g (ix2 (0 : Fin 1) (colOfIx i))) (be (ix2 (0 : Fin 1) (colOfIx i))) 100000 ε
      (fun r => hR _) rfl rfl (hg _) (hbe _) (by simp) (by norm_num) hε (rowOfIx i)
    unfold hiddenK hiddenR bnK meanRowE varRowE
    rw [hi]
    simp only [epsE, heps, cntE_eq] at h ⊢
    exact h
  exact ⟨funext fun i => (key i).1, fun i => (key i).2⟩

end Cert.Gcn

end
-- ==== Proof.KReal.lean ====
/-
  The host chains the two programs share take real values.

  Whatever the index words are, a gather reads an entry of its operand (the index is clamped into range) and an
  accumulating scatter adds, to the start value of an entry, the finitely many updates that land on it (an update
  whose word is no row is dropped).  So: a degree is zero plus a finite sum of ones, a real; a scale is the
  reciprocal square root of a positive real or else zero, a real; an edge weight is a product of two scales, a real;
  and an aggregated feature is zero plus a finite sum of products of real features and real weights, a real.
-/
import proofs.«108922_j32160715112488_1_alg».proof.Proof.KDefs
import proofs.«108922_j32160715112488_1_alg».proof.Proof.LibGraphOps
import proofs.«108922_j32160715112488_1_alg».proof.Proof.LibGraphIndex
import proofs.«108922_j32160715112488_1_alg».proof.Proof.LibRowGather
import proofs.«108922_j32160715112488_1_alg».proof.Proof.LibGraphConv
import proofs.«108922_j32160715112488_1_alg».proof.Proof.LibGcnEReal

noncomputable section

namespace Cert.KernelIdeal.KVal

open Idealize.ShloMosaic Idealize.ShloMosaic.ValueIdx Cert.LibRowGather Cert.LibGraphOps Cert.LibGraphIndex
  Cert.LibGraphConv Cert.LibGcnEReal

/-! ## Reals among the extended reals -/

/-- A finite sum of extended reals that are all real numbers is a real number. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word of +0.0 broadcast to any shape reads the real number zero at every index. -/
theorem bcast_zero_real {t : Shape} (hb : (⟨0, ![]⟩ : Shape).BroadcastsInDim t ![]) (i : t.Idx) :
    ∃ r : ℝ, broadcastInDim t ![] hb (constant (F := Ideal) ⟨0, ![]⟩ .f32 0x00000000#32) i = (r : EReal) :=
  ⟨0, (ofBits_zero : Ideal.ofBits .f32 0x00000000#32 = 0)⟩

/-- The word of 1.0 broadcast to any shape reads the real number one at every index. -/
theorem bcast_one_real {t : Shape} (hb : (⟨0, ![]⟩ : Shape).BroadcastsInDim t ![]) (i : t.Idx) :
    ∃ r : ℝ, broadcastInDim t ![] hb (constant (F := Ideal) ⟨0, ![]⟩ .f32 0x3F800000#32) i = (r : EReal) :=
  ⟨1, (ofBits_one : Ideal.ofBits .f32 0x3F800000#32 = ((1 : ℝ) : EReal))⟩

/-- The strict comparison "x is greater than y" of two extended reals, as a one-bit word, is 1 exactly when y < x. -/
theorem cmp_ogt_eq_one (x y : EReal) : Ideal.cmp .ogt x y = 1#1 ↔ y < x := by
  unfold Ideal.cmp
  by_cases hxy : y < x <;> simp [hxy]

/-! ## The generic statements -/

variable {N E C w : Nat}

/-- AN ACCUMULATING SCATTER OF REAL SCALARS INTO A REAL VECTOR IS REAL: an entry is its start value plus the finite
    sum of the updates that land on it. -/
theorem scatter_vec_real (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : FVec Ideal ⟨1, ![N]⟩ .f32) (idx : IVec ⟨2, ![E, 1]⟩ w)
    (u : FVec Ideal ⟨1, ![E]⟩ .f32) (hz : ∀ i, ∃ r : ℝ, z i = (r : EReal)) (hu : ∀ i, ∃ r : ℝ, u i = (r : EReal)) :
    ∀ i, ∃ r : ℝ, Host.scatterAdd d z idx u i = (r : EReal) := by
  intro i
  obtain ⟨n, rfl⟩ : ∃ n : Fin N, i = ix1 n := ⟨i 0, eq_ix1 i⟩
  show ∃ r : ℝ, Ideal.hostScatterAdd d z idx u (ix1 n) = (r : EReal)
  rw [hostScatterAdd_vec_apply d h1 h2 h3 h4]
  obtain ⟨a, ha⟩ := hz (ix1 n)
  obtain ⟨b, hb⟩ := sum_real (Finset.univ.filter (fun e : Fin E => (idx (ix2 e (0 : Fin 1))).toInt = (n.val : Int)))
    (fun e => u (ix1 e)) (fun e _ => hu (ix1 e))
  exact ⟨a + b, by rw [ha, hb, EReal.coe_add]⟩

/-- THE GUARDED RECIPROCAL SQUARE ROOT OF A REAL IS REAL: where the operand is greater than zero its reciprocal
    square root is the real reciprocal of its square root, and elsewhere the value is the alternative, zero. -/
theorem select_rsqrt_real {S : Shape} (D Z Z' : FVec Ideal S .f32) (i : S.Idx)
    (hD : ∃ r : ℝ, D i = (r : EReal)) (hZ : Z i = 0) (hZ' : ∃ r : ℝ, Z' i = (r : EReal)) :
    ∃ q : ℝ, select (cmpf (F := Ideal) .ogt D Z) (Host.rsqrt D) Z' i = (q : EReal) := by
  obtain ⟨r, hr⟩ := hD
  show ∃ q : ℝ, Scalar.select (Ideal.cmp .ogt (D i) (Z i)) (Ideal.rsqrt (D i)) (Z' i) = (q : EReal)
  rw [hZ, hr]
  unfold Scalar.select
  by_cases hpos : 0 < r
  · have hc : Ideal.cmp .ogt ((r : ℝ) : EReal) 0 = (1 : BitVec 1) := (cmp_ogt_eq_one _ _).2 (by exact_mod_cast hpos)
    rw [if_pos hc]
    exact ⟨_, rsqrt_pos hpos⟩
  · have hc : ¬ Ideal.cmp .ogt ((r : ℝ) : EReal) 0 = (1 : BitVec 1) := fun h =>
      hpos (by exact_mod_cast (cmp_ogt_eq_one _ _).1 h)
    rw [if_neg hc]
    exact hZ'

/-- A PRODUCT OF TWO GATHERS FROM A REAL VECTOR IS REAL: each gather reads an entry of the vector. -/
theorem gather_mul_real (hN : 0 < N) (dg : GatherDims ⟨1, ![N]⟩ ⟨2, ![E, 1]⟩ ⟨1, ![E]⟩)
    (hg1 : dg.offsetDims = []) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1]) (v : FVec Ideal ⟨1, ![N]⟩ .f32) (i1 i2 : IVec ⟨2, ![E, 1]⟩ w)
    (hv : ∀ i, ∃ r : ℝ, v i = (r : EReal)) :
    ∀ i, ∃ r : ℝ, mulf (Host.gather dg v i1) (Host.gather dg v i2) i = (r : EReal) := by
  intro i
  obtain ⟨e, rfl⟩ : ∃ e : Fin E, i = ix1 e := ⟨i 0, eq_ix1 i⟩
  show ∃ r : ℝ, Host.gather dg v i1 (ix1 e) * Host.gather dg v i2 (ix1 e) = (r : EReal)
  rw [gather_scalars_apply hN dg hg1 hg2 hg3 hg4 hg5 hg6 hg7, gather_scalars_apply hN dg hg1 hg2 hg3 hg4 hg5 hg6 hg7]
  obtain ⟨a, ha⟩ := hv (ix1 (rowOf N hN (i1 (ix2 e (0 : Fin 1)))))
  obtain ⟨b, hb⟩ := hv (ix1 (rowOf N hN (i2 (ix2 e (0 : Fin 1)))))
  exact ⟨a * b, by rw [ha, hb, EReal.coe_mul]⟩

/-- THE AGGREGATION OF REAL FEATURE ROWS WITH REAL EDGE WEIGHTS IS REAL: an entry is its start value plus the finite
    sum, over the edges that land on its row, of a gathered feature times the edge's weight. -/
theorem conv_real (hN : 0 < N)
    (dS : ScatterDims ⟨2, ![N, C]⟩ ⟨2, ![E, 1]⟩ ⟨2, ![E, C]⟩)
    (hS1 : dS.updateWindowDims = [1]) (hS2 : dS.insertedWindowDims = [0]) (hS3 : dS.scatterDimsToOperandDims = [0])
    (hS4 : dS.indexVectorDim = 1)
    (dG : GatherDims ⟨2, ![N, C]⟩ ⟨2, ![E, 1]⟩ ⟨2, ![E, C]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, C])
    (hbE : (⟨1, ![E]⟩ : Shape).BroadcastsInDim ⟨2, ![E, 1]⟩ ![0])
    (hbEC : (⟨2, ![E, 1]⟩ : Shape).BroadcastsInDim ⟨2, ![E, C]⟩ ![0, 1])
    (Z H : FVec Ideal ⟨2, ![N, C]⟩ .f32) (nrm : FVec Ideal ⟨1, ![E]⟩ .f32) (si gi : IVec ⟨2, ![E, 1]⟩ 32)
    (hZ : ∀ i, ∃ r : ℝ, Z i = (r : EReal)) (hH : ∀ i, ∃ r : ℝ, H i = (r : EReal))
    (hn : ∀ i, ∃ r : ℝ, nrm i = (r : EReal)) :
    ∀ i, ∃ r : ℝ, Host.scatterAdd dS Z si
        (mulf (Host.gather dG H gi)
          (broadcastInDim ⟨2, ![E, C]⟩ ![0, 1] hbEC (broadcastInDim ⟨2, ![E, 1]⟩ ![0] hbE nrm))) i = (r : EReal) := by
  intro i
  obtain ⟨n, j, rfl⟩ : ∃ (n : Fin N) (j : Fin C), i = ix2 n j := ⟨i 0, i 1, eq_ix2 i⟩
  show ∃ r : ℝ, Ideal.hostScatterAdd dS Z si
      (mulf (Host.gather dG H gi)
        (broadcastInDim ⟨2, ![E, C]⟩ ![0, 1] hbEC (broadcastInDim ⟨2, ![E, 1]⟩ ![0] hbE nrm))) (ix2 n j) = (r : EReal)
  rw [hostScatterAdd_rows_apply dS hS1 hS2 hS3 hS4]
  obtain ⟨a, ha⟩ := hZ (ix2 n j)
  have hterm : ∀ e : Fin E, ∃ r : ℝ,
      (mulf (Host.gather dG H gi)
        (broadcastInDim ⟨2, ![E, C]⟩ ![0, 1] hbEC (broadcastInDim ⟨2, ![E, 1]⟩ ![0] hbE nrm))) (ix2 e j)
        = (r : EReal) := by
    intro e
    show ∃ r : ℝ, Host.gather dG H gi (ix2 e j)
        * (broadcastInDim ⟨2, ![E, C]⟩ ![0, 1] hbEC (broadcastInDim ⟨2, ![E, 1]⟩ ![0] hbE nrm)) (ix2 e j) = (r : EReal)
    rw [gather_rows_apply' hN dG hG1 hG2 hG3 hG4 hG5 hG6 hG7, bcast_cols_apply, bcast_col_apply]
    obtain ⟨x, hx⟩ := hH (ix2 (rowOf N hN (gi (ix2 e (0 : Fin 1)))) j)
    obtain ⟨y, hy⟩ := hn (ix1 e)
    exact ⟨x * y, by rw [hx, hy, EReal.coe_mul]⟩
  obtain ⟨b, hb⟩ := sum_real (Finset.univ.filter (fun e : Fin E => (si (ix2 e (0 : Fin 1))).toInt = (n.val : Int)))
    _ (fun e _ => hterm e)
  exact ⟨a + b, by rw [ha, hb, EReal.coe_add]⟩

/-! ## The shared chains -/

/-- Every degree is a real number. -/
theorem degree_real (dst : IVec S1700000 32) : ∀ i, ∃ r : ℝ, degree dst i = (r : EReal) :=
  scatter_vec_real (N := 100000) (E := 1700000) _ rfl rfl rfl rfl _ _ _
    (fun i => bcast_zero_real _ i) (fun i => bcast_one_real _ i)

/-- Every scale is a real number. -/
theorem scale_real (dst : IVec S1700000 32) : ∀ i, ∃ r : ℝ, scale dst i = (r : EReal) := fun i =>
  select_rsqrt_real (degree dst) _ _ i (degree_real dst i)
    (ofBits_zero : Ideal.ofBits .f32 0x00000000#32 = 0) (bcast_zero_real _ i)

/-- Every edge weight is a real number, whatever the index words are. -/
theorem edgeNrm_real (src dst : IVec S1700000 32) : ∀ i, ∃ r : ℝ, edgeNrm src dst i = (r : EReal) :=
  gather_mul_real (N := 100000) (E := 1700000) (by norm_num) _ rfl rfl rfl rfl rfl rfl rfl (scale dst)
    (wrapCol src) (wrapCol dst) (scale_real dst)

/-- The aggregation of real features of width 128 with real edge weights is real. -/
theorem conv128_real (h : FVec Ideal S100000x128 .f32) (src dst : IVec S1700000 32) (nrm : FVec Ideal S1700000 .f32)
    (hh : ∀ i, ∃ r : ℝ, h i = (r : EReal)) (hn : ∀ i, ∃ r : ℝ, nrm i = (r : EReal)) :
    ∀ i, ∃ r : ℝ, conv128 h src dst nrm i = (r : EReal) :=
  conv_real (N := 100000) (E := 1700000) (C := 128) (by norm_num) _ rfl rfl rfl rfl _ rfl rfl rfl rfl rfl rfl rfl
    _ _ _ h nrm _ (wrapCol src) (fun i => bcast_zero_real _ i) hh hn

/-- The aggregation of real features of width 64 with real edge weights is real. -/
theorem conv64_real (h : FVec Ideal S100000x64 .f32) (src dst : IVec S1700000 32) (nrm : FVec Ideal S1700000 .f32)
    (hh : ∀ i, ∃ r : ℝ, h i = (r : EReal)) (hn : ∀ i, ∃ r : ℝ, nrm i = (r : EReal)) :
    ∀ i, ∃ r : ℝ, conv64 h src dst nrm i = (r : EReal) :=
  conv_real (N := 100000) (E := 1700000) (C := 64) (by norm_num) _ rfl rfl rfl rfl _ rfl rfl rfl rfl rfl rfl rfl
    _ _ _ h nrm _ (wrapCol src) (fun i => bcast_zero_real _ i) hh hn

/-- The aggregation of real features of width 2 with real edge weights is real. -/
theorem conv2_real (h : FVec Ideal S100000x2 .f32) (src dst : IVec S1700000 32) (nrm : FVec Ideal S1700000 .f32)
    (hh : ∀ i, ∃ r : ℝ, h i = (r : EReal)) (hn : ∀ i, ∃ r : ℝ, nrm i = (r : EReal)) :
    ∀ i, ∃ r : ℝ, conv2 h src dst nrm i = (r : EReal) :=
  conv_real (N := 100000) (E := 1700000) (C := 2) (by norm_num) _ rfl rfl rfl rfl _ rfl rfl rfl rfl rfl rfl rfl
    _ _ _ h nrm _ (wrapCol src) (fun i => bcast_zero_real _ i) hh hn

end Cert.KernelIdeal.KVal

end
-- ==== Proof.NetEq.lean ====
/-
  On real arguments the two spellings of the whole network agree.

  The aggregation over the graph maps real matrices to real matrices: the edge weights are real whatever the index
  words are, and an aggregated entry is zero plus a finite sum of products of real features and real weights.  So
  each hidden layer, fed real data, has the same value in both spellings and that value is real; it is the real
  input of the next layer.  The last layer is the same function in both spellings.
-/
import proofs.«108922_j32160715112488_1_alg».proof.Proof.NetDefs
import proofs.«108922_j32160715112488_1_alg».proof.Proof.Bridge
import proofs.«108922_j32160715112488_1_alg».proof.Proof.KReal

noncomputable section

namespace Cert.Gcn

open Idealize.ShloMosaic Cert.KernelIdeal Cert.KernelIdeal.KVal

/-- The aggregation of a real `100000 × 128` feature matrix over the graph is real. -/
theorem convOf128_real (ei : IVec S2x1600000 32) (h : (Sh2 100000 128).Idx → EReal) (hh : AllReal h) :
    AllReal (convOf128 ei h) := by
  unfold convOf128
  exact conv128_real h _ _ _ hh (edgeNrm_real _ _)

/-- The aggregation of a real `100000 × 64` feature matrix over the graph is real. -/
theorem convOf64_real (ei : IVec S2x1600000 32) (h : (Sh2 100000 64).Idx → EReal) (hh : AllReal h) :
    AllReal (convOf64 ei h) := by
  unfold convOf64
  exact conv64_real h _ _ _ hh (edgeNrm_real _ _)

/-- The aggregation of a real `100000 × 2` feature matrix over the graph is real. -/
theorem convOf2_real (ei : IVec S2x1600000 32) (h : (Sh2 100000 2).Idx → EReal) (hh : AllReal h) :
    AllReal (convOf2 ei h) := by
  unfold convOf2
  exact conv2_real h _ _ _ hh (edgeNrm_real _ _)

/-- THE WHOLE NETWORK, TWO WAYS: on real arguments the two spellings agree. -/
theorem net_eq (x : (Sh2 100000 24).Idx → EReal) (ei : IVec Cert.KernelIdeal.S2x1600000 32)
    (W1 : (Sh2 24 128).Idx → EReal) (b1 g1 be1 : (Sh1 128).Idx → EReal)
    (W2 : (Sh2 128 128).Idx → EReal) (b2 g2 be2 : (Sh1 128).Idx → EReal)
    (W3 : (Sh2 128 64).Idx → EReal) (b3 g3 be3 : (Sh1 64).Idx → EReal)
    (W4 : (Sh2 64 2).Idx → EReal) (b4 : (Sh1 2).Idx → EReal)
    (hx : AllReal x) (hW1 : AllReal W1) (hb1 : AllReal b1) (hg1 : AllReal g1) (hbe1 : AllReal be1)
    (hW2 : AllReal W2) (hb2 : AllReal b2) (hg2 : AllReal g2) (hbe2 : AllReal be2)
    (hW3 : AllReal W3) (hb3 : AllReal b3) (hg3 : AllReal g3) (hbe3 : AllReal be3)
    (hW4 : AllReal W4) (hb4 : AllReal b4) :
    netK x ei W1 b1 g1 be1 W2 b2 g2 be2 W3 b3 g3 be3 W4 b4
      = netR x ei W1 b1 g1 be1 W2 b2 g2 be2 W3 b3 g3 be3 W4 b4 := by
  have L1 := hidden_eq (convOf128 ei) (convOf128_real ei) x W1 (rowv b1) (rowv g1) (rowv be1)
    hx hW1 (rowv_real hb1) (rowv_real hg1) (rowv_real hbe1)
  have L2 := hidden_eq (convOf128 ei) (convOf128_real ei)
    (hiddenK (convOf128 ei) x W1 (rowv b1) (rowv g1) (rowv be1)) W2 (rowv b2) (rowv g2) (rowv be2)
    L1.2 hW2 (rowv_real hb2) (rowv_real hg2) (rowv_real hbe2)
  have L3 := hidden_eq (convOf64 ei) (convOf64_real ei)
    (hiddenK (convOf128 ei) (hiddenK (convOf128 ei) x W1 (rowv b1) (rowv g1) (rowv be1))
      W2 (rowv b2) (rowv g2) (rowv be2)) W3 (rowv b3) (rowv g3) (rowv be3)
    L2.2 hW3 (rowv_real hb3) (rowv_real hg3) (rowv_real hbe3)
  unfold netK netR
  rw [L3.1, L2.1, L1.1]

end Cert.Gcn

end
-- ==== Proof.LibAllFinite.lean ====
/-
  Finiteness read back from an "all entries finite" test.

  A single-precision array x is tested for finiteness by comparing |x| with +∞, entry by entry, and
  folding the resulting truth values with "and" from the value true. Over the extended reals |x| is
  max x (-x), the word 0x7F800000 denotes +∞, and the comparison is the strict order. If the fold
  comes out true, every comparison was true, so every entry x i has max (x i) (-(x i)) < +∞; neither
  +∞ nor -∞ satisfies that, so x i is a real number.
-/
import Idealize.ShloMosaic.Lib.ReduceAll
import Idealize.ShloMosaic.PureOps
import Idealize.ShloMosaic.PureOps.Ideal

namespace Cert.LibAllFinite

open Idealize.ShloMosaic

/-- The single-precision word 0x7F800000 (sign 0, exponent all ones, fraction 0) denotes +∞. -/
theorem ofBits_inf_f32 : Ideal.ofBits .f32 0x7F800000#32 = (⊤ : EReal) := by
  simp [Ideal.ofBits, Ideal.ieee]

/-- An extended real x with max x (-x) < +∞ is a real number: at x = +∞ the maximum is +∞, and at
    x = -∞ it is -(-∞) = +∞ as well. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The strict comparison of two extended reals, as a one-bit word, is 1 exactly when x < y. -/
theorem cmp_olt_eq_one (x y : EReal) : Ideal.cmp .olt x y = 1#1 ↔ x < y := by
  unfold Ideal.cmp
  by_cases hxy : x < y <;> simp [hxy]

/-- One entry: if the test |x| < +∞ (against the word 0x7F800000) is true at an entry, that entry is real. -/
theorem real_of_entry_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32, cmp_olt_eq_one] at h'
  exact real_of_abs_lt_top x h'

/-- ALL ENTRIES FINITE. For an array x of any shape s: if the "and"-fold (a reduction over all axes,
    into a result with a single index) of the entrywise tests |x i| < +∞ is the bit 1, then every
    entry of x is a real number. The constant +∞ may be broadcast from any shape c along any axes,
    and the fold may start from any initial array. -/
theorem real_of_allFinite {s t u c : Shape} {axes : List (Fin s.rank)} [Subsingleton t.Idx]
    (x : FVec Ideal s .f32) (dims : Fin c.rank → Fin s.rank) (hb : c.BroadcastsInDim s dims)
    (init : IVec u 1) (hr : s.ReducesTo axes t) (hu : 0 < u.numel) (j : t.Idx)
    (h : Host.reduce IntOp.andi
          (cmpf .olt (Host.absf x) (broadcastInDim s dims hb (constant (F := Ideal) c .f32 0x7F800000#32)))
          init hr hu j = 1#1) :
    ∀ i, ∃ r : ℝ, x i = (r : EReal) := fun i =>
  real_of_entry_test (x i) (Host.reduce_andi_all _ init hr hu j h i)

end Cert.LibAllFinite
-- ==== Proof.Finite.lean ====
/-
  Finiteness of the fifteen float arguments, read back from the precondition.

  The precondition tests each float argument a by "all |a i| < +∞" (an "and"-fold, from the value
  true, of the entrywise strict comparisons of |a| with the word 0x7F800000 = +∞) and takes the
  conjunction ("and") of the fifteen resulting bits. If the conjunction is the bit 1, each of the
  fifteen bits is 1; and an "and"-fold that is 1 met only true comparisons, so every entry of every
  float argument satisfies max (a i) (-(a i)) < +∞ and hence is a real number.
-/
import proofs.«108922_j32160715112488_1_alg».proof.Proof.Gen.Pre_finite_inputs
import proofs.«108922_j32160715112488_1_alg».proof.Proof.LibAllFinite
import Idealize.ShloMosaic.Lib.ValueIdx

namespace Cert.Pre_finite_inputs.Fin

open Idealize.ShloMosaic Cert.Pre_finite_inputs

/-- The shape of rank 0 has a single index. -/
instance subsingleton_S_ : Subsingleton S_.Idx := ⟨fun a b => funext fun d => d.elim0⟩

/-- If the precondition holds (its one bit is 1), every entry of each of the fifteen float
    arguments is a real number. -/
theorem all_real
    (a0 : FVec Ideal S100000x24 .f32) (a1 : IVec S2x1600000 32) (a2 : FVec Ideal S24x128 .f32)
    (a3 : FVec Ideal S128 .f32) (a4 : FVec Ideal S128 .f32) (a5 : FVec Ideal S128 .f32)
    (a6 : FVec Ideal S128x128 .f32) (a7 : FVec Ideal S128 .f32) (a8 : FVec Ideal S128 .f32)
    (a9 : FVec Ideal S128 .f32) (a10 : FVec Ideal S128x64 .f32) (a11 : FVec Ideal S64 .f32)
    (a12 : FVec Ideal S64 .f32) (a13 : FVec Ideal S64 .f32) (a14 : FVec Ideal S64x2 .f32)
    (a15 : FVec Ideal S2 .f32)
    (h : Cert.Pre_finite_inputs.fn (F := Ideal) a0 a1 a2 a3 a4 a5 a6 a7 a8 a9 a10 a11 a12 a13 a14 a15
      = fun _ => 1#1) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧
    (∀ i, ∃ r : ℝ, a11 i = (r : EReal)) ∧ (∀ i, ∃ r : ℝ, a12 i = (r : EReal)) ∧
    (∀ i, ∃ r : ℝ, a13 i = (r : EReal)) ∧ (∀ i, ∃ r : ℝ, a14 i = (r : EReal)) ∧
    (∀ i, ∃ r : ℝ, a15 i = (r : EReal)) := by
  have h0 := congrFun h ValueIdx.ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩ := h0
  exact ⟨Cert.LibAllFinite.real_of_allFinite a0 _ _ _ _ _ _ h0,
    Cert.LibAllFinite.real_of_allFinite a2 _ _ _ _ _ _ h2,
    Cert.LibAllFinite.real_of_allFinite a3 _ _ _ _ _ _ h3,
    Cert.LibAllFinite.real_of_allFinite a4 _ _ _ _ _ _ h4,
    Cert.LibAllFinite.real_of_allFinite a5 _ _ _ _ _ _ h5,
    Cert.LibAllFinite.real_of_allFinite a6 _ _ _ _ _ _ h6,
    Cert.LibAllFinite.real_of_allFinite a7 _ _ _ _ _ _ h7,
    Cert.LibAllFinite.real_of_allFinite a8 _ _ _ _ _ _ h8,
    Cert.LibAllFinite.real_of_allFinite a9 _ _ _ _ _ _ h9,
    Cert.LibAllFinite.real_of_allFinite a10 _ _ _ _ _ _ h10,
    Cert.LibAllFinite.real_of_allFinite a11 _ _ _ _ _ _ h11,
    Cert.LibAllFinite.real_of_allFinite a12 _ _ _ _ _ _ h12,
    Cert.LibAllFinite.real_of_allFinite a13 _ _ _ _ _ _ h13,
    Cert.LibAllFinite.real_of_allFinite a14 _ _ _ _ _ _ h14,
    Cert.LibAllFinite.real_of_allFinite a15 _ _ _ _ _ _ h15⟩

end Cert.Pre_finite_inputs.Fin
-- ==== Proof.lean ====
/-
  The five claims of the certificate.

  The tiled program and the reference program compute one graph-convolution network: three hidden layers (a
  product with the weights, the aggregation over the graph, a bias, a cut-off at zero, and a normalisation of
  every column by its mean and variance over all rows) and a last layer ending in the logarithm of the softmax
  along each row.  Each program runs to the end leaving its sixteen arguments as launched (the three frame
  claims); the idealization of the tiled program rewrote no operation (the fourth claim is trivial).  For the
  fifth: the tiled program's result is the network with the normalisation spelt from the column sums of the
  entries and of their squares, the variance cut off below at zero; the reference's result is the network with
  the variance spelt as the mean of the squared deviations.  The precondition says every entry of the fifteen
  float arguments is finite, hence a real number; on real arguments every layer's value is real, the two
  spellings of the variance agree and the variance is not negative, so the two networks are one function, and
  from memories that agree on the arguments the two results are equal.
-/
import proofs.«108922_j32160715112488_1_alg».proof.Defs
import proofs.«108922_j32160715112488_1_alg».proof.Proof.Gen.Kernel
import proofs.«108922_j32160715112488_1_alg».proof.Proof.Gen.Kernel.Skeleton
import proofs.«108922_j32160715112488_1_alg».proof.Proof.Gen.Kernel.Launch
import proofs.«108922_j32160715112488_1_alg».proof.Proof.Gen.Kernel.Points
import proofs.«108922_j32160715112488_1_alg».proof.Proof.Gen.Kernel.Frame
import proofs.«108922_j32160715112488_1_alg».proof.Proof.Gen.KernelIdeal
import proofs.«108922_j32160715112488_1_alg».proof.Proof.Gen.KernelIdeal.Skeleton
import proofs.«108922_j32160715112488_1_alg».proof.Proof.Gen.KernelIdeal.Launch
import proofs.«108922_j32160715112488_1_alg».proof.Proof.Gen.KernelIdeal.Points
import proofs.«108922_j32160715112488_1_alg».proof.Proof.Gen.KernelIdeal.Frame
import proofs.«108922_j32160715112488_1_alg».proof.Proof.Gen.ReferenceIdeal
import proofs.«108922_j32160715112488_1_alg».proof.Proof.Gen.Pre_finite_inputs
import proofs.«108922_j32160715112488_1_alg».proof.Proof.KRun
import proofs.«108922_j32160715112488_1_alg».proof.Proof.KChain
import proofs.«108922_j32160715112488_1_alg».proof.Proof.RefRun
import proofs.«108922_j32160715112488_1_alg».proof.Proof.RefValue
import proofs.«108922_j32160715112488_1_alg».proof.Proof.NetEq
import proofs.«108922_j32160715112488_1_alg».proof.Proof.Finite
import Idealize.ShloMosaic.Adequacy
import Idealize.ShloMosaic.Init

noncomputable section

namespace Cert.Proof

open Idealize.ShloMosaic Idealize.SL.Sem

/-- The tiled program runs to the end and leaves its sixteen arguments as launched. -/
theorem frame_k : Cert.frame_Kernel := fun m ρ _ => Cert.Kernel.Gen.frame m ρ

/-- The idealized tiled program runs to the end and leaves its sixteen arguments as launched. -/
theorem frame_ki : Cert.frame_KernelIdeal := fun m ρ _ => Cert.KernelIdeal.Gen.frame m ρ

/-- The reference program runs to the end and leaves its sixteen arguments as launched: its run, with the
    statement about the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the sixteen arguments, of which the fifteen float ones are finite, both programs
    run to the end, leave their arguments as launched, and end with equal results: the tiled program's result is
    the network in the spelling from column sums, the reference's the network in the spelling from squared
    deviations, and on real arguments the two are one function. -/
theorem algebraic : Cert.algebraic_KernelIdeal_ReferenceIdeal := by
  intro m ρ m' ρ' hpre hagree
  refine ⟨fun c => Cert.Gcn.netK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.KVal.kernel_value m ρ c), (h c).2⟩)
      (Cert.KernelIdeal.KVal.run_main m ρ)
  · refine (θ_run Cert.ReferenceIdeal.defs _ _).mono (fun _ h c => ⟨(h c).1.trans ?_, (h c).2⟩)
      (Cert.ReferenceIdeal.RefRun.run (F := Ideal) m' ρ')
    refine (Cert.ReferenceIdeal.RefRun.ref_value m' ρ' c).trans ?_
    show Cert.Gcn.netR
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      = Cert.Gcn.netK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
    obtain ⟨a0, a1, a2, a3, a4, a5, a6, a7, a8, a9, a10, a11, a12, a13, a14, a15⟩ := hagree c
    rw [a0, a1, a2, a3, a4, a5, a6, a7, a8, a9, a10, a11, a12, a13, a14, a15]
    obtain ⟨r0, r2, r3, r4, r5, r6, r7, r8, r9, r10, r11, r12, r13, r14, r15⟩ :=
      Cert.Pre_finite_inputs.Fin.all_real _ _ _ _ _ _ _ _ _ _ _ _ _ _ _ _ (hpre c)
    exact (Cert.Gcn.net_eq _ _ _ _ _ _ _ _ _ _ _ _ _ _ _ _ r0 r2 r3 r4 r5 r6 r7 r8 r9 r10 r11 r12 r13 r14 r15).symm

/-- The certificate's claim: the three frames, the trivial preservation claim, and the equality of the results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
